-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v202)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v202) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x1600000 : Shape := ⟨2, ![2, 1600000]⟩
abbrev S1600000 : Shape := ⟨1, ![1600000]⟩
abbrev S100000 : Shape := ⟨1, ![100000]⟩
abbrev S100x64 : Shape := ⟨2, ![100, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S64x1 .f32) (main_arg17 : FVec F S1 .f32) (main_v63 : IVec S_ 1) (main_v67 : IVec S_ 1) : IVec S_ 1 :=
  let main_v68 : IVec S_ 1 := andi main_v63 main_v67
  let main_v69 : FVec F S64x1 .f32 := Host.absf main_arg16
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S64 .f32) (main_arg14 : FVec F S64 .f32) (main_arg15 : FVec F S64 .f32) (main_arg16 : FVec F S64x1 .f32) (main_arg17 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_v63 main_v67

def fn_part2 {F : FTy → Type} [FloatOps F] (main_arg9 : FVec F S64 .f32) (main_arg10 : FVec F S64 .f32) (main_arg11 : FVec F S64 .f32) (main_arg12 : FVec F S64x64 .f32) (main_arg13 : FVec F S64 .f32) (main_arg14 : FVec F S64 .f32) (main_arg15 : FVec F S64 .f32) (main_arg16 : FVec F S64x1 .f32) (main_arg17 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_v48 main_v49 main_v50

def fn_part1 {F : FTy → Type} [FloatOps F] (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64x64 .f32) (main_arg13 : FVec F S64 .f32) (main_arg14 : FVec F S64 .f32) (main_arg15 : FVec F S64 .f32) (main_arg16 : FVec F S64x1 .f32) (main_arg17 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x100 .f32) (main_arg1 : IVec S2x1600000 32) (main_arg2 : FVec F S1600000 .f32) (main_arg3 : IVec S100000 32) (main_arg4 : FVec F S100x64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64x64 .f32) (main_arg13 : FVec F S64 .f32) (main_arg14 : FVec F S64 .f32) (main_arg15 : FVec F S64 .f32) (main_arg16 : FVec F S64x1 .f32) (main_arg17 : FVec F S1 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100x64 .f32 := Host.absf main_arg4
  let main_cst_2 : FVec F S_ .f32 := constant S_ .f32 0x7F800000#32
  let main_v10 : FVec F S100x64 .f32 := broadcastInDim S100x64 ![] bcast_S_S100x64 main_cst_2
  let main_v11 : IVec S100x64 1 := cmpf .olt main_v9 main_v10
  let main_c_3 : IVec S_ 1 := constantI S_ 1 1#1
  let main_v12 : IVec S_ 1 := (fun x v => Host.reduce IntOp.andi x v reducesTo_S100x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x100 : Shape := ⟨2, ![100000, 100]⟩
abbrev S2x1600000 : Shape := ⟨2, ![2, 1600000]⟩
abbrev S1600000 : Shape := ⟨1, ![1600000]⟩
abbrev S100000 : Shape := ⟨1, ![100000]⟩
abbrev S100x64 : Shape := ⟨2, ![100, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S100000x64 : Shape := ⟨2, ![100000, 64]⟩
abbrev S4000x100 : Shape := ⟨2, ![4000, 100]⟩
abbrev S4000x64 : Shape := ⟨2, ![4000, 64]⟩
abbrev S1x64 : Shape := ⟨2, ![1, 64]⟩
abbrev S1600000x64 : Shape := ⟨2, ![1600000, 64]⟩
abbrev S100000x1 : Shape := ⟨2, ![100000, 1]⟩
abbrev S50000x128 : Shape := ⟨2, ![50000, 128]⟩
abbrev S1x128 : Shape := ⟨2, ![1, 128]⟩
abbrev S5000x128 : Shape := ⟨2, ![5000, 128]⟩
abbrev S128 : Shape := ⟨1, ![128]⟩
abbrev S512x64 : Shape := ⟨2, ![512, 64]⟩
abbrev S512x1 : Shape := ⟨2, ![512, 1]⟩
abbrev S1x1 : Shape := ⟨2, ![1, 1]⟩

abbrev nBuf : Space → Nat
  | .hbm => 263
  | .vmem => 63
  | .smem => 0
  | _ => 0

abbrev hbmTy0_0 (i : Nat) : BufTy := match i % 128 with
  | 0 => ⟨S100000x100, .f32⟩
  | 1 => ⟨S2x1600000, .i32⟩
  | 2 => ⟨S1600000, .f32⟩
  | 3 => ⟨S100000, .i32⟩
  | 4 => ⟨S100x64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S64x64, .f32⟩
  | 13 => ⟨S64, .f32⟩
  | 14 => ⟨S64, .f32⟩
  | 15 => ⟨S64, .f32⟩
  | 16 => ⟨S64x1, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S_, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S100000, .f32⟩
  | 33 => ⟨S_, .f32⟩
  | 34 => ⟨S100000, .f32⟩
  | 35 => ⟨S100000, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S1600000, .f32⟩
  | 57 => ⟨S100000, .f32⟩
  | 58 => ⟨S100000x64, .f32⟩
  | 59 => ⟨S100000x64, .bf16⟩
  | 60 => ⟨S1600000x1, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .bf16⟩
  | 70 => ⟨S1600000x64, .f32⟩
  | 71 => ⟨S1600000x64, .f32⟩
  | 72 => ⟨S1600000x64, .f32⟩
  | 73 => ⟨S_, .f32⟩
  | 74 => ⟨S100000x64, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S100000x64, .f32⟩
  | 84 => ⟨S100000x1, .f32⟩
  | 85 => ⟨S100000x64, .f32⟩
  | 86 => ⟨S100000x64, .f32⟩
  | 87 => ⟨S100000x64, .f32⟩
  | 88 => ⟨S50000x128, .f32⟩
  | 89 => ⟨S1x128, .f32⟩
  | 90 => ⟨S128, .f32⟩
  | 91 => ⟨S64, .f32⟩
  | 92 => ⟨S64, .f32⟩
  | 93 => ⟨S64, .f32⟩
  | 94 => ⟨S_, .f32⟩
  | 95 => ⟨S64, .f32⟩
  | 96 => ⟨S64, .f32⟩
  | 97 => ⟨S128, .f32⟩
  | 98 => ⟨S1x128, .f32⟩
  | 99 => ⟨S128, .f32⟩
  | 100 => ⟨S64, .f32⟩
  | 101 => ⟨S64, .f32⟩
  | 102 => ⟨S64, .f32⟩
  | 103 => ⟨S_, .f32⟩
  | 104 => ⟨S64, .f32⟩
  | 105 => ⟨S64, .f32⟩
  | 106 => ⟨S_, .f32⟩
  | 107 => ⟨S64, .f32⟩
  | 108 => ⟨S64, .f32⟩
  | 109 => ⟨S_, .f32⟩
  | 110 => ⟨S64, .f32⟩
  | 111 => ⟨S64, .f32⟩
  | 112 => ⟨S64, .f32⟩
  | 113 => ⟨S64, .f32⟩
  | 114 => ⟨S64, .f32⟩
  | 115 => ⟨S64, .f32⟩
  | 116 => ⟨S128, .f32⟩
  | 117 => ⟨S128, .f32⟩
  | 118 => ⟨S50000x128, .f32⟩
  | 119 => ⟨S100000x64, .f32⟩
  | 120 => ⟨S100000x64, .f32⟩
  | 121 => ⟨S100000x64, .bf16⟩
  | 122 => ⟨S1600000x1, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x100, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x64, .bf16⟩
  | 4 => ⟨S1600000x64, .f32⟩
  | 5 => ⟨S1600000x64, .f32⟩
  | 6 => ⟨S1600000x64, .f32⟩
  | 7 => ⟨S_, .f32⟩
  | 8 => ⟨S100000x64, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S100000x64, .f32⟩
  | 18 => ⟨S100000x1, .f32⟩
  | 19 => ⟨S100000x64, .f32⟩
  | 20 => ⟨S100000x64, .f32⟩
  | 21 => ⟨S100000x64, .f32⟩
  | 22 => ⟨S50000x128, .f32⟩
  | 23 => ⟨S1x128, .f32⟩
  | 24 => ⟨S128, .f32⟩
  | 25 => ⟨S64, .f32⟩
  | 26 => ⟨S64, .f32⟩
  | 27 => ⟨S64, .f32⟩
  | 28 => ⟨S_, .f32⟩
  | 29 => ⟨S64, .f32⟩
  | 30 => ⟨S64, .f32⟩
  | 31 => ⟨S128, .f32⟩
  | 32 => ⟨S1x128, .f32⟩
  | 33 => ⟨S128, .f32⟩
  | 34 => ⟨S64, .f32⟩
  | 35 => ⟨S64, .f32⟩
  | 36 => ⟨S64, .f32⟩
  | 37 => ⟨S_, .f32⟩
  | 38 => ⟨S64, .f32⟩
  | 39 => ⟨S64, .f32⟩
  | 40 => ⟨S_, .f32⟩
  | 41 => ⟨S64, .f32⟩
  | 42 => ⟨S64, .f32⟩
  | 43 => ⟨S_, .f32⟩
  | 44 => ⟨S64, .f32⟩
  | 45 => ⟨S64, .f32⟩
  | 46 => ⟨S64, .f32⟩
  | 47 => ⟨S64, .f32⟩
  | 48 => ⟨S64, .f32⟩
  | 49 => ⟨S64, .f32⟩
  | 50 => ⟨S128, .f32⟩
  | 51 => ⟨S128, .f32⟩
  | 52 => ⟨S50000x128, .f32⟩
  | 53 => ⟨S100000x64, .f32⟩
  | 54 => ⟨S100000x64, .f32⟩
  | 55 => ⟨S100000x64, .bf16⟩
  | 56 => ⟨S1600000x1, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .bf16⟩
  | 66 => ⟨S1600000x64, .f32⟩
  | 67 => ⟨S1600000x64, .f32⟩
  | 68 => ⟨S1600000x64, .f32⟩
  | 69 => ⟨S_, .f32⟩
  | 70 => ⟨S100000x64, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S100000x64, .f32⟩
  | 80 => ⟨S100000x1, .f32⟩
  | 81 => ⟨S100000x64, .f32⟩
  | 82 => ⟨S100000x64, .f32⟩
  | 83 => ⟨S100000x64, .f32⟩
  | 84 => ⟨S50000x128, .f32⟩
  | 85 => ⟨S1x128, .f32⟩
  | 86 => ⟨S128, .f32⟩
  | 87 => ⟨S64, .f32⟩
  | 88 => ⟨S64, .f32⟩
  | 89 => ⟨S64, .f32⟩
  | 90 => ⟨S_, .f32⟩
  | 91 => ⟨S64, .f32⟩
  | 92 => ⟨S64, .f32⟩
  | 93 => ⟨S128, .f32⟩
  | 94 => ⟨S1x128, .f32⟩
  | 95 => ⟨S128, .f32⟩
  | 96 => ⟨S64, .f32⟩
  | 97 => ⟨S64, .f32⟩
  | 98 => ⟨S64, .f32⟩
  | 99 => ⟨S_, .f32⟩
  | 100 => ⟨S64, .f32⟩
  | 101 => ⟨S64, .f32⟩
  | 102 => ⟨S_, .f32⟩
  | 103 => ⟨S64, .f32⟩
  | 104 => ⟨S64, .f32⟩
  | 105 => ⟨S_, .f32⟩
  | 106 => ⟨S64, .f32⟩
  | 107 => ⟨S64, .f32⟩
  | 108 => ⟨S64, .f32⟩
  | 109 => ⟨S64, .f32⟩
  | 110 => ⟨S64, .f32⟩
  | 111 => ⟨S64, .f32⟩
  | 112 => ⟨S128, .f32⟩
  | 113 => ⟨S128, .f32⟩
  | 114 => ⟨S50000x128, .f32⟩
  | 115 => ⟨S100000x64, .f32⟩
  | 116 => ⟨S_, .f32⟩
  | 117 => ⟨S512x64, .f32⟩
  | 118 => ⟨S100000x1, .i32⟩
  | 119 => ⟨S512x64, .f32⟩
  | 120 => ⟨S_, .f32⟩
  | 121 => ⟨S100000x1, .f32⟩
  | 122 => ⟨S_, .f32⟩
  | 123 => ⟨S512x1, .f32⟩
  | 124 => ⟨S100000x1, .i32⟩
  | 125 => ⟨S512x1, .f32⟩
  | 126 => ⟨S_, .f32⟩
  | 127 => ⟨S512x1, .f32⟩
  | _ => ⟨S100000x100, .f32⟩

abbrev hbmTy0_2 (i : Nat) : BufTy := match i % 128 with
  | 0 => ⟨S512x1, .f32⟩
  | 1 => ⟨S512x64, .f32⟩
  | 2 => ⟨S512x64, .f32⟩
  | 3 => ⟨S512x1, .f32⟩
  | 4 => ⟨S1x1, .f32⟩
  | 5 => ⟨S512x1, .f32⟩
  | 6 => ⟨S512x1, .f32⟩
  | _ => ⟨S100000x100, .f32⟩

abbrev hbmTy (i : Nat) : BufTy := match i / 128 with
  | 0 => hbmTy0_0 i
  | 1 => hbmTy0_1 i
  | 2 => hbmTy0_2 i
  | _ => ⟨S100000x100, .f32⟩

abbrev bufTy : (tb : Table) → Fin (tcTables nBuf tb) → BufTy
  | .hbm, ⟨i, _⟩ => hbmTy i
  | .local _ .vmem, ⟨0, _⟩ => ⟨S4000x100, .f32⟩
  | .local _ .vmem, ⟨1, _⟩ => ⟨S4000x100, .f32⟩
  | .local _ .vmem, ⟨2, _⟩ => ⟨S100x64, .f32⟩
  | .local _ .vmem, ⟨3, _⟩ => ⟨S64, .f32⟩
  | .local _ .vmem, ⟨4, _⟩ => ⟨S4000x64, .f32⟩
  | .local _ .vmem, ⟨5, _⟩ => ⟨S4000x64, .f32⟩
  | .local _ .vmem, ⟨6, _⟩ => ⟨S4000x64, .bf16⟩
  | .local _ .vmem, ⟨7, _⟩ => ⟨S4000x64, .bf16⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S128, .f32⟩
  | .local _ .vmem, ⟨19, _⟩ => ⟨S5000x128, .f32⟩
  | .local _ .vmem, ⟨20, _⟩ => ⟨S5000x128, .f32⟩
  | .local _ .vmem, ⟨21, _⟩ => ⟨S4000x64, .f32⟩
  | .local _ .vmem, ⟨22, _⟩ => ⟨S4000x64, .f32⟩
  | .local _ .vmem, ⟨23, _⟩ => ⟨S64x64, .f32⟩
  | .local _ .vmem, ⟨24, _⟩ => ⟨S64, .f32⟩
  | .local _ .vmem, ⟨25, _⟩ => ⟨S4000x64, .f32⟩
  | .local _ .vmem, ⟨26, _⟩ => ⟨S4000x64, .f32⟩
  | .local _ .vmem, ⟨27, _⟩ => ⟨S4000x64, .bf16⟩
  | .local _ .vmem, ⟨28, _⟩ => ⟨S4000x64, .bf16⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S128, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | .local _ .vmem, ⟨42, _⟩ => ⟨S4000x64, .f32⟩
  | .local _ .vmem, ⟨43, _⟩ => ⟨S4000x64, .f32⟩
  | .local _ .vmem, ⟨44, _⟩ => ⟨S64x64, .f32⟩
  | .local _ .vmem, ⟨45, _⟩ => ⟨S64, .f32⟩
  | .local _ .vmem, ⟨46, _⟩ => ⟨S4000x64, .f32⟩
  | .local _ .vmem, ⟨47, _⟩ => ⟨S4000x64, .f32⟩
  | .local _ .vmem, ⟨48, _⟩ => ⟨S4000x64, .bf16⟩
  | .local _ .vmem, ⟨49, _⟩ => ⟨S4000x64, .bf16⟩
  | .local _ .vmem, ⟨50, _⟩ => ⟨S5000x128, .f32⟩
  | .local _ .vmem, ⟨51, _⟩ => ⟨S5000x128, .f32⟩
  | .local _ .vmem, ⟨52, _⟩ => ⟨S1x128, .f32⟩
  | .local _ .vmem, ⟨53, _⟩ => ⟨S5000x128, .f32⟩
  | .local _ .vmem, ⟨54, _⟩ => ⟨S5000x128, .f32⟩
  | .local _ .vmem, ⟨55, _⟩ => ⟨S128, .f32⟩
  | .local _ .vmem, ⟨56, _⟩ => ⟨S1x128, .f32⟩
  | .local _ .vmem, ⟨57, _⟩ => ⟨S5000x128, .f32⟩
  | .local _ .vmem, ⟨58, _⟩ => ⟨S5000x128, .f32⟩
  | .local _ .vmem, ⟨59, _⟩ => ⟨S128, .f32⟩
  | .local _ .vmem, ⟨60, _⟩ => ⟨S128, .f32⟩
  | .local _ .vmem, ⟨61, _⟩ => ⟨S5000x128, .f32⟩
  | .local _ .vmem, ⟨62, _⟩ => ⟨S5000x128, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32_0 : Ref sig .tc := ⟨.hbm, 58, rfl⟩
abbrev main_v32_1 : Ref sig .tc := ⟨.hbm, 59, rfl⟩
abbrev main_v33 : Ref sig .tc := ⟨.hbm, 60, rfl⟩
abbrev main_c_6 : Ref sig .tc := ⟨.hbm, 61, rfl⟩
abbrev main_v34 : Ref sig .tc := ⟨.hbm, 62, rfl⟩
abbrev main_v35 : Ref sig .tc := ⟨.hbm, 63, rfl⟩
abbrev main_c_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_c_9 : Ref sig .tc := ⟨.hbm, 75, rfl⟩
abbrev main_v45 : Ref sig .tc := ⟨.hbm, 76, rfl⟩
abbrev main_v46 : Ref sig .tc := ⟨.hbm, 77, rfl⟩
abbrev main_c_10 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_11 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_12 : Ref sig .tc := ⟨.hbm, 103, rfl⟩
abbrev main_v70 : Ref sig .tc := ⟨.hbm, 104, rfl⟩
abbrev main_v71 : Ref sig .tc := ⟨.hbm, 105, rfl⟩
abbrev main_cst_13 : Ref sig .tc := ⟨.hbm, 106, rfl⟩
abbrev main_v72 : Ref sig .tc := ⟨.hbm, 107, rfl⟩
abbrev main_v73 : Ref sig .tc := ⟨.hbm, 108, rfl⟩
abbrev main_cst_14 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84_0 : Ref sig .tc := ⟨.hbm, 120, rfl⟩
abbrev main_v84_1 : Ref sig .tc := ⟨.hbm, 121, rfl⟩
abbrev main_v85 : Ref sig .tc := ⟨.hbm, 122, rfl⟩
abbrev main_c_15 : Ref sig .tc := ⟨.hbm, 123, rfl⟩
abbrev main_v86 : Ref sig .tc := ⟨.hbm, 124, rfl⟩
abbrev main_v87 : Ref sig .tc := ⟨.hbm, 125, rfl⟩
abbrev main_c_16 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_17 : Ref sig .tc := ⟨.hbm, 135, rfl⟩
abbrev main_v96 : Ref sig .tc := ⟨.hbm, 136, rfl⟩
abbrev main_c_18 : Ref sig .tc := ⟨.hbm, 137, rfl⟩
abbrev main_v97 : Ref sig .tc := ⟨.hbm, 138, rfl⟩
abbrev main_v98 : Ref sig .tc := ⟨.hbm, 139, rfl⟩
abbrev main_c_19 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_20 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_21 : Ref sig .tc := ⟨.hbm, 165, rfl⟩
abbrev main_v122 : Ref sig .tc := ⟨.hbm, 166, rfl⟩
abbrev main_v123 : Ref sig .tc := ⟨.hbm, 167, rfl⟩
abbrev main_cst_22 : Ref sig .tc := ⟨.hbm, 168, rfl⟩
abbrev main_v124 : Ref sig .tc := ⟨.hbm, 169, rfl⟩
abbrev main_v125 : Ref sig .tc := ⟨.hbm, 170, rfl⟩
abbrev main_cst_23 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136_0 : Ref sig .tc := ⟨.hbm, 182, rfl⟩
abbrev main_v136_1 : Ref sig .tc := ⟨.hbm, 183, rfl⟩
abbrev main_v137 : Ref sig .tc := ⟨.hbm, 184, rfl⟩
abbrev main_c_24 : Ref sig .tc := ⟨.hbm, 185, rfl⟩
abbrev main_v138 : Ref sig .tc := ⟨.hbm, 186, rfl⟩
abbrev main_v139 : Ref sig .tc := ⟨.hbm, 187, rfl⟩
abbrev main_c_25 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_cst_26 : Ref sig .tc := ⟨.hbm, 197, rfl⟩
abbrev main_v148 : Ref sig .tc := ⟨.hbm, 198, rfl⟩
abbrev main_c_27 : Ref sig .tc := ⟨.hbm, 199, rfl⟩
abbrev main_v149 : Ref sig .tc := ⟨.hbm, 200, rfl⟩
abbrev main_v150 : Ref sig .tc := ⟨.hbm, 201, rfl⟩
abbrev main_c_28 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_cst_29 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_cst_30 : Ref sig .tc := ⟨.hbm, 227, rfl⟩
abbrev main_v174 : Ref sig .tc := ⟨.hbm, 228, rfl⟩
abbrev main_v175 : Ref sig .tc := ⟨.hbm, 229, rfl⟩
abbrev main_cst_31 : Ref sig .tc := ⟨.hbm, 230, rfl⟩
abbrev main_v176 : Ref sig .tc := ⟨.hbm, 231, rfl⟩
abbrev main_v177 : Ref sig .tc := ⟨.hbm, 232, rfl⟩
abbrev main_cst_32 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_cst_33 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_cst_34 : Ref sig .tc := ⟨.hbm, 248, rfl⟩
abbrev main_v191 : Ref sig .tc := ⟨.hbm, 249, rfl⟩
abbrev main_cst_35 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_cst_36 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc4_stg4_0 : Ref sig .tc := ⟨.vmem, 27, rfl⟩
abbrev cc4_stg4_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg3_0 : Ref sig .tc := ⟨.vmem, 40, rfl⟩
abbrev cc7_stg3_1 : Ref sig .tc := ⟨.vmem, 41, rfl⟩
abbrev cc8_stg0_0 : Ref sig .tc := ⟨.vmem, 42, rfl⟩
abbrev cc8_stg0_1 : Ref sig .tc := ⟨.vmem, 43, rfl⟩
abbrev cc8_stg1_0 : Ref sig .tc := ⟨.vmem, 44, rfl⟩
abbrev cc8_stg2_0 : Ref sig .tc := ⟨.vmem, 45, rfl⟩
abbrev cc8_stg3_0 : Ref sig .tc := ⟨.vmem, 46, rfl⟩
abbrev cc8_stg3_1 : Ref sig .tc := ⟨.vmem, 47, rfl⟩
abbrev cc8_stg4_0 : Ref sig .tc := ⟨.vmem, 48, rfl⟩
abbrev cc8_stg4_1 : Ref sig .tc := ⟨.vmem, 49, rfl⟩
abbrev cc9_stg0_0 : Ref sig .tc := ⟨.vmem, 50, rfl⟩
abbrev cc9_stg0_1 : Ref sig .tc := ⟨.vmem, 51, rfl⟩
abbrev cc9_stg1_0 : Ref sig .tc := ⟨.vmem, 52, rfl⟩
abbrev cc10_stg0_0 : Ref sig .tc := ⟨.vmem, 53, rfl⟩
abbrev cc10_stg0_1 : Ref sig .tc := ⟨.vmem, 54, rfl⟩
abbrev cc10_stg1_0 : Ref sig .tc := ⟨.vmem, 55, rfl⟩
abbrev cc10_stg2_0 : Ref sig .tc := ⟨.vmem, 56, rfl⟩
abbrev cc11_stg0_0 : Ref sig .tc := ⟨.vmem, 57, rfl⟩
abbrev cc11_stg0_1 : Ref sig .tc := ⟨.vmem, 58, rfl⟩
abbrev cc11_stg1_0 : Ref sig .tc := ⟨.vmem, 59, rfl⟩
abbrev cc11_stg2_0 : Ref sig .tc := ⟨.vmem, 60, rfl⟩
abbrev cc11_stg3_0 : Ref sig .tc := ⟨.vmem, 61, rfl⟩
abbrev cc11_stg3_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem3_0 : DmaSem sig := 25
abbrev cc4_sem3_1 : DmaSem sig := 26
abbrev cc4_sem4_0 : DmaSem sig := 27
abbrev cc4_sem4_1 : DmaSem sig := 28
abbrev cc5_sem0_0 : DmaSem sig := 29
abbrev cc5_sem0_1 : DmaSem sig := 30
abbrev cc5_sem1_0 : DmaSem sig := 31
abbrev cc6_sem0_0 : DmaSem sig := 32
abbrev cc6_sem0_1 : DmaSem sig := 33
abbrev cc6_sem1_0 : DmaSem sig := 34
abbrev cc6_sem2_0 : DmaSem sig := 35
abbrev cc7_sem0_0 : DmaSem sig := 36
abbrev cc7_sem0_1 : DmaSem sig := 37
abbrev cc7_sem1_0 : DmaSem sig := 38
abbrev cc7_sem2_0 : DmaSem sig := 39
abbrev cc7_sem3_0 : DmaSem sig := 40
abbrev cc7_sem3_1 : DmaSem sig := 41
abbrev cc8_sem0_0 : DmaSem sig := 42
abbrev cc8_sem0_1 : DmaSem sig := 43
abbrev cc8_sem1_0 : DmaSem sig := 44
abbrev cc8_sem2_0 : DmaSem sig := 45
abbrev cc8_sem3_0 : DmaSem sig := 46
abbrev cc8_sem3_1 : DmaSem sig := 47
abbrev cc8_sem4_0 : DmaSem sig := 48
abbrev cc8_sem4_1 : DmaSem sig := 49
abbrev cc9_sem0_0 : DmaSem sig := 50
abbrev cc9_sem0_1 : DmaSem sig := 51
abbrev cc9_sem1_0 : DmaSem sig := 52
abbrev cc10_sem0_0 : DmaSem sig := 53
abbrev cc10_sem0_1 : DmaSem sig := 54
abbrev cc10_sem1_0 : DmaSem sig := 55
abbrev cc10_sem2_0 : DmaSem sig := 56
abbrev cc11_sem0_0 : DmaSem sig := 57
abbrev cc11_sem0_1 : DmaSem sig := 58
abbrev cc11_sem1_0 : DmaSem sig := 59
abbrev cc11_sem2_0 : DmaSem sig := 60
abbrev cc11_sem3_0 : DmaSem sig := 61
abbrev cc11_sem3_1 : DmaSem sig := 62

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4000x64 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S4000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S4000x64 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_2 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S5000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S4000x100_S4000x100_0_0 : ∀ a, (![0, 0] : Fin 2 → Nat) a + S4000x100.size a ≤ S4000x100.size a
  h_S4000x100 : 0 < S4000x100.numel
  bitsLt_bf16_f32 : FTy.bits .bf16 < FTy.bits .f32
  inb_S100x64_S100x64_0_0 : ∀ a, (![0, 0] : Fin 2 → Nat) a + S100x64.size a ≤ S100x64.size a
  h_S100x64 : 0 < S100x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S100000x64_S50000x128 : S100000x64.ShapeCasts S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S128 : S5000x128.Reduces [0] S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S128 : S1x128.ShapeCasts S128
  slices_S128_S64_0 : S128.Slices ![0] S64
  slices_S128_S64_64 : S128.Slices ![64] S64
  bcast_S_S64 : S_.BroadcastsInDim S64 (![] : Fin 0 → Fin S64.rank)
  concatenates_S64_S64_S128_d0 : Shape.Concatenates [S64, S64] S128 0
  inb_S128_S128_0 : ∀ a, (![0] : Fin 1 → Nat) a + S128.size a ≤ S128.size a
  h_S128 : 0 < S128.numel
  shapeCasts_S128_S128 : S128.ShapeCasts S128
  broadcasts_S1x128_S5000x128 : S1x128.Broadcasts S5000x128
  shapeCasts_S50000x128_S100000x64 : S50000x128.ShapeCasts S100000x64
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  bcast_S_S512x64 : S_.BroadcastsInDim S512x64 (![] : Fin 0 → Fin S512x64.rank)
  bcast_S_S100000x1 : S_.BroadcastsInDim S100000x1 (![] : Fin 0 → Fin S100000x1.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x100_S100x64_S4000x64_1_0_0_1_n_n_wf : DotDims.WF S4000x100 S100x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  scatter_S512x64_S100000x1_S100000x64_1_0_0_1_wf : ScatterDims.WF S512x64 S100000x1 S100000x64 [1] [0] [0] 1
  scatter_S512x1_S100000x1_S100000x1_1_0_0_1_wf : ScatterDims.WF S512x1 S100000x1 S100000x1 [1] [0] [0] 1
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x100.size a ≤ S100000x100.size a
  hwx0_0 : ∀ i : grid0.Coords, EltTy.bits .f32 = 32 ∨ (Rect.block (s := S100000x100) S4000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x64.size a ≤ S100x64.size a
  hwx0_1 : ∀ i : grid0.Coords, EltTy.bits .f32 = 32 ∨ (Rect.block (s := S100x64) S100x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S100000x64.size a
  hwx0_4 : ∀ i : grid0.Coords, EltTy.bits .bf16 = 32 ∨ (Rect.block (s := S100000x64) S4000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x64.size a ≤ S100000x64.size a
  hwx4_3 : ∀ i : grid4.Coords, EltTy.bits .f32 = 32 ∨ (Rect.block (s := S100000x64) S4000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x64.size a ≤ S100000x64.size a
  hwx4_4 : ∀ i : grid4.Coords, EltTy.bits .bf16 = 32 ∨ (Rect.block (s := S100000x64) S4000x64.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128.size a ≤ S128.size a
  hwx6_1 : ∀ i : grid6.Coords, EltTy.bits .f32 = 32 ∨ (Rect.block (s := S128) S128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128.size a ≤ S128.size a
  hwx7_1 : ∀ i : grid7.Coords, EltTy.bits .f32 = 32 ∨ (Rect.block (s := S128) S128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128.size a ≤ S128.size a
  hwx7_2 : ∀ i : grid7.Coords, EltTy.bits .f32 = 32 ∨ (Rect.block (s := S128) S128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x64.size a ≤ S100000x64.size a
  hwx8_0 : ∀ i : grid8.Coords, EltTy.bits .f32 = 32 ∨ (Rect.block (s := S100000x64) S4000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64.size a ≤ S64.size a
  hwx8_2 : ∀ i : grid8.Coords, EltTy.bits .f32 = 32 ∨ (Rect.block (s := S64) S64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4000x64.size a ≤ S100000x64.size a
  hwx8_3 : ∀ i : grid8.Coords, EltTy.bits .f32 = 32 ∨ (Rect.block (s := S100000x64) S4000x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S4000x64.size a ≤ S100000x64.size a
  hwx8_4 : ∀ i : grid8.Coords, EltTy.bits .bf16 = 32 ∨ (Rect.block (s := S100000x64) S4000x64.size (cc8_transform_4 i) (hinb8_4 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128.size a ≤ S128.size a
  hwx10_1 : ∀ i : grid10.Coords, EltTy.bits .f32 = 32 ∨ (Rect.block (s := S128) S128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128.size a ≤ S128.size a
  hwx11_1 : ∀ i : grid11.Coords, EltTy.bits .f32 = 32 ∨ (Rect.block (s := S128) S128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128.size a ≤ S128.size a
  hwx11_2 : ∀ i : grid11.Coords, EltTy.bits .f32 = 32 ∨ (Rect.block (s := S128) S128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x128.size a ≤ S50000x128.size a
  hwx11_3 : ∀ i : grid11.Coords, EltTy.bits .f32 = 32 ∨ (Rect.block (s := S50000x128) S5000x128.size (cc11_transform_3 i) (hinb11_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x100_S100x64_S4000x64_1_0_0_1_n_n : DotDims S4000x100 S100x64 S4000x64 where
  lhsContracting := [1]
  rhsContracting := [0]
  lhsNonContracting := [0]
  rhsNonContracting := [1]
  lhsBatch := []
  rhsBatch := []
  wf := dot_S4000x100_S100x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_arg0) S4000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S100x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32_0) S4000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32_1) S4000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v56) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S1x128.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v83) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84_0) S4000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v84_1) S4000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v108) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v109) S1x128.size cc5_transform_1 reads5_1 true true 1 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_v108) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v116) S128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v117) S1x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v108) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v132) S128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v133) S128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v134) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v135) S4000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg12) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg13) S64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v136_0) S4000x64.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v136_1) S4000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v160) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v161) S1x128.size cc9_transform_1 reads9_1 true true 1 stage9_1 sem9_1
    hrank9 hreads9_1 hinb9_1 nbuf9_1 (Memref.isWhole_whole _) hwx9_1 hstage9_1

abbrev win9 : Fin 2 → Pipeline.Window sig grid9 := fun | 0 => win9_0 | 1 => win9_1 | ⟨_ + 2, h⟩ => absurd h (Nat.not_lt.2 (Nat.le_add_left _ _))
abbrev spec9 : Fin 2 → Pipeline.WinSpec sig grid9.rank := fun w => (win9 w).toWinSpec

abbrev win10_0 : Pipeline.Window sig grid10 :=
  Pipeline.Window.ofSpec (Memref.whole main_v160) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v168) S128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v169) S1x128.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v160) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v184) S128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v185) S128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v186) S5000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S100000x100 : Shape := ⟨2, ![100000, 100]⟩
abbrev S2x1600000 : Shape := ⟨2, ![2, 1600000]⟩
abbrev S1600000 : Shape := ⟨1, ![1600000]⟩
abbrev S100000 : Shape := ⟨1, ![100000]⟩
abbrev S100x64 : Shape := ⟨2, ![100, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S100000x64 : Shape := ⟨2, ![100000, 64]⟩
abbrev S1x64 : Shape := ⟨2, ![1, 64]⟩
abbrev S1600000x64 : Shape := ⟨2, ![1600000, 64]⟩
abbrev S100000x1 : Shape := ⟨2, ![100000, 1]⟩
abbrev S512x64 : Shape := ⟨2, ![512, 64]⟩
abbrev S512x1 : Shape := ⟨2, ![512, 1]⟩
abbrev S1x1 : Shape := ⟨2, ![1, 1]⟩

abbrev nBuf : Space → Nat
  | .hbm => 311
  | .vmem => 0
  | .smem => 0
  | _ => 0

abbrev hbmTy0_0 (i : Nat) : BufTy := match i % 128 with
  | 0 => ⟨S100000x100, .f32⟩
  | 1 => ⟨S2x1600000, .i32⟩
  | 2 => ⟨S1600000, .f32⟩
  | 3 => ⟨S100000, .i32⟩
  | 4 => ⟨S100x64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S64x64, .f32⟩
  | 13 => ⟨S64, .f32⟩
  | 14 => ⟨S64, .f32⟩
  | 15 => ⟨S64, .f32⟩
  | 16 => ⟨S64x1, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S_, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S100000, .f32⟩
  | 33 => ⟨S_, .f32⟩
  | 34 => ⟨S100000, .f32⟩
  | 35 => ⟨S100000, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S1600000, .f32⟩
  | 57 => ⟨S100000, .f32⟩
  | 58 => ⟨S100000x64, .f32⟩
  | 59 => ⟨S1x64, .f32⟩
  | 60 => ⟨S100000x64, .f32⟩
  | 61 => ⟨S100000x64, .f32⟩
  | 62 => ⟨S1600000x1, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x64, .f32⟩
  | 72 => ⟨S1600000x64, .f32⟩
  | 73 => ⟨S1600000x64, .f32⟩
  | 74 => ⟨S_, .f32⟩
  | 75 => ⟨S100000x64, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S100000x64, .f32⟩
  | 85 => ⟨S100000x1, .f32⟩
  | 86 => ⟨S100000x64, .f32⟩
  | 87 => ⟨S100000x64, .f32⟩
  | 88 => ⟨S100000x64, .f32⟩
  | 89 => ⟨S_, .f32⟩
  | 90 => ⟨S64, .f32⟩
  | 91 => ⟨S_, .f32⟩
  | 92 => ⟨S64, .f32⟩
  | 93 => ⟨S64, .f32⟩
  | 94 => ⟨S_, .i32⟩
  | 95 => ⟨S_, .f32⟩
  | 96 => ⟨S64, .f32⟩
  | 97 => ⟨S1x64, .f32⟩
  | 98 => ⟨S_, .f32⟩
  | 99 => ⟨S1x64, .f32⟩
  | 100 => ⟨S1x64, .f32⟩
  | 101 => ⟨S100000x64, .f32⟩
  | 102 => ⟨S100000x64, .f32⟩
  | 103 => ⟨S100000x64, .f32⟩
  | 104 => ⟨S_, .f32⟩
  | 105 => ⟨S_, .f32⟩
  | 106 => ⟨S_, .f32⟩
  | 107 => ⟨S_, .f32⟩
  | 108 => ⟨S64, .f32⟩
  | 109 => ⟨S64, .f32⟩
  | 110 => ⟨S64, .f32⟩
  | 111 => ⟨S_, .f32⟩
  | 112 => ⟨S_, .i1⟩
  | 113 => ⟨S_, .f32⟩
  | 114 => ⟨S_, .f32⟩
  | 115 => ⟨S64, .f32⟩
  | 116 => ⟨S64, .f32⟩
  | 117 => ⟨S1x64, .f32⟩
  | 118 => ⟨S100000x64, .f32⟩
  | 119 => ⟨S100000x64, .f32⟩
  | 120 => ⟨S_, .f32⟩
  | 121 => ⟨S64, .f32⟩
  | 122 => ⟨S64, .f32⟩
  | 123 => ⟨S64, .f32⟩
  | 124 => ⟨S1x64, .f32⟩
  | 125 => ⟨S100000x64, .f32⟩
  | 126 => ⟨S100000x64, .f32⟩
  | 127 => ⟨S1x64, .f32⟩
  | _ => ⟨S100000x100, .f32⟩

abbrev hbmTy0_1 (i : Nat) : BufTy := match i % 128 with
  | 0 => ⟨S100000x64, .f32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S1600000x1, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x64, .f32⟩
  | 23 => ⟨S1600000x64, .f32⟩
  | 24 => ⟨S_, .f32⟩
  | 25 => ⟨S100000x64, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S100000x64, .f32⟩
  | 35 => ⟨S100000x1, .f32⟩
  | 36 => ⟨S100000x64, .f32⟩
  | 37 => ⟨S100000x64, .f32⟩
  | 38 => ⟨S100000x64, .f32⟩
  | 39 => ⟨S_, .f32⟩
  | 40 => ⟨S64, .f32⟩
  | 41 => ⟨S_, .f32⟩
  | 42 => ⟨S64, .f32⟩
  | 43 => ⟨S64, .f32⟩
  | 44 => ⟨S_, .i32⟩
  | 45 => ⟨S_, .f32⟩
  | 46 => ⟨S64, .f32⟩
  | 47 => ⟨S1x64, .f32⟩
  | 48 => ⟨S_, .f32⟩
  | 49 => ⟨S1x64, .f32⟩
  | 50 => ⟨S1x64, .f32⟩
  | 51 => ⟨S100000x64, .f32⟩
  | 52 => ⟨S100000x64, .f32⟩
  | 53 => ⟨S100000x64, .f32⟩
  | 54 => ⟨S_, .f32⟩
  | 55 => ⟨S_, .f32⟩
  | 56 => ⟨S_, .f32⟩
  | 57 => ⟨S_, .f32⟩
  | 58 => ⟨S64, .f32⟩
  | 59 => ⟨S64, .f32⟩
  | 60 => ⟨S64, .f32⟩
  | 61 => ⟨S_, .f32⟩
  | 62 => ⟨S_, .i1⟩
  | 63 => ⟨S_, .f32⟩
  | 64 => ⟨S_, .f32⟩
  | 65 => ⟨S64, .f32⟩
  | 66 => ⟨S64, .f32⟩
  | 67 => ⟨S1x64, .f32⟩
  | 68 => ⟨S100000x64, .f32⟩
  | 69 => ⟨S100000x64, .f32⟩
  | 70 => ⟨S_, .f32⟩
  | 71 => ⟨S64, .f32⟩
  | 72 => ⟨S64, .f32⟩
  | 73 => ⟨S64, .f32⟩
  | 74 => ⟨S1x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S1x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S1600000x1, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S1600000x64, .f32⟩
  | 101 => ⟨S1600000x64, .f32⟩
  | 102 => ⟨S_, .f32⟩
  | 103 => ⟨S100000x64, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S100000x64, .f32⟩
  | 113 => ⟨S100000x1, .f32⟩
  | 114 => ⟨S100000x64, .f32⟩
  | 115 => ⟨S100000x64, .f32⟩
  | 116 => ⟨S100000x64, .f32⟩
  | 117 => ⟨S_, .f32⟩
  | 118 => ⟨S64, .f32⟩
  | 119 => ⟨S_, .f32⟩
  | 120 => ⟨S64, .f32⟩
  | 121 => ⟨S64, .f32⟩
  | 122 => ⟨S_, .i32⟩
  | 123 => ⟨S_, .f32⟩
  | 124 => ⟨S64, .f32⟩
  | 125 => ⟨S1x64, .f32⟩
  | 126 => ⟨S_, .f32⟩
  | 127 => ⟨S1x64, .f32⟩
  | _ => ⟨S100000x100, .f32⟩

abbrev hbmTy0_2 (i : Nat) : BufTy := match i % 128 with
  | 0 => ⟨S1x64, .f32⟩
  | 1 => ⟨S100000x64, .f32⟩
  | 2 => ⟨S100000x64, .f32⟩
  | 3 => ⟨S100000x64, .f32⟩
  | 4 => ⟨S_, .f32⟩
  | 5 => ⟨S_, .f32⟩
  | 6 => ⟨S_, .f32⟩
  | 7 => ⟨S_, .f32⟩
  | 8 => ⟨S64, .f32⟩
  | 9 => ⟨S64, .f32⟩
  | 10 => ⟨S64, .f32⟩
  | 11 => ⟨S_, .f32⟩
  | 12 => ⟨S_, .i1⟩
  | 13 => ⟨S_, .f32⟩
  | 14 => ⟨S_, .f32⟩
  | 15 => ⟨S64, .f32⟩
  | 16 => ⟨S64, .f32⟩
  | 17 => ⟨S1x64, .f32⟩
  | 18 => ⟨S100000x64, .f32⟩
  | 19 => ⟨S100000x64, .f32⟩
  | 20 => ⟨S_, .f32⟩
  | 21 => ⟨S64, .f32⟩
  | 22 => ⟨S64, .f32⟩
  | 23 => ⟨S64, .f32⟩
  | 24 => ⟨S1x64, .f32⟩
  | 25 => ⟨S100000x64, .f32⟩
  | 26 => ⟨S100000x64, .f32⟩
  | 27 => ⟨S1x64, .f32⟩
  | 28 => ⟨S100000x64, .f32⟩
  | 29 => ⟨S100000x64, .f32⟩
  | 30 => ⟨S1x64, .f32⟩
  | 31 => ⟨S100000x64, .f32⟩
  | 32 => ⟨S100000x64, .f32⟩
  | 33 => ⟨S_, .f32⟩
  | 34 => ⟨S100000x64, .f32⟩
  | 35 => ⟨S100000x64, .f32⟩
  | 36 => ⟨S_, .f32⟩
  | 37 => ⟨S512x64, .f32⟩
  | 38 => ⟨S100000x1, .i32⟩
  | 39 => ⟨S512x64, .f32⟩
  | 40 => ⟨S_, .f32⟩
  | 41 => ⟨S100000x1, .f32⟩
  | 42 => ⟨S_, .f32⟩
  | 43 => ⟨S512x1, .f32⟩
  | 44 => ⟨S100000x1, .i32⟩
  | 45 => ⟨S512x1, .f32⟩
  | 46 => ⟨S_, .f32⟩
  | 47 => ⟨S512x1, .f32⟩
  | 48 => ⟨S512x1, .f32⟩
  | 49 => ⟨S512x64, .f32⟩
  | 50 => ⟨S512x64, .f32⟩
  | 51 => ⟨S512x1, .f32⟩
  | 52 => ⟨S1x1, .f32⟩
  | 53 => ⟨S512x1, .f32⟩
  | 54 => ⟨S512x1, .f32⟩
  | _ => ⟨S100000x100, .f32⟩

abbrev hbmTy (i : Nat) : BufTy := match i / 128 with
  | 0 => hbmTy0_0 i
  | 1 => hbmTy0_1 i
  | 2 => hbmTy0_2 i
  | _ => ⟨S100000x100, .f32⟩

abbrev bufTy : (tb : Table) → Fin (tcTables nBuf tb) → BufTy
  | .hbm, ⟨i, _⟩ => hbmTy i
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_6 : Ref sig .tc := ⟨.hbm, 63, rfl⟩
abbrev main_v37 : Ref sig .tc := ⟨.hbm, 64, rfl⟩
abbrev main_v38 : Ref sig .tc := ⟨.hbm, 65, rfl⟩
abbrev main_c_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_c_9 : Ref sig .tc := ⟨.hbm, 76, rfl⟩
abbrev main_v47 : Ref sig .tc := ⟨.hbm, 77, rfl⟩
abbrev main_v48 : Ref sig .tc := ⟨.hbm, 78, rfl⟩
abbrev main_c_10 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_c_13 : Ref sig .tc := ⟨.hbm, 94, rfl⟩
abbrev main_call0_cst : Ref sig .tc := ⟨.hbm, 95, rfl⟩
abbrev main_call0_v0 : Ref sig .tc := ⟨.hbm, 96, rfl⟩
abbrev main_call0_v1 : Ref sig .tc := ⟨.hbm, 97, rfl⟩
abbrev main_call0_cst_0 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_v5 : Ref sig .tc := ⟨.hbm, 102, rfl⟩
abbrev main_call0_v6 : Ref sig .tc := ⟨.hbm, 103, rfl⟩
abbrev main_call0_v7 : Ref sig .tc := ⟨.hbm, 104, rfl⟩
abbrev main_call0_cst_1 : Ref sig .tc := ⟨.hbm, 105, rfl⟩
abbrev main_call0_v8 : Ref sig .tc := ⟨.hbm, 106, rfl⟩
abbrev main_call0_cst_2 : Ref sig .tc := ⟨.hbm, 107, rfl⟩
abbrev main_call0_v9 : Ref sig .tc := ⟨.hbm, 108, rfl⟩
abbrev main_call0_v10 : Ref sig .tc := ⟨.hbm, 109, rfl⟩
abbrev main_call0_v11 : Ref sig .tc := ⟨.hbm, 110, rfl⟩
abbrev main_call0_cst_3 : Ref sig .tc := ⟨.hbm, 111, rfl⟩
abbrev main_call0_v12 : Ref sig .tc := ⟨.hbm, 112, rfl⟩
abbrev main_call0_cst_4 : Ref sig .tc := ⟨.hbm, 113, rfl⟩
abbrev main_call0_call0_v0 : Ref sig .tc := ⟨.hbm, 114, rfl⟩
abbrev main_call0_call0_v1 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_cst_14 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_call1_cst : Ref sig .tc := ⟨.hbm, 133, rfl⟩
abbrev main_call1_v0 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_c_15 : Ref sig .tc := ⟨.hbm, 141, rfl⟩
abbrev main_v83 : Ref sig .tc := ⟨.hbm, 142, rfl⟩
abbrev main_v84 : Ref sig .tc := ⟨.hbm, 143, rfl⟩
abbrev main_c_16 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_cst_17 : Ref sig .tc := ⟨.hbm, 152, rfl⟩
abbrev main_v92 : Ref sig .tc := ⟨.hbm, 153, rfl⟩
abbrev main_c_18 : Ref sig .tc := ⟨.hbm, 154, rfl⟩
abbrev main_v93 : Ref sig .tc := ⟨.hbm, 155, rfl⟩
abbrev main_v94 : Ref sig .tc := ⟨.hbm, 156, rfl⟩
abbrev main_c_19 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_20 : Ref sig .tc := ⟨.hbm, 167, rfl⟩
abbrev main_v104 : Ref sig .tc := ⟨.hbm, 168, rfl⟩
abbrev main_cst_21 : Ref sig .tc := ⟨.hbm, 169, rfl⟩
abbrev main_v105 : Ref sig .tc := ⟨.hbm, 170, rfl⟩
abbrev main_v106 : Ref sig .tc := ⟨.hbm, 171, rfl⟩
abbrev main_c_22 : Ref sig .tc := ⟨.hbm, 172, rfl⟩
abbrev main_call2_cst : Ref sig .tc := ⟨.hbm, 173, rfl⟩
abbrev main_call2_v0 : Ref sig .tc := ⟨.hbm, 174, rfl⟩
abbrev main_call2_v1 : Ref sig .tc := ⟨.hbm, 175, rfl⟩
abbrev main_call2_cst_0 : Ref sig .tc := ⟨.hbm, 176, rfl⟩
abbrev main_call2_v2 : Ref sig .tc := ⟨.hbm, 177, rfl⟩
abbrev main_call2_v3 : Ref sig .tc := ⟨.hbm, 178, rfl⟩
abbrev main_call2_v4 : Ref sig .tc := ⟨.hbm, 179, rfl⟩
abbrev main_call2_v5 : Ref sig .tc := ⟨.hbm, 180, rfl⟩
abbrev main_call2_v6 : Ref sig .tc := ⟨.hbm, 181, rfl⟩
abbrev main_call2_v7 : Ref sig .tc := ⟨.hbm, 182, rfl⟩
abbrev main_call2_cst_1 : Ref sig .tc := ⟨.hbm, 183, rfl⟩
abbrev main_call2_v8 : Ref sig .tc := ⟨.hbm, 184, rfl⟩
abbrev main_call2_cst_2 : Ref sig .tc := ⟨.hbm, 185, rfl⟩
abbrev main_call2_v9 : Ref sig .tc := ⟨.hbm, 186, rfl⟩
abbrev main_call2_v10 : Ref sig .tc := ⟨.hbm, 187, rfl⟩
abbrev main_call2_v11 : Ref sig .tc := ⟨.hbm, 188, rfl⟩
abbrev main_call2_cst_3 : Ref sig .tc := ⟨.hbm, 189, rfl⟩
abbrev main_call2_v12 : Ref sig .tc := ⟨.hbm, 190, rfl⟩
abbrev main_call2_cst_4 : Ref sig .tc := ⟨.hbm, 191, rfl⟩
abbrev main_call2_call0_v0 : Ref sig .tc := ⟨.hbm, 192, rfl⟩
abbrev main_call2_call0_v1 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_cst_23 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_call3_cst : Ref sig .tc := ⟨.hbm, 211, rfl⟩
abbrev main_call3_v0 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_c_24 : Ref sig .tc := ⟨.hbm, 219, rfl⟩
abbrev main_v129 : Ref sig .tc := ⟨.hbm, 220, rfl⟩
abbrev main_v130 : Ref sig .tc := ⟨.hbm, 221, rfl⟩
abbrev main_c_25 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_cst_26 : Ref sig .tc := ⟨.hbm, 230, rfl⟩
abbrev main_v138 : Ref sig .tc := ⟨.hbm, 231, rfl⟩
abbrev main_c_27 : Ref sig .tc := ⟨.hbm, 232, rfl⟩
abbrev main_v139 : Ref sig .tc := ⟨.hbm, 233, rfl⟩
abbrev main_v140 : Ref sig .tc := ⟨.hbm, 234, rfl⟩
abbrev main_c_28 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_cst_29 : Ref sig .tc := ⟨.hbm, 245, rfl⟩
abbrev main_v150 : Ref sig .tc := ⟨.hbm, 246, rfl⟩
abbrev main_cst_30 : Ref sig .tc := ⟨.hbm, 247, rfl⟩
abbrev main_v151 : Ref sig .tc := ⟨.hbm, 248, rfl⟩
abbrev main_v152 : Ref sig .tc := ⟨.hbm, 249, rfl⟩
abbrev main_c_31 : Ref sig .tc := ⟨.hbm, 250, rfl⟩
abbrev main_call4_cst : Ref sig .tc := ⟨.hbm, 251, rfl⟩
abbrev main_call4_v0 : Ref sig .tc := ⟨.hbm, 252, rfl⟩
abbrev main_call4_v1 : Ref sig .tc := ⟨.hbm, 253, rfl⟩
abbrev main_call4_cst_0 : Ref sig .tc := ⟨.hbm, 254, rfl⟩
abbrev main_call4_v2 : Ref sig .tc := ⟨.hbm, 255, rfl⟩
abbrev main_call4_v3 : Ref sig .tc := ⟨.hbm, 256, rfl⟩
abbrev main_call4_v4 : Ref sig .tc := ⟨.hbm, 257, rfl⟩
abbrev main_call4_v5 : Ref sig .tc := ⟨.hbm, 258, rfl⟩
abbrev main_call4_v6 : Ref sig .tc := ⟨.hbm, 259, rfl⟩
abbrev main_call4_v7 : Ref sig .tc := ⟨.hbm, 260, rfl⟩
abbrev main_call4_cst_1 : Ref sig .tc := ⟨.hbm, 261, rfl⟩
abbrev main_call4_v8 : Ref sig .tc := ⟨.hbm, 262, rfl⟩
abbrev main_call4_cst_2 : Ref sig .tc := ⟨.hbm, 263, rfl⟩
abbrev main_call4_v9 : Ref sig .tc := ⟨.hbm, 264, rfl⟩
abbrev main_call4_v10 : Ref sig .tc := ⟨.hbm, 265, rfl⟩
abbrev main_call4_v11 : Ref sig .tc := ⟨.hbm, 266, rfl⟩
abbrev main_call4_cst_3 : Ref sig .tc := ⟨.hbm, 267, rfl⟩
abbrev main_call4_v12 : Ref sig .tc := ⟨.hbm, 268, rfl⟩
abbrev main_call4_cst_4 : Ref sig .tc := ⟨.hbm, 269, rfl⟩
abbrev main_call4_call0_v0 : Ref sig .tc := ⟨.hbm, 270, rfl⟩
abbrev main_call4_call0_v1 : Ref sig .tc := ⟨.hbm, 271, rfl⟩
abbrev main_v153 : Ref sig .tc := ⟨.hbm, 272, rfl⟩
abbrev main_v154 : Ref sig .tc := ⟨.hbm, 273, rfl⟩
abbrev main_v155 : Ref sig .tc := ⟨.hbm, 274, rfl⟩
abbrev main_v156 : Ref sig .tc := ⟨.hbm, 275, rfl⟩
abbrev main_cst_32 : Ref sig .tc := ⟨.hbm, 276, rfl⟩
abbrev main_v157 : Ref sig .tc := ⟨.hbm, 277, rfl⟩
abbrev main_v158 : Ref sig .tc := ⟨.hbm, 278, rfl⟩
abbrev main_v159 : Ref sig .tc := ⟨.hbm, 279, rfl⟩
abbrev main_v160 : Ref sig .tc := ⟨.hbm, 280, rfl⟩
abbrev main_v161 : Ref sig .tc := ⟨.hbm, 281, rfl⟩
abbrev main_v162 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_v166 : Ref sig .tc := ⟨.hbm, 286, rfl⟩
abbrev main_v167 : Ref sig .tc := ⟨.hbm, 287, rfl⟩
abbrev main_v168 : Ref sig .tc := ⟨.hbm, 288, rfl⟩
abbrev main_call5_cst : Ref sig .tc := ⟨.hbm, 289, rfl⟩
abbrev main_call5_v0 : Ref sig .tc := ⟨.hbm, 290, rfl⟩
abbrev main_v169 : Ref sig .tc := ⟨.hbm, 291, rfl⟩
abbrev main_cst_33 : Ref sig .tc := ⟨.hbm, 292, rfl⟩
abbrev main_v170 : Ref sig .tc := ⟨.hbm, 293, rfl⟩
abbrev main_v171 : Ref sig .tc := ⟨.hbm, 294, rfl⟩
abbrev main_v172 : Ref sig .tc := ⟨.hbm, 295, rfl⟩
abbrev main_cst_34 : Ref sig .tc := ⟨.hbm, 296, rfl⟩
abbrev main_v173 : Ref sig .tc := ⟨.hbm, 297, rfl⟩
abbrev main_cst_35 : Ref sig .tc := ⟨.hbm, 298, rfl⟩
abbrev main_v174 : Ref sig .tc := ⟨.hbm, 299, rfl⟩
abbrev main_v175 : Ref sig .tc := ⟨.hbm, 300, rfl⟩
abbrev main_v176 : Ref sig .tc := ⟨.hbm, 301, rfl⟩
abbrev main_cst_36 : Ref sig .tc := ⟨.hbm, 302, rfl⟩
abbrev main_v177 : Ref sig .tc := ⟨.hbm, 303, rfl⟩
abbrev main_v178 : Ref sig .tc := ⟨.hbm, 304, rfl⟩
abbrev main_v179 : Ref sig .tc := ⟨.hbm, 305, rfl⟩
abbrev main_v180 : Ref sig .tc := ⟨.hbm, 306, rfl⟩
abbrev main_v181 : Ref sig .tc := ⟨.hbm, 307, rfl⟩
abbrev main_v182 : Ref sig .tc := ⟨.hbm, 308, rfl⟩
abbrev main_v183 : Ref sig .tc := ⟨.hbm, 309, rfl⟩
abbrev main_v184 : Ref sig .tc := ⟨.hbm, 310, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S512x64 : S_.BroadcastsInDim S512x64 (![] : Fin 0 → Fin S512x64.rank)
  bcast_S_S100000x1 : S_.BroadcastsInDim S100000x1 (![] : Fin 0 → Fin S100000x1.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x100_S100x64_S100000x64_1_0_0_1_n_n_wf : DotDims.WF S100000x100 S100x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512x1_S100000x1_S100000x1_1_0_0_1_wf : ScatterDims.WF S512x1 S100000x1 S100000x1 [1] [0] [0] 1
  dot_S512x64_S64x1_S512x1_1_0_0_1_n_n_wf : DotDims.WF S512x64 S64x1 S512x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x100_S100x64_S100000x64_1_0_0_1_n_n : DotDims S100000x100 S100x64 S100000x64 where
  lhsContracting := [1]
  rhsContracting := [0]
  lhsNonContracting := [0]
  rhsNonContracting := [1]
  lhsBatch := []
  rhsBatch := []
  wf := dot_S100000x100_S100x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.KernelRun.lean ====
import proofs.«133142_j1864015807124_2_alg».proof.Proof.Gen.KernelIdeal.Frame

/-!
# The idealized kernel's run, with its result named

Every weakly fair execution of the idealized kernel's `@main` (twelve pipelined regions among thirteen stretches of
host operations) terminates without a fault; in the final state the result buffer holds what the fold of the
segments leaves there — the last boundary's contents `W25` read at the result — and every argument array is as
launched. The argument is the frame's: the launch over the segments, the last thread state read against the final
state; only the final reading also keeps the result buffer.
-/

set_option maxRecDepth 16384

noncomputable section

namespace Cert.KernelIdeal.ValRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v202) = W25 m ρ c (Proc.devRef .tc main_v202)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v202 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c),
       (h c _ (mem_uc main_arg10 (by decide))).trans (W25_main_arg10 m ρ c),
       (h c _ (mem_uc main_arg11 (by decide))).trans (W25_main_arg11 m ρ c),
       (h c _ (mem_uc main_arg12 (by decide))).trans (W25_main_arg12 m ρ c),
       (h c _ (mem_uc main_arg13 (by decide))).trans (W25_main_arg13 m ρ c),
       (h c _ (mem_uc main_arg14 (by decide))).trans (W25_main_arg14 m ρ c),
       (h c _ (mem_uc main_arg15 (by decide))).trans (W25_main_arg15 m ρ c),
       (h c _ (mem_uc main_arg16 (by decide))).trans (W25_main_arg16 m ρ c),
       (h c _ (mem_uc main_arg17 (by decide))).trans (W25_main_arg17 m ρ c)⟩)

end Cert.KernelIdeal.ValRun

end
-- ==== Proof.Stages.lean ====
import proofs.«133142_j1864015807124_2_alg».proof.ReferenceIdeal
import proofs.«133142_j1864015807124_2_alg».proof.Proof.Gen.ReferenceIdeal
import Idealize.ShloMosaic.PureOps.Ideal

/-!
# The host chains both programs share, as functions

Both programs normalise the edge indices, compute the symmetric degree normalisation, gather and scatter-add the
messages of each layer, and pool per graph in the same way: the same host operations on the same operands. Each
chain is named here once, at the extended reals, as the composition of those operations, so that a proof about
either program states its buffers through these functions and never opens them.
-/

noncomputable section

namespace Cert.Stages

open Idealize.ShloMosaic Cert.ReferenceIdeal Cert.ReferenceIdeal.Facts₀

/-- Row `0` (sources) or row `1` (targets) of the edge list, as a flat vector of edge endpoints. -/
def srcOf (ei : IVec S2x1600000 32) : IVec S1600000 32 :=
  shapeCast S1600000 (extractStridedSlice S1x1600000 ![0, 0] ei slices_S2x1600000_S1x1600000_0_0) shapeCasts_S1x1600000_S1600000
def dstOf (ei : IVec S2x1600000 32) : IVec S1600000 32 :=
  shapeCast S1600000 (extractStridedSlice S1x1600000 ![1, 0] ei slices_S2x1600000_S1x1600000_1_0) shapeCasts_S1x1600000_S1600000

/-- An endpoint vector as a column of start indices: a negative endpoint `e` counts from the end (`e + 100000`). -/
def nidx (e : IVec S1600000 32) : IVec S1600000x1 32 :=
  broadcastInDim S1600000x1 ![0] bcast_S1600000_S1600000x1_0
    (select (cmpi .slt e (broadcastInDim S1600000 ![] bcast_S_S1600000 (constantI S_ 32 0#32)))
      (addi e (broadcastInDim S1600000 ![] bcast_S_S1600000 (constantI S_ 32 100000#32))) e)

/-- `deg^(-1/2)`: the weighted in-degree of every node plus one (the self loop), under the reciprocal square root. -/
def dinvOf (dst : IVec S1600000 32) (ew : FVec Ideal S1600000 .f32) : FVec Ideal S100000 .f32 :=
  Host.rsqrt (addf
    (Host.scatterAdd scatter_S100000_S1600000x1_S1600000_n_0_0_1
      (broadcastInDim S100000 ![] bcast_S_S100000 (constant S_ .f32 0x00000000#32)) (nidx dst) ew)
    (broadcastInDim S100000 ![] bcast_S_S100000 (constant S_ .f32 0x3F800000#32)))

/-- The edge coefficient `w · dinv[src] · dinv[dst]`. -/
def normOf (src dst : IVec S1600000 32) (ew : FVec Ideal S1600000 .f32) : FVec Ideal S1600000 .f32 :=
  mulf (mulf ew (Host.gather gather_S100000_S1600000x1_S1600000_n_0_n_n_0_1_1 (dinvOf dst ew) (nidx src)))
    (Host.gather gather_S100000_S1600000x1_S1600000_n_0_n_n_0_1_1 (dinvOf dst ew) (nidx dst))

/-- The self-loop coefficient `dinv²`. -/
def selfOf (dst : IVec S1600000 32) (ew : FVec Ideal S1600000 .f32) : FVec Ideal S100000 .f32 :=
  mulf (dinvOf dst ew) (dinvOf dst ew)

/-- A bias row added to every row of a `[100000, 64]` matrix. -/
def biasRows (b : FVec Ideal S64 .f32) : FVec Ideal S100000x64 .f32 :=
  broadcastInDim S100000x64 ![0, 1] bcast_S1x64_S100000x64_0_1 (broadcastInDim S1x64 ![1] bcast_S64_S1x64_1 b)

/-- The first layer's linear map `x · w + b`, `x : [100000, 100]`. -/
def lin0Of (x : FVec Ideal S100000x100 .f32) (w : FVec Ideal S100x64 .f32) (b : FVec Ideal S64 .f32) : FVec Ideal S100000x64 .f32 :=
  addf (Host.dotGeneral dot_S100000x100_S100x64_S100000x64_1_0_0_1_n_n none x w) (biasRows b)

/-- A later layer's linear map `h · w + b`, `h : [100000, 64]`. -/
def linOf (h : FVec Ideal S100000x64 .f32) (w : FVec Ideal S64x64 .f32) (b : FVec Ideal S64 .f32) : FVec Ideal S100000x64 .f32 :=
  addf (Host.dotGeneral dot_S100000x64_S64x64_S100000x64_1_0_0_1_n_n none h w) (biasRows b)

/-- The messages scatter-added at their targets, from the rows `G` gathered at the sources (one row per edge),
    plus the self-loop term `H · dinv²`. -/
def aggFrom (G : FVec Ideal S1600000x64 .f32) (H : FVec Ideal S100000x64 .f32) (nrm : FVec Ideal S1600000 .f32) (sc : FVec Ideal S100000 .f32)
    (dst : IVec S1600000 32) : FVec Ideal S100000x64 .f32 :=
  addf
    (Host.scatterAdd scatter_S100000x64_S1600000x1_S1600000x64_1_0_0_1
      (broadcastInDim S100000x64 ![] bcast_S_S100000x64 (constant S_ .f32 0x00000000#32)) (nidx dst)
      (mulf (broadcastInDim S1600000x64 ![0, 1] bcast_S1600000x1_S1600000x64_0_1
              (broadcastInDim S1600000x1 ![0] bcast_S1600000_S1600000x1_0 nrm)) G))
    (mulf H (broadcastInDim S100000x64 ![0, 1] bcast_S100000x1_S100000x64_0_1
              (broadcastInDim S100000x1 ![0] bcast_S100000_S100000x1_0 sc)))

/-- One layer's aggregation of the transformed features `H`. -/
def aggOf (H : FVec Ideal S100000x64 .f32) (nrm : FVec Ideal S1600000 .f32) (sc : FVec Ideal S100000 .f32)
    (src dst : IVec S1600000 32) : FVec Ideal S100000x64 .f32 :=
  aggFrom (Host.gather gather_S100000x64_S1600000x1_S1600000x64_1_0_n_n_0_1_164 H (nidx src)) H nrm sc dst

/-- Mean pooling per graph and the final projection: per-graph sums of the rows over per-graph counts (at least one),
    times the output weights, plus the output bias. -/
def poolOf (h : FVec Ideal S100000x64 .f32) (batch : IVec S100000 32) (ow : FVec Ideal S64x1 .f32) (ob : FVec Ideal S1 .f32) :
    FVec Ideal S512x1 .f32 :=
  addf
    (Host.dotGeneral dot_S512x64_S64x1_S512x1_1_0_0_1_n_n none
      (Host.divf
        (Host.scatterAdd scatter_S512x64_S100000x1_S100000x64_1_0_0_1
          (broadcastInDim S512x64 ![] bcast_S_S512x64 (constant S_ .f32 0x00000000#32))
          (broadcastInDim S100000x1 ![0] bcast_S100000_S100000x1_0 batch) h)
        (broadcastInDim S512x64 ![0, 1] bcast_S512x1_S512x64_0_1
          (maximumf
            (Host.scatterAdd scatter_S512x1_S100000x1_S100000x1_1_0_0_1
              (broadcastInDim S512x1 ![] bcast_S_S512x1 (constant S_ .f32 0x00000000#32))
              (broadcastInDim S100000x1 ![0] bcast_S100000_S100000x1_0 batch)
              (broadcastInDim S100000x1 ![] bcast_S_S100000x1 (constant S_ .f32 0x3F800000#32)))
            (broadcastInDim S512x1 ![] bcast_S_S512x1 (constant S_ .f32 0x3F800000#32)))))
      ow)
    (broadcastInDim S512x1 ![0, 1] bcast_S1x1_S512x1_0_1 (broadcastInDim S1x1 ![1] bcast_S1_S1x1_1 ob))

end Cert.Stages

end
-- ==== Proof.LibEReal.lean ====
/-
  General lemmas on finite sums and on the extended reals, with no program in sight.

  * `sum_blocks`: a sum over `T · B` indices is the sum over `T` blocks of the sums over the `B` indices of each
    block (index `t · B + r`).
  * `IsReal`: an extended real that is a real number; sums, products, differences, the rectifier `max · 0`, finite
    sums, a quotient by a nonzero real (the ideal float division) and the ideal inverse square root of a positive
    real keep it.  `coe_sum`: the coercion of a finite sum of reals is the sum of the coercions.
  * `var_real`: for finitely many reals and `N` their number, the mean of the squares minus the square of the mean
    is the mean of the squared deviations from the mean — the identity between the two ways a batch normalization
    takes a variance.
-/
import Idealize.ShloMosaic.PureOps.Ideal

noncomputable section

namespace Cert.Spec

open Idealize.ShloMosaic

/-! ## Blocks of rows -/

/-- Row `r` of block `t` among `T` blocks of `B` rows: row `t · B + r`. -/
def blockIdx {T B n : ℕ} (h : T * B = n) (t : Fin T) (r : Fin B) : Fin n :=
  ⟨t.val * B + r.val, by
    have ht := t.isLt
    have hr := r.isLt
    calc t.val * B + r.val < t.val * B + B := by omega
      _ = (t.val + 1) * B := by ring
      _ ≤ T * B := Nat.mul_le_mul_right B ht
      _ = n := h⟩

@[simp] theorem blockIdx_val {T B n : ℕ} (h : T * B = n) (t : Fin T) (r : Fin B) :
    (blockIdx h t r).val = t.val * B + r.val := rfl

/-- A sum over all rows, block by block. -/
theorem sum_blocks {M : Type*} [AddCommMonoid M] {T B n : ℕ} (h : T * B = n) (f : Fin n → M) :
    ∑ i : Fin n, f i = ∑ t : Fin T, ∑ r : Fin B, f (blockIdx h t r) := by
  subst h
  rw [← Fintype.sum_prod_type' (f := fun t r => f (blockIdx rfl t r))]
  refine (Fintype.sum_equiv finProdFinEquiv _ _ fun x => ?_).symm
  congr 1
  apply Fin.ext
  rw [finProdFinEquiv_apply_val, blockIdx_val]
  ring

/-! ## Finite extended reals -/

/-- An extended real that is a real number. -/
def IsReal (x : EReal) : Prop := ∃ a : ℝ, x = (a : EReal)

theorem IsReal.coe (a : ℝ) : IsReal (a : EReal) := ⟨a, rfl⟩
theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max_zero {x : EReal} (hx : IsReal x) : IsReal (max x 0) := by
  obtain ⟨a, rfl⟩ := hx
  refine ⟨max a 0, ?_⟩
  rcases le_total a 0 with h | h
  · rw [max_eq_right h, max_eq_right (EReal.coe_nonpos.mpr h), EReal.coe_zero]
  · rw [max_eq_left h, max_eq_left (EReal.coe_nonneg.mpr h)]

/-- The coercion of a finite sum of reals is the sum of the coercions. -/
theorem coe_sum {ι : Type*} (s : Finset ι) (g : ι → ℝ) :
    ((∑ i ∈ s, g i : ℝ) : EReal) = ∑ i ∈ s, (g i : EReal) := by
  classical
  refine Finset.induction_on s (by simp) ?_
  intro a s ha ih
  rw [Finset.sum_insert ha, Finset.sum_insert ha, EReal.coe_add, ih]

theorem IsReal.sum {ι : Type*} (s : Finset ι) (f : ι → EReal) (h : ∀ i, IsReal (f i)) : IsReal (∑ i ∈ s, f i) := by
  choose g hg using h
  refine ⟨∑ i ∈ s, g i, ?_⟩
  rw [coe_sum]
  exact Finset.sum_congr rfl fun i _ => hg i

/-- A quotient by a nonzero real is the product with its reciprocal. -/
theorem div_real (x : EReal) {N : ℝ} (hN : N ≠ 0) : Ideal.div x (N : EReal) = x * ((1 / N : ℝ) : EReal) :=
  Ideal.div_coe hN x

theorem IsReal.div_real {x : EReal} (hx : IsReal x) {N : ℝ} (hN : N ≠ 0) : IsReal (Ideal.div x (N : EReal)) := by
  rw [Cert.Spec.div_real x hN]; exact hx.mul (IsReal.coe _)

/-- The inverse square root of a positive real is a real. -/
theorem rsqrt_pos {a : ℝ} (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

/-! ## The two variances -/

/-- Over the reals: the mean of the squares minus the square of the mean is the mean of the squared deviations. -/
theorem var_real {ι : Type*} [Fintype ι] (g : ι → ℝ) (N : ℝ) (hN : N ≠ 0) (hcard : (Fintype.card ι : ℝ) = N) :
    (∑ r, g r * g r) * (1 / N) - ((∑ r, g r) * (1 / N)) * ((∑ r, g r) * (1 / N))
      = (∑ r, (g r - (∑ r, g r) * (1 / N)) * (g r - (∑ r, g r) * (1 / N))) * (1 / N) := by
  have key : ∀ μ : ℝ, ∑ r, (g r - μ) * (g r - μ) = (∑ r, g r * g r) - 2 * μ * (∑ r, g r) + N * (μ * μ) := by
    intro μ
    have e : ∀ r, (g r - μ) * (g r - μ) = g r * g r - 2 * μ * g r + μ * μ := fun r => by ring
    simp only [e, Finset.sum_add_distrib, Finset.sum_sub_distrib, ← Finset.mul_sum, Finset.sum_const, Finset.card_univ,
      nsmul_eq_mul, hcard]
    ring
  rw [key]
  field_simp
  ring

end Cert.Spec

end
-- ==== Proof.LibBlockSum.lean ====
/-
  A sum over an index range cut into consecutive blocks of equal length is the sum of the blocks' sums.
  Stated over any additive commutative monoid: only commutativity and associativity of addition are
  used, so it holds on the extended reals with no finiteness assumption.
-/
import Mathlib.Algebra.BigOperators.Fin
import Mathlib.Algebra.BigOperators.Intervals

namespace Cert.LibBlockSum

open Finset

variable {M : Type*} [AddCommMonoid M]

/-- The first `n * b` terms, taken `b` at a time: block `s` holds the terms `b * s, …, b * s + b - 1`. -/
theorem sum_range_blocks (g : ℕ → M) (b : ℕ) :
    ∀ n : ℕ, ∑ k ∈ range (n * b), g k = ∑ s ∈ range n, ∑ j ∈ range b, g (b * s + j)
  | 0 => by simp
  | n + 1 => by
    rw [Nat.succ_mul, sum_range_add, sum_range_blocks g b n, sum_range_succ, Nat.mul_comm n b]

/-- The same with both the whole range and each block indexed by `Fin`. -/
theorem sum_fin_blocks (g : ℕ → M) (n b : ℕ) :
    ∑ k : Fin (n * b), g k.val = ∑ s ∈ range n, ∑ j : Fin b, g (b * s + j.val) := by
  rw [Fin.sum_univ_eq_sum_range g (n * b), sum_range_blocks g b n]
  exact sum_congr rfl fun s _ => (Fin.sum_univ_eq_sum_range (fun j => g (b * s + j)) b).symm

end Cert.LibBlockSum
-- ==== Proof.LibBnTwoPass.lean ====
/-
  Training-mode batch normalisation followed by the rectifier, on the extended reals, with no program in sight.

  A column of values x_k (arbitrary extended reals, k over a finite index type) is normalised with its mean
  μ = (∑ x_k) / N and the mean of its squared deviations v = (∑ (x_k - μ)²) / N (N a positive real), scaled by a
  real g, shifted by a real β and rectified.  Two arrangements of that computation are compared:

  * the two-step one:      max (((x_i - μ) · rsqrt (v + e)) · g + β) 0 ;
  * the folded one:        max (x_i · s + (β - μ · s)) 0   with   s = g · rsqrt (max v 0 + e).

  They agree for every column, finite or not.  A square is nonnegative on the extended reals (⊥ · ⊥ = ⊤), so
  v ≥ 0 and max v 0 = v.  If every x_k is a real number then so are μ, v and rsqrt (v + e) (v + e > 0), and the
  two sides differ by a ring identity over ℝ.  Otherwise some x_k is ±∞, its deviation x_k - μ is ±∞ whatever μ
  is, its square is ⊤, the sum of the (nonnegative) squares is ⊤, so v = ⊤, v + e = ⊤ and rsqrt ⊤ = 0: both
  sides are max β 0.

  Also here: a sum over 2·H consecutive indices split into its even and odd halves, its form for a row-major
  [2·H, C] matrix viewed as [H, 2·C] (the lane-dense view), and the split of a sum into consecutive blocks.
-/
import Idealize.ShloMosaic.PureOps.Ideal
import proofs.«133142_j1864015807124_2_alg».proof.Proof.LibEReal
import proofs.«133142_j1864015807124_2_alg».proof.Proof.LibBlockSum

noncomputable section

namespace Cert.LibBnTwoPass

open Idealize.ShloMosaic Cert.Spec

/-! ## Infinite values -/

/-- An extended real is a real number, or it is ⊤ or ⊥. -/
theorem isReal_or_infinite (x : EReal) : IsReal x ∨ (x = ⊤ ∨ x = ⊥) := by
  induction x using EReal.rec with
  | bot => exact .inr (.inr rfl)
  | coe r => exact .inl ⟨r, rfl⟩
  | top => exact .inr (.inl rfl)

/-- A square is nonnegative on the extended reals: ⊥ · ⊥ = ⊤ · ⊤ = ⊤. -/
theorem mul_self_nonneg (x : EReal) : 0 ≤ x * x := by
  rcases le_total 0 x with h | h
  · exact EReal.mul_nonneg h h
  · exact EReal.mul_nonneg_iff.mpr (.inr ⟨h, h⟩)

/-- An infinite value minus anything is infinite: ⊥ - y = ⊥, ⊤ - y = ⊤ unless y = ⊤, and ⊤ - ⊤ = ⊥. -/
theorem infinite_sub {x : EReal} (hx : x = ⊤ ∨ x = ⊥) (y : EReal) : x - y = ⊤ ∨ x - y = ⊥ := by
  rcases hx with rfl | rfl
  · induction y using EReal.rec with
    | bot => exact .inl EReal.top_sub_bot
    | coe r => exact .inl (EReal.top_sub_coe r)
    | top => exact .inr (EReal.sub_top ⊤)
  · exact .inr (EReal.bot_sub y)

/-- The square of an infinite value is ⊤. -/
theorem infinite_mul_self {x : EReal} (hx : x = ⊤ ∨ x = ⊥) : x * x = ⊤ := by
  rcases hx with rfl | rfl
  · exact EReal.top_mul_top
  · exact EReal.bot_mul_bot

/-- A finite sum of nonnegative extended reals one of which is ⊤ is ⊤. -/
theorem sum_eq_top {ι : Type*} (s : Finset ι) (f : ι → EReal) (h0 : ∀ k ∈ s, 0 ≤ f k) {k₀ : ι} (hk : k₀ ∈ s)
    (ht : f k₀ = ⊤) : ∑ k ∈ s, f k = ⊤ := by
  apply top_le_iff.mp
  rw [← ht]
  exact Finset.single_le_sum h0 hk

/-! ## The variance is nonnegative -/

/-- The mean of squares (a sum of squares divided by a positive real) is nonnegative, whatever the values. -/
theorem div_sum_sq_nonneg {ι : Type*} [Fintype ι] (d : ι → EReal) {N : ℝ} (hN : 0 < N) :
    0 ≤ Ideal.div (∑ k, d k * d k) (N : EReal) := by
  rw [div_real _ hN.ne']
  exact EReal.mul_nonneg (Finset.sum_nonneg fun k _ => mul_self_nonneg (d k))
    (EReal.coe_nonneg.mpr (one_div_pos.mpr hN).le)

/-- Clamping the mean of squares at zero changes nothing. -/
theorem max_div_sum_sq {ι : Type*} [Fintype ι] (d : ι → EReal) {N : ℝ} (hN : 0 < N) :
    max (Ideal.div (∑ k, d k * d k) (N : EReal)) 0 = Ideal.div (∑ k, d k * d k) (N : EReal) :=
  max_eq_left (div_sum_sq_nonneg d hN)

/-- If some value is infinite, the mean of the squared deviations from ANY centre is ⊤. -/
theorem div_sum_sq_dev_eq_top {ι : Type*} [Fintype ι] (x : ι → EReal) (μ : EReal) {N : ℝ} (hN : 0 < N) {k₀ : ι}
    (hk : x k₀ = ⊤ ∨ x k₀ = ⊥) : Ideal.div (∑ k, (x k - μ) * (x k - μ)) (N : EReal) = ⊤ := by
  have hS : ∑ k, (x k - μ) * (x k - μ) = ⊤ :=
    sum_eq_top Finset.univ (fun k => (x k - μ) * (x k - μ)) (fun k _ => mul_self_nonneg _) (Finset.mem_univ k₀)
      (infinite_mul_self (infinite_sub hk μ))
  rw [div_real _ hN.ne', hS]
  exact EReal.top_mul_coe_of_pos (one_div_pos.mpr hN)

/-! ## The two arrangements of a batch normalisation, one column -/

/-- THE COLUMN THEOREM.  For a column x of arbitrary extended reals, μ its mean and v the mean of its squared
    deviations (both divided by the positive real N), a positive real e and real scale g and shift β:
    max (x_i · (g · rsqrt (max v 0 + e)) + (β - μ · (g · rsqrt (max v 0 + e)))) 0
      = max (((x_i - μ) · rsqrt (v + e)) · g + β) 0. -/
theorem bn_fold_col {ι : Type*} [Fintype ι] (x : ι → EReal) {N e : ℝ} (hN : 0 < N) (he : 0 < e)
    {g β : EReal} (hg : IsReal g) (hβ : IsReal β) (μ v : EReal)
    (hμ : μ = Ideal.div (∑ k, x k) (N : EReal))
    (hv : v = Ideal.div (∑ k, (x k - μ) * (x k - μ)) (N : EReal)) (i : ι) :
    max (x i * (g * Ideal.rsqrt (max v 0 + (e : EReal))) + (β - μ * (g * Ideal.rsqrt (max v 0 + (e : EReal))))) 0
      = max (((x i - μ) * Ideal.rsqrt (v + (e : EReal))) * g + β) 0 := by
  have hv0 : 0 ≤ v := hv ▸ div_sum_sq_nonneg (fun k => x k - μ) hN
  rw [max_eq_left hv0]
  obtain ⟨γ, rfl⟩ := hg
  obtain ⟨b, rfl⟩ := hβ
  by_cases hall : ∀ k, IsReal (x k)
  · -- every value is a real number: a ring identity over ℝ
    have hμR : IsReal μ := hμ ▸ (IsReal.sum Finset.univ x hall).div_real hN.ne'
    have hvR : IsReal v :=
      hv ▸ (IsReal.sum Finset.univ _ fun k => ((hall k).sub hμR).mul ((hall k).sub hμR)).div_real hN.ne'
    obtain ⟨y, hy⟩ := hall i
    obtain ⟨m, rfl⟩ := hμR
    obtain ⟨w, rfl⟩ := hvR
    have hw : 0 ≤ w := EReal.coe_nonneg.mp hv0
    rw [hy, ← EReal.coe_add, rsqrt_pos (by linarith : 0 < w + e)]
    simp only [← EReal.coe_mul, ← EReal.coe_sub, ← EReal.coe_add]
    congr 2
    ring
  · -- some value is infinite: v = ⊤, the inverse square root is 0, both sides are max β 0
    obtain ⟨k₀, hk₀⟩ := not_forall.mp hall
    have hk : x k₀ = ⊤ ∨ x k₀ = ⊥ := (isReal_or_infinite (x k₀)).resolve_left hk₀
    have hvT : v = ⊤ := hv ▸ div_sum_sq_dev_eq_top x μ hN hk
    rw [hvT, EReal.top_add_coe, Ideal.rsqrt_top]
    simp only [mul_zero, zero_mul, zero_add, sub_zero]

/-! ## The same, for a matrix: every column at once -/

/-- The mean of column j of a matrix of extended reals: the column's sum divided by the real N. -/
def colMean {ι κ : Type*} [Fintype ι] (a : ι → κ → EReal) (N : ℝ) (j : κ) : EReal :=
  Ideal.div (∑ k, a k j) (N : EReal)

/-- The mean of the squared deviations of column j from its mean. -/
def colVar {ι κ : Type*} [Fintype ι] (a : ι → κ → EReal) (N : ℝ) (j : κ) : EReal :=
  Ideal.div (∑ k, (a k j - colMean a N j) * (a k j - colMean a N j)) (N : EReal)

/-- THE MATRIX THEOREM.  For a matrix a of arbitrary extended reals, real per-column scales g and shifts β, a positive
    real N and a positive real e: the folded arrangement (scale s_j = g_j · rsqrt (max var_j 0 + e), shift
    β_j - mean_j · s_j) and the two-step arrangement of the normalisation agree at every entry. -/
theorem bn_fold {ι κ : Type*} [Fintype ι] (a : ι → κ → EReal) (g β : κ → EReal) (hg : ∀ j, IsReal (g j))
    (hβ : ∀ j, IsReal (β j)) {N e : ℝ} (hN : 0 < N) (he : 0 < e) (i : ι) (j : κ) :
    max (a i j * (g j * Ideal.rsqrt (max (colVar a N j) 0 + (e : EReal)))
        + (β j - colMean a N j * (g j * Ideal.rsqrt (max (colVar a N j) 0 + (e : EReal))))) 0
      = max (((a i j - colMean a N j) * Ideal.rsqrt (colVar a N j + (e : EReal))) * g j + β j) 0 :=
  bn_fold_col (fun k => a k j) hN he (hg j) (hβ j) _ _ rfl rfl i

/-! ## Even and odd rows; the lane-dense view; consecutive blocks -/

section Sums

variable {M : Type*} [AddCommMonoid M]

/-- A sum over 2·H consecutive indices is the sum of its even-indexed terms plus the sum of its odd-indexed terms. -/
theorem sum_even_odd {H : ℕ} (f : Fin (2 * H) → M) :
    ∑ i, f i = (∑ r : Fin H, f ⟨2 * r.val, by have := r.isLt; omega⟩)
      + ∑ r : Fin H, f ⟨2 * r.val + 1, by have := r.isLt; omega⟩ := by
  rw [sum_blocks (Nat.mul_comm H 2) f]
  simp only [Fin.sum_univ_two]
  rw [Finset.sum_add_distrib]
  congr 1 <;> refine Finset.sum_congr rfl fun r _ => congrArg f (Fin.ext ?_)
  · simp only [blockIdx_val, Fin.val_zero]; omega
  · simp only [blockIdx_val, Fin.val_one]; omega

/-- The same, with the two halves given as functions of the pair index r and matched to f by the VALUE of the
    index: fe r is the term of index 2·r, fo r the term of index 2·r + 1. -/
theorem sum_even_odd' {H : ℕ} (f : Fin (2 * H) → M) (fe fo : Fin H → M)
    (he : ∀ (r : Fin H) (i : Fin (2 * H)), i.val = 2 * r.val → fe r = f i)
    (ho : ∀ (r : Fin H) (i : Fin (2 * H)), i.val = 2 * r.val + 1 → fo r = f i) :
    ∑ i, f i = (∑ r, fe r) + ∑ r, fo r := by
  rw [sum_even_odd f]
  congr 1 <;> refine Finset.sum_congr rfl fun r _ => ?_
  · exact (he r _ rfl).symm
  · exact (ho r _ rfl).symm

/-- The lane-dense view.  A [2·H, C] matrix h read row-major as an [H, 2·C] matrix a2 — entry (r, q) of a2 is entry
    (2·r + q / C, q % C) of h — has, for each column j < C of h, its column sum split over the two columns j and
    C + j of a2:  (∑_r a2 r j) + (∑_r a2 r (C + j)) = ∑_i h i j.  The view and the two columns are matched by the
    VALUES of the indices. -/
theorem sum_lane_dense {H C : ℕ} (h : Fin (2 * H) → Fin C → M) (a2 : Fin H → Fin (2 * C) → M)
    (hview : ∀ (r : Fin H) (q : Fin (2 * C)) (i : Fin (2 * H)) (j : Fin C),
      i.val = 2 * r.val + q.val / C → j.val = q.val % C → a2 r q = h i j)
    (j : Fin C) (q0 q1 : Fin (2 * C)) (hq0 : q0.val = j.val) (hq1 : q1.val = C + j.val) :
    (∑ r, a2 r q0) + (∑ r, a2 r q1) = ∑ i, h i j := by
  have hj := j.isLt
  have hC : 0 < C := by omega
  have d0 : j.val / C = 0 := Nat.div_eq_of_lt hj
  have m0 : j.val % C = j.val := Nat.mod_eq_of_lt hj
  have d1 : (C + j.val) / C = 1 := by rw [Nat.add_div_left _ hC, d0]
  have m1 : (C + j.val) % C = j.val := by rw [Nat.add_mod_left, m0]
  refine (sum_even_odd' (fun i => h i j) (fun r => a2 r q0) (fun r => a2 r q1) ?_ ?_).symm
  · intro r i hi
    exact hview r q0 i j (by rw [hq0, d0]; omega) (by rw [hq0, m0])
  · intro r i hi
    exact hview r q1 i j (by rw [hq1, d1]; omega) (by rw [hq1, m1])

/-- The lane-dense view of a [100000, 64] matrix as [50000, 128]: column j of the former is columns j and 64 + j of
    the latter. -/
theorem sum_lane_dense_100000_64 (h : Fin 100000 → Fin 64 → M) (a2 : Fin 50000 → Fin 128 → M)
    (hview : ∀ (r : Fin 50000) (q : Fin 128) (i : Fin 100000) (j : Fin 64),
      i.val = 2 * r.val + q.val / 64 → j.val = q.val % 64 → a2 r q = h i j)
    (j : Fin 64) (q0 q1 : Fin 128) (hq0 : q0.val = j.val) (hq1 : q1.val = 64 + j.val) :
    (∑ r, a2 r q0) + (∑ r, a2 r q1) = ∑ i, h i j :=
  sum_lane_dense (H := 50000) (C := 64) h a2 hview j q0 q1 hq0 hq1

/-- A sum over T·B consecutive indices, block by block, the blocks given as a function of (block, offset) and
    matched to f by the VALUE of the index: F t s is the term of index t·B + s. -/
theorem sum_blocks' {T B n : ℕ} (hn : T * B = n) (f : Fin n → M) (F : Fin T → Fin B → M)
    (hF : ∀ (t : Fin T) (s : Fin B) (i : Fin n), i.val = t.val * B + s.val → F t s = f i) :
    ∑ i, f i = ∑ t, ∑ s, F t s := by
  rw [sum_blocks hn f]
  exact Finset.sum_congr rfl fun t _ => Finset.sum_congr rfl fun s _ => (hF t s _ (blockIdx_val hn t s)).symm

/-- A sum over 50000 indices as a running total over 10 blocks of 5000. -/
theorem sum_ten_blocks (f : Fin 50000 → M) :
    ∑ r, f r = ∑ t : Fin 10, ∑ s : Fin 5000, f ⟨t.val * 5000 + s.val, by have := t.isLt; have := s.isLt; omega⟩ :=
  sum_blocks (T := 10) (B := 5000) (by norm_num) f

end Sums

end Cert.LibBnTwoPass

end
-- ==== Proof.LibConsts.lean ====
/-
  Two f32 words as extended reals, with no program in sight.

  * 0x47C35000 : sign 0, exponent 143, significand 2²³ + 4411392 = 12800000; the value 12800000 · 2^(143-127-23) = 100000.
  * 0x3727C5AC : sign 0, exponent 110, significand 2²³ + 2606508 = 10995116; the value 10995116 · 2⁻⁴⁰, the f32
    nearest to 10⁻⁵, a positive real.
-/
import Idealize.ShloMosaic.PureOps.Ideal

noncomputable section

namespace Cert.LibConsts

open Idealize.ShloMosaic

/-- The real number the f32 word 0x3727C5AC denotes: 10995116 · 2⁻⁴⁰. -/
def eps : ℝ := 10995116 / 2 ^ 40

/-- It is positive. -/
theorem eps_pos : 0 < eps := by unfold eps; positivity

/-- The f32 word 0x3727C5AC is the real eps. -/
theorem eps_eq : Ideal.ofBits .f32 0x3727C5AC#32 = ((eps : ℝ) : EReal) := by
  unfold eps
  simp [Ideal.ofBits, Ideal.ieee, -EReal.coe_mul]; norm_num

/-- The f32 word 0x47C35000 is the real 100000. -/
theorem n_eq : Ideal.ofBits .f32 0x47C35000#32 = ((100000 : ℝ) : EReal) := by
  simp [Ideal.ofBits, Ideal.ieee, -EReal.coe_mul]; norm_num

end Cert.LibConsts

end
-- ==== Proof.BnSpec.lean ====
import proofs.«133142_j1864015807124_2_alg».proof.Proof.Stages
import proofs.«133142_j1864015807124_2_alg».proof.Proof.LibBnTwoPass
import proofs.«133142_j1864015807124_2_alg».proof.Proof.LibConsts
import Idealize.ShloMosaic.Lib.ValueIdx

/-!
# One layer's batch normalisation and ReLU, as a function of the aggregate

Entry `(i, j)` of the normalised layer: the aggregate's entry minus its column's mean, times the reciprocal square
root of the column's mean squared deviation plus `ε`, times the column's scale, plus its shift, clamped at zero from
below. Both programs' layers are shown to be this function of the same aggregate.
-/

noncomputable section

namespace Cert.Stages

open Idealize.ShloMosaic Idealize.ShloMosaic.ValueIdx Cert.ReferenceIdeal Cert.LibBnTwoPass

/-- The normalised entry `(i, j)`. -/
def bnEntry (agg : FVec Ideal S100000x64 .f32) (g be : FVec Ideal S64 .f32) (i : Fin 100000) (j : Fin 64) : EReal :=
  max (((agg (ix2 i j) - colMean (fun (i : Fin 100000) (j : Fin 64) => agg (ix2 i j)) 100000 j)
        * Ideal.rsqrt (colVar (fun (i : Fin 100000) (j : Fin 64) => agg (ix2 i j)) 100000 j + ((LibConsts.eps : ℝ) : EReal)))
      * g (ix1 j) + be (ix1 j)) 0

/-- The normalised layer as an array. -/
def bnSpec (agg : FVec Ideal S100000x64 .f32) (g be : FVec Ideal S64 .f32) : FVec Ideal S100000x64 .f32 :=
  fun idx => bnEntry agg g be (idx 0) (idx 1)

theorem bnSpec_apply (agg : FVec Ideal S100000x64 .f32) (g be : FVec Ideal S64 .f32) (i : Fin 100000) (j : Fin 64) :
    bnSpec agg g be (ix2 i j) = bnEntry agg g be i j := rfl

end Cert.Stages

end
-- ==== Proof.ValSpecA.lean ====
/-
  The entry-by-entry functions the pointwise and the matrix-product regions compute, over literal shapes, on the
  extended reals.  No program is imported.
-/
import Idealize.ShloMosaic.PureOps.Ideal.Laws
import Idealize.ShloMosaic.Lib.ValueIdx

noncomputable section

open Idealize.ShloMosaic Idealize.ShloMosaic.ValueIdx

namespace Cert.KernelIdeal.Val

/-- The two-axis zero offset, however spelt. -/
theorem hz2 : (![0, 0] : Fin 2 → Nat) = fun _ => 0 := funext fun a => by fin_cases a <;> rfl
/-- The one-axis zero offset, however spelt. -/
theorem hz1 : (![0] : Fin 1 → Nat) = fun _ => 0 := funext fun a => by fin_cases a; rfl

/-- Scale, shift and clamp at zero: entry (r, q) of the result is max (a (r, q) * scale q + shift q, 0). -/
def normRelu (a : (⟨2, ![50000, 128]⟩ : Shape).Idx → EReal) (scale shift : (⟨1, ![128]⟩ : Shape).Idx → EReal) :
    (⟨2, ![50000, 128]⟩ : Shape).Idx → EReal :=
  fun i => max (a i * scale (ix1 (i 1 : Fin 128)) + shift (ix1 (i 1 : Fin 128))) 0

/-- The normalised entry at explicit coordinates. -/
theorem normRelu_apply (a : (⟨2, ![50000, 128]⟩ : Shape).Idx → EReal) (scale shift : (⟨1, ![128]⟩ : Shape).Idx → EReal)
    (r : Fin 50000) (q : Fin 128) :
    normRelu a scale shift (ix2 r q) = max (a (ix2 r q) * scale (ix1 q) + shift (ix1 q)) 0 := rfl

/-- A matrix product plus a row vector: entry (p, q) of the result is the sum over k of a (p, k) * w (k, q), plus b q. -/
def linear {M K N : ℕ} (a : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => (∑ k : Fin K, a (ix2 (i 0 : Fin M) k) * w (ix2 k (i 1 : Fin N))) + b (ix1 (i 1 : Fin N))

/-- The product entry at explicit coordinates. -/
theorem linear_apply {M K N : ℕ} (a : (⟨2, ![M, K]⟩ : Shape).Idx → EReal) (w : (⟨2, ![K, N]⟩ : Shape).Idx → EReal)
    (b : (⟨1, ![N]⟩ : Shape).Idx → EReal) (p : Fin M) (q : Fin N) :
    linear a w b (ix2 p q) = (∑ k : Fin K, a (ix2 p k) * w (ix2 k q)) + b (ix1 q) := rfl

end Cert.KernelIdeal.Val

end
-- ==== Proof.LibDotPlain.lean ====
/-
  A host matrix product read at an entry, on the extended reals.

  For the plain dimension numbers (contract the left operand's axis 1 with the right operand's axis 0, no batch
  axes: an M x K matrix times a K x N matrix), the entry (p, q) of the product is the sum over k of
  left (p, k) times right (k, q), whatever precision and schedule the operation names.  No program is imported:
  the dimension record is a variable, constrained only by its six lists.
-/
import Idealize.ShloMosaic.PureOps.Ideal.Laws
import Idealize.ShloMosaic.Lib.ValueIdx

noncomputable section

namespace Cert.LibDotPlain

open Idealize.ShloMosaic Idealize.ShloMosaic.ValueIdx

/-- Entry (p, q) of an M x K by K x N host product is the sum over the contracted axis. -/
theorem dotGeneral_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (prec : Option ContractPrecision)
    (l : FVec Ideal ⟨2, ![M, K]⟩ φ₁) (r : FVec Ideal ⟨2, ![K, N]⟩ φ₂) (p : Fin M) (q : Fin N) :
    Host.dotGeneral D prec l r (ix2 p q) = ∑ k : Fin K, l (ix2 p k) * r (ix2 k q) := by
  obtain ⟨lc, rc, ln, rn, lb, rb, wf⟩ := D
  dsimp only at h1 h2 h3 h4 h5 h6
  subst h1 h2 h3 h4 h5 h6
  refine (Ideal.dotGeneral_apply _ prec _ l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibDotPlain

end
-- ==== Proof.StagesApply.lean ====
/-
  The linear maps of the layers, read at an entry.

  A layer's linear map is a matrix product plus a bias row added to every row: entry (p, q) is the sum over k of
  left (p, k) · weight (k, q), plus bias q.  A widening of the float format is the identity on the extended
  reals.
-/
import proofs.«133142_j1864015807124_2_alg».proof.Proof.Stages
import proofs.«133142_j1864015807124_2_alg».proof.Proof.LibDotPlain
import Idealize.ShloMosaic.Lib.ValueIdx
import Idealize.ShloMosaic.Lib.IdealHost
import Idealize.ShloMosaic.Lib.Pipeline.Value

noncomputable section

namespace Cert.Stages

open Idealize.ShloMosaic Idealize.ShloMosaic.ValueIdx Cert.ReferenceIdeal Cert.ReferenceIdeal.Facts₀

/-- The bias row broadcast to every row reads, at (p, q), the bias at q. -/
theorem biasRows_apply (b : FVec Ideal S64 .f32) (p : Fin 100000) (q : Fin 64) : biasRows b (ix2 p q) = b (ix1 q) := by
  unfold biasRows
  refine (broadcastInDim_apply (![0, 1] : Fin 2 → Fin S100000x64.rank) bcast_S1x64_S100000x64_0_1 _ (ix2 p q)
    (ix2 (0 : Fin 1) q) (by
      intro a
      match a with
      | ⟨0, _⟩ => rfl
      | ⟨1, _⟩ => rfl)).trans ?_
  exact broadcastInDim_apply (![1] : Fin 1 → Fin S1x64.rank) bcast_S64_S1x64_1 b (ix2 (0 : Fin 1) q) (ix1 q) (by
    intro a
    have ha : a = 0 := Subsingleton.elim _ _
    subst ha
    rfl)

/-- The first layer's linear map at (p, q): the row of x times the column of w, plus the bias. -/
theorem lin0Of_apply (x : FVec Ideal S100000x100 .f32) (w : FVec Ideal S100x64 .f32) (b : FVec Ideal S64 .f32)
    (p : Fin 100000) (q : Fin 64) :
    lin0Of x w b (ix2 p q) = (∑ k : Fin 100, x (ix2 p k) * w (ix2 k q)) + b (ix1 q) := by
  unfold lin0Of
  rw [addf_apply, biasRows_apply]
  refine congrArg (· + b (ix1 q)) ?_
  exact Cert.LibDotPlain.dotGeneral_apply (M := 100000) (K := 100) (N := 64)
    dot_S100000x100_S100x64_S100000x64_1_0_0_1_n_n rfl rfl rfl rfl rfl rfl none x w p q

/-- A later layer's linear map at (p, q): the row of h times the column of w, plus the bias. -/
theorem linOf_apply (h : FVec Ideal S100000x64 .f32) (w : FVec Ideal S64x64 .f32) (b : FVec Ideal S64 .f32)
    (p : Fin 100000) (q : Fin 64) :
    linOf h w b (ix2 p q) = (∑ k : Fin 64, h (ix2 p k) * w (ix2 k q)) + b (ix1 q) := by
  unfold linOf
  rw [addf_apply, biasRows_apply]
  refine congrArg (· + b (ix1 q)) ?_
  exact Cert.LibDotPlain.dotGeneral_apply (M := 100000) (K := 64) (N := 64)
    dot_S100000x64_S64x64_S100000x64_1_0_0_1_n_n rfl rfl rfl rfl rfl rfl none h w p q

/-- A widening from bf16 to f32 is the identity on the extended reals, whatever proof of the widths' order it
    carries. -/
theorem extf_id {S : Shape} (v : FVec Ideal S .bf16) (h : FTy.bits .bf16 < FTy.bits .f32) :
    (extf .f32 v h : FVec Ideal S .f32) = v := rfl

end Cert.Stages

end
-- ==== Proof.LinSpec.lean ====
/-
  The linear map of a layer, stated entry by entry, is the reference's matrix product plus bias row; and the
  aggregation from rows gathered out of a narrowed copy of the features is the aggregation of the features: a change of
  float format is the identity on the extended reals.
-/
import proofs.«133142_j1864015807124_2_alg».proof.Proof.ValSpecA
import proofs.«133142_j1864015807124_2_alg».proof.Proof.StagesApply

noncomputable section

namespace Cert.Stages

open Idealize.ShloMosaic Idealize.ShloMosaic.ValueIdx Cert.ReferenceIdeal Cert.ReferenceIdeal.Facts₀

/-- The first layer: entry (p, q) of both is the sum over k of a (p, k) * w (k, q), plus b q. -/
theorem linear_eq_lin0Of (a : FVec Ideal S100000x100 .f32) (w : FVec Ideal S100x64 .f32) (b : FVec Ideal S64 .f32) :
    Cert.KernelIdeal.Val.linear (M := 100000) (K := 100) (N := 64) a w b = lin0Of a w b := by
  funext idx
  obtain ⟨p, q, rfl⟩ : ∃ (p : Fin 100000) (q : Fin 64), idx = ix2 p q := ⟨idx 0, idx 1, eq_ix2 idx⟩
  rw [Cert.KernelIdeal.Val.linear_apply, lin0Of_apply]

/-- A later layer: entry (p, q) of both is the sum over k of h (p, k) * w (k, q), plus b q. -/
theorem linear_eq_linOf (h : FVec Ideal S100000x64 .f32) (w : FVec Ideal S64x64 .f32) (b : FVec Ideal S64 .f32) :
    Cert.KernelIdeal.Val.linear (M := 100000) (K := 64) (N := 64) h w b = linOf h w b := by
  funext idx
  obtain ⟨p, q, rfl⟩ : ∃ (p : Fin 100000) (q : Fin 64), idx = ix2 p q := ⟨idx 0, idx 1, eq_ix2 idx⟩
  rw [Cert.KernelIdeal.Val.linear_apply, linOf_apply]

/-- The aggregation whose edge rows are gathered from the features read at the narrower format and widened back is
    the aggregation of the features themselves, whatever proof of the widths' order the widening carries. -/
theorem aggFrom_gathered (H : FVec Ideal S100000x64 .f32) (nrm : FVec Ideal S1600000 .f32) (sc : FVec Ideal S100000 .f32)
    (src dst : IVec S1600000 32) (hlt : FTy.bits .bf16 < FTy.bits .f32) :
    aggFrom (extf .f32 (Host.gather gather_S100000x64_S1600000x1_S1600000x64_1_0_n_n_0_1_164
        (show FVec Ideal S100000x64 .bf16 from H) (nidx src)) hlt) H nrm sc dst
      = aggOf H nrm sc src dst := by
  unfold aggOf
  exact congrArg (fun G => aggFrom G H nrm sc dst) (extf_id _ hlt)

end Cert.Stages

end
-- ==== Proof.KGlueDefs.lean ====
/-
  The host arithmetic between the batch-normalisation kernels of one layer, as functions of the values it reads.

  Between the three passes over the lane-dense view of the aggregated features the host program computes, from the
  two [1, 128] row sums the reduction kernels leave: the per-column mean (the two 64-lane halves added, divided by
  the row count), the per-column variance clamped at zero, the scale g · rsqrt (var + eps), the shift
  be - mean · scale, and each of mean, scale, shift tiled twice to 128 lanes.  Each definition below is that
  stretch of host operations, operation for operation, with the printed program's own shape records and words.
-/
import proofs.«133142_j1864015807124_2_alg».proof.KernelIdeal
import Idealize.ShloMosaic.PureOps.Ideal

noncomputable section

namespace Cert.KernelIdeal.Glue

open Idealize.ShloMosaic Cert.KernelIdeal

variable [Facts₀]
open Facts₀

/-- The [100000, 64] matrix read row-major as [50000, 128]: two consecutive rows side by side. -/
def view2 (a : FVec Ideal S100000x64 .f32) : FVec Ideal S50000x128 .f32 :=
  fun i => shapeCast S50000x128 a shapeCasts_S100000x64_S50000x128 i

/-- The [50000, 128] matrix read row-major as [100000, 64]: the inverse view. -/
def unview2 (o : FVec Ideal S50000x128 .f32) : FVec Ideal S100000x64 .f32 :=
  fun i => shapeCast S100000x64 o shapeCasts_S50000x128_S100000x64 i

/-- A [1, 128] row as a vector of 128 lanes. -/
def flat128 (s : FVec Ideal S1x128 .f32) : FVec Ideal S128 .f32 :=
  fun i => shapeCast S128 s shapeCasts_S1x128_S128 i

/-- Lanes 0..63 plus lanes 64..127: the even-row and odd-row halves of a lane-dense column sum added. -/
def halfSum (s : FVec Ideal S128 .f32) : FVec Ideal S64 .f32 :=
  addf (extractStridedSlice S64 ![0] s slices_S128_S64_0) (extractStridedSlice S64 ![64] s slices_S128_S64_64)

/-- Division of every lane by the row count 100000 (the f32 word 0x47C35000). -/
def divN (v : FVec Ideal S64 .f32) : FVec Ideal S64 .f32 :=
  Host.divf (F := Ideal) v (broadcastInDim S64 ![] bcast_S_S64 (constant (F := Ideal) S_ .f32 0x47C35000#32))

/-- The per-column mean from the lane-dense row sum. -/
def meanK (s : FVec Ideal S1x128 .f32) : FVec Ideal S64 .f32 := divN (halfSum (flat128 s))

/-- A 64-lane vector tiled twice to 128 lanes. -/
def tile2 (v : FVec Ideal S64 .f32) : FVec Ideal S128 .f32 :=
  concatenate S128 0 [⟨S64, v⟩, ⟨S64, v⟩] concatenates_S64_S64_S128_d0

/-- The per-column variance from the lane-dense sum of squared deviations, clamped at zero. -/
def varK (sq : FVec Ideal S1x128 .f32) : FVec Ideal S64 .f32 :=
  maximumf (divN (halfSum (flat128 sq)))
    (broadcastInDim S64 ![] bcast_S_S64 (constant (F := Ideal) S_ .f32 0x00000000#32))

/-- The per-column scale g · rsqrt (var + eps), eps the f32 word 0x3727C5AC. -/
def scaleK (sq : FVec Ideal S1x128 .f32) (g : FVec Ideal S64 .f32) : FVec Ideal S64 .f32 :=
  mulf g (Host.rsqrt (F := Ideal)
    (addf (varK sq) (broadcastInDim S64 ![] bcast_S_S64 (constant (F := Ideal) S_ .f32 0x3727C5AC#32))))

/-- The per-column shift be - mean · scale. -/
def shiftK (s sq : FVec Ideal S1x128 .f32) (g be : FVec Ideal S64 .f32) : FVec Ideal S64 .f32 :=
  subf be (mulf (meanK s) (scaleK sq g))

end Cert.KernelIdeal.Glue

end
-- ==== Proof.KGlueBn.lean ====
/-
  The host arithmetic between the batch-normalisation kernels, read at an index, and the layer's normalised output.

  The aggregated features agg, a [100000, 64] matrix, are handled through their lane-dense view: the same
  entries row-major as [50000, 128], entry (r, q) of the view being entry (2·r + q / 64, q % 64) of the matrix.
  Given the view's column sums s, the column sums sq of the squared deviations from the (tiled) mean, and the
  affine-and-rectify pass o over the view, the output read back through the inverse view is, at every entry, the
  training-mode batch normalisation of agg with biased variance, followed by the rectifier:
      max (((agg i j - mean j) · rsqrt (var j + eps)) · g j + be j) 0.
  The column sum of the matrix is the sum of the two lanes j and 64 + j of the view's column sums (even and odd
  rows); the clamp of the variance at zero changes nothing, a mean of squares being nonnegative; and folding the
  scale and shift is the identity of the two arrangements of a batch normalisation, valid for arbitrary extended
  reals.
-/
import proofs.«133142_j1864015807124_2_alg».proof.Proof.KGlueDefs
import proofs.«133142_j1864015807124_2_alg».proof.Proof.LibBnTwoPass
import proofs.«133142_j1864015807124_2_alg».proof.Proof.LibConsts
import Idealize.ShloMosaic.Lib.ValueIdx
import Idealize.ShloMosaic.Lib.IdealHost
import Idealize.ShloMosaic.Lib.Pipeline.Value
import Idealize.ShloMosaic.Lib.ValueLayout

noncomputable section

namespace Cert.KernelIdeal.Glue

open Idealize.ShloMosaic Idealize.ShloMosaic.ValueIdx Cert.KernelIdeal Cert.Spec Cert.LibBnTwoPass

variable [Facts₀]
open Facts₀

/-! ## The shape operations at an index -/

/-- The lane-dense view at (r, q) is the matrix at the entry with the same row-major position 128·r + q. -/
theorem view2_apply (a : FVec Ideal S100000x64 .f32) (r : Fin 50000) (q : Fin 128) (i : Fin 100000) (j : Fin 64)
    (hi : i.val = 2 * r.val + q.val / 64) (hj : j.val = q.val % 64) : view2 a (ix2 r q) = a (ix2 i j) := by
  unfold view2
  exact shapeCast_apply a shapeCasts_S100000x64_S50000x128 (ix2 r q) (ix2 i j) (by
    rw [Shape.rowMajor_val_two, Shape.rowMajor_val_two]
    show i.val * 64 + j.val = r.val * 128 + q.val
    omega)

/-- The inverse view at (i, j) is the lane-dense matrix at (i / 2, (i % 2)·64 + j). -/
theorem unview2_apply (o : FVec Ideal S50000x128 .f32) (i : Fin 100000) (j : Fin 64) (r : Fin 50000) (q : Fin 128)
    (hr : r.val = i.val / 2) (hq : q.val = (i.val % 2) * 64 + j.val) : unview2 o (ix2 i j) = o (ix2 r q) := by
  unfold unview2
  exact shapeCast_apply o shapeCasts_S50000x128_S100000x64 (ix2 i j) (ix2 r q) (by
    rw [Shape.rowMajor_val_two, Shape.rowMajor_val_two]
    show r.val * 128 + q.val = i.val * 64 + j.val
    omega)

/-- A [1, 128] row read as 128 lanes. -/
theorem flat128_apply (s : FVec Ideal S1x128 .f32) (q : Fin 128) : flat128 s (ix1 q) = s (ix2 (0 : Fin 1) q) := by
  unfold flat128
  exact shapeCast_apply s shapeCasts_S1x128_S128 (ix1 q) (ix2 (0 : Fin 1) q) (by
    rw [Shape.rowMajor_val_two, Shape.rowMajor_val_one]
    show 0 * 128 + q.val = q.val
    omega)

/-- The two halves added: lane j plus lane 64 + j. -/
theorem halfSum_apply (s : FVec Ideal S128 .f32) (j : Fin 64) (q0 q1 : Fin 128) (h0 : q0.val = j.val)
    (h1 : q1.val = 64 + j.val) : halfSum s (ix1 j) = s (ix1 q0) + s (ix1 q1) := by
  unfold halfSum
  rw [addf_apply]
  refine congrArg₂ (· + ·) ?_ ?_
  · exact extractStridedSlice_apply _ s slices_S128_S64_0 (ix1 j) (ix1 q0) (by
      intro a
      have ha : a = 0 := Subsingleton.elim _ _
      subst ha
      show q0.val = 0 + j.val
      omega)
  · exact extractStridedSlice_apply _ s slices_S128_S64_64 (ix1 j) (ix1 q1) (by
      intro a
      have ha : a = 0 := Subsingleton.elim _ _
      subst ha
      show q1.val = 64 + j.val
      omega)

/-- Division of a lane by the row count, the real 100000. -/
theorem divN_apply (v : FVec Ideal S64 .f32) (j : Fin 64) :
    divN v (ix1 j) = Ideal.div (v (ix1 j)) ((100000 : ℝ) : EReal) := by
  rw [← LibConsts.n_eq]
  rfl

/-- A 64-lane vector tiled twice, at lane q, is the vector at lane q % 64. -/
theorem tile2_apply (v : FVec Ideal S64 .f32) (q : Fin 128) (j : Fin 64) (hj : j.val = q.val % 64) :
    tile2 v (ix1 q) = v (ix1 j) := by
  have hq := q.isLt
  unfold tile2
  by_cases hlt : q.val < 64
  · exact concatenate_pair_apply_left (t := S128) (s₁ := S64) (s₂ := S64) (0 : Fin 1) v v
      concatenates_S64_S64_S128_d0 (ix1 q) rfl (ix1 j) (by
        intro b
        have hb : b = 0 := Subsingleton.elim _ _
        subst hb
        show j.val = q.val
        omega)
  · exact concatenate_pair_apply_right (t := S128) (s₁ := S64) (s₂ := S64) (0 : Fin 1) v v
      concatenates_S64_S64_S128_d0 (ix1 q) rfl rfl (ix1 j) (by
        intro b hb
        exact absurd (Subsingleton.elim _ _) hb) (by
        show j.val + 64 = q.val
        omega)

/-- The clamped variance at a lane. -/
theorem varK_eq (sq : FVec Ideal S1x128 .f32) (j : Fin 64) :
    varK sq (ix1 j) = max (divN (halfSum (flat128 sq)) (ix1 j)) 0 := by
  rw [← Ideal.ofBits_zero_f32]
  rfl

/-- The scale at a lane. -/
theorem scaleK_eq (sq : FVec Ideal S1x128 .f32) (g : FVec Ideal S64 .f32) (j : Fin 64) :
    scaleK sq g (ix1 j) = g (ix1 j) * Ideal.rsqrt (varK sq (ix1 j) + ((LibConsts.eps : ℝ) : EReal)) := by
  rw [← LibConsts.eps_eq]
  rfl

/-- The shift at a lane. -/
theorem shiftK_eq (s sq : FVec Ideal S1x128 .f32) (g be : FVec Ideal S64 .f32) (j : Fin 64) :
    shiftK s sq g be (ix1 j) = be (ix1 j) - meanK s (ix1 j) * scaleK sq g (ix1 j) := rfl

/-! ## The column statistics the host computes are those of the matrix -/

section Layer

variable (agg : FVec Ideal S100000x64 .f32) (s sq : FVec Ideal S1x128 .f32)

/-- The mean the host computes from the lane-dense column sums is the column mean of the matrix: the column sum
    of the matrix is lane j plus lane 64 + j of the view's column sums. -/
theorem meanK_apply (hs : ∀ q : Fin 128, s (ix2 (0 : Fin 1) q) = ∑ r : Fin 50000, view2 agg (ix2 r q)) (j : Fin 64) :
    meanK s (ix1 j) = colMean (fun (i : Fin 100000) (j : Fin 64) => agg (ix2 i j)) 100000 j := by
  have hj := j.isLt
  unfold meanK
  rw [divN_apply, halfSum_apply _ j (⟨j.val, by omega⟩ : Fin 128) (⟨64 + j.val, by omega⟩ : Fin 128) rfl rfl,
    flat128_apply, flat128_apply, hs, hs]
  unfold colMean
  refine congrArg (fun x => Ideal.div x ((100000 : ℝ) : EReal)) ?_
  exact sum_lane_dense_100000_64 (fun i j => agg (ix2 i j)) (fun r q => view2 agg (ix2 r q))
    (fun r q i j hi hj => view2_apply agg r q i j hi hj) j _ _ rfl rfl

/-- The variance the host computes from the lane-dense sums of squared deviations from the tiled mean is the
    column variance of the matrix (the mean of the squared deviations from the column mean), clamped at zero. -/
theorem varK_apply (hs : ∀ q : Fin 128, s (ix2 (0 : Fin 1) q) = ∑ r : Fin 50000, view2 agg (ix2 r q))
    (hsq : ∀ q : Fin 128, sq (ix2 (0 : Fin 1) q) = ∑ r : Fin 50000,
      (view2 agg (ix2 r q) - tile2 (meanK s) (ix1 q)) * (view2 agg (ix2 r q) - tile2 (meanK s) (ix1 q)))
    (j : Fin 64) :
    varK sq (ix1 j) = max (colVar (fun (i : Fin 100000) (j : Fin 64) => agg (ix2 i j)) 100000 j) 0 := by
  have hj := j.isLt
  rw [varK_eq, divN_apply, halfSum_apply _ j (⟨j.val, by omega⟩ : Fin 128) (⟨64 + j.val, by omega⟩ : Fin 128) rfl rfl,
    flat128_apply, flat128_apply, hsq, hsq]
  unfold colVar
  refine congrArg (fun x => max (Ideal.div x ((100000 : ℝ) : EReal)) 0) ?_
  refine sum_lane_dense_100000_64
    (fun i j => (agg (ix2 i j) - colMean (fun (i : Fin 100000) (j : Fin 64) => agg (ix2 i j)) 100000 j)
      * (agg (ix2 i j) - colMean (fun (i : Fin 100000) (j : Fin 64) => agg (ix2 i j)) 100000 j))
    (fun r q => (view2 agg (ix2 r q) - tile2 (meanK s) (ix1 q)) * (view2 agg (ix2 r q) - tile2 (meanK s) (ix1 q)))
    (fun r q i j hi hj => ?_) j _ _ rfl rfl
  show (view2 agg (ix2 r q) - tile2 (meanK s) (ix1 q)) * (view2 agg (ix2 r q) - tile2 (meanK s) (ix1 q)) = _
  rw [view2_apply agg r q i j hi hj, tile2_apply (meanK s) q j hj, meanK_apply agg s hs j]

/-- THE LAYER'S OUTPUT.  With s the view's column sums, sq the column sums of its squared deviations from the tiled
    mean, and o the affine-and-rectify pass over the view with the tiled scale and shift, the output read back through
    the inverse view is the batch normalisation of agg (biased variance, eps the real the word 0x3727C5AC denotes)
    scaled by g, shifted by be and rectified — whatever extended reals agg holds, g and be being real. -/
theorem bnK_apply (g be : FVec Ideal S64 .f32) (hg : ∀ j : Fin 64, IsReal (g (ix1 j)))
    (hbe : ∀ j : Fin 64, IsReal (be (ix1 j))) (o : FVec Ideal S50000x128 .f32)
    (hs : ∀ q : Fin 128, s (ix2 (0 : Fin 1) q) = ∑ r : Fin 50000, view2 agg (ix2 r q))
    (hsq : ∀ q : Fin 128, sq (ix2 (0 : Fin 1) q) = ∑ r : Fin 50000,
      (view2 agg (ix2 r q) - tile2 (meanK s) (ix1 q)) * (view2 agg (ix2 r q) - tile2 (meanK s) (ix1 q)))
    (ho : ∀ (r : Fin 50000) (q : Fin 128), o (ix2 r q)
      = max (view2 agg (ix2 r q) * tile2 (scaleK sq g) (ix1 q) + tile2 (shiftK s sq g be) (ix1 q)) 0)
    (i : Fin 100000) (j : Fin 64) :
    unview2 o (ix2 i j)
      = max (((agg (ix2 i j) - colMean (fun (i : Fin 100000) (j : Fin 64) => agg (ix2 i j)) 100000 j)
            * Ideal.rsqrt (colVar (fun (i : Fin 100000) (j : Fin 64) => agg (ix2 i j)) 100000 j
                + ((LibConsts.eps : ℝ) : EReal))) * g (ix1 j) + be (ix1 j)) 0 := by
  have hi := i.isLt
  have hj := j.isLt
  have hq : ((i.val % 2) * 64 + j.val) % 64 = j.val := by omega
  rw [unview2_apply o i j (⟨i.val / 2, by omega⟩ : Fin 50000) (⟨(i.val % 2) * 64 + j.val, by omega⟩ : Fin 128) rfl rfl,
    ho, view2_apply agg _ _ i j (by show i.val = 2 * (i.val / 2) + ((i.val % 2) * 64 + j.val) / 64; omega) hq.symm,
    tile2_apply (scaleK sq g) _ j hq.symm, tile2_apply (shiftK s sq g be) _ j hq.symm,
    shiftK_eq, scaleK_eq, meanK_apply agg s hs j, varK_apply agg s sq hs hsq j]
  exact bn_fold (fun (i : Fin 100000) (j : Fin 64) => agg (ix2 i j)) (fun j => g (ix1 j)) (fun j => be (ix1 j)) hg hbe
    (by norm_num) LibConsts.eps_pos i j

end Layer

end Cert.KernelIdeal.Glue

end
-- ==== Proof.KRead0.lean ====
import proofs.«133142_j1864015807124_2_alg».proof.Proof.Gen.KernelIdeal.Frame
import proofs.«133142_j1864015807124_2_alg».proof.Proof.Stages

/-!
# The kernel's first stretch of host operations, read back

From any buffer contents `W`, the operations before the first region leave the flat source and target endpoint
vectors, the edge coefficients and the self-loop coefficients, each the shared chain of the edge list and the edge
weights as `W` holds them.
-/

set_option maxRecDepth 16384

noncomputable section

namespace Cert.KernelIdeal.Read

open Idealize.ShloMosaic Idealize.ShloMosaic.TcCoe Idealize.ShloMosaic.Tactic
open Cert.KernelIdeal Cert.KernelIdeal.Gen Cert.Stages
open StableHlo

variable (W : Valuation τ sig (Elt Ideal))

theorem h0_src : StableHlo.after (hostOps0 (F := Ideal)) W (Proc.devRef .tc main_v1) = srcOf (W (Proc.devRef .tc main_arg1)) := by
  dsimp only [hostOps0]; after_results_simp; rfl

theorem h0_dst : StableHlo.after (hostOps0 (F := Ideal)) W (Proc.devRef .tc main_v3) = dstOf (W (Proc.devRef .tc main_arg1)) := by
  dsimp only [hostOps0]; after_results_simp; rfl

theorem h0_norm : StableHlo.after (hostOps0 (F := Ideal)) W (Proc.devRef .tc main_v30)
    = normOf (srcOf (W (Proc.devRef .tc main_arg1))) (dstOf (W (Proc.devRef .tc main_arg1))) (W (Proc.devRef .tc main_arg2)) := by
  dsimp only [hostOps0]; after_results_simp; rfl

theorem h0_self : StableHlo.after (hostOps0 (F := Ideal)) W (Proc.devRef .tc main_v31)
    = selfOf (dstOf (W (Proc.devRef .tc main_arg1))) (W (Proc.devRef .tc main_arg2)) := by
  dsimp only [hostOps0]; after_results_simp; rfl

end Cert.KernelIdeal.Read

end
-- ==== Proof.KReadL0.lean ====
import proofs.«133142_j1864015807124_2_alg».proof.Proof.Gen.KernelIdeal.Frame
import proofs.«133142_j1864015807124_2_alg».proof.Proof.Stages
import proofs.«133142_j1864015807124_2_alg».proof.Proof.KGlueDefs

/-!
# Layer 0's stretches of host operations in the kernel's program, read back

From any buffer contents `W`: the aggregation of the layer's transformed features (the messages gathered from the
narrow copy, widened, weighted, scatter-added at the targets, plus the self-loop term) viewed as `[50000, 128]`; the
column means from the lane sums, tiled to 128 lanes; the scale and shift rows from the lane sums of squared deviations,
tiled; and the normalised rows viewed back as `[100000, 64]`.
-/

set_option maxRecDepth 16384

noncomputable section

namespace Cert.KernelIdeal.Read

open Idealize.ShloMosaic Idealize.ShloMosaic.TcCoe Idealize.ShloMosaic.Tactic
open Cert.KernelIdeal Cert.KernelIdeal.Gen Cert.Stages Cert.KernelIdeal.Glue
open StableHlo

variable (W : Valuation τ sig (Elt Ideal))

/-- The rows gathered at the sources from the narrow copy, widened (the identity on the extended reals). -/
def gatheredK0 (Hb : FVec Ideal S100000x64 .bf16) (src : IVec S1600000 32) : FVec Ideal S1600000x64 .f32 :=
  extf .f32 (Host.gather gather_S100000x64_S1600000x1_S1600000x64_1_0_n_n_0_1_164 Hb (nidx src)) bitsLt_bf16_f32

theorem h0_agg : StableHlo.after (hostOps1 (F := Ideal)) W (Proc.devRef .tc main_v56)
    = view2 (aggFrom (gatheredK0 (W (Proc.devRef .tc main_v32_1)) (W (Proc.devRef .tc main_v1))) (W (Proc.devRef .tc main_v32_0)) (W (Proc.devRef .tc main_v30)) (W (Proc.devRef .tc main_v31)) (W (Proc.devRef .tc main_v3))) := by
  dsimp only [hostOps1]; after_results_simp; rfl

theorem h0_mean : StableHlo.after (hostOps2 (F := Ideal)) W (Proc.devRef .tc main_v63) = meanK (W (Proc.devRef .tc main_v57)) := by
  dsimp only [hostOps2]; after_results_simp; rfl

theorem h0_meanT : StableHlo.after (hostOps2 (F := Ideal)) W (Proc.devRef .tc main_v64) = tile2 (meanK (W (Proc.devRef .tc main_v57))) := by
  dsimp only [hostOps2]; after_results_simp
  refine congrArg (fun z => concatenate S128 0 [⟨S64, z⟩, ⟨S64, z⟩] concatenates_S64_S64_S128_d0) ?_
  after_results_simp; rfl

theorem h0_scaleT : StableHlo.after (hostOps3 (F := Ideal)) W (Proc.devRef .tc main_v80) = tile2 (scaleK (W (Proc.devRef .tc main_v65)) (W (Proc.devRef .tc main_arg6))) := by
  dsimp only [hostOps3]; after_results_simp
  refine congrArg (fun z => concatenate S128 0 [⟨S64, z⟩, ⟨S64, z⟩] concatenates_S64_S64_S128_d0) ?_
  after_results_simp; rfl

theorem h0_shiftT : StableHlo.after (hostOps3 (F := Ideal)) W (Proc.devRef .tc main_v81)
    = tile2 (subf (W (Proc.devRef .tc main_arg7)) (mulf (W (Proc.devRef .tc main_v63)) (scaleK (W (Proc.devRef .tc main_v65)) (W (Proc.devRef .tc main_arg6))))) := by
  dsimp only [hostOps3]; after_results_simp
  refine congrArg (fun z => concatenate S128 0 [⟨S64, z⟩, ⟨S64, z⟩] concatenates_S64_S64_S128_d0) ?_
  after_results_simp; rfl

theorem h0_out : StableHlo.after (hostOps4 (F := Ideal)) W (Proc.devRef .tc main_v83) = unview2 (W (Proc.devRef .tc main_v82)) := by
  dsimp only [hostOps4]; after_results_simp; rfl

end Cert.KernelIdeal.Read

end
-- ==== Proof.KCarry.lean ====
import proofs.«133142_j1864015807124_2_alg».proof.Proof.Gen.KernelIdeal.Frame

/-!
# Buffers that keep their contents between segment boundaries of the kernel's run

A host stretch changes only the buffers its operations write, and a region only its output arrays: an argument array,
the edge endpoint vectors and coefficients computed once, a layer's aggregate (read by three regions through input
windows) and a layer's mean row hold at a later boundary what they held at an earlier one.
-/

set_option maxRecDepth 16384

noncomputable section

namespace Cert.KernelIdeal.Keep

open Idealize.ShloMosaic Idealize.ShloMosaic.TcCoe Idealize.ShloMosaic.Tactic
open Idealize.ShloMosaic.Pipeline (Dat)
open Cert.KernelIdeal Cert.KernelIdeal.Gen

/-- A host stretch leaves a buffer none of its operations writes as it was. -/
macro "host_keep " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg)

theorem keep_arg0_0_1 (c : Dev nD) : W1 m ρ c (Proc.devRef .tc main_arg0) = W0 m ρ c (Proc.devRef .tc main_arg0) :=
  calc W1 m ρ c (Proc.devRef .tc main_arg0)
    _ = W0 m ρ c (Proc.devRef .tc main_arg0) := by host_keep hostOps0

theorem keep_arg4_0_1 (c : Dev nD) : W1 m ρ c (Proc.devRef .tc main_arg4) = W0 m ρ c (Proc.devRef .tc main_arg4) :=
  calc W1 m ρ c (Proc.devRef .tc main_arg4)
    _ = W0 m ρ c (Proc.devRef .tc main_arg4) := by host_keep hostOps0

theorem keep_arg5_0_1 (c : Dev nD) : W1 m ρ c (Proc.devRef .tc main_arg5) = W0 m ρ c (Proc.devRef .tc main_arg5) :=
  calc W1 m ρ c (Proc.devRef .tc main_arg5)
    _ = W0 m ρ c (Proc.devRef .tc main_arg5) := by host_keep hostOps0

theorem keep_arg6_0_6 (c : Dev nD) : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := by host_keep hostOps2
    _ = W3 m ρ c (Proc.devRef .tc main_arg6) := W4_of_ne m ρ c main_arg6 (by decide)
    _ = W2 m ρ c (Proc.devRef .tc main_arg6) := by host_keep hostOps1
    _ = W1 m ρ c (Proc.devRef .tc main_arg6) := W2_of_ne m ρ c main_arg6 (by decide)
    _ = W0 m ρ c (Proc.devRef .tc main_arg6) := by host_keep hostOps0

theorem keep_arg7_0_6 (c : Dev nD) : W6 m ρ c (Proc.devRef .tc main_arg7) = W0 m ρ c (Proc.devRef .tc main_arg7) :=
  calc W6 m ρ c (Proc.devRef .tc main_arg7)
    _ = W5 m ρ c (Proc.devRef .tc main_arg7) := W6_of_ne m ρ c main_arg7 (by decide)
    _ = W4 m ρ c (Proc.devRef .tc main_arg7) := by host_keep hostOps2
    _ = W3 m ρ c (Proc.devRef .tc main_arg7) := W4_of_ne m ρ c main_arg7 (by decide)
    _ = W2 m ρ c (Proc.devRef .tc main_arg7) := by host_keep hostOps1
    _ = W1 m ρ c (Proc.devRef .tc main_arg7) := W2_of_ne m ρ c main_arg7 (by decide)
    _ = W0 m ρ c (Proc.devRef .tc main_arg7) := by host_keep hostOps0

theorem keep_arg8_0_9 (c : Dev nD) : W9 m ρ c (Proc.devRef .tc main_arg8) = W0 m ρ c (Proc.devRef .tc main_arg8) :=
  calc W9 m ρ c (Proc.devRef .tc main_arg8)
    _ = W8 m ρ c (Proc.devRef .tc main_arg8) := by host_keep hostOps4
    _ = W7 m ρ c (Proc.devRef .tc main_arg8) := W8_of_ne m ρ c main_arg8 (by decide)
    _ = W6 m ρ c (Proc.devRef .tc main_arg8) := by host_keep hostOps3
    _ = W5 m ρ c (Proc.devRef .tc main_arg8) := W6_of_ne m ρ c main_arg8 (by decide)
    _ = W4 m ρ c (Proc.devRef .tc main_arg8) := by host_keep hostOps2
    _ = W3 m ρ c (Proc.devRef .tc main_arg8) := W4_of_ne m ρ c main_arg8 (by decide)
    _ = W2 m ρ c (Proc.devRef .tc main_arg8) := by host_keep hostOps1
    _ = W1 m ρ c (Proc.devRef .tc main_arg8) := W2_of_ne m ρ c main_arg8 (by decide)
    _ = W0 m ρ c (Proc.devRef .tc main_arg8) := by host_keep hostOps0

theorem keep_arg9_0_9 (c : Dev nD) : W9 m ρ c (Proc.devRef .tc main_arg9) = W0 m ρ c (Proc.devRef .tc main_arg9) :=
  calc W9 m ρ c (Proc.devRef .tc main_arg9)
    _ = W8 m ρ c (Proc.devRef .tc main_arg9) := by host_keep hostOps4
    _ = W7 m ρ c (Proc.devRef .tc main_arg9) := W8_of_ne m ρ c main_arg9 (by decide)
    _ = W6 m ρ c (Proc.devRef .tc main_arg9) := by host_keep hostOps3
    _ = W5 m ρ c (Proc.devRef .tc main_arg9) := W6_of_ne m ρ c main_arg9 (by decide)
    _ = W4 m ρ c (Proc.devRef .tc main_arg9) := by host_keep hostOps2
    _ = W3 m ρ c (Proc.devRef .tc main_arg9) := W4_of_ne m ρ c main_arg9 (by decide)
    _ = W2 m ρ c (Proc.devRef .tc main_arg9) := by host_keep hostOps1
    _ = W1 m ρ c (Proc.devRef .tc main_arg9) := W2_of_ne m ρ c main_arg9 (by decide)
    _ = W0 m ρ c (Proc.devRef .tc main_arg9) := by host_keep hostOps0

theorem keep_arg10_0_14 (c : Dev nD) : W14 m ρ c (Proc.devRef .tc main_arg10) = W0 m ρ c (Proc.devRef .tc main_arg10) :=
  calc W14 m ρ c (Proc.devRef .tc main_arg10)
    _ = W13 m ρ c (Proc.devRef .tc main_arg10) := W14_of_ne m ρ c main_arg10 (by decide)
    _ = W12 m ρ c (Proc.devRef .tc main_arg10) := by host_keep hostOps6
    _ = W11 m ρ c (Proc.devRef .tc main_arg10) := W12_of_ne m ρ c main_arg10 (by decide)
    _ = W10 m ρ c (Proc.devRef .tc main_arg10) := by host_keep hostOps5
    _ = W9 m ρ c (Proc.devRef .tc main_arg10) := W10_of_ne m ρ c main_arg10 (by decide)
    _ = W8 m ρ c (Proc.devRef .tc main_arg10) := by host_keep hostOps4
    _ = W7 m ρ c (Proc.devRef .tc main_arg10) := W8_of_ne m ρ c main_arg10 (by decide)
    _ = W6 m ρ c (Proc.devRef .tc main_arg10) := by host_keep hostOps3
    _ = W5 m ρ c (Proc.devRef .tc main_arg10) := W6_of_ne m ρ c main_arg10 (by decide)
    _ = W4 m ρ c (Proc.devRef .tc main_arg10) := by host_keep hostOps2
    _ = W3 m ρ c (Proc.devRef .tc main_arg10) := W4_of_ne m ρ c main_arg10 (by decide)
    _ = W2 m ρ c (Proc.devRef .tc main_arg10) := by host_keep hostOps1
    _ = W1 m ρ c (Proc.devRef .tc main_arg10) := W2_of_ne m ρ c main_arg10 (by decide)
    _ = W0 m ρ c (Proc.devRef .tc main_arg10) := by host_keep hostOps0

theorem keep_arg11_0_14 (c : Dev nD) : W14 m ρ c (Proc.devRef .tc main_arg11) = W0 m ρ c (Proc.devRef .tc main_arg11) :=
  calc W14 m ρ c (Proc.devRef .tc main_arg11)
    _ = W13 m ρ c (Proc.devRef .tc main_arg11) := W14_of_ne m ρ c main_arg11 (by decide)
    _ = W12 m ρ c (Proc.devRef .tc main_arg11) := by host_keep hostOps6
    _ = W11 m ρ c (Proc.devRef .tc main_arg11) := W12_of_ne m ρ c main_arg11 (by decide)
    _ = W10 m ρ c (Proc.devRef .tc main_arg11) := by host_keep hostOps5
    _ = W9 m ρ c (Proc.devRef .tc main_arg11) := W10_of_ne m ρ c main_arg11 (by decide)
    _ = W8 m ρ c (Proc.devRef .tc main_arg11) := by host_keep hostOps4
    _ = W7 m ρ c (Proc.devRef .tc main_arg11) := W8_of_ne m ρ c main_arg11 (by decide)
    _ = W6 m ρ c (Proc.devRef .tc main_arg11) := by host_keep hostOps3
    _ = W5 m ρ c (Proc.devRef .tc main_arg11) := W6_of_ne m ρ c main_arg11 (by decide)
    _ = W4 m ρ c (Proc.devRef .tc main_arg11) := by host_keep hostOps2
    _ = W3 m ρ c (Proc.devRef .tc main_arg11) := W4_of_ne m ρ c main_arg11 (by decide)
    _ = W2 m ρ c (Proc.devRef .tc main_arg11) := by host_keep hostOps1
    _ = W1 m ρ c (Proc.devRef .tc main_arg11) := W2_of_ne m ρ c main_arg11 (by decide)
    _ = W0 m ρ c (Proc.devRef .tc main_arg11) := by host_keep hostOps0

theorem keep_arg12_0_17 (c : Dev nD) : W17 m ρ c (Proc.devRef .tc main_arg12) = W0 m ρ c (Proc.devRef .tc main_arg12) :=
  calc W17 m ρ c (Proc.devRef .tc main_arg12)
    _ = W16 m ρ c (Proc.devRef .tc main_arg12) := by host_keep hostOps8
    _ = W15 m ρ c (Proc.devRef .tc main_arg12) := W16_of_ne m ρ c main_arg12 (by decide)
    _ = W14 m ρ c (Proc.devRef .tc main_arg12) := by host_keep hostOps7
    _ = W13 m ρ c (Proc.devRef .tc main_arg12) := W14_of_ne m ρ c main_arg12 (by decide)
    _ = W12 m ρ c (Proc.devRef .tc main_arg12) := by host_keep hostOps6
    _ = W11 m ρ c (Proc.devRef .tc main_arg12) := W12_of_ne m ρ c main_arg12 (by decide)
    _ = W10 m ρ c (Proc.devRef .tc main_arg12) := by host_keep hostOps5
    _ = W9 m ρ c (Proc.devRef .tc main_arg12) := W10_of_ne m ρ c main_arg12 (by decide)
    _ = W8 m ρ c (Proc.devRef .tc main_arg12) := by host_keep hostOps4
    _ = W7 m ρ c (Proc.devRef .tc main_arg12) := W8_of_ne m ρ c main_arg12 (by decide)
    _ = W6 m ρ c (Proc.devRef .tc main_arg12) := by host_keep hostOps3
    _ = W5 m ρ c (Proc.devRef .tc main_arg12) := W6_of_ne m ρ c main_arg12 (by decide)
    _ = W4 m ρ c (Proc.devRef .tc main_arg12) := by host_keep hostOps2
    _ = W3 m ρ c (Proc.devRef .tc main_arg12) := W4_of_ne m ρ c main_arg12 (by decide)
    _ = W2 m ρ c (Proc.devRef .tc main_arg12) := by host_keep hostOps1
    _ = W1 m ρ c (Proc.devRef .tc main_arg12) := W2_of_ne m ρ c main_arg12 (by decide)
    _ = W0 m ρ c (Proc.devRef .tc main_arg12) := by host_keep hostOps0

theorem keep_arg13_0_17 (c : Dev nD) : W17 m ρ c (Proc.devRef .tc main_arg13) = W0 m ρ c (Proc.devRef .tc main_arg13) :=
  calc W17 m ρ c (Proc.devRef .tc main_arg13)
    _ = W16 m ρ c (Proc.devRef .tc main_arg13) := by host_keep hostOps8
    _ = W15 m ρ c (Proc.devRef .tc main_arg13) := W16_of_ne m ρ c main_arg13 (by decide)
    _ = W14 m ρ c (Proc.devRef .tc main_arg13) := by host_keep hostOps7
    _ = W13 m ρ c (Proc.devRef .tc main_arg13) := W14_of_ne m ρ c main_arg13 (by decide)
    _ = W12 m ρ c (Proc.devRef .tc main_arg13) := by host_keep hostOps6
    _ = W11 m ρ c (Proc.devRef .tc main_arg13) := W12_of_ne m ρ c main_arg13 (by decide)
    _ = W10 m ρ c (Proc.devRef .tc main_arg13) := by host_keep hostOps5
    _ = W9 m ρ c (Proc.devRef .tc main_arg13) := W10_of_ne m ρ c main_arg13 (by decide)
    _ = W8 m ρ c (Proc.devRef .tc main_arg13) := by host_keep hostOps4
    _ = W7 m ρ c (Proc.devRef .tc main_arg13) := W8_of_ne m ρ c main_arg13 (by decide)
    _ = W6 m ρ c (Proc.devRef .tc main_arg13) := by host_keep hostOps3
    _ = W5 m ρ c (Proc.devRef .tc main_arg13) := W6_of_ne m ρ c main_arg13 (by decide)
    _ = W4 m ρ c (Proc.devRef .tc main_arg13) := by host_keep hostOps2
    _ = W3 m ρ c (Proc.devRef .tc main_arg13) := W4_of_ne m ρ c main_arg13 (by decide)
    _ = W2 m ρ c (Proc.devRef .tc main_arg13) := by host_keep hostOps1
    _ = W1 m ρ c (Proc.devRef .tc main_arg13) := W2_of_ne m ρ c main_arg13 (by decide)
    _ = W0 m ρ c (Proc.devRef .tc main_arg13) := by host_keep hostOps0

theorem keep_arg14_0_22 (c : Dev nD) : W22 m ρ c (Proc.devRef .tc main_arg14) = W0 m ρ c (Proc.devRef .tc main_arg14) :=
  calc W22 m ρ c (Proc.devRef .tc main_arg14)
    _ = W21 m ρ c (Proc.devRef .tc main_arg14) := W22_of_ne m ρ c main_arg14 (by decide)
    _ = W20 m ρ c (Proc.devRef .tc main_arg14) := by host_keep hostOps10
    _ = W19 m ρ c (Proc.devRef .tc main_arg14) := W20_of_ne m ρ c main_arg14 (by decide)
    _ = W18 m ρ c (Proc.devRef .tc main_arg14) := by host_keep hostOps9
    _ = W17 m ρ c (Proc.devRef .tc main_arg14) := W18_of_ne m ρ c main_arg14 (by decide)
    _ = W16 m ρ c (Proc.devRef .tc main_arg14) := by host_keep hostOps8
    _ = W15 m ρ c (Proc.devRef .tc main_arg14) := W16_of_ne m ρ c main_arg14 (by decide)
    _ = W14 m ρ c (Proc.devRef .tc main_arg14) := by host_keep hostOps7
    _ = W13 m ρ c (Proc.devRef .tc main_arg14) := W14_of_ne m ρ c main_arg14 (by decide)
    _ = W12 m ρ c (Proc.devRef .tc main_arg14) := by host_keep hostOps6
    _ = W11 m ρ c (Proc.devRef .tc main_arg14) := W12_of_ne m ρ c main_arg14 (by decide)
    _ = W10 m ρ c (Proc.devRef .tc main_arg14) := by host_keep hostOps5
    _ = W9 m ρ c (Proc.devRef .tc main_arg14) := W10_of_ne m ρ c main_arg14 (by decide)
    _ = W8 m ρ c (Proc.devRef .tc main_arg14) := by host_keep hostOps4
    _ = W7 m ρ c (Proc.devRef .tc main_arg14) := W8_of_ne m ρ c main_arg14 (by decide)
    _ = W6 m ρ c (Proc.devRef .tc main_arg14) := by host_keep hostOps3
    _ = W5 m ρ c (Proc.devRef .tc main_arg14) := W6_of_ne m ρ c main_arg14 (by decide)
    _ = W4 m ρ c (Proc.devRef .tc main_arg14) := by host_keep hostOps2
    _ = W3 m ρ c (Proc.devRef .tc main_arg14) := W4_of_ne m ρ c main_arg14 (by decide)
    _ = W2 m ρ c (Proc.devRef .tc main_arg14) := by host_keep hostOps1
    _ = W1 m ρ c (Proc.devRef .tc main_arg14) := W2_of_ne m ρ c main_arg14 (by decide)
    _ = W0 m ρ c (Proc.devRef .tc main_arg14) := by host_keep hostOps0

theorem keep_arg15_0_22 (c : Dev nD) : W22 m ρ c (Proc.devRef .tc main_arg15) = W0 m ρ c (Proc.devRef .tc main_arg15) :=
  calc W22 m ρ c (Proc.devRef .tc main_arg15)
    _ = W21 m ρ c (Proc.devRef .tc main_arg15) := W22_of_ne m ρ c main_arg15 (by decide)
    _ = W20 m ρ c (Proc.devRef .tc main_arg15) := by host_keep hostOps10
    _ = W19 m ρ c (Proc.devRef .tc main_arg15) := W20_of_ne m ρ c main_arg15 (by decide)
    _ = W18 m ρ c (Proc.devRef .tc main_arg15) := by host_keep hostOps9
    _ = W17 m ρ c (Proc.devRef .tc main_arg15) := W18_of_ne m ρ c main_arg15 (by decide)
    _ = W16 m ρ c (Proc.devRef .tc main_arg15) := by host_keep hostOps8
    _ = W15 m ρ c (Proc.devRef .tc main_arg15) := W16_of_ne m ρ c main_arg15 (by decide)
    _ = W14 m ρ c (Proc.devRef .tc main_arg15) := by host_keep hostOps7
    _ = W13 m ρ c (Proc.devRef .tc main_arg15) := W14_of_ne m ρ c main_arg15 (by decide)
    _ = W12 m ρ c (Proc.devRef .tc main_arg15) := by host_keep hostOps6
    _ = W11 m ρ c (Proc.devRef .tc main_arg15) := W12_of_ne m ρ c main_arg15 (by decide)
    _ = W10 m ρ c (Proc.devRef .tc main_arg15) := by host_keep hostOps5
    _ = W9 m ρ c (Proc.devRef .tc main_arg15) := W10_of_ne m ρ c main_arg15 (by decide)
    _ = W8 m ρ c (Proc.devRef .tc main_arg15) := by host_keep hostOps4
    _ = W7 m ρ c (Proc.devRef .tc main_arg15) := W8_of_ne m ρ c main_arg15 (by decide)
    _ = W6 m ρ c (Proc.devRef .tc main_arg15) := by host_keep hostOps3
    _ = W5 m ρ c (Proc.devRef .tc main_arg15) := W6_of_ne m ρ c main_arg15 (by decide)
    _ = W4 m ρ c (Proc.devRef .tc main_arg15) := by host_keep hostOps2
    _ = W3 m ρ c (Proc.devRef .tc main_arg15) := W4_of_ne m ρ c main_arg15 (by decide)
    _ = W2 m ρ c (Proc.devRef .tc main_arg15) := by host_keep hostOps1
    _ = W1 m ρ c (Proc.devRef .tc main_arg15) := W2_of_ne m ρ c main_arg15 (by decide)
    _ = W0 m ρ c (Proc.devRef .tc main_arg15) := by host_keep hostOps0

theorem keep_arg3_0_24 (c : Dev nD) : W24 m ρ c (Proc.devRef .tc main_arg3) = W0 m ρ c (Proc.devRef .tc main_arg3) :=
  calc W24 m ρ c (Proc.devRef .tc main_arg3)
    _ = W23 m ρ c (Proc.devRef .tc main_arg3) := W24_of_ne m ρ c main_arg3 (by decide)
    _ = W22 m ρ c (Proc.devRef .tc main_arg3) := by host_keep hostOps11
    _ = W21 m ρ c (Proc.devRef .tc main_arg3) := W22_of_ne m ρ c main_arg3 (by decide)
    _ = W20 m ρ c (Proc.devRef .tc main_arg3) := by host_keep hostOps10
    _ = W19 m ρ c (Proc.devRef .tc main_arg3) := W20_of_ne m ρ c main_arg3 (by decide)
    _ = W18 m ρ c (Proc.devRef .tc main_arg3) := by host_keep hostOps9
    _ = W17 m ρ c (Proc.devRef .tc main_arg3) := W18_of_ne m ρ c main_arg3 (by decide)
    _ = W16 m ρ c (Proc.devRef .tc main_arg3) := by host_keep hostOps8
    _ = W15 m ρ c (Proc.devRef .tc main_arg3) := W16_of_ne m ρ c main_arg3 (by decide)
    _ = W14 m ρ c (Proc.devRef .tc main_arg3) := by host_keep hostOps7
    _ = W13 m ρ c (Proc.devRef .tc main_arg3) := W14_of_ne m ρ c main_arg3 (by decide)
    _ = W12 m ρ c (Proc.devRef .tc main_arg3) := by host_keep hostOps6
    _ = W11 m ρ c (Proc.devRef .tc main_arg3) := W12_of_ne m ρ c main_arg3 (by decide)
    _ = W10 m ρ c (Proc.devRef .tc main_arg3) := by host_keep hostOps5
    _ = W9 m ρ c (Proc.devRef .tc main_arg3) := W10_of_ne m ρ c main_arg3 (by decide)
    _ = W8 m ρ c (Proc.devRef .tc main_arg3) := by host_keep hostOps4
    _ = W7 m ρ c (Proc.devRef .tc main_arg3) := W8_of_ne m ρ c main_arg3 (by decide)
    _ = W6 m ρ c (Proc.devRef .tc main_arg3) := by host_keep hostOps3
    _ = W5 m ρ c (Proc.devRef .tc main_arg3) := W6_of_ne m ρ c main_arg3 (by decide)
    _ = W4 m ρ c (Proc.devRef .tc main_arg3) := by host_keep hostOps2
    _ = W3 m ρ c (Proc.devRef .tc main_arg3) := W4_of_ne m ρ c main_arg3 (by decide)
    _ = W2 m ρ c (Proc.devRef .tc main_arg3) := by host_keep hostOps1
    _ = W1 m ρ c (Proc.devRef .tc main_arg3) := W2_of_ne m ρ c main_arg3 (by decide)
    _ = W0 m ρ c (Proc.devRef .tc main_arg3) := by host_keep hostOps0

theorem keep_arg16_0_24 (c : Dev nD) : W24 m ρ c (Proc.devRef .tc main_arg16) = W0 m ρ c (Proc.devRef .tc main_arg16) :=
  calc W24 m ρ c (Proc.devRef .tc main_arg16)
    _ = W23 m ρ c (Proc.devRef .tc main_arg16) := W24_of_ne m ρ c main_arg16 (by decide)
    _ = W22 m ρ c (Proc.devRef .tc main_arg16) := by host_keep hostOps11
    _ = W21 m ρ c (Proc.devRef .tc main_arg16) := W22_of_ne m ρ c main_arg16 (by decide)
    _ = W20 m ρ c (Proc.devRef .tc main_arg16) := by host_keep hostOps10
    _ = W19 m ρ c (Proc.devRef .tc main_arg16) := W20_of_ne m ρ c main_arg16 (by decide)
    _ = W18 m ρ c (Proc.devRef .tc main_arg16) := by host_keep hostOps9
    _ = W17 m ρ c (Proc.devRef .tc main_arg16) := W18_of_ne m ρ c main_arg16 (by decide)
    _ = W16 m ρ c (Proc.devRef .tc main_arg16) := by host_keep hostOps8
    _ = W15 m ρ c (Proc.devRef .tc main_arg16) := W16_of_ne m ρ c main_arg16 (by decide)
    _ = W14 m ρ c (Proc.devRef .tc main_arg16) := by host_keep hostOps7
    _ = W13 m ρ c (Proc.devRef .tc main_arg16) := W14_of_ne m ρ c main_arg16 (by decide)
    _ = W12 m ρ c (Proc.devRef .tc main_arg16) := by host_keep hostOps6
    _ = W11 m ρ c (Proc.devRef .tc main_arg16) := W12_of_ne m ρ c main_arg16 (by decide)
    _ = W10 m ρ c (Proc.devRef .tc main_arg16) := by host_keep hostOps5
    _ = W9 m ρ c (Proc.devRef .tc main_arg16) := W10_of_ne m ρ c main_arg16 (by decide)
    _ = W8 m ρ c (Proc.devRef .tc main_arg16) := by host_keep hostOps4
    _ = W7 m ρ c (Proc.devRef .tc main_arg16) := W8_of_ne m ρ c main_arg16 (by decide)
    _ = W6 m ρ c (Proc.devRef .tc main_arg16) := by host_keep hostOps3
    _ = W5 m ρ c (Proc.devRef .tc main_arg16) := W6_of_ne m ρ c main_arg16 (by decide)
    _ = W4 m ρ c (Proc.devRef .tc main_arg16) := by host_keep hostOps2
    _ = W3 m ρ c (Proc.devRef .tc main_arg16) := W4_of_ne m ρ c main_arg16 (by decide)
    _ = W2 m ρ c (Proc.devRef .tc main_arg16) := by host_keep hostOps1
    _ = W1 m ρ c (Proc.devRef .tc main_arg16) := W2_of_ne m ρ c main_arg16 (by decide)
    _ = W0 m ρ c (Proc.devRef .tc main_arg16) := by host_keep hostOps0

theorem keep_arg17_0_24 (c : Dev nD) : W24 m ρ c (Proc.devRef .tc main_arg17) = W0 m ρ c (Proc.devRef .tc main_arg17) :=
  calc W24 m ρ c (Proc.devRef .tc main_arg17)
    _ = W23 m ρ c (Proc.devRef .tc main_arg17) := W24_of_ne m ρ c main_arg17 (by decide)
    _ = W22 m ρ c (Proc.devRef .tc main_arg17) := by host_keep hostOps11
    _ = W21 m ρ c (Proc.devRef .tc main_arg17) := W22_of_ne m ρ c main_arg17 (by decide)
    _ = W20 m ρ c (Proc.devRef .tc main_arg17) := by host_keep hostOps10
    _ = W19 m ρ c (Proc.devRef .tc main_arg17) := W20_of_ne m ρ c main_arg17 (by decide)
    _ = W18 m ρ c (Proc.devRef .tc main_arg17) := by host_keep hostOps9
    _ = W17 m ρ c (Proc.devRef .tc main_arg17) := W18_of_ne m ρ c main_arg17 (by decide)
    _ = W16 m ρ c (Proc.devRef .tc main_arg17) := by host_keep hostOps8
    _ = W15 m ρ c (Proc.devRef .tc main_arg17) := W16_of_ne m ρ c main_arg17 (by decide)
    _ = W14 m ρ c (Proc.devRef .tc main_arg17) := by host_keep hostOps7
    _ = W13 m ρ c (Proc.devRef .tc main_arg17) := W14_of_ne m ρ c main_arg17 (by decide)
    _ = W12 m ρ c (Proc.devRef .tc main_arg17) := by host_keep hostOps6
    _ = W11 m ρ c (Proc.devRef .tc main_arg17) := W12_of_ne m ρ c main_arg17 (by decide)
    _ = W10 m ρ c (Proc.devRef .tc main_arg17) := by host_keep hostOps5
    _ = W9 m ρ c (Proc.devRef .tc main_arg17) := W10_of_ne m ρ c main_arg17 (by decide)
    _ = W8 m ρ c (Proc.devRef .tc main_arg17) := by host_keep hostOps4
    _ = W7 m ρ c (Proc.devRef .tc main_arg17) := W8_of_ne m ρ c main_arg17 (by decide)
    _ = W6 m ρ c (Proc.devRef .tc main_arg17) := by host_keep hostOps3
    _ = W5 m ρ c (Proc.devRef .tc main_arg17) := W6_of_ne m ρ c main_arg17 (by decide)
    _ = W4 m ρ c (Proc.devRef .tc main_arg17) := by host_keep hostOps2
    _ = W3 m ρ c (Proc.devRef .tc main_arg17) := W4_of_ne m ρ c main_arg17 (by decide)
    _ = W2 m ρ c (Proc.devRef .tc main_arg17) := by host_keep hostOps1
    _ = W1 m ρ c (Proc.devRef .tc main_arg17) := W2_of_ne m ρ c main_arg17 (by decide)
    _ = W0 m ρ c (Proc.devRef .tc main_arg17) := by host_keep hostOps0

theorem keep_v1_1_2 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem keep_v1_1_10 (c : Dev nD) : W10 m ρ c (Proc.devRef .tc main_v1) = W1 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := by host_keep hostOps4
    _ = W7 m ρ c (Proc.devRef .tc main_v1) := W8_of_ne m ρ c main_v1 (by decide)
    _ = W6 m ρ c (Proc.devRef .tc main_v1) := by host_keep hostOps3
    _ = W5 m ρ c (Proc.devRef .tc main_v1) := W6_of_ne m ρ c main_v1 (by decide)
    _ = W4 m ρ c (Proc.devRef .tc main_v1) := by host_keep hostOps2
    _ = W3 m ρ c (Proc.devRef .tc main_v1) := W4_of_ne m ρ c main_v1 (by decide)
    _ = W2 m ρ c (Proc.devRef .tc main_v1) := by host_keep hostOps1
    _ = W1 m ρ c (Proc.devRef .tc main_v1) := W2_of_ne m ρ c main_v1 (by decide)

theorem keep_v1_1_18 (c : Dev nD) : W18 m ρ c (Proc.devRef .tc main_v1) = W1 m ρ c (Proc.devRef .tc main_v1) :=
  calc W18 m ρ c (Proc.devRef .tc main_v1)
    _ = W17 m ρ c (Proc.devRef .tc main_v1) := W18_of_ne m ρ c main_v1 (by decide)
    _ = W16 m ρ c (Proc.devRef .tc main_v1) := by host_keep hostOps8
    _ = W15 m ρ c (Proc.devRef .tc main_v1) := W16_of_ne m ρ c main_v1 (by decide)
    _ = W14 m ρ c (Proc.devRef .tc main_v1) := by host_keep hostOps7
    _ = W13 m ρ c (Proc.devRef .tc main_v1) := W14_of_ne m ρ c main_v1 (by decide)
    _ = W12 m ρ c (Proc.devRef .tc main_v1) := by host_keep hostOps6
    _ = W11 m ρ c (Proc.devRef .tc main_v1) := W12_of_ne m ρ c main_v1 (by decide)
    _ = W10 m ρ c (Proc.devRef .tc main_v1) := by host_keep hostOps5
    _ = W9 m ρ c (Proc.devRef .tc main_v1) := W10_of_ne m ρ c main_v1 (by decide)
    _ = W8 m ρ c (Proc.devRef .tc main_v1) := by host_keep hostOps4
    _ = W7 m ρ c (Proc.devRef .tc main_v1) := W8_of_ne m ρ c main_v1 (by decide)
    _ = W6 m ρ c (Proc.devRef .tc main_v1) := by host_keep hostOps3
    _ = W5 m ρ c (Proc.devRef .tc main_v1) := W6_of_ne m ρ c main_v1 (by decide)
    _ = W4 m ρ c (Proc.devRef .tc main_v1) := by host_keep hostOps2
    _ = W3 m ρ c (Proc.devRef .tc main_v1) := W4_of_ne m ρ c main_v1 (by decide)
    _ = W2 m ρ c (Proc.devRef .tc main_v1) := by host_keep hostOps1
    _ = W1 m ρ c (Proc.devRef .tc main_v1) := W2_of_ne m ρ c main_v1 (by decide)

theorem keep_v3_1_2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem keep_v3_1_10 (c : Dev nD) : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by host_keep hostOps4
    _ = W7 m ρ c (Proc.devRef .tc main_v3) := W8_of_ne m ρ c main_v3 (by decide)
    _ = W6 m ρ c (Proc.devRef .tc main_v3) := by host_keep hostOps3
    _ = W5 m ρ c (Proc.devRef .tc main_v3) := W6_of_ne m ρ c main_v3 (by decide)
    _ = W4 m ρ c (Proc.devRef .tc main_v3) := by host_keep hostOps2
    _ = W3 m ρ c (Proc.devRef .tc main_v3) := W4_of_ne m ρ c main_v3 (by decide)
    _ = W2 m ρ c (Proc.devRef .tc main_v3) := by host_keep hostOps1
    _ = W1 m ρ c (Proc.devRef .tc main_v3) := W2_of_ne m ρ c main_v3 (by decide)

theorem keep_v3_1_18 (c : Dev nD) : W18 m ρ c (Proc.devRef .tc main_v3) = W1 m ρ c (Proc.devRef .tc main_v3) :=
  calc W18 m ρ c (Proc.devRef .tc main_v3)
    _ = W17 m ρ c (Proc.devRef .tc main_v3) := W18_of_ne m ρ c main_v3 (by decide)
    _ = W16 m ρ c (Proc.devRef .tc main_v3) := by host_keep hostOps8
    _ = W15 m ρ c (Proc.devRef .tc main_v3) := W16_of_ne m ρ c main_v3 (by decide)
    _ = W14 m ρ c (Proc.devRef .tc main_v3) := by host_keep hostOps7
    _ = W13 m ρ c (Proc.devRef .tc main_v3) := W14_of_ne m ρ c main_v3 (by decide)
    _ = W12 m ρ c (Proc.devRef .tc main_v3) := by host_keep hostOps6
    _ = W11 m ρ c (Proc.devRef .tc main_v3) := W12_of_ne m ρ c main_v3 (by decide)
    _ = W10 m ρ c (Proc.devRef .tc main_v3) := by host_keep hostOps5
    _ = W9 m ρ c (Proc.devRef .tc main_v3) := W10_of_ne m ρ c main_v3 (by decide)
    _ = W8 m ρ c (Proc.devRef .tc main_v3) := by host_keep hostOps4
    _ = W7 m ρ c (Proc.devRef .tc main_v3) := W8_of_ne m ρ c main_v3 (by decide)
    _ = W6 m ρ c (Proc.devRef .tc main_v3) := by host_keep hostOps3
    _ = W5 m ρ c (Proc.devRef .tc main_v3) := W6_of_ne m ρ c main_v3 (by decide)
    _ = W4 m ρ c (Proc.devRef .tc main_v3) := by host_keep hostOps2
    _ = W3 m ρ c (Proc.devRef .tc main_v3) := W4_of_ne m ρ c main_v3 (by decide)
    _ = W2 m ρ c (Proc.devRef .tc main_v3) := by host_keep hostOps1
    _ = W1 m ρ c (Proc.devRef .tc main_v3) := W2_of_ne m ρ c main_v3 (by decide)

theorem keep_v30_1_2 (c : Dev nD) : W2 m ρ c (Proc.devRef .tc main_v30) = W1 m ρ c (Proc.devRef .tc main_v30) :=
  calc W2 m ρ c (Proc.devRef .tc main_v30)
    _ = W1 m ρ c (Proc.devRef .tc main_v30) := W2_of_ne m ρ c main_v30 (by decide)

theorem keep_v30_1_10 (c : Dev nD) : W10 m ρ c (Proc.devRef .tc main_v30) = W1 m ρ c (Proc.devRef .tc main_v30) :=
  calc W10 m ρ c (Proc.devRef .tc main_v30)
    _ = W9 m ρ c (Proc.devRef .tc main_v30) := W10_of_ne m ρ c main_v30 (by decide)
    _ = W8 m ρ c (Proc.devRef .tc main_v30) := by host_keep hostOps4
    _ = W7 m ρ c (Proc.devRef .tc main_v30) := W8_of_ne m ρ c main_v30 (by decide)
    _ = W6 m ρ c (Proc.devRef .tc main_v30) := by host_keep hostOps3
    _ = W5 m ρ c (Proc.devRef .tc main_v30) := W6_of_ne m ρ c main_v30 (by decide)
    _ = W4 m ρ c (Proc.devRef .tc main_v30) := by host_keep hostOps2
    _ = W3 m ρ c (Proc.devRef .tc main_v30) := W4_of_ne m ρ c main_v30 (by decide)
    _ = W2 m ρ c (Proc.devRef .tc main_v30) := by host_keep hostOps1
    _ = W1 m ρ c (Proc.devRef .tc main_v30) := W2_of_ne m ρ c main_v30 (by decide)

theorem keep_v30_1_18 (c : Dev nD) : W18 m ρ c (Proc.devRef .tc main_v30) = W1 m ρ c (Proc.devRef .tc main_v30) :=
  calc W18 m ρ c (Proc.devRef .tc main_v30)
    _ = W17 m ρ c (Proc.devRef .tc main_v30) := W18_of_ne m ρ c main_v30 (by decide)
    _ = W16 m ρ c (Proc.devRef .tc main_v30) := by host_keep hostOps8
    _ = W15 m ρ c (Proc.devRef .tc main_v30) := W16_of_ne m ρ c main_v30 (by decide)
    _ = W14 m ρ c (Proc.devRef .tc main_v30) := by host_keep hostOps7
    _ = W13 m ρ c (Proc.devRef .tc main_v30) := W14_of_ne m ρ c main_v30 (by decide)
    _ = W12 m ρ c (Proc.devRef .tc main_v30) := by host_keep hostOps6
    _ = W11 m ρ c (Proc.devRef .tc main_v30) := W12_of_ne m ρ c main_v30 (by decide)
    _ = W10 m ρ c (Proc.devRef .tc main_v30) := by host_keep hostOps5
    _ = W9 m ρ c (Proc.devRef .tc main_v30) := W10_of_ne m ρ c main_v30 (by decide)
    _ = W8 m ρ c (Proc.devRef .tc main_v30) := by host_keep hostOps4
    _ = W7 m ρ c (Proc.devRef .tc main_v30) := W8_of_ne m ρ c main_v30 (by decide)
    _ = W6 m ρ c (Proc.devRef .tc main_v30) := by host_keep hostOps3
    _ = W5 m ρ c (Proc.devRef .tc main_v30) := W6_of_ne m ρ c main_v30 (by decide)
    _ = W4 m ρ c (Proc.devRef .tc main_v30) := by host_keep hostOps2
    _ = W3 m ρ c (Proc.devRef .tc main_v30) := W4_of_ne m ρ c main_v30 (by decide)
    _ = W2 m ρ c (Proc.devRef .tc main_v30) := by host_keep hostOps1
    _ = W1 m ρ c (Proc.devRef .tc main_v30) := W2_of_ne m ρ c main_v30 (by decide)

theorem keep_v31_1_2 (c : Dev nD) : W2 m ρ c (Proc.devRef .tc main_v31) = W1 m ρ c (Proc.devRef .tc main_v31) :=
  calc W2 m ρ c (Proc.devRef .tc main_v31)
    _ = W1 m ρ c (Proc.devRef .tc main_v31) := W2_of_ne m ρ c main_v31 (by decide)

theorem keep_v31_1_10 (c : Dev nD) : W10 m ρ c (Proc.devRef .tc main_v31) = W1 m ρ c (Proc.devRef .tc main_v31) :=
  calc W10 m ρ c (Proc.devRef .tc main_v31)
    _ = W9 m ρ c (Proc.devRef .tc main_v31) := W10_of_ne m ρ c main_v31 (by decide)
    _ = W8 m ρ c (Proc.devRef .tc main_v31) := by host_keep hostOps4
    _ = W7 m ρ c (Proc.devRef .tc main_v31) := W8_of_ne m ρ c main_v31 (by decide)
    _ = W6 m ρ c (Proc.devRef .tc main_v31) := by host_keep hostOps3
    _ = W5 m ρ c (Proc.devRef .tc main_v31) := W6_of_ne m ρ c main_v31 (by decide)
    _ = W4 m ρ c (Proc.devRef .tc main_v31) := by host_keep hostOps2
    _ = W3 m ρ c (Proc.devRef .tc main_v31) := W4_of_ne m ρ c main_v31 (by decide)
    _ = W2 m ρ c (Proc.devRef .tc main_v31) := by host_keep hostOps1
    _ = W1 m ρ c (Proc.devRef .tc main_v31) := W2_of_ne m ρ c main_v31 (by decide)

theorem keep_v31_1_18 (c : Dev nD) : W18 m ρ c (Proc.devRef .tc main_v31) = W1 m ρ c (Proc.devRef .tc main_v31) :=
  calc W18 m ρ c (Proc.devRef .tc main_v31)
    _ = W17 m ρ c (Proc.devRef .tc main_v31) := W18_of_ne m ρ c main_v31 (by decide)
    _ = W16 m ρ c (Proc.devRef .tc main_v31) := by host_keep hostOps8
    _ = W15 m ρ c (Proc.devRef .tc main_v31) := W16_of_ne m ρ c main_v31 (by decide)
    _ = W14 m ρ c (Proc.devRef .tc main_v31) := by host_keep hostOps7
    _ = W13 m ρ c (Proc.devRef .tc main_v31) := W14_of_ne m ρ c main_v31 (by decide)
    _ = W12 m ρ c (Proc.devRef .tc main_v31) := by host_keep hostOps6
    _ = W11 m ρ c (Proc.devRef .tc main_v31) := W12_of_ne m ρ c main_v31 (by decide)
    _ = W10 m ρ c (Proc.devRef .tc main_v31) := by host_keep hostOps5
    _ = W9 m ρ c (Proc.devRef .tc main_v31) := W10_of_ne m ρ c main_v31 (by decide)
    _ = W8 m ρ c (Proc.devRef .tc main_v31) := by host_keep hostOps4
    _ = W7 m ρ c (Proc.devRef .tc main_v31) := W8_of_ne m ρ c main_v31 (by decide)
    _ = W6 m ρ c (Proc.devRef .tc main_v31) := by host_keep hostOps3
    _ = W5 m ρ c (Proc.devRef .tc main_v31) := W6_of_ne m ρ c main_v31 (by decide)
    _ = W4 m ρ c (Proc.devRef .tc main_v31) := by host_keep hostOps2
    _ = W3 m ρ c (Proc.devRef .tc main_v31) := W4_of_ne m ρ c main_v31 (by decide)
    _ = W2 m ρ c (Proc.devRef .tc main_v31) := by host_keep hostOps1
    _ = W1 m ρ c (Proc.devRef .tc main_v31) := W2_of_ne m ρ c main_v31 (by decide)

theorem keep_v56_3_5 (c : Dev nD) : W5 m ρ c (Proc.devRef .tc main_v56) = W3 m ρ c (Proc.devRef .tc main_v56) :=
  calc W5 m ρ c (Proc.devRef .tc main_v56)
    _ = W4 m ρ c (Proc.devRef .tc main_v56) := by host_keep hostOps2
    _ = W3 m ρ c (Proc.devRef .tc main_v56) := (W4_arr m ρ c 0).trans (((dat1 (V3 m ρ) c).arrAt_in 0 rfl _).trans (A_eq1 (V3 m ρ) c 0))

theorem keep_v56_3_7 (c : Dev nD) : W7 m ρ c (Proc.devRef .tc main_v56) = W3 m ρ c (Proc.devRef .tc main_v56) :=
  calc W7 m ρ c (Proc.devRef .tc main_v56)
    _ = W6 m ρ c (Proc.devRef .tc main_v56) := by host_keep hostOps3
    _ = W5 m ρ c (Proc.devRef .tc main_v56) := (W6_arr m ρ c 0).trans (((dat2 (V5 m ρ) c).arrAt_in 0 rfl _).trans (A_eq2 (V5 m ρ) c 0))
    _ = W4 m ρ c (Proc.devRef .tc main_v56) := by host_keep hostOps2
    _ = W3 m ρ c (Proc.devRef .tc main_v56) := (W4_arr m ρ c 0).trans (((dat1 (V3 m ρ) c).arrAt_in 0 rfl _).trans (A_eq1 (V3 m ρ) c 0))

theorem keep_v108_11_13 (c : Dev nD) : W13 m ρ c (Proc.devRef .tc main_v108) = W11 m ρ c (Proc.devRef .tc main_v108) :=
  calc W13 m ρ c (Proc.devRef .tc main_v108)
    _ = W12 m ρ c (Proc.devRef .tc main_v108) := by host_keep hostOps6
    _ = W11 m ρ c (Proc.devRef .tc main_v108) := (W12_arr m ρ c 0).trans (((dat5 (V11 m ρ) c).arrAt_in 0 rfl _).trans (A_eq5 (V11 m ρ) c 0))

theorem keep_v108_11_15 (c : Dev nD) : W15 m ρ c (Proc.devRef .tc main_v108) = W11 m ρ c (Proc.devRef .tc main_v108) :=
  calc W15 m ρ c (Proc.devRef .tc main_v108)
    _ = W14 m ρ c (Proc.devRef .tc main_v108) := by host_keep hostOps7
    _ = W13 m ρ c (Proc.devRef .tc main_v108) := (W14_arr m ρ c 0).trans (((dat6 (V13 m ρ) c).arrAt_in 0 rfl _).trans (A_eq6 (V13 m ρ) c 0))
    _ = W12 m ρ c (Proc.devRef .tc main_v108) := by host_keep hostOps6
    _ = W11 m ρ c (Proc.devRef .tc main_v108) := (W12_arr m ρ c 0).trans (((dat5 (V11 m ρ) c).arrAt_in 0 rfl _).trans (A_eq5 (V11 m ρ) c 0))

theorem keep_v160_19_21 (c : Dev nD) : W21 m ρ c (Proc.devRef .tc main_v160) = W19 m ρ c (Proc.devRef .tc main_v160) :=
  calc W21 m ρ c (Proc.devRef .tc main_v160)
    _ = W20 m ρ c (Proc.devRef .tc main_v160) := by host_keep hostOps10
    _ = W19 m ρ c (Proc.devRef .tc main_v160) := (W20_arr m ρ c 0).trans (((dat9 (V19 m ρ) c).arrAt_in 0 rfl _).trans (A_eq9 (V19 m ρ) c 0))

theorem keep_v160_19_23 (c : Dev nD) : W23 m ρ c (Proc.devRef .tc main_v160) = W19 m ρ c (Proc.devRef .tc main_v160) :=
  calc W23 m ρ c (Proc.devRef .tc main_v160)
    _ = W22 m ρ c (Proc.devRef .tc main_v160) := by host_keep hostOps11
    _ = W21 m ρ c (Proc.devRef .tc main_v160) := (W22_arr m ρ c 0).trans (((dat10 (V21 m ρ) c).arrAt_in 0 rfl _).trans (A_eq10 (V21 m ρ) c 0))
    _ = W20 m ρ c (Proc.devRef .tc main_v160) := by host_keep hostOps10
    _ = W19 m ρ c (Proc.devRef .tc main_v160) := (W20_arr m ρ c 0).trans (((dat9 (V19 m ρ) c).arrAt_in 0 rfl _).trans (A_eq9 (V19 m ρ) c 0))

theorem keep_v63_5_6 (c : Dev nD) : W6 m ρ c (Proc.devRef .tc main_v63) = W5 m ρ c (Proc.devRef .tc main_v63) :=
  calc W6 m ρ c (Proc.devRef .tc main_v63)
    _ = W5 m ρ c (Proc.devRef .tc main_v63) := W6_of_ne m ρ c main_v63 (by decide)

theorem keep_v115_13_14 (c : Dev nD) : W14 m ρ c (Proc.devRef .tc main_v115) = W13 m ρ c (Proc.devRef .tc main_v115) :=
  calc W14 m ρ c (Proc.devRef .tc main_v115)
    _ = W13 m ρ c (Proc.devRef .tc main_v115) := W14_of_ne m ρ c main_v115 (by decide)

theorem keep_v167_21_22 (c : Dev nD) : W22 m ρ c (Proc.devRef .tc main_v167) = W21 m ρ c (Proc.devRef .tc main_v167) :=
  calc W22 m ρ c (Proc.devRef .tc main_v167)
    _ = W21 m ρ c (Proc.devRef .tc main_v167) := W22_of_ne m ρ c main_v167 (by decide)

end Cert.KernelIdeal.Keep

end
-- ==== Proof.LibMatmulPlain.lean ====
/-
  A matrix product into a zero accumulator, read at an entry, on the extended reals.

  For the plain dimension numbers (contract the left operand's axis 1 with the right operand's axis 0, no batch
  axes: an M x K matrix times a K x N matrix), the entry (p, q) of the product accumulated into the zero matrix is
  the sum over k of left (p, k) times right (k, q).  No program is imported: the dimension record is a variable,
  constrained only by its six lists.
-/
import Idealize.ShloMosaic.PureOps.Ideal.Laws
import Idealize.ShloMosaic.Lib.ValueIdx

noncomputable section

namespace Cert.LibMatmulPlain

open Idealize.ShloMosaic Idealize.ShloMosaic.ValueIdx

/-- Entry (p, q) of an M x K by K x N product into the zero accumulator is the sum over the contracted axis. -/
theorem matmul_zero_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ k : Fin K, l (ix2 p k) * r (ix2 k q) := by
  obtain ⟨lc, rc, ln, rn, lb, rb, wf⟩ := D
  dsimp only at h1 h2 h3 h4 h5 h6
  subst h1 h2 h3 h4 h5 h6
  refine (Ideal.matmul_constant_zero_apply _ none l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibMatmulPlain

end
-- ==== Proof.ValLinear0.lean ====
/-
  Region 0 (matrix product plus bias), read as arrays: after the region, entry (p, q) of each of its two output
  arrays is the sum over k of a (p, k) * w (k, q), plus b q, of its three input arrays as the region finds them (on the
  extended reals the rounding of the second output is the identity).  The body's stored value is read at an entry of a
  block; each block of the grid is a row block of the arrays; the row blocks cover each output.
-/
import proofs.«133142_j1864015807124_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«133142_j1864015807124_2_alg».proof.Proof.ValSpecA
import proofs.«133142_j1864015807124_2_alg».proof.Proof.LibMatmulPlain

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The body's first stored value at entry (p, q) of a block: row p of the input block times column q of the weights,
    plus the bias's entry q (the product accumulates into zero; rounding the operands is the identity on the extended
    reals; the bias is broadcast over the rows). -/
theorem pay0_apply (x0 : Vec Ideal S4000x100 .f32) (x1 : Vec Ideal S100x64 .f32) (x2 : Vec Ideal S64 .f32)
    (p : Fin 4000) (q : Fin 64) :
    k0_pay1 x0 x1 x2 (ix2 p q) = (∑ k : Fin 100, x0 (ix2 p k) * x1 (ix2 k q)) + x2 (ix1 q) := by
  unfold k0_pay1
  rw [addf_apply, broadcastTo_1b_ab_apply, shapeCast_a_1a_apply]
  refine congrArg (fun z => z + x2 (ix1 q)) ?_
  exact Cert.LibMatmulPlain.matmul_zero_apply dot_S4000x100_S100x64_S4000x64_1_0_0_1_n_n rfl rfl rfl rfl rfl rfl
    (truncf .bf16 x0 bitsLt_bf16_f32) (truncf .bf16 x1 bitsLt_bf16_f32) p q

/-- The body's second stored value is the first, rounded: the same entry on the extended reals. -/
theorem pay0r_apply (x0 : Vec Ideal S4000x100 .f32) (x1 : Vec Ideal S100x64 .f32) (x2 : Vec Ideal S64 .f32)
    (p : Fin 4000) (q : Fin 64) :
    k0_pay2 x0 x1 x2 (ix2 p q) = (∑ k : Fin 100, x0 (ix2 p k) * x1 (ix2 k q)) + x2 (ix1 q) := by
  unfold k0_pay2
  exact pay0_apply x0 x1 x2 p q

/-- The index maps over the grid: point t reads row block t of the input and writes row block t of each output,
    column block 0; the weights and the bias are whole at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Entry (p, k) of the input's block at point t is entry (4000 t + p, k) of the input array. -/
theorem emb0_0 (t : Fin cfg0.N) (p : Fin 4000) (k : Fin 100) (hb : t.val * 4000 + p.val < 100000) :
    ((cfg0.win 0).blk t).view.emb (ix2 p k) = ix2 (⟨t.val * 4000 + p.val, hb⟩ : Fin 100000) k := by
  obtain ⟨e0, e1, e2, e3, e4, e5, e6, e7, e8⟩ := idx_facts0 t
  funext a; apply Fin.ext
  match a with
  | ⟨0, _⟩ => show win0_0.index t (0 : Fin 2) * 4000 + 1 * p.val = t.val * 4000 + p.val; omega
  | ⟨1, _⟩ => show win0_0.index t (1 : Fin 2) * 100 + 1 * k.val = k.val; omega

/-- The weights' block at every point is the whole matrix. -/
theorem emb0_1 (t : Fin cfg0.N) (k : Fin 100) (q : Fin 64) : ((cfg0.win 1).blk t).view.emb (ix2 k q) = ix2 k q := by
  obtain ⟨e0, e1, e2, e3, e4, e5, e6, e7, e8⟩ := idx_facts0 t
  funext a; apply Fin.ext
  match a with
  | ⟨0, _⟩ => show win0_1.index t (0 : Fin 2) * 100 + 1 * k.val = k.val; omega
  | ⟨1, _⟩ => show win0_1.index t (1 : Fin 2) * 64 + 1 * q.val = q.val; omega

/-- The bias's block at every point is the whole vector. -/
theorem emb0_2 (t : Fin cfg0.N) (q : Fin 64) : ((cfg0.win 2).blk t).view.emb (ix1 q) = ix1 q := by
  obtain ⟨e0, e1, e2, e3, e4, e5, e6, e7, e8⟩ := idx_facts0 t
  funext a; apply Fin.ext
  match a with
  | ⟨0, _⟩ => show win0_2.index t (0 : Fin 1) * 64 + 1 * q.val = q.val; omega

/-- Entry (p, q) of the first output's block at point t is entry (4000 t + p, q) of its array. -/
theorem emb0_3 (t : Fin cfg0.N) (p : Fin 4000) (q : Fin 64) (hb : t.val * 4000 + p.val < 100000) :
    ((cfg0.win 3).blk t).view.emb (ix2 p q) = ix2 (⟨t.val * 4000 + p.val, hb⟩ : Fin 100000) q := by
  obtain ⟨e0, e1, e2, e3, e4, e5, e6, e7, e8⟩ := idx_facts0 t
  funext a; apply Fin.ext
  match a with
  | ⟨0, _⟩ => show win0_3.index t (0 : Fin 2) * 4000 + 1 * p.val = t.val * 4000 + p.val; omega
  | ⟨1, _⟩ => show win0_3.index t (1 : Fin 2) * 64 + 1 * q.val = q.val; omega

/-- Entry (p, q) of the second output's block at point t is entry (4000 t + p, q) of its array. -/
theorem emb0_4 (t : Fin cfg0.N) (p : Fin 4000) (q : Fin 64) (hb : t.val * 4000 + p.val < 100000) :
    ((cfg0.win 4).blk t).view.emb (ix2 p q) = ix2 (⟨t.val * 4000 + p.val, hb⟩ : Fin 100000) q := by
  obtain ⟨e0, e1, e2, e3, e4, e5, e6, e7, e8⟩ := idx_facts0 t
  funext a; apply Fin.ext
  match a with
  | ⟨0, _⟩ => show win0_4.index t (0 : Fin 2) * 4000 + 1 * p.val = t.val * 4000 + p.val; omega
  | ⟨1, _⟩ => show win0_4.index t (1 : Fin 2) * 64 + 1 * q.val = q.val; omega

/-- The input's block at point t, read at (p, k). -/
theorem iblk0_0_apply (c : Dev nD) (a : S100000x100.Idx → EReal) (h0 : V c (Pipeline.arrRef spec0 0) = a)
    (t : Fin cfg0.N) (p : Fin 4000) (k : Fin 100) (hb : t.val * 4000 + p.val < 100000) :
    iblk0 V c 0 t (ix2 p k) = a (ix2 (⟨t.val * 4000 + p.val, hb⟩ : Fin 100000) k) := by
  subst h0
  show V c (Pipeline.arrRef spec0 0) (((cfg0.win 0).blk t).view.emb (ix2 p k)) = _
  rw [emb0_0 t p k hb]

/-- The weights' block at point t, read at (k, q). -/
theorem iblk0_1_apply (c : Dev nD) (w : S100x64.Idx → EReal) (h1 : V c (Pipeline.arrRef spec0 1) = w)
    (t : Fin cfg0.N) (k : Fin 100) (q : Fin 64) : iblk0 V c 1 t (ix2 k q) = w (ix2 k q) := by
  subst h1
  show V c (Pipeline.arrRef spec0 1) (((cfg0.win 1).blk t).view.emb (ix2 k q)) = _
  rw [emb0_1 t k q]

/-- The bias's block at point t, read at q. -/
theorem iblk0_2_apply (c : Dev nD) (b : S64.Idx → EReal) (h2 : V c (Pipeline.arrRef spec0 2) = b)
    (t : Fin cfg0.N) (q : Fin 64) : iblk0 V c 2 t (ix1 q) = b (ix1 q) := by
  subst h2
  show V c (Pipeline.arrRef spec0 2) (((cfg0.win 2).blk t).view.emb (ix1 q)) = _
  rw [emb0_2 t q]

/-- Row p of a block times column q of the weights plus the bias's entry q is entry (P, q) of the product plus bias,
    when row p of the block is row P of the array and the weights' and the bias's blocks are whole. -/
theorem blocks0_apply (a : S100000x100.Idx → EReal) (w : S100x64.Idx → EReal) (b : S64.Idx → EReal)
    (x0 : Vec Ideal S4000x100 .f32) (x1 : Vec Ideal S100x64 .f32) (x2 : Vec Ideal S64 .f32)
    (P : Fin 100000) (p : Fin 4000) (q : Fin 64)
    (hx0 : ∀ k : Fin 100, x0 (ix2 p k) = a (ix2 P k)) (hx1 : ∀ k : Fin 100, x1 (ix2 k q) = w (ix2 k q))
    (hx2 : x2 (ix1 q) = b (ix1 q)) :
    (∑ k : Fin 100, x0 (ix2 p k) * x1 (ix2 k q)) + x2 (ix1 q) = linear a w b (ix2 P q) := by
  rw [linear_apply, hx2]
  refine congrArg (fun z => z + b (ix1 q)) (Finset.sum_congr rfl fun k _ => ?_)
  rw [hx0 k, hx1 k]

/-- What point t writes back to the first output is block t of the product plus bias. -/
theorem flushed0_3_eq (c : Dev nD) (a : S100000x100.Idx → EReal) (w : S100x64.Idx → EReal) (b : S64.Idx → EReal)
    (h0 : V c (Pipeline.arrRef spec0 0) = a) (h1 : V c (Pipeline.arrRef spec0 1) = w)
    (h2 : V c (Pipeline.arrRef spec0 2) = b) (t : Fin cfg0.N) :
    (dat0 (F := Ideal) V c).flushed 3 t = ((cfg0.win 3).blk t).view.read (Elt Ideal) (linear a w b) := by
  show (cfg0.win 3).cut (grid0.coords t) ((dat0 (F := Ideal) V c).after 3 t) = _
  rw [after0_3]
  unfold out0_3
  rw [View.canon_unit_zero hz2]
  simp only [View.ld_unit_zero (S := S4000x100) hz2, View.ld_unit_zero (S := S100x64) hz2, View.ld_unit_zero (S := S64) hz1]
  funext j
  obtain ⟨p, q, rfl⟩ : ∃ (p : Fin 4000) (q : Fin 64), j = ix2 p q := ⟨j 0, j 1, eq_ix2 j⟩
  have hN : cfg0.N = 25 := N_0
  have ht : t.val < 25 := hN ▸ t.isLt
  have hb : t.val * 4000 + p.val < 100000 := by omega
  show k0_pay1 (iblk0 V c 0 t) (iblk0 V c 1 t) (iblk0 V c 2 t) (ix2 p q)
    = linear a w b (((cfg0.win 3).blk t).view.emb (ix2 p q))
  refine (pay0_apply (iblk0 V c 0 t) (iblk0 V c 1 t) (iblk0 V c 2 t) p q).trans ?_
  rw [emb0_3 t p q hb]
  exact blocks0_apply a w b (iblk0 V c 0 t) (iblk0 V c 1 t) (iblk0 V c 2 t) ⟨t.val * 4000 + p.val, hb⟩ p q
    (fun k => iblk0_0_apply V c a h0 t p k hb) (fun k => iblk0_1_apply V c w h1 t k q) (iblk0_2_apply V c b h2 t q)

/-- What point t writes back to the second output is block t of the product plus bias. -/
theorem flushed0_4_eq (c : Dev nD) (a : S100000x100.Idx → EReal) (w : S100x64.Idx → EReal) (b : S64.Idx → EReal)
    (h0 : V c (Pipeline.arrRef spec0 0) = a) (h1 : V c (Pipeline.arrRef spec0 1) = w)
    (h2 : V c (Pipeline.arrRef spec0 2) = b) (t : Fin cfg0.N) :
    (dat0 (F := Ideal) V c).flushed 4 t = ((cfg0.win 4).blk t).view.read (Elt Ideal) (linear a w b) := by
  show (cfg0.win 4).cut (grid0.coords t) ((dat0 (F := Ideal) V c).after 4 t) = _
  rw [after0_4]
  unfold out0_4
  rw [View.canon_unit_zero hz2]
  simp only [View.ld_unit_zero (S := S4000x100) hz2, View.ld_unit_zero (S := S100x64) hz2, View.ld_unit_zero (S := S64) hz1]
  funext j
  obtain ⟨p, q, rfl⟩ : ∃ (p : Fin 4000) (q : Fin 64), j = ix2 p q := ⟨j 0, j 1, eq_ix2 j⟩
  have hN : cfg0.N = 25 := N_0
  have ht : t.val < 25 := hN ▸ t.isLt
  have hb : t.val * 4000 + p.val < 100000 := by omega
  show k0_pay2 (iblk0 V c 0 t) (iblk0 V c 1 t) (iblk0 V c 2 t) (ix2 p q)
    = linear a w b (((cfg0.win 4).blk t).view.emb (ix2 p q))
  refine (pay0r_apply (iblk0 V c 0 t) (iblk0 V c 1 t) (iblk0 V c 2 t) p q).trans ?_
  rw [emb0_4 t p q hb]
  exact blocks0_apply a w b (iblk0 V c 0 t) (iblk0 V c 1 t) (iblk0 V c 2 t) ⟨t.val * 4000 + p.val, hb⟩ p q
    (fun k => iblk0_0_apply V c a h0 t p k hb) (fun k => iblk0_1_apply V c w h1 t k q) (iblk0_2_apply V c b h2 t q)

/-- An index of the first output is in point t's block iff each coordinate is in the block's range on its axis. -/
theorem mem_blk0_3 (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v32_0).slice (win0_3.rect t)).set ↔ _
  rw [View.set_slice_whole, Rect.mem_set_unit]
  exact Iff.rfl

/-- An index of the second output is in point t's block iff each coordinate is in the block's range on its axis. -/
theorem mem_blk0_4 (t : Fin cfg0.N) (i : S100000x64.Idx) :
    i ∈ ((cfg0.win 4).blk t).view.set ↔ ∀ a : Fin 2, win0_4.index t a * S4000x64.size a ≤ (i a).val ∧ (i a).val < win0_4.index t a * S4000x64.size a + S4000x64.size a := by
  show i ∈ ((View.whole main_v32_1).slice (win0_4.rect t)).set ↔ _
  rw [View.set_slice_whole, Rect.mem_set_unit]
  exact Iff.rfl

/-- Every entry of the first output is in some point's block: row p is in the block of point p / 4000. -/
theorem cover0_3 (i : S100000x64.Idx) :
    ∃ t : Fin cfg0.N, (cfg0.win 3).flush t = true ∧ i ∈ ((cfg0.win 3).blk t).view.set := by
  have hN : cfg0.N = 25 := N_0
  have hi0 : (i 0).val < 100000 := (i 0).isLt
  have hi1 : (i 1).val < 64 := (i 1).isLt
  refine ⟨⟨(i 0).val / 4000, by rw [hN]; omega⟩, flush0_3 _, ?_⟩
  rw [mem_blk0_3]
  obtain ⟨e0, e1, e2, e3, e4, e5, e6, e7, e8⟩ := idx_facts0 ⟨(i 0).val / 4000, by rw [hN]; omega⟩
  intro a
  match a with
  | ⟨0, _⟩ =>
    show win0_3.index _ (0 : Fin 2) * 4000 ≤ (i 0).val ∧ (i 0).val < win0_3.index _ (0 : Fin 2) * 4000 + 4000
    rw [e5]; show (i 0).val / 4000 * 4000 ≤ (i 0).val ∧ (i 0).val < (i 0).val / 4000 * 4000 + 4000; omega
  | ⟨1, _⟩ =>
    show win0_3.index _ (1 : Fin 2) * 64 ≤ (i 1).val ∧ (i 1).val < win0_3.index _ (1 : Fin 2) * 64 + 64
    rw [e6]; omega

/-- Every entry of the second output is in some point's block: row p is in the block of point p / 4000. -/
theorem cover0_4 (i : S100000x64.Idx) :
    ∃ t : Fin cfg0.N, (cfg0.win 4).flush t = true ∧ i ∈ ((cfg0.win 4).blk t).view.set := by
  have hN : cfg0.N = 25 := N_0
  have hi0 : (i 0).val < 100000 := (i 0).isLt
  have hi1 : (i 1).val < 64 := (i 1).isLt
  refine ⟨⟨(i 0).val / 4000, by rw [hN]; omega⟩, flush0_4 _, ?_⟩
  rw [mem_blk0_4]
  obtain ⟨e0, e1, e2, e3, e4, e5, e6, e7, e8⟩ := idx_facts0 ⟨(i 0).val / 4000, by rw [hN]; omega⟩
  intro a
  match a with
  | ⟨0, _⟩ =>
    show win0_4.index _ (0 : Fin 2) * 4000 ≤ (i 0).val ∧ (i 0).val < win0_4.index _ (0 : Fin 2) * 4000 + 4000
    rw [e7]; show (i 0).val / 4000 * 4000 ≤ (i 0).val ∧ (i 0).val < (i 0).val / 4000 * 4000 + 4000; omega
  | ⟨1, _⟩ =>
    show win0_4.index _ (1 : Fin 2) * 64 ≤ (i 1).val ∧ (i 1).val < win0_4.index _ (1 : Fin 2) * 64 + 64
    rw [e8]; omega

/-- The first output array after the region: the product of the input array and the weights, plus the bias. -/
theorem lin0_f32_fun (c : Dev nD) (a : S100000x100.Idx → EReal) (w : S100x64.Idx → EReal) (b : S64.Idx → EReal)
    (h0 : V c (Pipeline.arrRef spec0 0) = a) (h1 : V c (Pipeline.arrRef spec0 1) = w)
    (h2 : V c (Pipeline.arrRef spec0 2) = b) :
    (dat0 (F := Ideal) V c).arrAt 3 cfg0.N = linear a w b :=
  (dat0 (F := Ideal) V c).arrAt_eq_of_cover 3 (linear a w b)
    (fun t _ => flushed0_3_eq V c a w b h0 h1 h2 t) cover0_3

/-- The second output array after the region: the same function. -/
theorem lin0_bf16_fun (c : Dev nD) (a : S100000x100.Idx → EReal) (w : S100x64.Idx → EReal) (b : S64.Idx → EReal)
    (h0 : V c (Pipeline.arrRef spec0 0) = a) (h1 : V c (Pipeline.arrRef spec0 1) = w)
    (h2 : V c (Pipeline.arrRef spec0 2) = b) :
    (dat0 (F := Ideal) V c).arrAt 4 cfg0.N = linear a w b :=
  (dat0 (F := Ideal) V c).arrAt_eq_of_cover 4 (linear a w b)
    (fun t _ => flushed0_4_eq V c a w b h0 h1 h2 t) cover0_4

/-- The first output at an entry (p, q). -/
theorem lin0_f32 (c : Dev nD) (a : S100000x100.Idx → EReal) (w : S100x64.Idx → EReal) (b : S64.Idx → EReal)
    (out : S100000x64.Idx → EReal)
    (h0 : V c (Pipeline.arrRef spec0 0) = a) (h1 : V c (Pipeline.arrRef spec0 1) = w)
    (h2 : V c (Pipeline.arrRef spec0 2) = b) (hout : (dat0 (F := Ideal) V c).arrAt 3 cfg0.N = out)
    (p : Fin 100000) (q : Fin 64) :
    out (ix2 p q) = (∑ k : Fin 100, a (ix2 p k) * w (ix2 k q)) + b (ix1 q) := by
  rw [← hout, lin0_f32_fun V c a w b h0 h1 h2]
  rfl

/-- The second output at an entry (p, q). -/
theorem lin0_bf16 (c : Dev nD) (a : S100000x100.Idx → EReal) (w : S100x64.Idx → EReal) (b : S64.Idx → EReal)
    (out : S100000x64.Idx → EReal)
    (h0 : V c (Pipeline.arrRef spec0 0) = a) (h1 : V c (Pipeline.arrRef spec0 1) = w)
    (h2 : V c (Pipeline.arrRef spec0 2) = b) (hout : (dat0 (F := Ideal) V c).arrAt 4 cfg0.N = out)
    (p : Fin 100000) (q : Fin 64) :
    out (ix2 p q) = (∑ k : Fin 100, a (ix2 p k) * w (ix2 k q)) + b (ix1 q) := by
  rw [← hout, lin0_bf16_fun V c a w b h0 h1 h2]
  rfl

end Cert.KernelIdeal.Val
end
-- ==== Proof.LibAccum.lean ====
import Idealize.ShloMosaic.PureOps.Ideal

/-
  Sums taken block by block.

  A sum over `n * b` consecutive positions is the sum, over the `n` blocks of `b` consecutive positions, of each
  block's own sum. Only commutativity and associativity of addition are used, so the statement holds in every additive
  commutative monoid, and in particular on the extended reals, where addition is commutative and associative although
  it is not cancellative. A running total that starts from `0 + (block 0)` and then adds one block per step is, after
  the last block, the whole sum; adding a further term `c` to both keeps them equal.
-/

noncomputable section

namespace QLin

open scoped BigOperators

section General

variable {M : Type*} [AddCommMonoid M]

/-- Position `j` of block `k`, among `n` blocks of `b` positions each, is a position below `n * b`:
    `k * b + j < k * b + b = (k + 1) * b ≤ n * b`. -/
theorem block_lt {n b : ℕ} (k : Fin n) (j : Fin b) : k.val * b + j.val < n * b := by
  have hk : k.val + 1 ≤ n := k.isLt
  calc k.val * b + j.val < k.val * b + b := Nat.add_lt_add_left j.isLt _
    _ = (k.val + 1) * b := by rw [Nat.add_mul, Nat.one_mul]
    _ ≤ n * b := Nat.mul_le_mul_right b hk

/-- A sum over `n * b` positions is the sum, over the `n` blocks, of the sum over each block's `b` positions. -/
theorem sum_blocks (n b : ℕ) (f : Fin (n * b) → M) :
    ∑ i : Fin (n * b), f i = ∑ k : Fin n, ∑ j : Fin b, f ⟨k.val * b + j.val, block_lt k j⟩ := by
  rw [← Equiv.sum_comp finProdFinEquiv f, Fintype.sum_prod_type]
  refine Finset.sum_congr rfl fun k _ => Finset.sum_congr rfl fun j _ => ?_
  refine congrArg f (Fin.ext ?_)
  show j.val + b * k.val = k.val * b + j.val
  rw [Nat.mul_comm, Nat.add_comm]

/-- The running total of the blocks `g 0, g 1, …`: it starts at `0 + g 0` and adds one block per step. -/
def acc (g : ℕ → M) : ℕ → M
  | 0 => 0 + g 0
  | k + 1 => acc g k + g (k + 1)

theorem acc_zero (g : ℕ → M) : acc g 0 = 0 + g 0 := rfl

theorem acc_succ (g : ℕ → M) (k : ℕ) : acc g (k + 1) = acc g k + g (k + 1) := rfl

/-- After step `k` the running total is the sum of the blocks `0, …, k`. -/
theorem acc_eq_sum (g : ℕ → M) (k : ℕ) : acc g k = ∑ t ∈ Finset.range (k + 1), g t := by
  induction k with
  | zero => rw [acc_zero, zero_add, Finset.sum_range_one]
  | succ k ih => rw [acc_succ, ih, Finset.sum_range_succ _ (k + 1)]

/-- A family of `n` blocks as a sequence, continued by `0` past the last block. -/
def ext {n : ℕ} (g : Fin n → M) (t : ℕ) : M := if h : t < n then g ⟨t, h⟩ else 0

theorem ext_val {n : ℕ} (g : Fin n → M) (k : Fin n) : ext g k.val = g k := dif_pos k.isLt

/-- The running total of `n + 1` blocks, after the last one, is the sum of all the blocks. -/
theorem acc_ext_last {n : ℕ} (g : Fin (n + 1) → M) : acc (ext g) n = ∑ k : Fin (n + 1), g k := by
  rw [acc_eq_sum, Finset.sum_range]
  exact Finset.sum_congr rfl fun k _ => ext_val g k

end General

/-- The inner product of block `k` of `a` and `b`: positions `512 k, …, 512 k + 511` of the 4096. -/
def blk (a b : Fin 4096 → EReal) (k : Fin 8) : EReal :=
  ∑ j : Fin 512, a ⟨k.val * 512 + j.val, block_lt (n := 8) (b := 512) k j⟩
    * b ⟨k.val * 512 + j.val, block_lt (n := 8) (b := 512) k j⟩

/-- The eight block inner products add up to the whole inner product. -/
theorem sum_blk (a b : Fin 4096 → EReal) : ∑ k : Fin 8, blk a b k = ∑ i : Fin 4096, a i * b i :=
  (sum_blocks 8 512 (fun i : Fin (8 * 512) => a i * b i)).symm

/-- Accumulating the eight block inner products one at a time from `0 + (block 0)`, then adding `c`, gives the whole
    inner product plus `c`. -/
theorem acc_blk (a b : Fin 4096 → EReal) (c : EReal) :
    acc (ext (blk a b)) 7 + c = (∑ i : Fin 4096, a i * b i) + c := by
  rw [acc_ext_last (n := 7) (blk a b), sum_blk]

/-- The same with the eight steps written out. -/
theorem acc_blk_unrolled (a b : Fin 4096 → EReal) (c : EReal) :
    (0 : EReal) + blk a b 0 + blk a b 1 + blk a b 2 + blk a b 3 + blk a b 4 + blk a b 5 + blk a b 6 + blk a b 7 + c
      = (∑ i : Fin 4096, a i * b i) + c := by
  rw [← sum_blk a b, Fin.sum_univ_eight, zero_add]

/-- The cleared accumulator `0` plus the eight block inner products summed over `s = 0, …, 7` (the block number written
    `s % 8`, which is `s` itself below 8), then plus `c`, is the whole inner product plus `c`. -/
theorem acc_range (a b : Fin 4096 → EReal) (c : EReal) :
    (0 + ∑ s ∈ Finset.range 8, ∑ k : Fin 512,
        a ⟨(s % 8) * 512 + k.val, by omega⟩ * b ⟨(s % 8) * 512 + k.val, by omega⟩) + c
      = (∑ i : Fin 4096, a i * b i) + c := by
  rw [zero_add, Finset.sum_range, ← sum_blk a b]
  refine congrArg (· + c) (Finset.sum_congr rfl fun s _ => ?_)
  unfold blk
  refine Finset.sum_congr rfl fun k _ => ?_
  have hs : s.val % 8 = s.val := Nat.mod_eq_of_lt s.isLt
  have e : (⟨(s.val % 8) * 512 + k.val, by omega⟩ : Fin 4096)
      = ⟨s.val * 512 + k.val, block_lt (n := 8) (b := 512) s k⟩ :=
    Fin.ext (by show (s.val % 8) * 512 + k.val = s.val * 512 + k.val; rw [hs])
  rw [e]

end QLin

end
-- ==== Proof.ValSum1.lean ====
import proofs.«133142_j1864015807124_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic
import proofs.«133142_j1864015807124_2_alg».proof.Proof.LibAccum

/-
  REGION 1, read as a value: the [1,128] result array, at lane `q`, ends at the sum of the operand's 50000 rows at that
  lane. The region visits ten blocks of 5000 rows; one [1,128] buffer is cleared at the first point and at every point
  the block's lane sums are added to it; it is written back once, after the last point. Over the extended reals the
  running total after point `n` is the sum of the blocks `0, …, n`, and the ten block sums add up to the sum over all
  rows (a sum over 10 · 5000 positions taken block by block).
-/

noncomputable section

open Idealize.ShloMosaic Idealize.ShloMosaic.TcCoe Idealize.SL.Sem
open Idealize.ShloMosaic.Pipeline (Dat)
open Idealize.ShloMosaic.ValueIdx
open scoped BigOperators

namespace Cert.KernelIdeal.Val

open Cert.KernelIdeal Cert.KernelIdeal.Gen

section Pieces
variable {F : FTy → Type} [FloatOps F]

/-- The zero offsets of a whole-buffer access. -/
theorem hzSum1 : (![0, 0] : Fin 2 → Nat) = fun _ => 0 := funext fun a => by fin_cases a <;> rfl

/-- Case B (every later point): the one store's payload, over the block and what the buffer held. -/
theorem out1_B (c : Dev nD) (i : grid1.Coords) (a1 : Memref sig .tc .vmem S5000x128 .f32) (h1 : a1.IsWhole)
    (a2 : Memref sig .tc .vmem S1x128 .f32) (h2 : a2.IsWhole) (hc : ¬cond1_0 i)
    (x : Vec F S5000x128 .f32) (xo : Vec F S1x128 .f32) :
    out1_B_1 c i a1 h1 a2 h2 hc x xo = k1_pay2 x xo := by
  unfold out1_B_1
  rw [View.read_writes_eq_canon _ _ _ (cover1_B_1 c i a1 h1 a2 h2 hc x xo)]
  unfold kernelRun1_B
  dsimp only
  rw [View.canon_unit_zero hzSum1]
  simp only [View.readAt_eq_ld, h1.read_unread, h2.read_unread, View.ld_unit_zero (S := S5000x128) hzSum1,
    View.ld_unit_zero (S := S1x128) hzSum1]

/-- Case A (the first point): the buffer is cleared, read back, and the payload stored over it. -/
theorem out1_A (c : Dev nD) (i : grid1.Coords) (a1 : Memref sig .tc .vmem S5000x128 .f32) (h1 : a1.IsWhole)
    (a2 : Memref sig .tc .vmem S1x128 .f32) (h2 : a2.IsWhole) (hc : cond1_0 i)
    (x : Vec F S5000x128 .f32) :
    out1_A_1 c i a1 h1 a2 h2 hc x = k1_pay2 x (k1_pay1 (F := F)) := by
  unfold out1_A_1
  rw [View.read_writes_eq_canon _ _ _ (cover1_A_1 c i a1 h1 a2 h2 hc x)]
  unfold kernelRun1_A
  dsimp only
  sl_unfold_words
  rw [View.canon_cons_unit_zero (S := S1x128) hzSum1, View.readCov_unit_zero (S := S1x128) _ hzSum1]
  simp only [View.readAt_eq_ld, h1.read_unread, View.ld_unit_zero (S := S5000x128) hzSum1]

end Pieces

/-! ## The accumulation step at an index, over the extended reals -/

/-- The cleared accumulator reads `0` at every lane. -/
theorem k1_pay1_apply (j : S1x128.Idx) : k1_pay1 (F := Ideal) j = Ideal.ofBits .f32 0x00000000#32 := rfl

/-- One step at lane `q`: the accumulator's lane plus the sum of the block's 5000 rows at that lane. -/
theorem k1_pay2_apply (x : Vec Ideal S5000x128 .f32) (xo : Vec Ideal S1x128 .f32) (q : Fin 128) :
    k1_pay2 (F := Ideal) x xo (ix2 0 q) = xo (ix2 0 q) + ∑ r : Fin 5000, x (ix2 r q) := by
  unfold k1_pay2
  dsimp only
  refine (addf_apply _ _ _).trans ?_
  refine congrArg₂ (· + ·) (congrFun (shapeCast_self xo _) _) ?_
  refine (shapeCast_apply _ shapeCasts_S128_S1x128 (ix2 0 q) (ix1 q) ?_).trans ?_
  · rw [Shape.rowMajor_val_one, Shape.rowMajor_val_two]; show q.val = 0 * 128 + q.val; omega
  refine (Ideal.multiReduction_add_single _ 0x00000000#32 reduces_S5000x128_S128 (.inl rfl) rfl (ix1 q)).trans ?_
  refine Finset.sum_congr rfl fun r _ => ?_
  refine (congrFun (shapeCast_self x _) _).trans (congrArg x ?_)
  funext a; match a with | ⟨0, _⟩ => rfl | ⟨1, _⟩ => rfl

section Value
variable (V : (c : Dev nD) → (b : Ref sig .tc) → Buf (Elt Ideal) ((c : Thread nD τ).loc b))

/-- Case A at lane `q` (the first point): the accumulator is cleared, then the block's rows are added. -/
theorem stepA1 (c : Dev nD) (i : grid1.Coords) (a1 : Memref sig .tc .vmem S5000x128 .f32) (h1 : a1.IsWhole)
    (a2 : Memref sig .tc .vmem S1x128 .f32) (h2 : a2.IsWhole) (hc : cond1_0 i)
    (x : Vec Ideal S5000x128 .f32) (q : Fin 128) :
    out1_A_1 (F := Ideal) c i a1 h1 a2 h2 hc x (ix2 0 q) = ∑ r : Fin 5000, x (ix2 r q) := by
  refine (congrFun (out1_A (F := Ideal) c i a1 h1 a2 h2 hc x) (ix2 0 q)).trans ?_
  refine (k1_pay2_apply x (k1_pay1 (F := Ideal)) q).trans ?_
  rw [k1_pay1_apply, Ideal.ofBits_zero_f32, zero_add]

/-- Case B at lane `q` (every later point): the block's rows are added to what the point before left. -/
theorem stepB1 (c : Dev nD) (i : grid1.Coords) (a1 : Memref sig .tc .vmem S5000x128 .f32) (h1 : a1.IsWhole)
    (a2 : Memref sig .tc .vmem S1x128 .f32) (h2 : a2.IsWhole) (hc : ¬cond1_0 i)
    (x : Vec Ideal S5000x128 .f32) (xo : Vec Ideal S1x128 .f32) (q : Fin 128) :
    out1_B_1 (F := Ideal) c i a1 h1 a2 h2 hc x xo (ix2 0 q) = xo (ix2 0 q) + ∑ r : Fin 5000, x (ix2 r q) :=
  (congrFun (out1_B (F := Ideal) c i a1 h1 a2 h2 hc x xo) (ix2 0 q)).trans (k1_pay2_apply x xo q)

/-- The sum of block `t`'s 5000 rows at lane `q` (`0` past the grid). -/
def blockSum1 (c : Dev nD) (q : Fin 128) (t : ℕ) : EReal :=
  if h : t < cfg1.N then ∑ r : Fin 5000, (iblk1 V c 0 ⟨t, h⟩ : Vec Ideal S5000x128 .f32) (ix2 r q) else 0

/-- After point `n` the accumulator's lane `q` holds the sum of the blocks `0, …, n` at that lane. -/
theorem outsAt1_sum (c : Dev nD) (q : Fin 128) : ∀ (n : ℕ) (h : n < cfg1.N),
    outsAt1 (F := Ideal) V c n h (ix2 0 q) = ∑ t ∈ Finset.range (n + 1), blockSum1 V c q t
  | 0, h => by
    rw [outsAt1_A V c ⟨0, h⟩ rfl, Finset.sum_range_one]
    refine (stepA1 c (grid1.coords ⟨0, h⟩) (ms1_0 ⟨0, h⟩) (hs1_0 ⟨0, h⟩) (ms1_1 ⟨0, h⟩) (hs1_1 ⟨0, h⟩)
      ((hcond1_0 ⟨0, h⟩).mpr rfl) (iblk1 V c 0 ⟨0, h⟩) q).trans ?_
    unfold blockSum1; rw [dif_pos h]
  | n + 1, h => by
    have hN : cfg1.N = 10 := N_1
    have hB : ¬(⟨n + 1, h⟩ : Fin cfg1.N).val % 10 = 0 := by dsimp only; omega
    rw [outsAt1_B V c ⟨n + 1, h⟩ hB, Finset.sum_range_succ _ (n + 1)]
    refine (stepB1 c (grid1.coords ⟨n + 1, h⟩) (ms1_0 ⟨n + 1, h⟩) (hs1_0 ⟨n + 1, h⟩) (ms1_1 ⟨n + 1, h⟩) (hs1_1 ⟨n + 1, h⟩)
      (fun hh => hB ((hcond1_0 ⟨n + 1, h⟩).mp hh)) (iblk1 V c 0 ⟨n + 1, h⟩)
      (outsAt1 V c n (Nat.lt_of_succ_lt h)) q).trans ?_
    rw [outsAt1_sum c q n (Nat.lt_of_succ_lt h)]
    unfold blockSum1; rw [dif_pos h]

/-- The operand array as the region finds it: 50000 rows of 128 lanes. -/
abbrev arr1 (c : Dev nD) : Vec Ideal S50000x128 .f32 := V c (Pipeline.arrRef spec1 0)

/-- The input window's block index at point `t`: block `t` along the rows, block `0` along the lanes. -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Row `r` of block `t` is row `5000 t + r` of the array. -/
theorem iblk1_apply (c : Dev nD) (t : Fin cfg1.N) (r : Fin 5000) (q : Fin 128) (hr : t.val * 5000 + r.val < 50000) :
    (iblk1 V c 0 t : Vec Ideal S5000x128 .f32) (ix2 r q)
      = arr1 V c (ix2 (⟨t.val * 5000 + r.val, hr⟩ : Fin 50000) q) := by
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t 0 * 5000 + 1 * r.val = t.val * 5000 + r.val; rw [(idx1_0 t).1]; omega
  | ⟨1, _⟩ => show win1_0.index t 1 * 128 + 1 * q.val = q.val; rw [(idx1_0 t).2]; omega

/-- What the accumulator holds after the last point, as contents of the result array (its one block is the array). -/
abbrev result1 (c : Dev nD) : Buf (Elt Ideal) ((c : Thread nD τ).loc main_v57) :=
  outsAt1 (F := Ideal) V c 9 (by rw [show cfg1.N = 10 from N_1]; decide)

/-- The one write-back, at the last point, writes it. -/
theorem flushed1_eq (c : Dev nD) (t : Fin cfg1.N) (hf : (cfg1.win 1).flush t = true) :
    (dat1 (F := Ideal) V c).flushed 1 t = ((cfg1.win 1).blk t).view.read (Elt Ideal) (result1 V c) := by
  have hN : cfg1.N = 10 := N_1
  have h9 : t.val = 9 := by have := (flush1_1 t).mp hf; have := t.isLt; omega
  obtain rfl : t = t1_9 := Fin.ext h9
  show (cfg1.win 1).cut (grid1.coords t1_9) ((dat1 (F := Ideal) V c).after 1 t1_9) = _
  rw [after1_1]
  have hz' : (fun a => win1_1.index t1_9 a * main_v57.ty.shape.size a) = fun _ => 0 := funext fun a => by fin_cases a <;> decide
  exact (Memref.read_access_unit_zero (Elt Ideal) main_v57 hz' (fun a => by rw [congrFun hz' a]; simp) (result1 V c)).symm

/-- So the result array ends holding what the accumulator holds after the last point. -/
theorem final1 (c : Dev nD) : (dat1 (F := Ideal) V c).arrAt 1 cfg1.N = result1 V c :=
  (dat1 (F := Ideal) V c).arrAt_eq_of_cover 1 (result1 V c) (flushed1_eq V c) fun i =>
    ⟨t1_9, (flush1_1 t1_9).mpr rfl, by
      show i ∈ ((View.whole main_v57).slice (win1_1.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_1.index t1_9 0 * win1_1.size 0 ≤ (i 0 : Nat) ∧ (i 0 : Nat) < win1_1.index t1_9 0 * win1_1.size 0 + win1_1.xsize (grid1.coords t1_9) 0
                  rw [show win1_1.index t1_9 0 * win1_1.size 0 = 0 from by decide +kernel, show win1_1.xsize (grid1.coords t1_9) 0 = 1 from by decide +kernel]; omega
      | ⟨1, _⟩ => show win1_1.index t1_9 1 * win1_1.size 1 ≤ (i 1 : Nat) ∧ (i 1 : Nat) < win1_1.index t1_9 1 * win1_1.size 1 + win1_1.xsize (grid1.coords t1_9) 1
                  rw [show win1_1.index t1_9 1 * win1_1.size 1 = 0 from by decide +kernel, show win1_1.xsize (grid1.coords t1_9) 1 = 128 from by decide +kernel]; omega⟩

/-- The ten blocks' sums at lane `q` add up to the sum over all 50000 rows. -/
theorem sum_blockSum1 (c : Dev nD) (q : Fin 128) :
    ∑ t ∈ Finset.range 10, blockSum1 V c q t = ∑ r : Fin 50000, arr1 V c (ix2 r q) := by
  have hN : cfg1.N = 10 := N_1
  rw [Finset.sum_range]
  refine Eq.trans ?_ (QLin.sum_blocks 10 5000 (fun i : Fin (10 * 5000) => arr1 V c (ix2 (i : Fin 50000) q))).symm
  refine Finset.sum_congr rfl fun t _ => ?_
  unfold blockSum1
  rw [dif_pos (by omega : t.val < cfg1.N)]
  refine Finset.sum_congr rfl fun r _ => ?_
  exact iblk1_apply V c ⟨t.val, by omega⟩ r q (QLin.block_lt (n := 10) (b := 5000) t r)

/-- REGION 1: the result array at lane `q` is the sum of the operand's 50000 rows at that lane. -/
theorem sum1 (c : Dev nD) (q : Fin 128) :
    (dat1 (F := Ideal) V c).arrAt 1 cfg1.N (ix2 0 q) = ∑ r : Fin 50000, arr1 V c (ix2 r q) := by
  refine (congrFun (final1 V c) (ix2 0 q)).trans ?_
  refine (outsAt1_sum V c q 9 (by rw [show cfg1.N = 10 from N_1]; decide)).trans ?_
  exact sum_blockSum1 V c q

end Value

end Cert.KernelIdeal.Val

end
-- ==== Proof.ValSq2.lean ====
import proofs.«133142_j1864015807124_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic
import proofs.«133142_j1864015807124_2_alg».proof.Proof.LibAccum

/-
  REGION 2, read as a value: the [1,128] result array, at lane `q`, ends at the sum over the operand's 50000 rows of the
  squared deviation from the [128] operand at that lane. The region visits ten blocks of 5000 rows; one [1,128] buffer is
  cleared at the first point and at every point the block's lane sums of squared deviations are added to it; it is
  written back once, after the last point. Over the extended reals the running total after point `n` is the sum of the
  blocks `0, …, n`, and the ten block sums add up to the sum over all rows.
-/

noncomputable section

open Idealize.ShloMosaic Idealize.ShloMosaic.TcCoe Idealize.SL.Sem
open Idealize.ShloMosaic.Pipeline (Dat)
open Idealize.ShloMosaic.ValueIdx
open scoped BigOperators

namespace Cert.KernelIdeal.Val

open Cert.KernelIdeal Cert.KernelIdeal.Gen

section Pieces
variable {F : FTy → Type} [FloatOps F]

theorem hzSq2 : (![0, 0] : Fin 2 → Nat) = fun _ => 0 := funext fun a => by fin_cases a <;> rfl
theorem hzSq2v : (![0] : Fin 1 → Nat) = fun _ => 0 := funext fun a => by fin_cases a; rfl

/-- Case B (every later point): the one store's payload, over the blocks and what the buffer held. -/
theorem out2_B (c : Dev nD) (i : grid2.Coords) (a1 : Memref sig .tc .vmem S5000x128 .f32) (h1 : a1.IsWhole)
    (a2 : Memref sig .tc .vmem S128 .f32) (h2 : a2.IsWhole) (a3 : Memref sig .tc .vmem S1x128 .f32) (h3 : a3.IsWhole)
    (hc : ¬cond2_0 i) (x : Vec F S5000x128 .f32) (m : Vec F S128 .f32) (xo : Vec F S1x128 .f32) :
    out2_B_2 c i a1 h1 a2 h2 a3 h3 hc x m xo = k2_pay2 x m xo := by
  unfold out2_B_2
  rw [View.read_writes_eq_canon _ _ _ (cover2_B_2 c i a1 h1 a2 h2 a3 h3 hc x m xo)]
  unfold kernelRun2_B
  dsimp only
  rw [View.canon_unit_zero hzSq2]
  simp only [View.readAt_eq_ld, h1.read_unread, h2.read_unread, h3.read_unread, View.ld_unit_zero (S := S5000x128) hzSq2,
    View.ld_unit_zero (S := S1x128) hzSq2, View.ld_unit_zero (S := S128) hzSq2v]

/-- Case A (the first point): the buffer is cleared, read back, and the payload stored over it. -/
theorem out2_A (c : Dev nD) (i : grid2.Coords) (a1 : Memref sig .tc .vmem S5000x128 .f32) (h1 : a1.IsWhole)
    (a2 : Memref sig .tc .vmem S128 .f32) (h2 : a2.IsWhole) (a3 : Memref sig .tc .vmem S1x128 .f32) (h3 : a3.IsWhole)
    (hc : cond2_0 i) (x : Vec F S5000x128 .f32) (m : Vec F S128 .f32) :
    out2_A_2 c i a1 h1 a2 h2 a3 h3 hc x m = k2_pay2 x m (k2_pay1 (F := F)) := by
  unfold out2_A_2
  rw [View.read_writes_eq_canon _ _ _ (cover2_A_2 c i a1 h1 a2 h2 a3 h3 hc x m)]
  unfold kernelRun2_A
  dsimp only
  sl_unfold_words
  rw [View.canon_cons_unit_zero (S := S1x128) hzSq2, View.readCov_unit_zero (S := S1x128) _ hzSq2]
  simp only [View.readAt_eq_ld, h1.read_unread, h2.read_unread, View.ld_unit_zero (S := S5000x128) hzSq2,
    View.ld_unit_zero (S := S128) hzSq2v]

end Pieces

/-! ## The accumulation step at an index, over the extended reals -/

/-- The cleared accumulator reads `0` at every lane. -/
theorem k2_pay1_apply (j : S1x128.Idx) : k2_pay1 (F := Ideal) j = Ideal.ofBits .f32 0x00000000#32 := rfl

/-- The deviation of the block from the [128] operand broadcast along the rows, at row `r`, lane `q`. -/
theorem sqdev2_apply (x : FVec Ideal S5000x128 .f32) (m : FVec Ideal S128 .f32) (r : Fin 5000) (q : Fin 128) :
    (subf (F := Ideal) (shapeCast S5000x128 x shapeCasts_S5000x128_S5000x128)
        (broadcastTo S5000x128 (shapeCast S1x128 (shapeCast S128 m shapeCasts_S128_S128) shapeCasts_S128_S1x128)
          broadcasts_S1x128_S5000x128) : FVec Ideal S5000x128 .f32) (ix2 r q)
      = x (ix2 r q) - m (ix1 q) := by
  refine (subf_apply _ _ _).trans ?_
  refine congrArg₂ (· - ·) (congrFun (shapeCast_self x _) _) ?_
  refine (broadcastTo_apply _ broadcasts_S1x128_S5000x128 (ix2 r q) (ix2 0 q) ?_).trans ?_
  · intro a; match a with | ⟨0, _⟩ => rfl | ⟨1, _⟩ => rfl
  refine (shapeCast_apply _ shapeCasts_S128_S1x128 (ix2 0 q) (ix1 q) ?_).trans ?_
  · rw [Shape.rowMajor_val_one, Shape.rowMajor_val_two]; show q.val = 0 * 128 + q.val; omega
  exact congrFun (shapeCast_self m _) _

/-- The lane sum of a block's squares: at lane `q`, the sum over the 5000 rows. -/
theorem lane_sum_sq2 (d : FVec Ideal S5000x128 .f32) (q : Fin 128) :
    multiReduction (F := Ideal) .add [0] S128 (mulf d d) 0x00000000#32 reduces_S5000x128_S128 (.inl rfl) rfl (ix1 q)
      = ∑ r : Fin 5000, d (ix2 r q) * d (ix2 r q) := by
  refine (Ideal.multiReduction_add_single _ 0x00000000#32 reduces_S5000x128_S128 (.inl rfl) rfl (ix1 q)).trans ?_
  refine Finset.sum_congr rfl fun r _ => ?_
  refine (mulf_apply _ _ _).trans ?_
  have hi : reduces_S5000x128_S128.lift (ix1 q) r = ix2 (r : Fin 5000) q := by
    funext a; match a with | ⟨0, _⟩ => rfl | ⟨1, _⟩ => rfl
  exact congrArg₂ (· * ·) (congrArg d hi) (congrArg d hi)

/-- One step at lane `q`: the accumulator's lane plus the sum over the block's 5000 rows of the squared deviation. -/
theorem k2_pay2_apply (x : Vec Ideal S5000x128 .f32) (m : Vec Ideal S128 .f32) (xo : Vec Ideal S1x128 .f32) (q : Fin 128) :
    k2_pay2 (F := Ideal) x m xo (ix2 0 q)
      = xo (ix2 0 q) + ∑ r : Fin 5000, (x (ix2 r q) - m (ix1 q)) * (x (ix2 r q) - m (ix1 q)) := by
  unfold k2_pay2
  dsimp only
  refine (addf_apply _ _ _).trans ?_
  refine congrArg₂ (· + ·) (congrFun (shapeCast_self xo _) _) ?_
  refine (shapeCast_apply _ shapeCasts_S128_S1x128 (ix2 0 q) (ix1 q) ?_).trans ?_
  · rw [Shape.rowMajor_val_one, Shape.rowMajor_val_two]; show q.val = 0 * 128 + q.val; omega
  refine (lane_sum_sq2 _ q).trans ?_
  refine Finset.sum_congr rfl fun r _ => ?_
  exact congrArg₂ (· * ·) (sqdev2_apply x m r q) (sqdev2_apply x m r q)

section Value
variable (V : (c : Dev nD) → (b : Ref sig .tc) → Buf (Elt Ideal) ((c : Thread nD τ).loc b))

/-- Case A at lane `q`: the accumulator is cleared, then the block's squared deviations are added. -/
theorem stepA2 (c : Dev nD) (i : grid2.Coords) (a1 : Memref sig .tc .vmem S5000x128 .f32) (h1 : a1.IsWhole)
    (a2 : Memref sig .tc .vmem S128 .f32) (h2 : a2.IsWhole) (a3 : Memref sig .tc .vmem S1x128 .f32) (h3 : a3.IsWhole)
    (hc : cond2_0 i) (x : Vec Ideal S5000x128 .f32) (m : Vec Ideal S128 .f32) (q : Fin 128) :
    out2_A_2 (F := Ideal) c i a1 h1 a2 h2 a3 h3 hc x m (ix2 0 q)
      = ∑ r : Fin 5000, (x (ix2 r q) - m (ix1 q)) * (x (ix2 r q) - m (ix1 q)) := by
  refine (congrFun (out2_A (F := Ideal) c i a1 h1 a2 h2 a3 h3 hc x m) (ix2 0 q)).trans ?_
  refine (k2_pay2_apply x m (k2_pay1 (F := Ideal)) q).trans ?_
  rw [k2_pay1_apply, Ideal.ofBits_zero_f32, zero_add]

/-- Case B at lane `q`: the block's squared deviations are added to what the point before left. -/
theorem stepB2 (c : Dev nD) (i : grid2.Coords) (a1 : Memref sig .tc .vmem S5000x128 .f32) (h1 : a1.IsWhole)
    (a2 : Memref sig .tc .vmem S128 .f32) (h2 : a2.IsWhole) (a3 : Memref sig .tc .vmem S1x128 .f32) (h3 : a3.IsWhole)
    (hc : ¬cond2_0 i) (x : Vec Ideal S5000x128 .f32) (m : Vec Ideal S128 .f32) (xo : Vec Ideal S1x128 .f32) (q : Fin 128) :
    out2_B_2 (F := Ideal) c i a1 h1 a2 h2 a3 h3 hc x m xo (ix2 0 q)
      = xo (ix2 0 q) + ∑ r : Fin 5000, (x (ix2 r q) - m (ix1 q)) * (x (ix2 r q) - m (ix1 q)) :=
  (congrFun (out2_B (F := Ideal) c i a1 h1 a2 h2 a3 h3 hc x m xo) (ix2 0 q)).trans (k2_pay2_apply x m xo q)

/-- The operand array as the region finds it: 50000 rows of 128 lanes. -/
abbrev arr2 (c : Dev nD) : Vec Ideal S50000x128 .f32 := V c (Pipeline.arrRef spec2 0)
/-- The [128] operand as the region finds it. -/
abbrev mean2 (c : Dev nD) : Vec Ideal S128 .f32 := V c (Pipeline.arrRef spec2 1)

/-- The row window's block at point `t`: 5000 rows of 128 lanes. -/
abbrev rows2 (c : Dev nD) (t : Fin cfg2.N) : Vec Ideal S5000x128 .f32 := iblk2 V c 0 t
/-- The [128] operand's block at point `t`. -/
abbrev lanes2 (c : Dev nD) (t : Fin cfg2.N) : Vec Ideal S128 .f32 := iblk2 V c 1 t

/-- The sum over block `t`'s 5000 rows, at lane `q`, of the squared deviation from the [128] operand's block
    (`0` past the grid). -/
def blockSq2 (c : Dev nD) (q : Fin 128) (t : ℕ) : EReal :=
  if h : t < cfg2.N then
    ∑ r : Fin 5000, (rows2 V c ⟨t, h⟩ (ix2 r q) - lanes2 V c ⟨t, h⟩ (ix1 q)) * (rows2 V c ⟨t, h⟩ (ix2 r q) - lanes2 V c ⟨t, h⟩ (ix1 q))
  else 0

/-- After point `n` the accumulator's lane `q` holds the sum of the blocks `0, …, n` at that lane. -/
theorem outsAt2_sq (c : Dev nD) (q : Fin 128) : ∀ (n : ℕ) (h : n < cfg2.N),
    outsAt2 (F := Ideal) V c n h (ix2 0 q) = ∑ t ∈ Finset.range (n + 1), blockSq2 V c q t
  | 0, h => by
    rw [outsAt2_A V c ⟨0, h⟩ rfl, Finset.sum_range_one]
    refine (stepA2 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩)
      ((hcond2_0 ⟨0, h⟩).mpr rfl) (rows2 V c ⟨0, h⟩) (lanes2 V c ⟨0, h⟩) q).trans ?_
    unfold blockSq2; rw [dif_pos h]
  | n + 1, h => by
    have hN : cfg2.N = 10 := N_2
    have hB : ¬(⟨n + 1, h⟩ : Fin cfg2.N).val % 10 = 0 := by dsimp only; omega
    rw [outsAt2_B V c ⟨n + 1, h⟩ hB, Finset.sum_range_succ _ (n + 1)]
    refine (stepB2 c (grid2.coords ⟨n + 1, h⟩) (ms2_0 ⟨n + 1, h⟩) (hs2_0 ⟨n + 1, h⟩) (ms2_1 ⟨n + 1, h⟩) (hs2_1 ⟨n + 1, h⟩)
      (ms2_2 ⟨n + 1, h⟩) (hs2_2 ⟨n + 1, h⟩)
      (fun hh => hB ((hcond2_0 ⟨n + 1, h⟩).mp hh)) (rows2 V c ⟨n + 1, h⟩) (lanes2 V c ⟨n + 1, h⟩)
      (outsAt2 V c n (Nat.lt_of_succ_lt h)) q).trans ?_
    rw [outsAt2_sq c q n (Nat.lt_of_succ_lt h)]
    unfold blockSq2; rw [dif_pos h]

/-- The row window's block index at point `t`: block `t` along the rows, block `0` along the lanes. -/
theorem idx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
/-- The [128] operand's window stays at block `0`. -/
theorem idx2_1 : ∀ t : Fin cfg2.N, win2_1.index t (0 : Fin 1) = 0 :=
  (by decide +kernel : ∀ t : Fin grid2.N, win2_1.index t (0 : Fin 1) = 0)

/-- Row `r` of block `t` is row `5000 t + r` of the array. -/
theorem iblk2_apply (c : Dev nD) (t : Fin cfg2.N) (r : Fin 5000) (q : Fin 128) (hr : t.val * 5000 + r.val < 50000) :
    rows2 V c t (ix2 r q) = arr2 V c (ix2 (⟨t.val * 5000 + r.val, hr⟩ : Fin 50000) q) := by
  unfold rows2 iblk2
  rw [View.read_apply]
  show V c (Pipeline.arrRef spec2 0) _ = V c (Pipeline.arrRef spec2 0) _
  refine congrArg (V c (Pipeline.arrRef spec2 0)) (funext fun a => Fin.ext ?_)
  match a with
  | ⟨0, _⟩ => show win2_0.index t 0 * 5000 + 1 * r.val = t.val * 5000 + r.val; rw [(idx2_0 t).1]; omega
  | ⟨1, _⟩ => show win2_0.index t 1 * 128 + 1 * q.val = q.val; rw [(idx2_0 t).2]; omega

/-- The [128] operand's block at every point is the operand itself. -/
theorem iblk2_mean (c : Dev nD) (t : Fin cfg2.N) (q : Fin 128) :
    lanes2 V c t (ix1 q) = mean2 V c (ix1 q) := by
  unfold lanes2 iblk2
  rw [View.read_apply]
  show V c (Pipeline.arrRef spec2 1) _ = V c (Pipeline.arrRef spec2 1) _
  refine congrArg (V c (Pipeline.arrRef spec2 1)) (funext fun a => Fin.ext ?_)
  match a with
  | ⟨0, _⟩ => show win2_1.index t 0 * 128 + 1 * q.val = q.val; rw [idx2_1 t]; omega

/-- What the accumulator holds after the last point, as contents of the result array (its one block is the array). -/
abbrev result2 (c : Dev nD) : Buf (Elt Ideal) ((c : Thread nD τ).loc main_v65) :=
  outsAt2 (F := Ideal) V c 9 (by rw [show cfg2.N = 10 from N_2]; decide)

/-- The one write-back, at the last point, writes it. -/
theorem flushed2_eq (c : Dev nD) (t : Fin cfg2.N) (hf : (cfg2.win 2).flush t = true) :
    (dat2 (F := Ideal) V c).flushed 2 t = ((cfg2.win 2).blk t).view.read (Elt Ideal) (result2 V c) := by
  have hN : cfg2.N = 10 := N_2
  have h9 : t.val = 9 := by have := (flush2_2 t).mp hf; have := t.isLt; omega
  obtain rfl : t = t2_9 := Fin.ext h9
  show (cfg2.win 2).cut (grid2.coords t2_9) ((dat2 (F := Ideal) V c).after 2 t2_9) = _
  rw [after2_2]
  have hz' : (fun a => win2_2.index t2_9 a * main_v65.ty.shape.size a) = fun _ => 0 := funext fun a => by fin_cases a <;> decide
  exact (Memref.read_access_unit_zero (Elt Ideal) main_v65 hz' (fun a => by rw [congrFun hz' a]; simp) (result2 V c)).symm

/-- So the result array ends holding what the accumulator holds after the last point. -/
theorem final2 (c : Dev nD) : (dat2 (F := Ideal) V c).arrAt 2 cfg2.N = result2 V c :=
  (dat2 (F := Ideal) V c).arrAt_eq_of_cover 2 (result2 V c) (flushed2_eq V c) fun i =>
    ⟨t2_9, (flush2_2 t2_9).mpr rfl, by
      show i ∈ ((View.whole main_v65).slice (win2_2.rect t2_9)).set
      rw [View.set_slice_whole, Rect.mem_set_unit]
      intro a
      have h0 : (i 0 : Nat) < 1 := (i 0).isLt
      have h1 : (i 1 : Nat) < 128 := (i 1).isLt
      match a with
      | ⟨0, _⟩ => show win2_2.index t2_9 0 * win2_2.size 0 ≤ (i 0 : Nat) ∧ (i 0 : Nat) < win2_2.index t2_9 0 * win2_2.size 0 + win2_2.xsize (grid2.coords t2_9) 0
                  rw [show win2_2.index t2_9 0 * win2_2.size 0 = 0 from by decide +kernel, show win2_2.xsize (grid2.coords t2_9) 0 = 1 from by decide +kernel]; omega
      | ⟨1, _⟩ => show win2_2.index t2_9 1 * win2_2.size 1 ≤ (i 1 : Nat) ∧ (i 1 : Nat) < win2_2.index t2_9 1 * win2_2.size 1 + win2_2.xsize (grid2.coords t2_9) 1
                  rw [show win2_2.index t2_9 1 * win2_2.size 1 = 0 from by decide +kernel, show win2_2.xsize (grid2.coords t2_9) 1 = 128 from by decide +kernel]; omega⟩

/-- The ten blocks' sums at lane `q` add up to the sum over all 50000 rows. -/
theorem sum_blockSq2 (c : Dev nD) (q : Fin 128) :
    ∑ t ∈ Finset.range 10, blockSq2 V c q t
      = ∑ r : Fin 50000, (arr2 V c (ix2 r q) - mean2 V c (ix1 q)) * (arr2 V c (ix2 r q) - mean2 V c (ix1 q)) := by
  have hN : cfg2.N = 10 := N_2
  rw [Finset.sum_range]
  refine Eq.trans ?_ (QLin.sum_blocks 10 5000 (fun i : Fin (10 * 5000) =>
    (arr2 V c (ix2 (i : Fin 50000) q) - mean2 V c (ix1 q)) * (arr2 V c (ix2 (i : Fin 50000) q) - mean2 V c (ix1 q)))).symm
  refine Finset.sum_congr rfl fun t _ => ?_
  unfold blockSq2
  rw [dif_pos (by omega : t.val < cfg2.N)]
  refine Finset.sum_congr rfl fun r _ => ?_
  have e0 := iblk2_apply V c ⟨t.val, by omega⟩ r q (QLin.block_lt (n := 10) (b := 5000) t r)
  have e1 := iblk2_mean V c ⟨t.val, by omega⟩ q
  rw [e0, e1]

/-- REGION 2: the result array at lane `q` is the sum over the operand's 50000 rows of the squared deviation from the
    [128] operand at that lane. -/
theorem sq2 (c : Dev nD) (q : Fin 128) :
    (dat2 (F := Ideal) V c).arrAt 2 cfg2.N (ix2 0 q)
      = ∑ r : Fin 50000, (arr2 V c (ix2 r q) - mean2 V c (ix1 q)) * (arr2 V c (ix2 r q) - mean2 V c (ix1 q)) := by
  refine (congrFun (final2 V c) (ix2 0 q)).trans ?_
  refine (outsAt2_sq V c q 9 (by rw [show cfg2.N = 10 from N_2]; decide)).trans ?_
  exact sum_blockSq2 V c q

end Value

end Cert.KernelIdeal.Val

end
-- ==== Proof.ValNorm3.lean ====
/-
  Region 3 (scale, shift, clamp at zero), read as an array: after the region, entry (r, q) of its output array is
  max (a (r, q) * scale q + shift q, 0) of its three input arrays as the region finds them.  The body's stored value is
  read at an entry of a block; each block of the grid is a row block of the arrays; the row blocks cover the output.
-/
import proofs.«133142_j1864015807124_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«133142_j1864015807124_2_alg».proof.Proof.ValSpecA

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The body's stored value at entry (r, q) of a block: the block's entry times the scale's entry q plus the shift's
    entry q, clamped below at zero (the two row vectors are broadcast over the rows; the casts between equal shapes
    and to a leading unit axis move no entry). -/
theorem pay3_apply (x0 : Vec Ideal S5000x128 .f32) (x1 x2 : Vec Ideal S128 .f32) (r : Fin 5000) (q : Fin 128) :
    k3_pay1 x0 x1 x2 (ix2 r q) = max (x0 (ix2 r q) * x1 (ix1 q) + x2 (ix1 q)) 0 := by
  unfold k3_pay1
  rw [maximumf_apply, addf_apply, mulf_apply, broadcast_apply, shapeCast_self, shapeCast_self, shapeCast_self,
    broadcastTo_1b_ab_apply, broadcastTo_1b_ab_apply, shapeCast_a_1a_apply, shapeCast_a_1a_apply]
  show max _ (Ideal.ofBits .f32 0x00000000#32) = _
  rw [Ideal.ofBits_zero_f32]

/-- The index maps over the grid: point t reads and writes row block t, column block 0; the two row vectors are
    whole at every point. -/
theorem idx_facts3 : ∀ t : Fin cfg3.N, win3_0.index t (0 : Fin 2) = t.val ∧ win3_0.index t (1 : Fin 2) = 0
    ∧ win3_1.index t (0 : Fin 1) = 0 ∧ win3_2.index t (0 : Fin 1) = 0
    ∧ win3_3.index t (0 : Fin 2) = t.val ∧ win3_3.index t (1 : Fin 2) = 0 :=
  (by decide +kernel : ∀ t : Fin grid3.N, _)

/-- Entry (r, q) of the input's block at point t is entry (5000 t + r, q) of the input array. -/
theorem emb3_0 (t : Fin cfg3.N) (r : Fin 5000) (q : Fin 128) (hb : t.val * 5000 + r.val < 50000) :
    ((cfg3.win 0).blk t).view.emb (ix2 r q) = ix2 (⟨t.val * 5000 + r.val, hb⟩ : Fin 50000) q := by
  obtain ⟨e0, e1, e2, e3, e4, e5⟩ := idx_facts3 t
  funext a; apply Fin.ext
  match a with
  | ⟨0, _⟩ => show win3_0.index t (0 : Fin 2) * 5000 + 1 * r.val = t.val * 5000 + r.val; omega
  | ⟨1, _⟩ => show win3_0.index t (1 : Fin 2) * 128 + 1 * q.val = q.val; omega

/-- The scale's block at every point is the whole vector. -/
theorem emb3_1 (t : Fin cfg3.N) (q : Fin 128) : ((cfg3.win 1).blk t).view.emb (ix1 q) = ix1 q := by
  obtain ⟨e0, e1, e2, e3, e4, e5⟩ := idx_facts3 t
  funext a; apply Fin.ext
  match a with
  | ⟨0, _⟩ => show win3_1.index t (0 : Fin 1) * 128 + 1 * q.val = q.val; omega

/-- The shift's block at every point is the whole vector. -/
theorem emb3_2 (t : Fin cfg3.N) (q : Fin 128) : ((cfg3.win 2).blk t).view.emb (ix1 q) = ix1 q := by
  obtain ⟨e0, e1, e2, e3, e4, e5⟩ := idx_facts3 t
  funext a; apply Fin.ext
  match a with
  | ⟨0, _⟩ => show win3_2.index t (0 : Fin 1) * 128 + 1 * q.val = q.val; omega

/-- Entry (r, q) of the output's block at point t is entry (5000 t + r, q) of the output array. -/
theorem emb3_3 (t : Fin cfg3.N) (r : Fin 5000) (q : Fin 128) (hb : t.val * 5000 + r.val < 50000) :
    ((cfg3.win 3).blk t).view.emb (ix2 r q) = ix2 (⟨t.val * 5000 + r.val, hb⟩ : Fin 50000) q := by
  obtain ⟨e0, e1, e2, e3, e4, e5⟩ := idx_facts3 t
  funext a; apply Fin.ext
  match a with
  | ⟨0, _⟩ => show win3_3.index t (0 : Fin 2) * 5000 + 1 * r.val = t.val * 5000 + r.val; omega
  | ⟨1, _⟩ => show win3_3.index t (1 : Fin 2) * 128 + 1 * q.val = q.val; omega

/-- The input's block at point t, read at (r, q). -/
theorem iblk3_0_apply (c : Dev nD) (a : S50000x128.Idx → EReal) (h0 : V c (Pipeline.arrRef spec3 0) = a)
    (t : Fin cfg3.N) (r : Fin 5000) (q : Fin 128) (hb : t.val * 5000 + r.val < 50000) :
    iblk3 V c 0 t (ix2 r q) = a (ix2 (⟨t.val * 5000 + r.val, hb⟩ : Fin 50000) q) := by
  subst h0
  show V c (Pipeline.arrRef spec3 0) (((cfg3.win 0).blk t).view.emb (ix2 r q)) = _
  rw [emb3_0 t r q hb]

/-- The scale's block at point t, read at q. -/
theorem iblk3_1_apply (c : Dev nD) (scale : S128.Idx → EReal) (h1 : V c (Pipeline.arrRef spec3 1) = scale)
    (t : Fin cfg3.N) (q : Fin 128) : iblk3 V c 1 t (ix1 q) = scale (ix1 q) := by
  subst h1
  show V c (Pipeline.arrRef spec3 1) (((cfg3.win 1).blk t).view.emb (ix1 q)) = _
  rw [emb3_1 t q]

/-- The shift's block at point t, read at q. -/
theorem iblk3_2_apply (c : Dev nD) (shift : S128.Idx → EReal) (h2 : V c (Pipeline.arrRef spec3 2) = shift)
    (t : Fin cfg3.N) (q : Fin 128) : iblk3 V c 2 t (ix1 q) = shift (ix1 q) := by
  subst h2
  show V c (Pipeline.arrRef spec3 2) (((cfg3.win 2).blk t).view.emb (ix1 q)) = _
  rw [emb3_2 t q]

/-- What point t writes back is block t of the scaled, shifted and clamped array. -/
theorem flushed3_eq (c : Dev nD) (a : S50000x128.Idx → EReal) (scale shift : S128.Idx → EReal)
    (h0 : V c (Pipeline.arrRef spec3 0) = a) (h1 : V c (Pipeline.arrRef spec3 1) = scale)
    (h2 : V c (Pipeline.arrRef spec3 2) = shift) (t : Fin cfg3.N) :
    (dat3 (F := Ideal) V c).flushed 3 t = ((cfg3.win 3).blk t).view.read (Elt Ideal) (normRelu a scale shift) := by
  show (cfg3.win 3).cut (grid3.coords t) ((dat3 (F := Ideal) V c).after 3 t) = _
  rw [after3_3]
  unfold out3_3
  rw [View.canon_unit_zero hz2]
  simp only [View.ld_unit_zero (S := S5000x128) hz2, View.ld_unit_zero (S := S128) hz1]
  funext j
  obtain ⟨r, q, rfl⟩ : ∃ (r : Fin 5000) (q : Fin 128), j = ix2 r q := ⟨j 0, j 1, eq_ix2 j⟩
  have hN : cfg3.N = 10 := N_3
  have ht : t.val < 10 := hN ▸ t.isLt
  have hb : t.val * 5000 + r.val < 50000 := by omega
  show k3_pay1 (iblk3 V c 0 t) (iblk3 V c 1 t) (iblk3 V c 2 t) (ix2 r q)
    = normRelu a scale shift (((cfg3.win 3).blk t).view.emb (ix2 r q))
  refine (pay3_apply (iblk3 V c 0 t) (iblk3 V c 1 t) (iblk3 V c 2 t) r q).trans ?_
  rw [emb3_3 t r q hb, iblk3_0_apply V c a h0 t r q hb, iblk3_1_apply V c scale h1 t q, iblk3_2_apply V c shift h2 t q]
  rfl

/-- An index of the array is in point t's block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v82).slice (win3_3.rect t)).set ↔ _
  rw [View.set_slice_whole, Rect.mem_set_unit]
  exact Iff.rfl

/-- Every entry of the array is in some point's block: row r is in the block of point r / 5000. -/
theorem cover3 (i : S50000x128.Idx) :
    ∃ t : Fin cfg3.N, (cfg3.win 3).flush t = true ∧ i ∈ ((cfg3.win 3).blk t).view.set := by
  have hN : cfg3.N = 10 := N_3
  have hi0 : (i 0).val < 50000 := (i 0).isLt
  have hi1 : (i 1).val < 128 := (i 1).isLt
  refine ⟨⟨(i 0).val / 5000, by rw [hN]; omega⟩, flush3_3 _, ?_⟩
  rw [mem_blk3]
  obtain ⟨e0, e1, e2, e3, e4, e5⟩ := idx_facts3 ⟨(i 0).val / 5000, by rw [hN]; omega⟩
  intro a
  match a with
  | ⟨0, _⟩ =>
    show win3_3.index _ (0 : Fin 2) * 5000 ≤ (i 0).val ∧ (i 0).val < win3_3.index _ (0 : Fin 2) * 5000 + 5000
    rw [e4]; show (i 0).val / 5000 * 5000 ≤ (i 0).val ∧ (i 0).val < (i 0).val / 5000 * 5000 + 5000; omega
  | ⟨1, _⟩ =>
    show win3_3.index _ (1 : Fin 2) * 128 ≤ (i 1).val ∧ (i 1).val < win3_3.index _ (1 : Fin 2) * 128 + 128
    rw [e5]; omega

/-- The array after the region: the input array scaled, shifted and clamped at zero, entry by entry. -/
theorem nrm3_fun (c : Dev nD) (a : S50000x128.Idx → EReal) (scale shift : S128.Idx → EReal)
    (h0 : V c (Pipeline.arrRef spec3 0) = a) (h1 : V c (Pipeline.arrRef spec3 1) = scale)
    (h2 : V c (Pipeline.arrRef spec3 2) = shift) :
    (dat3 (F := Ideal) V c).arrAt 3 cfg3.N = normRelu a scale shift :=
  (dat3 (F := Ideal) V c).arrAt_eq_of_cover 3 (normRelu a scale shift)
    (fun t _ => flushed3_eq V c a scale shift h0 h1 h2 t) cover3

/-- The same at an entry (r, q). -/
theorem nrm3 (c : Dev nD) (a out : S50000x128.Idx → EReal) (scale shift : S128.Idx → EReal)
    (h0 : V c (Pipeline.arrRef spec3 0) = a) (h1 : V c (Pipeline.arrRef spec3 1) = scale)
    (h2 : V c (Pipeline.arrRef spec3 2) = shift) (hout : (dat3 (F := Ideal) V c).arrAt 3 cfg3.N = out)
    (r : Fin 50000) (q : Fin 128) :
    out (ix2 r q) = max (a (ix2 r q) * scale (ix1 q) + shift (ix1 q)) 0 := by
  rw [← hout, nrm3_fun V c a scale shift h0 h1 h2]
  rfl

end Cert.KernelIdeal.Val
end
-- ==== Proof.KLayer0.lean ====
import proofs.«133142_j1864015807124_2_alg».proof.Proof.Gen.KernelIdeal.Frame
import proofs.«133142_j1864015807124_2_alg».proof.Proof.Stages
import proofs.«133142_j1864015807124_2_alg».proof.Proof.BnSpec
import proofs.«133142_j1864015807124_2_alg».proof.Proof.LinSpec
import proofs.«133142_j1864015807124_2_alg».proof.Proof.LibEReal
import proofs.«133142_j1864015807124_2_alg».proof.Proof.KGlueDefs
import proofs.«133142_j1864015807124_2_alg».proof.Proof.KGlueBn
import proofs.«133142_j1864015807124_2_alg».proof.Proof.KRead0
import proofs.«133142_j1864015807124_2_alg».proof.Proof.KReadL0
import proofs.«133142_j1864015807124_2_alg».proof.Proof.KCarry
import proofs.«133142_j1864015807124_2_alg».proof.Proof.ValLinear0
import proofs.«133142_j1864015807124_2_alg».proof.Proof.ValSum1
import proofs.«133142_j1864015807124_2_alg».proof.Proof.ValSq2
import proofs.«133142_j1864015807124_2_alg».proof.Proof.ValNorm3

/-!
# Layer 0 of the kernel's run, as a function of its input

Through the layer's four regions and the host stretches between them: the linear region leaves `h · w + b` in both
of its copies; the aggregate of that is what the three normalisation regions read; the lane sums give the column
means, the lane sums of squared deviations the column variances, and the last region applies scale and shift and
clamps. Entry by entry the layer's output is the batch normalisation of the aggregate (the two-pass arrangement folded
into scale and shift equals the direct one for real scale and shift rows).
-/

set_option maxRecDepth 16384

noncomputable section

namespace Cert.KernelIdeal.Layer

open Idealize.ShloMosaic Idealize.ShloMosaic.TcCoe Idealize.ShloMosaic.Tactic Idealize.ShloMosaic.ValueIdx
open Cert.KernelIdeal Cert.KernelIdeal.Gen Cert.Stages Cert.KernelIdeal.Glue Cert.KernelIdeal.Read Cert.KernelIdeal.Keep Cert.KernelIdeal.Val

variable (m : (ℓ : Loc nD τ sig) → Buf (Elt Ideal) ℓ) (ρ : Dev nD → PrngReg) (c : Dev nD)

/-- The linear region leaves `h · w + b` in its wide copy. -/
theorem lin0_wide : W2 m ρ c (Proc.devRef .tc main_v32_0) = (lin0Of (W0 m ρ c (Proc.devRef .tc main_arg0)) (W0 m ρ c (Proc.devRef .tc main_arg4)) (W0 m ρ c (Proc.devRef .tc main_arg5))) :=
  (W2_arr m ρ c 3).trans ((lin0_f32_fun (V1 m ρ) c _ _ _ (keep_arg0_0_1 m ρ c) (keep_arg4_0_1 m ρ c) (keep_arg5_0_1 m ρ c)).trans (linear_eq_lin0Of _ _ _))

/-- … and the same values in its narrow copy (a change of format is the identity on the extended reals). -/
theorem lin0_narrow : W2 m ρ c (Proc.devRef .tc main_v32_1) = (lin0Of (W0 m ρ c (Proc.devRef .tc main_arg0)) (W0 m ρ c (Proc.devRef .tc main_arg4)) (W0 m ρ c (Proc.devRef .tc main_arg5))) :=
  (W2_arr m ρ c 4).trans ((lin0_bf16_fun (V1 m ρ) c _ _ _ (keep_arg0_0_1 m ρ c) (keep_arg4_0_1 m ρ c) (keep_arg5_0_1 m ρ c)).trans (linear_eq_lin0Of _ _ _))

/-- The layer's aggregate as the normalisation regions find it. -/
abbrev AGG0 : FVec Ideal S100000x64 .f32 :=
  aggFrom (gatheredK0 (W2 m ρ c (Proc.devRef .tc main_v32_1)) (W2 m ρ c (Proc.devRef .tc main_v1))) (W2 m ρ c (Proc.devRef .tc main_v32_0))
    (W2 m ρ c (Proc.devRef .tc main_v30)) (W2 m ρ c (Proc.devRef .tc main_v31)) (W2 m ρ c (Proc.devRef .tc main_v3))

theorem agg2_0 : W3 m ρ c (Proc.devRef .tc main_v56) = view2 (AGG0 m ρ c) := h0_agg (W2 m ρ c)

/-- The aggregate is the shared chain of the layer's linear output, the edge coefficients and the endpoints. -/
theorem AGG0_eq : AGG0 m ρ c = aggOf (lin0Of (W0 m ρ c (Proc.devRef .tc main_arg0)) (W0 m ρ c (Proc.devRef .tc main_arg4)) (W0 m ρ c (Proc.devRef .tc main_arg5))) (normOf (srcOf (W0 m ρ c (Proc.devRef .tc main_arg1))) (dstOf (W0 m ρ c (Proc.devRef .tc main_arg1))) (W0 m ρ c (Proc.devRef .tc main_arg2))) (selfOf (dstOf (W0 m ρ c (Proc.devRef .tc main_arg1))) (W0 m ρ c (Proc.devRef .tc main_arg2))) (srcOf (W0 m ρ c (Proc.devRef .tc main_arg1))) (dstOf (W0 m ρ c (Proc.devRef .tc main_arg1))) := by
  unfold AGG0 gatheredK0
  rw [lin0_wide m ρ c , lin0_narrow m ρ c , keep_v1_1_2 m ρ c, keep_v3_1_2 m ρ c, keep_v30_1_2 m ρ c, keep_v31_1_2 m ρ c,
    (show W1 m ρ c (Proc.devRef .tc main_v1) = (srcOf (W0 m ρ c (Proc.devRef .tc main_arg1))) from h0_src (W0 m ρ c)),
    (show W1 m ρ c (Proc.devRef .tc main_v3) = (dstOf (W0 m ρ c (Proc.devRef .tc main_arg1))) from h0_dst (W0 m ρ c)),
    (show W1 m ρ c (Proc.devRef .tc main_v30) = (normOf (srcOf (W0 m ρ c (Proc.devRef .tc main_arg1))) (dstOf (W0 m ρ c (Proc.devRef .tc main_arg1))) (W0 m ρ c (Proc.devRef .tc main_arg2))) from h0_norm (W0 m ρ c)),
    (show W1 m ρ c (Proc.devRef .tc main_v31) = (selfOf (dstOf (W0 m ρ c (Proc.devRef .tc main_arg1))) (W0 m ρ c (Proc.devRef .tc main_arg2))) from h0_self (W0 m ρ c))]
  exact aggFrom_gathered _ _ _ _ _ _

theorem hs0 (q : Fin 128) : (W4 m ρ c (Proc.devRef .tc main_v57) : FVec Ideal S1x128 .f32) (ix2 (0 : Fin 1) q)
    = ∑ r : Fin 50000, view2 (AGG0 m ρ c) (ix2 r q) := by
  have h := sum1 (V3 m ρ) c q
  rw [← agg2_0 m ρ c]
  exact ((congrFun (W4_arr m ρ c 1) (ix2 0 q)).trans h)

theorem hsq0 (q : Fin 128) : (W6 m ρ c (Proc.devRef .tc main_v65) : FVec Ideal S1x128 .f32) (ix2 (0 : Fin 1) q)
    = ∑ r : Fin 50000, (view2 (AGG0 m ρ c) (ix2 r q) - tile2 (meanK (W4 m ρ c (Proc.devRef .tc main_v57))) (ix1 q))
        * (view2 (AGG0 m ρ c) (ix2 r q) - tile2 (meanK (W4 m ρ c (Proc.devRef .tc main_v57))) (ix1 q)) := by
  have h := sq2 (V5 m ρ) c q
  have e1 : (V5 m ρ c (Pipeline.arrRef spec2 0) : Vec Ideal S50000x128 .f32) = view2 (AGG0 m ρ c) :=
    (keep_v56_3_5 m ρ c).trans (agg2_0 m ρ c)
  have e2 : (V5 m ρ c (Pipeline.arrRef spec2 1) : Vec Ideal S128 .f32) = tile2 (meanK (W4 m ρ c (Proc.devRef .tc main_v57))) :=
    h0_meanT (W4 m ρ c)
  rw [← e1, ← e2]
  exact ((congrFun (W6_arr m ρ c 2) (ix2 0 q)).trans h)

theorem ho0 (r : Fin 50000) (q : Fin 128) : (W8 m ρ c (Proc.devRef .tc main_v82) : FVec Ideal S50000x128 .f32) (ix2 r q)
    = max (view2 (AGG0 m ρ c) (ix2 r q) * tile2 (scaleK (W6 m ρ c (Proc.devRef .tc main_v65)) (W0 m ρ c (Proc.devRef .tc main_arg6))) (ix1 q)
        + tile2 (shiftK (W4 m ρ c (Proc.devRef .tc main_v57)) (W6 m ρ c (Proc.devRef .tc main_v65)) (W0 m ρ c (Proc.devRef .tc main_arg6)) (W0 m ρ c (Proc.devRef .tc main_arg7))) (ix1 q)) 0 := by
  have e0 : (V7 m ρ c (Pipeline.arrRef spec3 0) : S50000x128.Idx → EReal) = view2 (AGG0 m ρ c) :=
    (keep_v56_3_7 m ρ c).trans (agg2_0 m ρ c)
  have e1 : (V7 m ρ c (Pipeline.arrRef spec3 1) : S128.Idx → EReal)
      = tile2 (scaleK (W6 m ρ c (Proc.devRef .tc main_v65)) (W0 m ρ c (Proc.devRef .tc main_arg6))) := by
    refine (h0_scaleT (W6 m ρ c)).trans ?_
    rw [keep_arg6_0_6 m ρ c]
  have e2 : (V7 m ρ c (Pipeline.arrRef spec3 2) : S128.Idx → EReal)
      = tile2 (shiftK (W4 m ρ c (Proc.devRef .tc main_v57)) (W6 m ρ c (Proc.devRef .tc main_v65)) (W0 m ρ c (Proc.devRef .tc main_arg6)) (W0 m ρ c (Proc.devRef .tc main_arg7))) := by
    refine (h0_shiftT (W6 m ρ c)).trans ?_
    rw [keep_arg6_0_6 m ρ c, keep_arg7_0_6 m ρ c, keep_v63_5_6 m ρ c,
      (show W5 m ρ c (Proc.devRef .tc main_v63) = meanK (W4 m ρ c (Proc.devRef .tc main_v57)) from h0_mean (W4 m ρ c))]
    rfl
  exact nrm3 (V7 m ρ) c _ _ _ _ e0 e1 e2 (W8_arr m ρ c 3).symm r q

/-- The layer: its output rows are the batch normalisation (and clamp) of the aggregate of `h · w + b`. -/
theorem layer0 (hg : ∀ j : Fin 64, Cert.Spec.IsReal ((W0 m ρ c (Proc.devRef .tc main_arg6) : FVec Ideal S64 .f32) (ix1 j)))
    (hbe : ∀ j : Fin 64, Cert.Spec.IsReal ((W0 m ρ c (Proc.devRef .tc main_arg7) : FVec Ideal S64 .f32) (ix1 j))) :
    W9 m ρ c (Proc.devRef .tc main_v83)
      = bnSpec (aggOf (lin0Of (W0 m ρ c (Proc.devRef .tc main_arg0)) (W0 m ρ c (Proc.devRef .tc main_arg4)) (W0 m ρ c (Proc.devRef .tc main_arg5))) (normOf (srcOf (W0 m ρ c (Proc.devRef .tc main_arg1))) (dstOf (W0 m ρ c (Proc.devRef .tc main_arg1))) (W0 m ρ c (Proc.devRef .tc main_arg2))) (selfOf (dstOf (W0 m ρ c (Proc.devRef .tc main_arg1))) (W0 m ρ c (Proc.devRef .tc main_arg2))) (srcOf (W0 m ρ c (Proc.devRef .tc main_arg1))) (dstOf (W0 m ρ c (Proc.devRef .tc main_arg1)))) (W0 m ρ c (Proc.devRef .tc main_arg6)) (W0 m ρ c (Proc.devRef .tc main_arg7)) := by
  rw [← AGG0_eq m ρ c ]
  refine (h0_out (W8 m ρ c)).trans ?_
  funext idx
  obtain ⟨i, j, rfl⟩ : ∃ (i : Fin 100000) (j : Fin 64), idx = ix2 i j := ⟨idx 0, idx 1, eq_ix2 idx⟩
  exact bnK_apply (AGG0 m ρ c) _ _ _ _ hg hbe _ (hs0 m ρ c) (hsq0 m ρ c) (ho0 m ρ c) i j

end Cert.KernelIdeal.Layer

end
-- ==== Proof.KReadL1.lean ====
import proofs.«133142_j1864015807124_2_alg».proof.Proof.Gen.KernelIdeal.Frame
import proofs.«133142_j1864015807124_2_alg».proof.Proof.Stages
import proofs.«133142_j1864015807124_2_alg».proof.Proof.KGlueDefs

/-!
# Layer 1's stretches of host operations in the kernel's program, read back

From any buffer contents `W`: the aggregation of the layer's transformed features (the messages gathered from the
narrow copy, widened, weighted, scatter-added at the targets, plus the self-loop term) viewed as `[50000, 128]`; the
column means from the lane sums, tiled to 128 lanes; the scale and shift rows from the lane sums of squared deviations,
tiled; and the normalised rows viewed back as `[100000, 64]`.
-/

set_option maxRecDepth 16384

noncomputable section

namespace Cert.KernelIdeal.Read

open Idealize.ShloMosaic Idealize.ShloMosaic.TcCoe Idealize.ShloMosaic.Tactic
open Cert.KernelIdeal Cert.KernelIdeal.Gen Cert.Stages Cert.KernelIdeal.Glue
open StableHlo

variable (W : Valuation τ sig (Elt Ideal))

/-- The rows gathered at the sources from the narrow copy, widened (the identity on the extended reals). -/
def gatheredK1 (Hb : FVec Ideal S100000x64 .bf16) (src : IVec S1600000 32) : FVec Ideal S1600000x64 .f32 :=
  extf .f32 (Host.gather gather_S100000x64_S1600000x1_S1600000x64_1_0_n_n_0_1_164 Hb (nidx src)) bitsLt_bf16_f32

theorem h1_agg : StableHlo.after (hostOps5 (F := Ideal)) W (Proc.devRef .tc main_v108)
    = view2 (aggFrom (gatheredK1 (W (Proc.devRef .tc main_v84_1)) (W (Proc.devRef .tc main_v1))) (W (Proc.devRef .tc main_v84_0)) (W (Proc.devRef .tc main_v30)) (W (Proc.devRef .tc main_v31)) (W (Proc.devRef .tc main_v3))) := by
  dsimp only [hostOps5]; after_results_simp; rfl

theorem h1_mean : StableHlo.after (hostOps6 (F := Ideal)) W (Proc.devRef .tc main_v115) = meanK (W (Proc.devRef .tc main_v109)) := by
  dsimp only [hostOps6]; after_results_simp; rfl

theorem h1_meanT : StableHlo.after (hostOps6 (F := Ideal)) W (Proc.devRef .tc main_v116) = tile2 (meanK (W (Proc.devRef .tc main_v109))) := by
  dsimp only [hostOps6]; after_results_simp
  refine congrArg (fun z => concatenate S128 0 [⟨S64, z⟩, ⟨S64, z⟩] concatenates_S64_S64_S128_d0) ?_
  after_results_simp; rfl

theorem h1_scaleT : StableHlo.after (hostOps7 (F := Ideal)) W (Proc.devRef .tc main_v132) = tile2 (scaleK (W (Proc.devRef .tc main_v117)) (W (Proc.devRef .tc main_arg10))) := by
  dsimp only [hostOps7]; after_results_simp
  refine congrArg (fun z => concatenate S128 0 [⟨S64, z⟩, ⟨S64, z⟩] concatenates_S64_S64_S128_d0) ?_
  after_results_simp; rfl

theorem h1_shiftT : StableHlo.after (hostOps7 (F := Ideal)) W (Proc.devRef .tc main_v133)
    = tile2 (subf (W (Proc.devRef .tc main_arg11)) (mulf (W (Proc.devRef .tc main_v115)) (scaleK (W (Proc.devRef .tc main_v117)) (W (Proc.devRef .tc main_arg10))))) := by
  dsimp only [hostOps7]; after_results_simp
  refine congrArg (fun z => concatenate S128 0 [⟨S64, z⟩, ⟨S64, z⟩] concatenates_S64_S64_S128_d0) ?_
  after_results_simp; rfl

theorem h1_out : StableHlo.after (hostOps8 (F := Ideal)) W (Proc.devRef .tc main_v135) = unview2 (W (Proc.devRef .tc main_v134)) := by
  dsimp only [hostOps8]; after_results_simp; rfl

end Cert.KernelIdeal.Read

end
-- ==== Proof.ValLinear4.lean ====
/-
  Region 4 (matrix product plus bias), read as arrays: after the region, entry (p, q) of each of its two output
  arrays is the sum over k of a (p, k) * w (k, q), plus b q, of its three input arrays as the region finds them (on the
  extended reals the rounding of the second output is the identity).  The body's stored value is read at an entry of a
  block; each block of the grid is a row block of the arrays; the row blocks cover each output.
-/
import proofs.«133142_j1864015807124_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«133142_j1864015807124_2_alg».proof.Proof.ValSpecA
import proofs.«133142_j1864015807124_2_alg».proof.Proof.LibMatmulPlain

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The body's first stored value at entry (p, q) of a block: row p of the input block times column q of the weights,
    plus the bias's entry q (the product accumulates into zero; rounding the operands is the identity on the extended
    reals; the bias is broadcast over the rows). -/
theorem pay4_apply (x0 : Vec Ideal S4000x64 .f32) (x1 : Vec Ideal S64x64 .f32) (x2 : Vec Ideal S64 .f32)
    (p : Fin 4000) (q : Fin 64) :
    k4_pay1 x0 x1 x2 (ix2 p q) = (∑ k : Fin 64, x0 (ix2 p k) * x1 (ix2 k q)) + x2 (ix1 q) := by
  unfold k4_pay1
  rw [addf_apply, broadcastTo_1b_ab_apply, shapeCast_a_1a_apply, shapeCast_self]
  refine congrArg (fun z => z + x2 (ix1 q)) ?_
  exact Cert.LibMatmulPlain.matmul_zero_apply dot_S4000x64_S64x64_S4000x64_1_0_0_1_n_n rfl rfl rfl rfl rfl rfl
    (truncf .bf16 x0 bitsLt_bf16_f32) (truncf .bf16 x1 bitsLt_bf16_f32) p q

/-- The body's second stored value is the first, rounded: the same entry on the extended reals. -/
theorem pay4r_apply (x0 : Vec Ideal S4000x64 .f32) (x1 : Vec Ideal S64x64 .f32) (x2 : Vec Ideal S64 .f32)
    (p : Fin 4000) (q : Fin 64) :
    k4_pay2 x0 x1 x2 (ix2 p q) = (∑ k : Fin 64, x0 (ix2 p k) * x1 (ix2 k q)) + x2 (ix1 q) := by
  unfold k4_pay2
  exact pay4_apply x0 x1 x2 p q

/-- The index maps over the grid: point t reads row block t of the input and writes row block t of each output,
    column block 0; the weights and the bias are whole at every point. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0 ∧ win4_2.index t (0 : Fin 1) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Entry (p, k) of the input's block at point t is entry (4000 t + p, k) of the input array. -/
theorem emb4_0 (t : Fin cfg4.N) (p : Fin 4000) (k : Fin 64) (hb : t.val * 4000 + p.val < 100000) :
    ((cfg4.win 0).blk t).view.emb (ix2 p k) = ix2 (⟨t.val * 4000 + p.val, hb⟩ : Fin 100000) k := by
  obtain ⟨e0, e1, e2, e3, e4, e5, e6, e7, e8⟩ := idx_facts4 t
  funext a; apply Fin.ext
  match a with
  | ⟨0, _⟩ => show win4_0.index t (0 : Fin 2) * 4000 + 1 * p.val = t.val * 4000 + p.val; omega
  | ⟨1, _⟩ => show win4_0.index t (1 : Fin 2) * 64 + 1 * k.val = k.val; omega

/-- The weights' block at every point is the whole matrix. -/
theorem emb4_1 (t : Fin cfg4.N) (k : Fin 64) (q : Fin 64) : ((cfg4.win 1).blk t).view.emb (ix2 k q) = ix2 k q := by
  obtain ⟨e0, e1, e2, e3, e4, e5, e6, e7, e8⟩ := idx_facts4 t
  funext a; apply Fin.ext
  match a with
  | ⟨0, _⟩ => show win4_1.index t (0 : Fin 2) * 64 + 1 * k.val = k.val; omega
  | ⟨1, _⟩ => show win4_1.index t (1 : Fin 2) * 64 + 1 * q.val = q.val; omega

/-- The bias's block at every point is the whole vector. -/
theorem emb4_2 (t : Fin cfg4.N) (q : Fin 64) : ((cfg4.win 2).blk t).view.emb (ix1 q) = ix1 q := by
  obtain ⟨e0, e1, e2, e3, e4, e5, e6, e7, e8⟩ := idx_facts4 t
  funext a; apply Fin.ext
  match a with
  | ⟨0, _⟩ => show win4_2.index t (0 : Fin 1) * 64 + 1 * q.val = q.val; omega

/-- Entry (p, q) of the first output's block at point t is entry (4000 t + p, q) of its array. -/
theorem emb4_3 (t : Fin cfg4.N) (p : Fin 4000) (q : Fin 64) (hb : t.val * 4000 + p.val < 100000) :
    ((cfg4.win 3).blk t).view.emb (ix2 p q) = ix2 (⟨t.val * 4000 + p.val, hb⟩ : Fin 100000) q := by
  obtain ⟨e0, e1, e2, e3, e4, e5, e6, e7, e8⟩ := idx_facts4 t
  funext a; apply Fin.ext
  match a with
  | ⟨0, _⟩ => show win4_3.index t (0 : Fin 2) * 4000 + 1 * p.val = t.val * 4000 + p.val; omega
  | ⟨1, _⟩ => show win4_3.index t (1 : Fin 2) * 64 + 1 * q.val = q.val; omega

/-- Entry (p, q) of the second output's block at point t is entry (4000 t + p, q) of its array. -/
theorem emb4_4 (t : Fin cfg4.N) (p : Fin 4000) (q : Fin 64) (hb : t.val * 4000 + p.val < 100000) :
    ((cfg4.win 4).blk t).view.emb (ix2 p q) = ix2 (⟨t.val * 4000 + p.val, hb⟩ : Fin 100000) q := by
  obtain ⟨e0, e1, e2, e3, e4, e5, e6, e7, e8⟩ := idx_facts4 t
  funext a; apply Fin.ext
  match a with
  | ⟨0, _⟩ => show win4_4.index t (0 : Fin 2) * 4000 + 1 * p.val = t.val * 4000 + p.val; omega
  | ⟨1, _⟩ => show win4_4.index t (1 : Fin 2) * 64 + 1 * q.val = q.val; omega

/-- The input's block at point t, read at (p, k). -/
theorem iblk4_0_apply (c : Dev nD) (a : S100000x64.Idx → EReal) (h0 : V c (Pipeline.arrRef spec4 0) = a)
    (t : Fin cfg4.N) (p : Fin 4000) (k : Fin 64) (hb : t.val * 4000 + p.val < 100000) :
    iblk4 V c 0 t (ix2 p k) = a (ix2 (⟨t.val * 4000 + p.val, hb⟩ : Fin 100000) k) := by
  subst h0
  show V c (Pipeline.arrRef spec4 0) (((cfg4.win 0).blk t).view.emb (ix2 p k)) = _
  rw [emb4_0 t p k hb]

/-- The weights' block at point t, read at (k, q). -/
theorem iblk4_1_apply (c : Dev nD) (w : S64x64.Idx → EReal) (h1 : V c (Pipeline.arrRef spec4 1) = w)
    (t : Fin cfg4.N) (k : Fin 64) (q : Fin 64) : iblk4 V c 1 t (ix2 k q) = w (ix2 k q) := by
  subst h1
  show V c (Pipeline.arrRef spec4 1) (((cfg4.win 1).blk t).view.emb (ix2 k q)) = _
  rw [emb4_1 t k q]

/-- The bias's block at point t, read at q. -/
theorem iblk4_2_apply (c : Dev nD) (b : S64.Idx → EReal) (h2 : V c (Pipeline.arrRef spec4 2) = b)
    (t : Fin cfg4.N) (q : Fin 64) : iblk4 V c 2 t (ix1 q) = b (ix1 q) := by
  subst h2
  show V c (Pipeline.arrRef spec4 2) (((cfg4.win 2).blk t).view.emb (ix1 q)) = _
  rw [emb4_2 t q]

/-- Row p of a block times column q of the weights plus the bias's entry q is entry (P, q) of the product plus bias,
    when row p of the block is row P of the array and the weights' and the bias's blocks are whole. -/
theorem blocks4_apply (a : S100000x64.Idx → EReal) (w : S64x64.Idx → EReal) (b : S64.Idx → EReal)
    (x0 : Vec Ideal S4000x64 .f32) (x1 : Vec Ideal S64x64 .f32) (x2 : Vec Ideal S64 .f32)
    (P : Fin 100000) (p : Fin 4000) (q : Fin 64)
    (hx0 : ∀ k : Fin 64, x0 (ix2 p k) = a (ix2 P k)) (hx1 : ∀ k : Fin 64, x1 (ix2 k q) = w (ix2 k q))
    (hx2 : x2 (ix1 q) = b (ix1 q)) :
    (∑ k : Fin 64, x0 (ix2 p k) * x1 (ix2 k q)) + x2 (ix1 q) = linear a w b (ix2 P q) := by
  rw [linear_apply, hx2]
  refine congrArg (fun z => z + b (ix1 q)) (Finset.sum_congr rfl fun k _ => ?_)
  rw [hx0 k, hx1 k]

/-- What point t writes back to the first output is block t of the product plus bias. -/
theorem flushed4_3_eq (c : Dev nD) (a : S100000x64.Idx → EReal) (w : S64x64.Idx → EReal) (b : S64.Idx → EReal)
    (h0 : V c (Pipeline.arrRef spec4 0) = a) (h1 : V c (Pipeline.arrRef spec4 1) = w)
    (h2 : V c (Pipeline.arrRef spec4 2) = b) (t : Fin cfg4.N) :
    (dat4 (F := Ideal) V c).flushed 3 t = ((cfg4.win 3).blk t).view.read (Elt Ideal) (linear a w b) := by
  show (cfg4.win 3).cut (grid4.coords t) ((dat4 (F := Ideal) V c).after 3 t) = _
  rw [after4_3]
  unfold out4_3
  rw [View.canon_unit_zero hz2]
  simp only [View.ld_unit_zero (S := S4000x64) hz2, View.ld_unit_zero (S := S64x64) hz2, View.ld_unit_zero (S := S64) hz1]
  funext j
  obtain ⟨p, q, rfl⟩ : ∃ (p : Fin 4000) (q : Fin 64), j = ix2 p q := ⟨j 0, j 1, eq_ix2 j⟩
  have hN : cfg4.N = 25 := N_4
  have ht : t.val < 25 := hN ▸ t.isLt
  have hb : t.val * 4000 + p.val < 100000 := by omega
  show k4_pay1 (iblk4 V c 0 t) (iblk4 V c 1 t) (iblk4 V c 2 t) (ix2 p q)
    = linear a w b (((cfg4.win 3).blk t).view.emb (ix2 p q))
  refine (pay4_apply (iblk4 V c 0 t) (iblk4 V c 1 t) (iblk4 V c 2 t) p q).trans ?_
  rw [emb4_3 t p q hb]
  exact blocks4_apply a w b (iblk4 V c 0 t) (iblk4 V c 1 t) (iblk4 V c 2 t) ⟨t.val * 4000 + p.val, hb⟩ p q
    (fun k => iblk4_0_apply V c a h0 t p k hb) (fun k => iblk4_1_apply V c w h1 t k q) (iblk4_2_apply V c b h2 t q)

/-- What point t writes back to the second output is block t of the product plus bias. -/
theorem flushed4_4_eq (c : Dev nD) (a : S100000x64.Idx → EReal) (w : S64x64.Idx → EReal) (b : S64.Idx → EReal)
    (h0 : V c (Pipeline.arrRef spec4 0) = a) (h1 : V c (Pipeline.arrRef spec4 1) = w)
    (h2 : V c (Pipeline.arrRef spec4 2) = b) (t : Fin cfg4.N) :
    (dat4 (F := Ideal) V c).flushed 4 t = ((cfg4.win 4).blk t).view.read (Elt Ideal) (linear a w b) := by
  show (cfg4.win 4).cut (grid4.coords t) ((dat4 (F := Ideal) V c).after 4 t) = _
  rw [after4_4]
  unfold out4_4
  rw [View.canon_unit_zero hz2]
  simp only [View.ld_unit_zero (S := S4000x64) hz2, View.ld_unit_zero (S := S64x64) hz2, View.ld_unit_zero (S := S64) hz1]
  funext j
  obtain ⟨p, q, rfl⟩ : ∃ (p : Fin 4000) (q : Fin 64), j = ix2 p q := ⟨j 0, j 1, eq_ix2 j⟩
  have hN : cfg4.N = 25 := N_4
  have ht : t.val < 25 := hN ▸ t.isLt
  have hb : t.val * 4000 + p.val < 100000 := by omega
  show k4_pay2 (iblk4 V c 0 t) (iblk4 V c 1 t) (iblk4 V c 2 t) (ix2 p q)
    = linear a w b (((cfg4.win 4).blk t).view.emb (ix2 p q))
  refine (pay4r_apply (iblk4 V c 0 t) (iblk4 V c 1 t) (iblk4 V c 2 t) p q).trans ?_
  rw [emb4_4 t p q hb]
  exact blocks4_apply a w b (iblk4 V c 0 t) (iblk4 V c 1 t) (iblk4 V c 2 t) ⟨t.val * 4000 + p.val, hb⟩ p q
    (fun k => iblk4_0_apply V c a h0 t p k hb) (fun k => iblk4_1_apply V c w h1 t k q) (iblk4_2_apply V c b h2 t q)

/-- An index of the first output is in point t's block iff each coordinate is in the block's range on its axis. -/
theorem mem_blk4_3 (t : Fin cfg4.N) (i : S100000x64.Idx) :
    i ∈ ((cfg4.win 3).blk t).view.set ↔ ∀ a : Fin 2, win4_3.index t a * S4000x64.size a ≤ (i a).val ∧ (i a).val < win4_3.index t a * S4000x64.size a + S4000x64.size a := by
  show i ∈ ((View.whole main_v84_0).slice (win4_3.rect t)).set ↔ _
  rw [View.set_slice_whole, Rect.mem_set_unit]
  exact Iff.rfl

/-- An index of the second output is in point t's block iff each coordinate is in the block's range on its axis. -/
theorem mem_blk4_4 (t : Fin cfg4.N) (i : S100000x64.Idx) :
    i ∈ ((cfg4.win 4).blk t).view.set ↔ ∀ a : Fin 2, win4_4.index t a * S4000x64.size a ≤ (i a).val ∧ (i a).val < win4_4.index t a * S4000x64.size a + S4000x64.size a := by
  show i ∈ ((View.whole main_v84_1).slice (win4_4.rect t)).set ↔ _
  rw [View.set_slice_whole, Rect.mem_set_unit]
  exact Iff.rfl

/-- Every entry of the first output is in some point's block: row p is in the block of point p / 4000. -/
theorem cover4_3 (i : S100000x64.Idx) :
    ∃ t : Fin cfg4.N, (cfg4.win 3).flush t = true ∧ i ∈ ((cfg4.win 3).blk t).view.set := by
  have hN : cfg4.N = 25 := N_4
  have hi0 : (i 0).val < 100000 := (i 0).isLt
  have hi1 : (i 1).val < 64 := (i 1).isLt
  refine ⟨⟨(i 0).val / 4000, by rw [hN]; omega⟩, flush4_3 _, ?_⟩
  rw [mem_blk4_3]
  obtain ⟨e0, e1, e2, e3, e4, e5, e6, e7, e8⟩ := idx_facts4 ⟨(i 0).val / 4000, by rw [hN]; omega⟩
  intro a
  match a with
  | ⟨0, _⟩ =>
    show win4_3.index _ (0 : Fin 2) * 4000 ≤ (i 0).val ∧ (i 0).val < win4_3.index _ (0 : Fin 2) * 4000 + 4000
    rw [e5]; show (i 0).val / 4000 * 4000 ≤ (i 0).val ∧ (i 0).val < (i 0).val / 4000 * 4000 + 4000; omega
  | ⟨1, _⟩ =>
    show win4_3.index _ (1 : Fin 2) * 64 ≤ (i 1).val ∧ (i 1).val < win4_3.index _ (1 : Fin 2) * 64 + 64
    rw [e6]; omega

/-- Every entry of the second output is in some point's block: row p is in the block of point p / 4000. -/
theorem cover4_4 (i : S100000x64.Idx) :
    ∃ t : Fin cfg4.N, (cfg4.win 4).flush t = true ∧ i ∈ ((cfg4.win 4).blk t).view.set := by
  have hN : cfg4.N = 25 := N_4
  have hi0 : (i 0).val < 100000 := (i 0).isLt
  have hi1 : (i 1).val < 64 := (i 1).isLt
  refine ⟨⟨(i 0).val / 4000, by rw [hN]; omega⟩, flush4_4 _, ?_⟩
  rw [mem_blk4_4]
  obtain ⟨e0, e1, e2, e3, e4, e5, e6, e7, e8⟩ := idx_facts4 ⟨(i 0).val / 4000, by rw [hN]; omega⟩
  intro a
  match a with
  | ⟨0, _⟩ =>
    show win4_4.index _ (0 : Fin 2) * 4000 ≤ (i 0).val ∧ (i 0).val < win4_4.index _ (0 : Fin 2) * 4000 + 4000
    rw [e7]; show (i 0).val / 4000 * 4000 ≤ (i 0).val ∧ (i 0).val < (i 0).val / 4000 * 4000 + 4000; omega
  | ⟨1, _⟩ =>
    show win4_4.index _ (1 : Fin 2) * 64 ≤ (i 1).val ∧ (i 1).val < win4_4.index _ (1 : Fin 2) * 64 + 64
    rw [e8]; omega

/-- The first output array after the region: the product of the input array and the weights, plus the bias. -/
theorem lin4_f32_fun (c : Dev nD) (a : S100000x64.Idx → EReal) (w : S64x64.Idx → EReal) (b : S64.Idx → EReal)
    (h0 : V c (Pipeline.arrRef spec4 0) = a) (h1 : V c (Pipeline.arrRef spec4 1) = w)
    (h2 : V c (Pipeline.arrRef spec4 2) = b) :
    (dat4 (F := Ideal) V c).arrAt 3 cfg4.N = linear a w b :=
  (dat4 (F := Ideal) V c).arrAt_eq_of_cover 3 (linear a w b)
    (fun t _ => flushed4_3_eq V c a w b h0 h1 h2 t) cover4_3

/-- The second output array after the region: the same function. -/
theorem lin4_bf16_fun (c : Dev nD) (a : S100000x64.Idx → EReal) (w : S64x64.Idx → EReal) (b : S64.Idx → EReal)
    (h0 : V c (Pipeline.arrRef spec4 0) = a) (h1 : V c (Pipeline.arrRef spec4 1) = w)
    (h2 : V c (Pipeline.arrRef spec4 2) = b) :
    (dat4 (F := Ideal) V c).arrAt 4 cfg4.N = linear a w b :=
  (dat4 (F := Ideal) V c).arrAt_eq_of_cover 4 (linear a w b)
    (fun t _ => flushed4_4_eq V c a w b h0 h1 h2 t) cover4_4

/-- The first output at an entry (p, q). -/
theorem lin4_f32 (c : Dev nD) (a : S100000x64.Idx → EReal) (w : S64x64.Idx → EReal) (b : S64.Idx → EReal)
    (out : S100000x64.Idx → EReal)
    (h0 : V c (Pipeline.arrRef spec4 0) = a) (h1 : V c (Pipeline.arrRef spec4 1) = w)
    (h2 : V c (Pipeline.arrRef spec4 2) = b) (hout : (dat4 (F := Ideal) V c).arrAt 3 cfg4.N = out)
    (p : Fin 100000) (q : Fin 64) :
    out (ix2 p q) = (∑ k : Fin 64, a (ix2 p k) * w (ix2 k q)) + b (ix1 q) := by
  rw [← hout, lin4_f32_fun V c a w b h0 h1 h2]
  rfl

/-- The second output at an entry (p, q). -/
theorem lin4_bf16 (c : Dev nD) (a : S100000x64.Idx → EReal) (w : S64x64.Idx → EReal) (b : S64.Idx → EReal)
    (out : S100000x64.Idx → EReal)
    (h0 : V c (Pipeline.arrRef spec4 0) = a) (h1 : V c (Pipeline.arrRef spec4 1) = w)
    (h2 : V c (Pipeline.arrRef spec4 2) = b) (hout : (dat4 (F := Ideal) V c).arrAt 4 cfg4.N = out)
    (p : Fin 100000) (q : Fin 64) :
    out (ix2 p q) = (∑ k : Fin 64, a (ix2 p k) * w (ix2 k q)) + b (ix1 q) := by
  rw [← hout, lin4_bf16_fun V c a w b h0 h1 h2]
  rfl

end Cert.KernelIdeal.Val
end
-- ==== Proof.ValSum5.lean ====
import proofs.«133142_j1864015807124_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic
import proofs.«133142_j1864015807124_2_alg».proof.Proof.LibAccum

/-
  REGION 5, read as a value: the [1,128] result array, at lane `q`, ends at the sum of the operand's 50000 rows at that
  lane. The region visits ten blocks of 5000 rows; one [1,128] buffer is cleared at the first point and at every point
  the block's lane sums are added to it; it is written back once, after the last point. Over the extended reals the
  running total after point `n` is the sum of the blocks `0, …, n`, and the ten block sums add up to the sum over all
  rows (a sum over 10 · 5000 positions taken block by block).
-/

noncomputable section

open Idealize.ShloMosaic Idealize.ShloMosaic.TcCoe Idealize.SL.Sem
open Idealize.ShloMosaic.Pipeline (Dat)
open Idealize.ShloMosaic.ValueIdx
open scoped BigOperators

namespace Cert.KernelIdeal.Val

open Cert.KernelIdeal Cert.KernelIdeal.Gen

section Pieces
variable {F : FTy → Type} [FloatOps F]

/-- The zero offsets of a whole-buffer access. -/
theorem hz5 : (![0, 0] : Fin 2 → Nat) = fun _ => 0 := funext fun a => by fin_cases a <;> rfl

/-- Case B (every later point): the one store's payload, over the block and what the buffer held. -/
theorem out5_B (c : Dev nD) (i : grid5.Coords) (a1 : Memref sig .tc .vmem S5000x128 .f32) (h1 : a1.IsWhole)
    (a2 : Memref sig .tc .vmem S1x128 .f32) (h2 : a2.IsWhole) (hc : ¬cond5_0 i)
    (x : Vec F S5000x128 .f32) (xo : Vec F S1x128 .f32) :
    out5_B_1 c i a1 h1 a2 h2 hc x xo = k5_pay2 x xo := by
  unfold out5_B_1
  rw [View.read_writes_eq_canon _ _ _ (cover5_B_1 c i a1 h1 a2 h2 hc x xo)]
  unfold kernelRun5_B
  dsimp only
  rw [View.canon_unit_zero hz5]
  simp only [View.readAt_eq_ld, h1.read_unread, h2.read_unread, View.ld_unit_zero (S := S5000x128) hz5,
    View.ld_unit_zero (S := S1x128) hz5]

/-- Case A (the first point): the buffer is cleared, read back, and the payload stored over it. -/
theorem out5_A (c : Dev nD) (i : grid5.Coords) (a1 : Memref sig .tc .vmem S5000x128 .f32) (h1 : a1.IsWhole)
    (a2 : Memref sig .tc .vmem S1x128 .f32) (h2 : a2.IsWhole) (hc : cond5_0 i)
    (x : Vec F S5000x128 .f32) :
    out5_A_1 c i a1 h1 a2 h2 hc x = k5_pay2 x (k5_pay1 (F := F)) := by
  unfold out5_A_1
  rw [View.read_writes_eq_canon _ _ _ (cover5_A_1 c i a1 h1 a2 h2 hc x)]
  unfold kernelRun5_A
  dsimp only
  sl_unfold_words
  rw [View.canon_cons_unit_zero (S := S1x128) hz5, View.readCov_unit_zero (S := S1x128) _ hz5]
  simp only [View.readAt_eq_ld, h1.read_unread, View.ld_unit_zero (S := S5000x128) hz5]

end Pieces

/-! ## The accumulation step at an index, over the extended reals -/

/-- The cleared accumulator reads `0` at every lane. -/
theorem k5_pay1_apply (j : S1x128.Idx) : k5_pay1 (F := Ideal) j = Ideal.ofBits .f32 0x00000000#32 := rfl

/-- One step at lane `q`: the accumulator's lane plus the sum of the block's 5000 rows at that lane. -/
theorem k5_pay2_apply (x : Vec Ideal S5000x128 .f32) (xo : Vec Ideal S1x128 .f32) (q : Fin 128) :
    k5_pay2 (F := Ideal) x xo (ix2 0 q) = xo (ix2 0 q) + ∑ r : Fin 5000, x (ix2 r q) := by
  unfold k5_pay2
  dsimp only
  refine (addf_apply _ _ _).trans ?_
  refine congrArg₂ (· + ·) (congrFun (shapeCast_self xo _) _) ?_
  refine (shapeCast_apply _ shapeCasts_S128_S1x128 (ix2 0 q) (ix1 q) ?_).trans ?_
  · rw [Shape.rowMajor_val_one, Shape.rowMajor_val_two]; show q.val = 0 * 128 + q.val; omega
  refine (Ideal.multiReduction_add_single _ 0x00000000#32 reduces_S5000x128_S128 (.inl rfl) rfl (ix1 q)).trans ?_
  refine Finset.sum_congr rfl fun r _ => ?_
  refine (congrFun (shapeCast_self x _) _).trans (congrArg x ?_)
  funext a; match a with | ⟨0, _⟩ => rfl | ⟨1, _⟩ => rfl

section Value
variable (V : (c : Dev nD) → (b : Ref sig .tc) → Buf (Elt Ideal) ((c : Thread nD τ).loc b))

/-- Case A at lane `q` (the first point): the accumulator is cleared, then the block's rows are added. -/
theorem stepA5 (c : Dev nD) (i : grid5.Coords) (a1 : Memref sig .tc .vmem S5000x128 .f32) (h1 : a1.IsWhole)
    (a2 : Memref sig .tc .vmem S1x128 .f32) (h2 : a2.IsWhole) (hc : cond5_0 i)
    (x : Vec Ideal S5000x128 .f32) (q : Fin 128) :
    out5_A_1 (F := Ideal) c i a1 h1 a2 h2 hc x (ix2 0 q) = ∑ r : Fin 5000, x (ix2 r q) := by
  refine (congrFun (out5_A (F := Ideal) c i a1 h1 a2 h2 hc x) (ix2 0 q)).trans ?_
  refine (k5_pay2_apply x (k5_pay1 (F := Ideal)) q).trans ?_
  rw [k5_pay1_apply, Ideal.ofBits_zero_f32, zero_add]

/-- Case B at lane `q` (every later point): the block's rows are added to what the point before left. -/
theorem stepB5 (c : Dev nD) (i : grid5.Coords) (a1 : Memref sig .tc .vmem S5000x128 .f32) (h1 : a1.IsWhole)
    (a2 : Memref sig .tc .vmem S1x128 .f32) (h2 : a2.IsWhole) (hc : ¬cond5_0 i)
    (x : Vec Ideal S5000x128 .f32) (xo : Vec Ideal S1x128 .f32) (q : Fin 128) :
    out5_B_1 (F := Ideal) c i a1 h1 a2 h2 hc x xo (ix2 0 q) = xo (ix2 0 q) + ∑ r : Fin 5000, x (ix2 r q) :=
  (congrFun (out5_B (F := Ideal) c i a1 h1 a2 h2 hc x xo) (ix2 0 q)).trans (k5_pay2_apply x xo q)

/-- The sum of block `t`'s 5000 rows at lane `q` (`0` past the grid). -/
def blockSum5 (c : Dev nD) (q : Fin 128) (t : ℕ) : EReal :=
  if h : t < cfg5.N then ∑ r : Fin 5000, (iblk5 V c 0 ⟨t, h⟩ : Vec Ideal S5000x128 .f32) (ix2 r q) else 0

/-- After point `n` the accumulator's lane `q` holds the sum of the blocks `0, …, n` at that lane. -/
theorem outsAt5_sum (c : Dev nD) (q : Fin 128) : ∀ (n : ℕ) (h : n < cfg5.N),
    outsAt5 (F := Ideal) V c n h (ix2 0 q) = ∑ t ∈ Finset.range (n + 1), blockSum5 V c q t
  | 0, h => by
    rw [outsAt5_A V c ⟨0, h⟩ rfl, Finset.sum_range_one]
    refine (stepA5 c (grid5.coords ⟨0, h⟩) (ms5_0 ⟨0, h⟩) (hs5_0 ⟨0, h⟩) (ms5_1 ⟨0, h⟩) (hs5_1 ⟨0, h⟩)
      ((hcond5_0 ⟨0, h⟩).mpr rfl) (iblk5 V c 0 ⟨0, h⟩) q).trans ?_
    unfold blockSum5; rw [dif_pos h]
  | n + 1, h => by
    have hN : cfg5.N = 10 := N_5
    have hB : ¬(⟨n + 1, h⟩ : Fin cfg5.N).val % 10 = 0 := by dsimp only; omega
    rw [outsAt5_B V c ⟨n + 1, h⟩ hB, Finset.sum_range_succ _ (n + 1)]
    refine (stepB5 c (grid5.coords ⟨n + 1, h⟩) (ms5_0 ⟨n + 1, h⟩) (hs5_0 ⟨n + 1, h⟩) (ms5_1 ⟨n + 1, h⟩) (hs5_1 ⟨n + 1, h⟩)
      (fun hh => hB ((hcond5_0 ⟨n + 1, h⟩).mp hh)) (iblk5 V c 0 ⟨n + 1, h⟩)
      (outsAt5 V c n (Nat.lt_of_succ_lt h)) q).trans ?_
    rw [outsAt5_sum c q n (Nat.lt_of_succ_lt h)]
    unfold blockSum5; rw [dif_pos h]

/-- The operand array as the region finds it: 50000 rows of 128 lanes. -/
abbrev arr5 (c : Dev nD) : Vec Ideal S50000x128 .f32 := V c (Pipeline.arrRef spec5 0)

/-- The input window's block index at point `t`: block `t` along the rows, block `0` along the lanes. -/
theorem idx5_0 : ∀ t : Fin cfg5.N, win5_0.index t (0 : Fin 2) = t.val ∧ win5_0.index t (1 : Fin 2) = 0 :=
  (by decide +kernel : ∀ t : Fin grid5.N, win5_0.index t (0 : Fin 2) = t.val ∧ win5_0.index t (1 : Fin 2) = 0)

/-- Row `r` of block `t` is row `5000 t + r` of the array. -/
theorem iblk5_apply (c : Dev nD) (t : Fin cfg5.N) (r : Fin 5000) (q : Fin 128) (hr : t.val * 5000 + r.val < 50000) :
    (iblk5 V c 0 t : Vec Ideal S5000x128 .f32) (ix2 r q)
      = arr5 V c (ix2 (⟨t.val * 5000 + r.val, hr⟩ : Fin 50000) q) := by
  unfold iblk5
  rw [View.read_apply]
  show V c (Pipeline.arrRef spec5 0) _ = V c (Pipeline.arrRef spec5 0) _
  refine congrArg (V c (Pipeline.arrRef spec5 0)) (funext fun a => Fin.ext ?_)
  match a with
  | ⟨0, _⟩ => show win5_0.index t 0 * 5000 + 1 * r.val = t.val * 5000 + r.val; rw [(idx5_0 t).1]; omega
  | ⟨1, _⟩ => show win5_0.index t 1 * 128 + 1 * q.val = q.val; rw [(idx5_0 t).2]; omega

/-- What the accumulator holds after the last point, as contents of the result array (its one block is the array). -/
abbrev result5 (c : Dev nD) : Buf (Elt Ideal) ((c : Thread nD τ).loc main_v109) :=
  outsAt5 (F := Ideal) V c 9 (by rw [show cfg5.N = 10 from N_5]; decide)

/-- The one write-back, at the last point, writes it. -/
theorem flushed5_eq (c : Dev nD) (t : Fin cfg5.N) (hf : (cfg5.win 1).flush t = true) :
    (dat5 (F := Ideal) V c).flushed 1 t = ((cfg5.win 1).blk t).view.read (Elt Ideal) (result5 V c) := by
  have hN : cfg5.N = 10 := N_5
  have h9 : t.val = 9 := by have := (flush5_1 t).mp hf; have := t.isLt; omega
  obtain rfl : t = t5_9 := Fin.ext h9
  show (cfg5.win 1).cut (grid5.coords t5_9) ((dat5 (F := Ideal) V c).after 1 t5_9) = _
  rw [after5_1]
  have hz' : (fun a => win5_1.index t5_9 a * main_v109.ty.shape.size a) = fun _ => 0 := funext fun a => by fin_cases a <;> decide
  exact (Memref.read_access_unit_zero (Elt Ideal) main_v109 hz' (fun a => by rw [congrFun hz' a]; simp) (result5 V c)).symm

/-- So the result array ends holding what the accumulator holds after the last point. -/
theorem final5 (c : Dev nD) : (dat5 (F := Ideal) V c).arrAt 1 cfg5.N = result5 V c :=
  (dat5 (F := Ideal) V c).arrAt_eq_of_cover 1 (result5 V c) (flushed5_eq V c) fun i =>
    ⟨t5_9, (flush5_1 t5_9).mpr rfl, by
      show i ∈ ((View.whole main_v109).slice (win5_1.rect t5_9)).set
      rw [View.set_slice_whole, Rect.mem_set_unit]
      intro a
      have h0 : (i 0 : Nat) < 1 := (i 0).isLt
      have h1 : (i 1 : Nat) < 128 := (i 1).isLt
      match a with
      | ⟨0, _⟩ => show win5_1.index t5_9 0 * win5_1.size 0 ≤ (i 0 : Nat) ∧ (i 0 : Nat) < win5_1.index t5_9 0 * win5_1.size 0 + win5_1.xsize (grid5.coords t5_9) 0
                  rw [show win5_1.index t5_9 0 * win5_1.size 0 = 0 from by decide +kernel, show win5_1.xsize (grid5.coords t5_9) 0 = 1 from by decide +kernel]; omega
      | ⟨1, _⟩ => show win5_1.index t5_9 1 * win5_1.size 1 ≤ (i 1 : Nat) ∧ (i 1 : Nat) < win5_1.index t5_9 1 * win5_1.size 1 + win5_1.xsize (grid5.coords t5_9) 1
                  rw [show win5_1.index t5_9 1 * win5_1.size 1 = 0 from by decide +kernel, show win5_1.xsize (grid5.coords t5_9) 1 = 128 from by decide +kernel]; omega⟩

/-- The ten blocks' sums at lane `q` add up to the sum over all 50000 rows. -/
theorem sum_blockSum5 (c : Dev nD) (q : Fin 128) :
    ∑ t ∈ Finset.range 10, blockSum5 V c q t = ∑ r : Fin 50000, arr5 V c (ix2 r q) := by
  have hN : cfg5.N = 10 := N_5
  rw [Finset.sum_range]
  refine Eq.trans ?_ (QLin.sum_blocks 10 5000 (fun i : Fin (10 * 5000) => arr5 V c (ix2 (i : Fin 50000) q))).symm
  refine Finset.sum_congr rfl fun t _ => ?_
  unfold blockSum5
  rw [dif_pos (by omega : t.val < cfg5.N)]
  refine Finset.sum_congr rfl fun r _ => ?_
  exact iblk5_apply V c ⟨t.val, by omega⟩ r q (QLin.block_lt (n := 10) (b := 5000) t r)

/-- REGION 5: the result array at lane `q` is the sum of the operand's 50000 rows at that lane. -/
theorem sum5 (c : Dev nD) (q : Fin 128) :
    (dat5 (F := Ideal) V c).arrAt 1 cfg5.N (ix2 0 q) = ∑ r : Fin 50000, arr5 V c (ix2 r q) := by
  refine (congrFun (final5 V c) (ix2 0 q)).trans ?_
  refine (outsAt5_sum V c q 9 (by rw [show cfg5.N = 10 from N_5]; decide)).trans ?_
  exact sum_blockSum5 V c q

end Value

end Cert.KernelIdeal.Val

end
-- ==== Proof.ValSq6.lean ====
import proofs.«133142_j1864015807124_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic
import proofs.«133142_j1864015807124_2_alg».proof.Proof.LibAccum

/-
  REGION 6, read as a value: the [1,128] result array, at lane `q`, ends at the sum over the operand's 50000 rows of the
  squared deviation from the [128] operand at that lane. The region visits ten blocks of 5000 rows; one [1,128] buffer is
  cleared at the first point and at every point the block's lane sums of squared deviations are added to it; it is
  written back once, after the last point. Over the extended reals the running total after point `n` is the sum of the
  blocks `0, …, n`, and the ten block sums add up to the sum over all rows.
-/

noncomputable section

open Idealize.ShloMosaic Idealize.ShloMosaic.TcCoe Idealize.SL.Sem
open Idealize.ShloMosaic.Pipeline (Dat)
open Idealize.ShloMosaic.ValueIdx
open scoped BigOperators

namespace Cert.KernelIdeal.Val

open Cert.KernelIdeal Cert.KernelIdeal.Gen

section Pieces
variable {F : FTy → Type} [FloatOps F]

theorem hz6 : (![0, 0] : Fin 2 → Nat) = fun _ => 0 := funext fun a => by fin_cases a <;> rfl
theorem hz6v : (![0] : Fin 1 → Nat) = fun _ => 0 := funext fun a => by fin_cases a; rfl

/-- Case B (every later point): the one store's payload, over the blocks and what the buffer held. -/
theorem out6_B (c : Dev nD) (i : grid6.Coords) (a1 : Memref sig .tc .vmem S5000x128 .f32) (h1 : a1.IsWhole)
    (a2 : Memref sig .tc .vmem S128 .f32) (h2 : a2.IsWhole) (a3 : Memref sig .tc .vmem S1x128 .f32) (h3 : a3.IsWhole)
    (hc : ¬cond6_0 i) (x : Vec F S5000x128 .f32) (m : Vec F S128 .f32) (xo : Vec F S1x128 .f32) :
    out6_B_2 c i a1 h1 a2 h2 a3 h3 hc x m xo = k6_pay2 x m xo := by
  unfold out6_B_2
  rw [View.read_writes_eq_canon _ _ _ (cover6_B_2 c i a1 h1 a2 h2 a3 h3 hc x m xo)]
  unfold kernelRun6_B
  dsimp only
  rw [View.canon_unit_zero hz6]
  simp only [View.readAt_eq_ld, h1.read_unread, h2.read_unread, h3.read_unread, View.ld_unit_zero (S := S5000x128) hz6,
    View.ld_unit_zero (S := S1x128) hz6, View.ld_unit_zero (S := S128) hz6v]

/-- Case A (the first point): the buffer is cleared, read back, and the payload stored over it. -/
theorem out6_A (c : Dev nD) (i : grid6.Coords) (a1 : Memref sig .tc .vmem S5000x128 .f32) (h1 : a1.IsWhole)
    (a2 : Memref sig .tc .vmem S128 .f32) (h2 : a2.IsWhole) (a3 : Memref sig .tc .vmem S1x128 .f32) (h3 : a3.IsWhole)
    (hc : cond6_0 i) (x : Vec F S5000x128 .f32) (m : Vec F S128 .f32) :
    out6_A_2 c i a1 h1 a2 h2 a3 h3 hc x m = k6_pay2 x m (k6_pay1 (F := F)) := by
  unfold out6_A_2
  rw [View.read_writes_eq_canon _ _ _ (cover6_A_2 c i a1 h1 a2 h2 a3 h3 hc x m)]
  unfold kernelRun6_A
  dsimp only
  sl_unfold_words
  rw [View.canon_cons_unit_zero (S := S1x128) hz6, View.readCov_unit_zero (S := S1x128) _ hz6]
  simp only [View.readAt_eq_ld, h1.read_unread, h2.read_unread, View.ld_unit_zero (S := S5000x128) hz6,
    View.ld_unit_zero (S := S128) hz6v]

end Pieces

/-! ## The accumulation step at an index, over the extended reals -/

/-- The cleared accumulator reads `0` at every lane. -/
theorem k6_pay1_apply (j : S1x128.Idx) : k6_pay1 (F := Ideal) j = Ideal.ofBits .f32 0x00000000#32 := rfl

/-- The deviation of the block from the [128] operand broadcast along the rows, at row `r`, lane `q`. -/
theorem sqdev6_apply (x : FVec Ideal S5000x128 .f32) (m : FVec Ideal S128 .f32) (r : Fin 5000) (q : Fin 128) :
    (subf (F := Ideal) (shapeCast S5000x128 x shapeCasts_S5000x128_S5000x128)
        (broadcastTo S5000x128 (shapeCast S1x128 (shapeCast S128 m shapeCasts_S128_S128) shapeCasts_S128_S1x128)
          broadcasts_S1x128_S5000x128) : FVec Ideal S5000x128 .f32) (ix2 r q)
      = x (ix2 r q) - m (ix1 q) := by
  refine (subf_apply _ _ _).trans ?_
  refine congrArg₂ (· - ·) (congrFun (shapeCast_self x _) _) ?_
  refine (broadcastTo_apply _ broadcasts_S1x128_S5000x128 (ix2 r q) (ix2 0 q) ?_).trans ?_
  · intro a; match a with | ⟨0, _⟩ => rfl | ⟨1, _⟩ => rfl
  refine (shapeCast_apply _ shapeCasts_S128_S1x128 (ix2 0 q) (ix1 q) ?_).trans ?_
  · rw [Shape.rowMajor_val_one, Shape.rowMajor_val_two]; show q.val = 0 * 128 + q.val; omega
  exact congrFun (shapeCast_self m _) _

/-- The lane sum of a block's squares: at lane `q`, the sum over the 5000 rows. -/
theorem lane_sum_sq6 (d : FVec Ideal S5000x128 .f32) (q : Fin 128) :
    multiReduction (F := Ideal) .add [0] S128 (mulf d d) 0x00000000#32 reduces_S5000x128_S128 (.inl rfl) rfl (ix1 q)
      = ∑ r : Fin 5000, d (ix2 r q) * d (ix2 r q) := by
  refine (Ideal.multiReduction_add_single _ 0x00000000#32 reduces_S5000x128_S128 (.inl rfl) rfl (ix1 q)).trans ?_
  refine Finset.sum_congr rfl fun r _ => ?_
  refine (mulf_apply _ _ _).trans ?_
  have hi : reduces_S5000x128_S128.lift (ix1 q) r = ix2 (r : Fin 5000) q := by
    funext a; match a with | ⟨0, _⟩ => rfl | ⟨1, _⟩ => rfl
  exact congrArg₂ (· * ·) (congrArg d hi) (congrArg d hi)

/-- One step at lane `q`: the accumulator's lane plus the sum over the block's 5000 rows of the squared deviation. -/
theorem k6_pay2_apply (x : Vec Ideal S5000x128 .f32) (m : Vec Ideal S128 .f32) (xo : Vec Ideal S1x128 .f32) (q : Fin 128) :
    k6_pay2 (F := Ideal) x m xo (ix2 0 q)
      = xo (ix2 0 q) + ∑ r : Fin 5000, (x (ix2 r q) - m (ix1 q)) * (x (ix2 r q) - m (ix1 q)) := by
  unfold k6_pay2
  dsimp only
  refine (addf_apply _ _ _).trans ?_
  refine congrArg₂ (· + ·) (congrFun (shapeCast_self xo _) _) ?_
  refine (shapeCast_apply _ shapeCasts_S128_S1x128 (ix2 0 q) (ix1 q) ?_).trans ?_
  · rw [Shape.rowMajor_val_one, Shape.rowMajor_val_two]; show q.val = 0 * 128 + q.val; omega
  refine (lane_sum_sq6 _ q).trans ?_
  refine Finset.sum_congr rfl fun r _ => ?_
  exact congrArg₂ (· * ·) (sqdev6_apply x m r q) (sqdev6_apply x m r q)

section Value
variable (V : (c : Dev nD) → (b : Ref sig .tc) → Buf (Elt Ideal) ((c : Thread nD τ).loc b))

/-- Case A at lane `q`: the accumulator is cleared, then the block's squared deviations are added. -/
theorem stepA6 (c : Dev nD) (i : grid6.Coords) (a1 : Memref sig .tc .vmem S5000x128 .f32) (h1 : a1.IsWhole)
    (a2 : Memref sig .tc .vmem S128 .f32) (h2 : a2.IsWhole) (a3 : Memref sig .tc .vmem S1x128 .f32) (h3 : a3.IsWhole)
    (hc : cond6_0 i) (x : Vec Ideal S5000x128 .f32) (m : Vec Ideal S128 .f32) (q : Fin 128) :
    out6_A_2 (F := Ideal) c i a1 h1 a2 h2 a3 h3 hc x m (ix2 0 q)
      = ∑ r : Fin 5000, (x (ix2 r q) - m (ix1 q)) * (x (ix2 r q) - m (ix1 q)) := by
  refine (congrFun (out6_A (F := Ideal) c i a1 h1 a2 h2 a3 h3 hc x m) (ix2 0 q)).trans ?_
  refine (k6_pay2_apply x m (k6_pay1 (F := Ideal)) q).trans ?_
  rw [k6_pay1_apply, Ideal.ofBits_zero_f32, zero_add]

/-- Case B at lane `q`: the block's squared deviations are added to what the point before left. -/
theorem stepB6 (c : Dev nD) (i : grid6.Coords) (a1 : Memref sig .tc .vmem S5000x128 .f32) (h1 : a1.IsWhole)
    (a2 : Memref sig .tc .vmem S128 .f32) (h2 : a2.IsWhole) (a3 : Memref sig .tc .vmem S1x128 .f32) (h3 : a3.IsWhole)
    (hc : ¬cond6_0 i) (x : Vec Ideal S5000x128 .f32) (m : Vec Ideal S128 .f32) (xo : Vec Ideal S1x128 .f32) (q : Fin 128) :
    out6_B_2 (F := Ideal) c i a1 h1 a2 h2 a3 h3 hc x m xo (ix2 0 q)
      = xo (ix2 0 q) + ∑ r : Fin 5000, (x (ix2 r q) - m (ix1 q)) * (x (ix2 r q) - m (ix1 q)) :=
  (congrFun (out6_B (F := Ideal) c i a1 h1 a2 h2 a3 h3 hc x m xo) (ix2 0 q)).trans (k6_pay2_apply x m xo q)

/-- The operand array as the region finds it: 50000 rows of 128 lanes. -/
abbrev arr6 (c : Dev nD) : Vec Ideal S50000x128 .f32 := V c (Pipeline.arrRef spec6 0)
/-- The [128] operand as the region finds it. -/
abbrev mean6 (c : Dev nD) : Vec Ideal S128 .f32 := V c (Pipeline.arrRef spec6 1)

/-- The row window's block at point `t`: 5000 rows of 128 lanes. -/
abbrev rows6 (c : Dev nD) (t : Fin cfg6.N) : Vec Ideal S5000x128 .f32 := iblk6 V c 0 t
/-- The [128] operand's block at point `t`. -/
abbrev lanes6 (c : Dev nD) (t : Fin cfg6.N) : Vec Ideal S128 .f32 := iblk6 V c 1 t

/-- The sum over block `t`'s 5000 rows, at lane `q`, of the squared deviation from the [128] operand's block
    (`0` past the grid). -/
def blockSq6 (c : Dev nD) (q : Fin 128) (t : ℕ) : EReal :=
  if h : t < cfg6.N then
    ∑ r : Fin 5000, (rows6 V c ⟨t, h⟩ (ix2 r q) - lanes6 V c ⟨t, h⟩ (ix1 q)) * (rows6 V c ⟨t, h⟩ (ix2 r q) - lanes6 V c ⟨t, h⟩ (ix1 q))
  else 0

/-- After point `n` the accumulator's lane `q` holds the sum of the blocks `0, …, n` at that lane. -/
theorem outsAt6_sq (c : Dev nD) (q : Fin 128) : ∀ (n : ℕ) (h : n < cfg6.N),
    outsAt6 (F := Ideal) V c n h (ix2 0 q) = ∑ t ∈ Finset.range (n + 1), blockSq6 V c q t
  | 0, h => by
    rw [outsAt6_A V c ⟨0, h⟩ rfl, Finset.sum_range_one]
    refine (stepA6 c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩)
      ((hcond6_0 ⟨0, h⟩).mpr rfl) (rows6 V c ⟨0, h⟩) (lanes6 V c ⟨0, h⟩) q).trans ?_
    unfold blockSq6; rw [dif_pos h]
  | n + 1, h => by
    have hN : cfg6.N = 10 := N_6
    have hB : ¬(⟨n + 1, h⟩ : Fin cfg6.N).val % 10 = 0 := by dsimp only; omega
    rw [outsAt6_B V c ⟨n + 1, h⟩ hB, Finset.sum_range_succ _ (n + 1)]
    refine (stepB6 c (grid6.coords ⟨n + 1, h⟩) (ms6_0 ⟨n + 1, h⟩) (hs6_0 ⟨n + 1, h⟩) (ms6_1 ⟨n + 1, h⟩) (hs6_1 ⟨n + 1, h⟩)
      (ms6_2 ⟨n + 1, h⟩) (hs6_2 ⟨n + 1, h⟩)
      (fun hh => hB ((hcond6_0 ⟨n + 1, h⟩).mp hh)) (rows6 V c ⟨n + 1, h⟩) (lanes6 V c ⟨n + 1, h⟩)
      (outsAt6 V c n (Nat.lt_of_succ_lt h)) q).trans ?_
    rw [outsAt6_sq c q n (Nat.lt_of_succ_lt h)]
    unfold blockSq6; rw [dif_pos h]

/-- The row window's block index at point `t`: block `t` along the rows, block `0` along the lanes. -/
theorem idx6_0 : ∀ t : Fin cfg6.N, win6_0.index t (0 : Fin 2) = t.val ∧ win6_0.index t (1 : Fin 2) = 0 :=
  (by decide +kernel : ∀ t : Fin grid6.N, win6_0.index t (0 : Fin 2) = t.val ∧ win6_0.index t (1 : Fin 2) = 0)
/-- The [128] operand's window stays at block `0`. -/
theorem idx6_1 : ∀ t : Fin cfg6.N, win6_1.index t (0 : Fin 1) = 0 :=
  (by decide +kernel : ∀ t : Fin grid6.N, win6_1.index t (0 : Fin 1) = 0)

/-- Row `r` of block `t` is row `5000 t + r` of the array. -/
theorem iblk6_apply (c : Dev nD) (t : Fin cfg6.N) (r : Fin 5000) (q : Fin 128) (hr : t.val * 5000 + r.val < 50000) :
    rows6 V c t (ix2 r q) = arr6 V c (ix2 (⟨t.val * 5000 + r.val, hr⟩ : Fin 50000) q) := by
  unfold rows6 iblk6
  rw [View.read_apply]
  show V c (Pipeline.arrRef spec6 0) _ = V c (Pipeline.arrRef spec6 0) _
  refine congrArg (V c (Pipeline.arrRef spec6 0)) (funext fun a => Fin.ext ?_)
  match a with
  | ⟨0, _⟩ => show win6_0.index t 0 * 5000 + 1 * r.val = t.val * 5000 + r.val; rw [(idx6_0 t).1]; omega
  | ⟨1, _⟩ => show win6_0.index t 1 * 128 + 1 * q.val = q.val; rw [(idx6_0 t).2]; omega

/-- The [128] operand's block at every point is the operand itself. -/
theorem iblk6_mean (c : Dev nD) (t : Fin cfg6.N) (q : Fin 128) :
    lanes6 V c t (ix1 q) = mean6 V c (ix1 q) := by
  unfold lanes6 iblk6
  rw [View.read_apply]
  show V c (Pipeline.arrRef spec6 1) _ = V c (Pipeline.arrRef spec6 1) _
  refine congrArg (V c (Pipeline.arrRef spec6 1)) (funext fun a => Fin.ext ?_)
  match a with
  | ⟨0, _⟩ => show win6_1.index t 0 * 128 + 1 * q.val = q.val; rw [idx6_1 t]; omega

/-- What the accumulator holds after the last point, as contents of the result array (its one block is the array). -/
abbrev result6 (c : Dev nD) : Buf (Elt Ideal) ((c : Thread nD τ).loc main_v117) :=
  outsAt6 (F := Ideal) V c 9 (by rw [show cfg6.N = 10 from N_6]; decide)

/-- The one write-back, at the last point, writes it. -/
theorem flushed6_eq (c : Dev nD) (t : Fin cfg6.N) (hf : (cfg6.win 2).flush t = true) :
    (dat6 (F := Ideal) V c).flushed 2 t = ((cfg6.win 2).blk t).view.read (Elt Ideal) (result6 V c) := by
  have hN : cfg6.N = 10 := N_6
  have h9 : t.val = 9 := by have := (flush6_2 t).mp hf; have := t.isLt; omega
  obtain rfl : t = t6_9 := Fin.ext h9
  show (cfg6.win 2).cut (grid6.coords t6_9) ((dat6 (F := Ideal) V c).after 2 t6_9) = _
  rw [after6_2]
  have hz' : (fun a => win6_2.index t6_9 a * main_v117.ty.shape.size a) = fun _ => 0 := funext fun a => by fin_cases a <;> decide
  exact (Memref.read_access_unit_zero (Elt Ideal) main_v117 hz' (fun a => by rw [congrFun hz' a]; simp) (result6 V c)).symm

/-- So the result array ends holding what the accumulator holds after the last point. -/
theorem final6 (c : Dev nD) : (dat6 (F := Ideal) V c).arrAt 2 cfg6.N = result6 V c :=
  (dat6 (F := Ideal) V c).arrAt_eq_of_cover 2 (result6 V c) (flushed6_eq V c) fun i =>
    ⟨t6_9, (flush6_2 t6_9).mpr rfl, by
      show i ∈ ((View.whole main_v117).slice (win6_2.rect t6_9)).set
      rw [View.set_slice_whole, Rect.mem_set_unit]
      intro a
      have h0 : (i 0 : Nat) < 1 := (i 0).isLt
      have h1 : (i 1 : Nat) < 128 := (i 1).isLt
      match a with
      | ⟨0, _⟩ => show win6_2.index t6_9 0 * win6_2.size 0 ≤ (i 0 : Nat) ∧ (i 0 : Nat) < win6_2.index t6_9 0 * win6_2.size 0 + win6_2.xsize (grid6.coords t6_9) 0
                  rw [show win6_2.index t6_9 0 * win6_2.size 0 = 0 from by decide +kernel, show win6_2.xsize (grid6.coords t6_9) 0 = 1 from by decide +kernel]; omega
      | ⟨1, _⟩ => show win6_2.index t6_9 1 * win6_2.size 1 ≤ (i 1 : Nat) ∧ (i 1 : Nat) < win6_2.index t6_9 1 * win6_2.size 1 + win6_2.xsize (grid6.coords t6_9) 1
                  rw [show win6_2.index t6_9 1 * win6_2.size 1 = 0 from by decide +kernel, show win6_2.xsize (grid6.coords t6_9) 1 = 128 from by decide +kernel]; omega⟩

/-- The ten blocks' sums at lane `q` add up to the sum over all 50000 rows. -/
theorem sum_blockSq6 (c : Dev nD) (q : Fin 128) :
    ∑ t ∈ Finset.range 10, blockSq6 V c q t
      = ∑ r : Fin 50000, (arr6 V c (ix2 r q) - mean6 V c (ix1 q)) * (arr6 V c (ix2 r q) - mean6 V c (ix1 q)) := by
  have hN : cfg6.N = 10 := N_6
  rw [Finset.sum_range]
  refine Eq.trans ?_ (QLin.sum_blocks 10 5000 (fun i : Fin (10 * 5000) =>
    (arr6 V c (ix2 (i : Fin 50000) q) - mean6 V c (ix1 q)) * (arr6 V c (ix2 (i : Fin 50000) q) - mean6 V c (ix1 q)))).symm
  refine Finset.sum_congr rfl fun t _ => ?_
  unfold blockSq6
  rw [dif_pos (by omega : t.val < cfg6.N)]
  refine Finset.sum_congr rfl fun r _ => ?_
  have e0 := iblk6_apply V c ⟨t.val, by omega⟩ r q (QLin.block_lt (n := 10) (b := 5000) t r)
  have e1 := iblk6_mean V c ⟨t.val, by omega⟩ q
  rw [e0, e1]

/-- REGION 6: the result array at lane `q` is the sum over the operand's 50000 rows of the squared deviation from the
    [128] operand at that lane. -/
theorem sq6 (c : Dev nD) (q : Fin 128) :
    (dat6 (F := Ideal) V c).arrAt 2 cfg6.N (ix2 0 q)
      = ∑ r : Fin 50000, (arr6 V c (ix2 r q) - mean6 V c (ix1 q)) * (arr6 V c (ix2 r q) - mean6 V c (ix1 q)) := by
  refine (congrFun (final6 V c) (ix2 0 q)).trans ?_
  refine (outsAt6_sq V c q 9 (by rw [show cfg6.N = 10 from N_6]; decide)).trans ?_
  exact sum_blockSq6 V c q

end Value

end Cert.KernelIdeal.Val

end
-- ==== Proof.ValNorm7.lean ====
/-
  Region 7 (scale, shift, clamp at zero), read as an array: after the region, entry (r, q) of its output array is
  max (a (r, q) * scale q + shift q, 0) of its three input arrays as the region finds them.  The body's stored value is
  read at an entry of a block; each block of the grid is a row block of the arrays; the row blocks cover the output.
-/
import proofs.«133142_j1864015807124_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«133142_j1864015807124_2_alg».proof.Proof.ValSpecA

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The body's stored value at entry (r, q) of a block: the block's entry times the scale's entry q plus the shift's
    entry q, clamped below at zero (the two row vectors are broadcast over the rows; the casts between equal shapes
    and to a leading unit axis move no entry). -/
theorem pay7_apply (x0 : Vec Ideal S5000x128 .f32) (x1 x2 : Vec Ideal S128 .f32) (r : Fin 5000) (q : Fin 128) :
    k7_pay1 x0 x1 x2 (ix2 r q) = max (x0 (ix2 r q) * x1 (ix1 q) + x2 (ix1 q)) 0 := by
  unfold k7_pay1
  rw [maximumf_apply, addf_apply, mulf_apply, broadcast_apply, shapeCast_self, shapeCast_self, shapeCast_self,
    broadcastTo_1b_ab_apply, broadcastTo_1b_ab_apply, shapeCast_a_1a_apply, shapeCast_a_1a_apply]
  show max _ (Ideal.ofBits .f32 0x00000000#32) = _
  rw [Ideal.ofBits_zero_f32]

/-- The index maps over the grid: point t reads and writes row block t, column block 0; the two row vectors are
    whole at every point. -/
theorem idx_facts7 : ∀ t : Fin cfg7.N, win7_0.index t (0 : Fin 2) = t.val ∧ win7_0.index t (1 : Fin 2) = 0
    ∧ win7_1.index t (0 : Fin 1) = 0 ∧ win7_2.index t (0 : Fin 1) = 0
    ∧ win7_3.index t (0 : Fin 2) = t.val ∧ win7_3.index t (1 : Fin 2) = 0 :=
  (by decide +kernel : ∀ t : Fin grid7.N, _)

/-- Entry (r, q) of the input's block at point t is entry (5000 t + r, q) of the input array. -/
theorem emb7_0 (t : Fin cfg7.N) (r : Fin 5000) (q : Fin 128) (hb : t.val * 5000 + r.val < 50000) :
    ((cfg7.win 0).blk t).view.emb (ix2 r q) = ix2 (⟨t.val * 5000 + r.val, hb⟩ : Fin 50000) q := by
  obtain ⟨e0, e1, e2, e3, e4, e5⟩ := idx_facts7 t
  funext a; apply Fin.ext
  match a with
  | ⟨0, _⟩ => show win7_0.index t (0 : Fin 2) * 5000 + 1 * r.val = t.val * 5000 + r.val; omega
  | ⟨1, _⟩ => show win7_0.index t (1 : Fin 2) * 128 + 1 * q.val = q.val; omega

/-- The scale's block at every point is the whole vector. -/
theorem emb7_1 (t : Fin cfg7.N) (q : Fin 128) : ((cfg7.win 1).blk t).view.emb (ix1 q) = ix1 q := by
  obtain ⟨e0, e1, e2, e3, e4, e5⟩ := idx_facts7 t
  funext a; apply Fin.ext
  match a with
  | ⟨0, _⟩ => show win7_1.index t (0 : Fin 1) * 128 + 1 * q.val = q.val; omega

/-- The shift's block at every point is the whole vector. -/
theorem emb7_2 (t : Fin cfg7.N) (q : Fin 128) : ((cfg7.win 2).blk t).view.emb (ix1 q) = ix1 q := by
  obtain ⟨e0, e1, e2, e3, e4, e5⟩ := idx_facts7 t
  funext a; apply Fin.ext
  match a with
  | ⟨0, _⟩ => show win7_2.index t (0 : Fin 1) * 128 + 1 * q.val = q.val; omega

/-- Entry (r, q) of the output's block at point t is entry (5000 t + r, q) of the output array. -/
theorem emb7_3 (t : Fin cfg7.N) (r : Fin 5000) (q : Fin 128) (hb : t.val * 5000 + r.val < 50000) :
    ((cfg7.win 3).blk t).view.emb (ix2 r q) = ix2 (⟨t.val * 5000 + r.val, hb⟩ : Fin 50000) q := by
  obtain ⟨e0, e1, e2, e3, e4, e5⟩ := idx_facts7 t
  funext a; apply Fin.ext
  match a with
  | ⟨0, _⟩ => show win7_3.index t (0 : Fin 2) * 5000 + 1 * r.val = t.val * 5000 + r.val; omega
  | ⟨1, _⟩ => show win7_3.index t (1 : Fin 2) * 128 + 1 * q.val = q.val; omega

/-- The input's block at point t, read at (r, q). -/
theorem iblk7_0_apply (c : Dev nD) (a : S50000x128.Idx → EReal) (h0 : V c (Pipeline.arrRef spec7 0) = a)
    (t : Fin cfg7.N) (r : Fin 5000) (q : Fin 128) (hb : t.val * 5000 + r.val < 50000) :
    iblk7 V c 0 t (ix2 r q) = a (ix2 (⟨t.val * 5000 + r.val, hb⟩ : Fin 50000) q) := by
  subst h0
  show V c (Pipeline.arrRef spec7 0) (((cfg7.win 0).blk t).view.emb (ix2 r q)) = _
  rw [emb7_0 t r q hb]

/-- The scale's block at point t, read at q. -/
theorem iblk7_1_apply (c : Dev nD) (scale : S128.Idx → EReal) (h1 : V c (Pipeline.arrRef spec7 1) = scale)
    (t : Fin cfg7.N) (q : Fin 128) : iblk7 V c 1 t (ix1 q) = scale (ix1 q) := by
  subst h1
  show V c (Pipeline.arrRef spec7 1) (((cfg7.win 1).blk t).view.emb (ix1 q)) = _
  rw [emb7_1 t q]

/-- The shift's block at point t, read at q. -/
theorem iblk7_2_apply (c : Dev nD) (shift : S128.Idx → EReal) (h2 : V c (Pipeline.arrRef spec7 2) = shift)
    (t : Fin cfg7.N) (q : Fin 128) : iblk7 V c 2 t (ix1 q) = shift (ix1 q) := by
  subst h2
  show V c (Pipeline.arrRef spec7 2) (((cfg7.win 2).blk t).view.emb (ix1 q)) = _
  rw [emb7_2 t q]

/-- What point t writes back is block t of the scaled, shifted and clamped array. -/
theorem flushed7_eq (c : Dev nD) (a : S50000x128.Idx → EReal) (scale shift : S128.Idx → EReal)
    (h0 : V c (Pipeline.arrRef spec7 0) = a) (h1 : V c (Pipeline.arrRef spec7 1) = scale)
    (h2 : V c (Pipeline.arrRef spec7 2) = shift) (t : Fin cfg7.N) :
    (dat7 (F := Ideal) V c).flushed 3 t = ((cfg7.win 3).blk t).view.read (Elt Ideal) (normRelu a scale shift) := by
  show (cfg7.win 3).cut (grid7.coords t) ((dat7 (F := Ideal) V c).after 3 t) = _
  rw [after7_3]
  unfold out7_3
  rw [View.canon_unit_zero hz2]
  simp only [View.ld_unit_zero (S := S5000x128) hz2, View.ld_unit_zero (S := S128) hz1]
  funext j
  obtain ⟨r, q, rfl⟩ : ∃ (r : Fin 5000) (q : Fin 128), j = ix2 r q := ⟨j 0, j 1, eq_ix2 j⟩
  have hN : cfg7.N = 10 := N_7
  have ht : t.val < 10 := hN ▸ t.isLt
  have hb : t.val * 5000 + r.val < 50000 := by omega
  show k7_pay1 (iblk7 V c 0 t) (iblk7 V c 1 t) (iblk7 V c 2 t) (ix2 r q)
    = normRelu a scale shift (((cfg7.win 3).blk t).view.emb (ix2 r q))
  refine (pay7_apply (iblk7 V c 0 t) (iblk7 V c 1 t) (iblk7 V c 2 t) r q).trans ?_
  rw [emb7_3 t r q hb, iblk7_0_apply V c a h0 t r q hb, iblk7_1_apply V c scale h1 t q, iblk7_2_apply V c shift h2 t q]
  rfl

/-- An index of the array is in point t's block iff each coordinate is in the block's range on its axis. -/
theorem mem_blk7 (t : Fin cfg7.N) (i : S50000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v134).slice (win7_3.rect t)).set ↔ _
  rw [View.set_slice_whole, Rect.mem_set_unit]
  exact Iff.rfl

/-- Every entry of the array is in some point's block: row r is in the block of point r / 5000. -/
theorem cover7 (i : S50000x128.Idx) :
    ∃ t : Fin cfg7.N, (cfg7.win 3).flush t = true ∧ i ∈ ((cfg7.win 3).blk t).view.set := by
  have hN : cfg7.N = 10 := N_7
  have hi0 : (i 0).val < 50000 := (i 0).isLt
  have hi1 : (i 1).val < 128 := (i 1).isLt
  refine ⟨⟨(i 0).val / 5000, by rw [hN]; omega⟩, flush7_3 _, ?_⟩
  rw [mem_blk7]
  obtain ⟨e0, e1, e2, e3, e4, e5⟩ := idx_facts7 ⟨(i 0).val / 5000, by rw [hN]; omega⟩
  intro a
  match a with
  | ⟨0, _⟩ =>
    show win7_3.index _ (0 : Fin 2) * 5000 ≤ (i 0).val ∧ (i 0).val < win7_3.index _ (0 : Fin 2) * 5000 + 5000
    rw [e4]; show (i 0).val / 5000 * 5000 ≤ (i 0).val ∧ (i 0).val < (i 0).val / 5000 * 5000 + 5000; omega
  | ⟨1, _⟩ =>
    show win7_3.index _ (1 : Fin 2) * 128 ≤ (i 1).val ∧ (i 1).val < win7_3.index _ (1 : Fin 2) * 128 + 128
    rw [e5]; omega

/-- The array after the region: the input array scaled, shifted and clamped at zero, entry by entry. -/
theorem nrm7_fun (c : Dev nD) (a : S50000x128.Idx → EReal) (scale shift : S128.Idx → EReal)
    (h0 : V c (Pipeline.arrRef spec7 0) = a) (h1 : V c (Pipeline.arrRef spec7 1) = scale)
    (h2 : V c (Pipeline.arrRef spec7 2) = shift) :
    (dat7 (F := Ideal) V c).arrAt 3 cfg7.N = normRelu a scale shift :=
  (dat7 (F := Ideal) V c).arrAt_eq_of_cover 3 (normRelu a scale shift)
    (fun t _ => flushed7_eq V c a scale shift h0 h1 h2 t) cover7

/-- The same at an entry (r, q). -/
theorem nrm7 (c : Dev nD) (a out : S50000x128.Idx → EReal) (scale shift : S128.Idx → EReal)
    (h0 : V c (Pipeline.arrRef spec7 0) = a) (h1 : V c (Pipeline.arrRef spec7 1) = scale)
    (h2 : V c (Pipeline.arrRef spec7 2) = shift) (hout : (dat7 (F := Ideal) V c).arrAt 3 cfg7.N = out)
    (r : Fin 50000) (q : Fin 128) :
    out (ix2 r q) = max (a (ix2 r q) * scale (ix1 q) + shift (ix1 q)) 0 := by
  rw [← hout, nrm7_fun V c a scale shift h0 h1 h2]
  rfl

end Cert.KernelIdeal.Val
end
-- ==== Proof.KLayer1.lean ====
import proofs.«133142_j1864015807124_2_alg».proof.Proof.Gen.KernelIdeal.Frame
import proofs.«133142_j1864015807124_2_alg».proof.Proof.Stages
import proofs.«133142_j1864015807124_2_alg».proof.Proof.BnSpec
import proofs.«133142_j1864015807124_2_alg».proof.Proof.LinSpec
import proofs.«133142_j1864015807124_2_alg».proof.Proof.LibEReal
import proofs.«133142_j1864015807124_2_alg».proof.Proof.KGlueDefs
import proofs.«133142_j1864015807124_2_alg».proof.Proof.KGlueBn
import proofs.«133142_j1864015807124_2_alg».proof.Proof.KRead0
import proofs.«133142_j1864015807124_2_alg».proof.Proof.KReadL1
import proofs.«133142_j1864015807124_2_alg».proof.Proof.KCarry
import proofs.«133142_j1864015807124_2_alg».proof.Proof.ValLinear4
import proofs.«133142_j1864015807124_2_alg».proof.Proof.ValSum5
import proofs.«133142_j1864015807124_2_alg».proof.Proof.ValSq6
import proofs.«133142_j1864015807124_2_alg».proof.Proof.ValNorm7

/-!
# Layer 1 of the kernel's run, as a function of its input

Through the layer's four regions and the host stretches between them: the linear region leaves `h · w + b` in both
of its copies; the aggregate of that is what the three normalisation regions read; the lane sums give the column
means, the lane sums of squared deviations the column variances, and the last region applies scale and shift and
clamps. Entry by entry the layer's output is the batch normalisation of the aggregate (the two-pass arrangement folded
into scale and shift equals the direct one for real scale and shift rows).
-/

set_option maxRecDepth 16384

noncomputable section

namespace Cert.KernelIdeal.Layer

open Idealize.ShloMosaic Idealize.ShloMosaic.TcCoe Idealize.ShloMosaic.Tactic Idealize.ShloMosaic.ValueIdx
open Cert.KernelIdeal Cert.KernelIdeal.Gen Cert.Stages Cert.KernelIdeal.Glue Cert.KernelIdeal.Read Cert.KernelIdeal.Keep Cert.KernelIdeal.Val

variable (m : (ℓ : Loc nD τ sig) → Buf (Elt Ideal) ℓ) (ρ : Dev nD → PrngReg) (c : Dev nD)

/-- The linear region leaves `h · w + b` in its wide copy. -/
theorem lin1_wide (X : FVec Ideal S100000x64 .f32) (hX : W9 m ρ c (Proc.devRef .tc main_v83) = X) : W10 m ρ c (Proc.devRef .tc main_v84_0) = (linOf X (W0 m ρ c (Proc.devRef .tc main_arg8)) (W0 m ρ c (Proc.devRef .tc main_arg9))) :=
  (W10_arr m ρ c 3).trans ((lin4_f32_fun (V9 m ρ) c _ _ _ hX (keep_arg8_0_9 m ρ c) (keep_arg9_0_9 m ρ c)).trans (linear_eq_linOf _ _ _))

/-- … and the same values in its narrow copy (a change of format is the identity on the extended reals). -/
theorem lin1_narrow (X : FVec Ideal S100000x64 .f32) (hX : W9 m ρ c (Proc.devRef .tc main_v83) = X) : W10 m ρ c (Proc.devRef .tc main_v84_1) = (linOf X (W0 m ρ c (Proc.devRef .tc main_arg8)) (W0 m ρ c (Proc.devRef .tc main_arg9))) :=
  (W10_arr m ρ c 4).trans ((lin4_bf16_fun (V9 m ρ) c _ _ _ hX (keep_arg8_0_9 m ρ c) (keep_arg9_0_9 m ρ c)).trans (linear_eq_linOf _ _ _))

/-- The layer's aggregate as the normalisation regions find it. -/
abbrev AGG1 : FVec Ideal S100000x64 .f32 :=
  aggFrom (gatheredK1 (W10 m ρ c (Proc.devRef .tc main_v84_1)) (W10 m ρ c (Proc.devRef .tc main_v1))) (W10 m ρ c (Proc.devRef .tc main_v84_0))
    (W10 m ρ c (Proc.devRef .tc main_v30)) (W10 m ρ c (Proc.devRef .tc main_v31)) (W10 m ρ c (Proc.devRef .tc main_v3))

theorem agg2_1 : W11 m ρ c (Proc.devRef .tc main_v108) = view2 (AGG1 m ρ c) := h1_agg (W10 m ρ c)

/-- The aggregate is the shared chain of the layer's linear output, the edge coefficients and the endpoints. -/
theorem AGG1_eq (X : FVec Ideal S100000x64 .f32) (hX : W9 m ρ c (Proc.devRef .tc main_v83) = X) : AGG1 m ρ c = aggOf (linOf X (W0 m ρ c (Proc.devRef .tc main_arg8)) (W0 m ρ c (Proc.devRef .tc main_arg9))) (normOf (srcOf (W0 m ρ c (Proc.devRef .tc main_arg1))) (dstOf (W0 m ρ c (Proc.devRef .tc main_arg1))) (W0 m ρ c (Proc.devRef .tc main_arg2))) (selfOf (dstOf (W0 m ρ c (Proc.devRef .tc main_arg1))) (W0 m ρ c (Proc.devRef .tc main_arg2))) (srcOf (W0 m ρ c (Proc.devRef .tc main_arg1))) (dstOf (W0 m ρ c (Proc.devRef .tc main_arg1))) := by
  unfold AGG1 gatheredK1
  rw [lin1_wide m ρ c X hX , lin1_narrow m ρ c X hX , keep_v1_1_10 m ρ c, keep_v3_1_10 m ρ c, keep_v30_1_10 m ρ c, keep_v31_1_10 m ρ c,
    (show W1 m ρ c (Proc.devRef .tc main_v1) = (srcOf (W0 m ρ c (Proc.devRef .tc main_arg1))) from h0_src (W0 m ρ c)),
    (show W1 m ρ c (Proc.devRef .tc main_v3) = (dstOf (W0 m ρ c (Proc.devRef .tc main_arg1))) from h0_dst (W0 m ρ c)),
    (show W1 m ρ c (Proc.devRef .tc main_v30) = (normOf (srcOf (W0 m ρ c (Proc.devRef .tc main_arg1))) (dstOf (W0 m ρ c (Proc.devRef .tc main_arg1))) (W0 m ρ c (Proc.devRef .tc main_arg2))) from h0_norm (W0 m ρ c)),
    (show W1 m ρ c (Proc.devRef .tc main_v31) = (selfOf (dstOf (W0 m ρ c (Proc.devRef .tc main_arg1))) (W0 m ρ c (Proc.devRef .tc main_arg2))) from h0_self (W0 m ρ c))]
  exact aggFrom_gathered _ _ _ _ _ _

theorem hs1 (q : Fin 128) : (W12 m ρ c (Proc.devRef .tc main_v109) : FVec Ideal S1x128 .f32) (ix2 (0 : Fin 1) q)
    = ∑ r : Fin 50000, view2 (AGG1 m ρ c) (ix2 r q) := by
  have h := sum5 (V11 m ρ) c q
  rw [← agg2_1 m ρ c]
  exact ((congrFun (W12_arr m ρ c 1) (ix2 0 q)).trans h)

theorem hsq1 (q : Fin 128) : (W14 m ρ c (Proc.devRef .tc main_v117) : FVec Ideal S1x128 .f32) (ix2 (0 : Fin 1) q)
    = ∑ r : Fin 50000, (view2 (AGG1 m ρ c) (ix2 r q) - tile2 (meanK (W12 m ρ c (Proc.devRef .tc main_v109))) (ix1 q))
        * (view2 (AGG1 m ρ c) (ix2 r q) - tile2 (meanK (W12 m ρ c (Proc.devRef .tc main_v109))) (ix1 q)) := by
  have h := sq6 (V13 m ρ) c q
  have e1 : (V13 m ρ c (Pipeline.arrRef spec6 0) : Vec Ideal S50000x128 .f32) = view2 (AGG1 m ρ c) :=
    (keep_v108_11_13 m ρ c).trans (agg2_1 m ρ c)
  have e2 : (V13 m ρ c (Pipeline.arrRef spec6 1) : Vec Ideal S128 .f32) = tile2 (meanK (W12 m ρ c (Proc.devRef .tc main_v109))) :=
    h1_meanT (W12 m ρ c)
  rw [← e1, ← e2]
  exact ((congrFun (W14_arr m ρ c 2) (ix2 0 q)).trans h)

theorem ho1 (r : Fin 50000) (q : Fin 128) : (W16 m ρ c (Proc.devRef .tc main_v134) : FVec Ideal S50000x128 .f32) (ix2 r q)
    = max (view2 (AGG1 m ρ c) (ix2 r q) * tile2 (scaleK (W14 m ρ c (Proc.devRef .tc main_v117)) (W0 m ρ c (Proc.devRef .tc main_arg10))) (ix1 q)
        + tile2 (shiftK (W12 m ρ c (Proc.devRef .tc main_v109)) (W14 m ρ c (Proc.devRef .tc main_v117)) (W0 m ρ c (Proc.devRef .tc main_arg10)) (W0 m ρ c (Proc.devRef .tc main_arg11))) (ix1 q)) 0 := by
  have e0 : (V15 m ρ c (Pipeline.arrRef spec7 0) : S50000x128.Idx → EReal) = view2 (AGG1 m ρ c) :=
    (keep_v108_11_15 m ρ c).trans (agg2_1 m ρ c)
  have e1 : (V15 m ρ c (Pipeline.arrRef spec7 1) : S128.Idx → EReal)
      = tile2 (scaleK (W14 m ρ c (Proc.devRef .tc main_v117)) (W0 m ρ c (Proc.devRef .tc main_arg10))) := by
    refine (h1_scaleT (W14 m ρ c)).trans ?_
    rw [keep_arg10_0_14 m ρ c]
  have e2 : (V15 m ρ c (Pipeline.arrRef spec7 2) : S128.Idx → EReal)
      = tile2 (shiftK (W12 m ρ c (Proc.devRef .tc main_v109)) (W14 m ρ c (Proc.devRef .tc main_v117)) (W0 m ρ c (Proc.devRef .tc main_arg10)) (W0 m ρ c (Proc.devRef .tc main_arg11))) := by
    refine (h1_shiftT (W14 m ρ c)).trans ?_
    rw [keep_arg10_0_14 m ρ c, keep_arg11_0_14 m ρ c, keep_v115_13_14 m ρ c,
      (show W13 m ρ c (Proc.devRef .tc main_v115) = meanK (W12 m ρ c (Proc.devRef .tc main_v109)) from h1_mean (W12 m ρ c))]
    rfl
  exact nrm7 (V15 m ρ) c _ _ _ _ e0 e1 e2 (W16_arr m ρ c 3).symm r q

/-- The layer: its output rows are the batch normalisation (and clamp) of the aggregate of `h · w + b`. -/
theorem layer1 (X : FVec Ideal S100000x64 .f32) (hX : W9 m ρ c (Proc.devRef .tc main_v83) = X) (hg : ∀ j : Fin 64, Cert.Spec.IsReal ((W0 m ρ c (Proc.devRef .tc main_arg10) : FVec Ideal S64 .f32) (ix1 j)))
    (hbe : ∀ j : Fin 64, Cert.Spec.IsReal ((W0 m ρ c (Proc.devRef .tc main_arg11) : FVec Ideal S64 .f32) (ix1 j))) :
    W17 m ρ c (Proc.devRef .tc main_v135)
      = bnSpec (aggOf (linOf X (W0 m ρ c (Proc.devRef .tc main_arg8)) (W0 m ρ c (Proc.devRef .tc main_arg9))) (normOf (srcOf (W0 m ρ c (Proc.devRef .tc main_arg1))) (dstOf (W0 m ρ c (Proc.devRef .tc main_arg1))) (W0 m ρ c (Proc.devRef .tc main_arg2))) (selfOf (dstOf (W0 m ρ c (Proc.devRef .tc main_arg1))) (W0 m ρ c (Proc.devRef .tc main_arg2))) (srcOf (W0 m ρ c (Proc.devRef .tc main_arg1))) (dstOf (W0 m ρ c (Proc.devRef .tc main_arg1)))) (W0 m ρ c (Proc.devRef .tc main_arg10)) (W0 m ρ c (Proc.devRef .tc main_arg11)) := by
  rw [← AGG1_eq m ρ c X hX ]
  refine (h1_out (W16 m ρ c)).trans ?_
  funext idx
  obtain ⟨i, j, rfl⟩ : ∃ (i : Fin 100000) (j : Fin 64), idx = ix2 i j := ⟨idx 0, idx 1, eq_ix2 idx⟩
  exact bnK_apply (AGG1 m ρ c) _ _ _ _ hg hbe _ (hs1 m ρ c) (hsq1 m ρ c) (ho1 m ρ c) i j

end Cert.KernelIdeal.Layer

end
-- ==== Proof.KReadL2.lean ====
import proofs.«133142_j1864015807124_2_alg».proof.Proof.Gen.KernelIdeal.Frame
import proofs.«133142_j1864015807124_2_alg».proof.Proof.Stages
import proofs.«133142_j1864015807124_2_alg».proof.Proof.KGlueDefs

/-!
# Layer 2's stretches of host operations in the kernel's program, read back

From any buffer contents `W`: the aggregation of the layer's transformed features (the messages gathered from the
narrow copy, widened, weighted, scatter-added at the targets, plus the self-loop term) viewed as `[50000, 128]`; the
column means from the lane sums, tiled to 128 lanes; the scale and shift rows from the lane sums of squared deviations,
tiled; and the normalised rows viewed back as `[100000, 64]`.
-/

set_option maxRecDepth 16384

noncomputable section

namespace Cert.KernelIdeal.Read

open Idealize.ShloMosaic Idealize.ShloMosaic.TcCoe Idealize.ShloMosaic.Tactic
open Cert.KernelIdeal Cert.KernelIdeal.Gen Cert.Stages Cert.KernelIdeal.Glue
open StableHlo

variable (W : Valuation τ sig (Elt Ideal))

/-- The rows gathered at the sources from the narrow copy, widened (the identity on the extended reals). -/
def gatheredK2 (Hb : FVec Ideal S100000x64 .bf16) (src : IVec S1600000 32) : FVec Ideal S1600000x64 .f32 :=
  extf .f32 (Host.gather gather_S100000x64_S1600000x1_S1600000x64_1_0_n_n_0_1_164 Hb (nidx src)) bitsLt_bf16_f32

theorem h2_agg : StableHlo.after (hostOps9 (F := Ideal)) W (Proc.devRef .tc main_v160)
    = view2 (aggFrom (gatheredK2 (W (Proc.devRef .tc main_v136_1)) (W (Proc.devRef .tc main_v1))) (W (Proc.devRef .tc main_v136_0)) (W (Proc.devRef .tc main_v30)) (W (Proc.devRef .tc main_v31)) (W (Proc.devRef .tc main_v3))) := by
  dsimp only [hostOps9]; after_results_simp; rfl

theorem h2_mean : StableHlo.after (hostOps10 (F := Ideal)) W (Proc.devRef .tc main_v167) = meanK (W (Proc.devRef .tc main_v161)) := by
  dsimp only [hostOps10]; after_results_simp; rfl

theorem h2_meanT : StableHlo.after (hostOps10 (F := Ideal)) W (Proc.devRef .tc main_v168) = tile2 (meanK (W (Proc.devRef .tc main_v161))) := by
  dsimp only [hostOps10]; after_results_simp
  refine congrArg (fun z => concatenate S128 0 [⟨S64, z⟩, ⟨S64, z⟩] concatenates_S64_S64_S128_d0) ?_
  after_results_simp; rfl

theorem h2_scaleT : StableHlo.after (hostOps11 (F := Ideal)) W (Proc.devRef .tc main_v184) = tile2 (scaleK (W (Proc.devRef .tc main_v169)) (W (Proc.devRef .tc main_arg14))) := by
  dsimp only [hostOps11]; after_results_simp
  refine congrArg (fun z => concatenate S128 0 [⟨S64, z⟩, ⟨S64, z⟩] concatenates_S64_S64_S128_d0) ?_
  after_results_simp; rfl

theorem h2_shiftT : StableHlo.after (hostOps11 (F := Ideal)) W (Proc.devRef .tc main_v185)
    = tile2 (subf (W (Proc.devRef .tc main_arg15)) (mulf (W (Proc.devRef .tc main_v167)) (scaleK (W (Proc.devRef .tc main_v169)) (W (Proc.devRef .tc main_arg14))))) := by
  dsimp only [hostOps11]; after_results_simp
  refine congrArg (fun z => concatenate S128 0 [⟨S64, z⟩, ⟨S64, z⟩] concatenates_S64_S64_S128_d0) ?_
  after_results_simp; rfl

theorem h2_out : StableHlo.after (hostOps12 (F := Ideal)) W (Proc.devRef .tc main_v202)
    = poolOf (unview2 (W (Proc.devRef .tc main_v186))) (W (Proc.devRef .tc main_arg3)) (W (Proc.devRef .tc main_arg16)) (W (Proc.devRef .tc main_arg17)) := by
  dsimp only [hostOps12]; after_results_simp; rfl

end Cert.KernelIdeal.Read

end
-- ==== Proof.ValLinear8.lean ====
/-
  Region 8 (matrix product plus bias), read as arrays: after the region, entry (p, q) of each of its two output
  arrays is the sum over k of a (p, k) * w (k, q), plus b q, of its three input arrays as the region finds them (on the
  extended reals the rounding of the second output is the identity).  The body's stored value is read at an entry of a
  block; each block of the grid is a row block of the arrays; the row blocks cover each output.
-/
import proofs.«133142_j1864015807124_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«133142_j1864015807124_2_alg».proof.Proof.ValSpecA
import proofs.«133142_j1864015807124_2_alg».proof.Proof.LibMatmulPlain

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The body's first stored value at entry (p, q) of a block: row p of the input block times column q of the weights,
    plus the bias's entry q (the product accumulates into zero; rounding the operands is the identity on the extended
    reals; the bias is broadcast over the rows). -/
theorem pay8_apply (x0 : Vec Ideal S4000x64 .f32) (x1 : Vec Ideal S64x64 .f32) (x2 : Vec Ideal S64 .f32)
    (p : Fin 4000) (q : Fin 64) :
    k8_pay1 x0 x1 x2 (ix2 p q) = (∑ k : Fin 64, x0 (ix2 p k) * x1 (ix2 k q)) + x2 (ix1 q) := by
  unfold k8_pay1
  rw [addf_apply, broadcastTo_1b_ab_apply, shapeCast_a_1a_apply, shapeCast_self]
  refine congrArg (fun z => z + x2 (ix1 q)) ?_
  exact Cert.LibMatmulPlain.matmul_zero_apply dot_S4000x64_S64x64_S4000x64_1_0_0_1_n_n rfl rfl rfl rfl rfl rfl
    (truncf .bf16 x0 bitsLt_bf16_f32) (truncf .bf16 x1 bitsLt_bf16_f32) p q

/-- The body's second stored value is the first, rounded: the same entry on the extended reals. -/
theorem pay8r_apply (x0 : Vec Ideal S4000x64 .f32) (x1 : Vec Ideal S64x64 .f32) (x2 : Vec Ideal S64 .f32)
    (p : Fin 4000) (q : Fin 64) :
    k8_pay2 x0 x1 x2 (ix2 p q) = (∑ k : Fin 64, x0 (ix2 p k) * x1 (ix2 k q)) + x2 (ix1 q) := by
  unfold k8_pay2
  exact pay8_apply x0 x1 x2 p q

/-- The index maps over the grid: point t reads row block t of the input and writes row block t of each output,
    column block 0; the weights and the bias are whole at every point. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0 ∧ win8_2.index t (0 : Fin 1) = 0
    ∧ win8_3.index t (0 : Fin 2) = t.val ∧ win8_3.index t (1 : Fin 2) = 0
    ∧ win8_4.index t (0 : Fin 2) = t.val ∧ win8_4.index t (1 : Fin 2) = 0 :=
  (by decide +kernel : ∀ t : Fin grid8.N, _)

/-- Entry (p, k) of the input's block at point t is entry (4000 t + p, k) of the input array. -/
theorem emb8_0 (t : Fin cfg8.N) (p : Fin 4000) (k : Fin 64) (hb : t.val * 4000 + p.val < 100000) :
    ((cfg8.win 0).blk t).view.emb (ix2 p k) = ix2 (⟨t.val * 4000 + p.val, hb⟩ : Fin 100000) k := by
  obtain ⟨e0, e1, e2, e3, e4, e5, e6, e7, e8⟩ := idx_facts8 t
  funext a; apply Fin.ext
  match a with
  | ⟨0, _⟩ => show win8_0.index t (0 : Fin 2) * 4000 + 1 * p.val = t.val * 4000 + p.val; omega
  | ⟨1, _⟩ => show win8_0.index t (1 : Fin 2) * 64 + 1 * k.val = k.val; omega

/-- The weights' block at every point is the whole matrix. -/
theorem emb8_1 (t : Fin cfg8.N) (k : Fin 64) (q : Fin 64) : ((cfg8.win 1).blk t).view.emb (ix2 k q) = ix2 k q := by
  obtain ⟨e0, e1, e2, e3, e4, e5, e6, e7, e8⟩ := idx_facts8 t
  funext a; apply Fin.ext
  match a with
  | ⟨0, _⟩ => show win8_1.index t (0 : Fin 2) * 64 + 1 * k.val = k.val; omega
  | ⟨1, _⟩ => show win8_1.index t (1 : Fin 2) * 64 + 1 * q.val = q.val; omega

/-- The bias's block at every point is the whole vector. -/
theorem emb8_2 (t : Fin cfg8.N) (q : Fin 64) : ((cfg8.win 2).blk t).view.emb (ix1 q) = ix1 q := by
  obtain ⟨e0, e1, e2, e3, e4, e5, e6, e7, e8⟩ := idx_facts8 t
  funext a; apply Fin.ext
  match a with
  | ⟨0, _⟩ => show win8_2.index t (0 : Fin 1) * 64 + 1 * q.val = q.val; omega

/-- Entry (p, q) of the first output's block at point t is entry (4000 t + p, q) of its array. -/
theorem emb8_3 (t : Fin cfg8.N) (p : Fin 4000) (q : Fin 64) (hb : t.val * 4000 + p.val < 100000) :
    ((cfg8.win 3).blk t).view.emb (ix2 p q) = ix2 (⟨t.val * 4000 + p.val, hb⟩ : Fin 100000) q := by
  obtain ⟨e0, e1, e2, e3, e4, e5, e6, e7, e8⟩ := idx_facts8 t
  funext a; apply Fin.ext
  match a with
  | ⟨0, _⟩ => show win8_3.index t (0 : Fin 2) * 4000 + 1 * p.val = t.val * 4000 + p.val; omega
  | ⟨1, _⟩ => show win8_3.index t (1 : Fin 2) * 64 + 1 * q.val = q.val; omega

/-- Entry (p, q) of the second output's block at point t is entry (4000 t + p, q) of its array. -/
theorem emb8_4 (t : Fin cfg8.N) (p : Fin 4000) (q : Fin 64) (hb : t.val * 4000 + p.val < 100000) :
    ((cfg8.win 4).blk t).view.emb (ix2 p q) = ix2 (⟨t.val * 4000 + p.val, hb⟩ : Fin 100000) q := by
  obtain ⟨e0, e1, e2, e3, e4, e5, e6, e7, e8⟩ := idx_facts8 t
  funext a; apply Fin.ext
  match a with
  | ⟨0, _⟩ => show win8_4.index t (0 : Fin 2) * 4000 + 1 * p.val = t.val * 4000 + p.val; omega
  | ⟨1, _⟩ => show win8_4.index t (1 : Fin 2) * 64 + 1 * q.val = q.val; omega

/-- The input's block at point t, read at (p, k). -/
theorem iblk8_0_apply (c : Dev nD) (a : S100000x64.Idx → EReal) (h0 : V c (Pipeline.arrRef spec8 0) = a)
    (t : Fin cfg8.N) (p : Fin 4000) (k : Fin 64) (hb : t.val * 4000 + p.val < 100000) :
    iblk8 V c 0 t (ix2 p k) = a (ix2 (⟨t.val * 4000 + p.val, hb⟩ : Fin 100000) k) := by
  subst h0
  show V c (Pipeline.arrRef spec8 0) (((cfg8.win 0).blk t).view.emb (ix2 p k)) = _
  rw [emb8_0 t p k hb]

/-- The weights' block at point t, read at (k, q). -/
theorem iblk8_1_apply (c : Dev nD) (w : S64x64.Idx → EReal) (h1 : V c (Pipeline.arrRef spec8 1) = w)
    (t : Fin cfg8.N) (k : Fin 64) (q : Fin 64) : iblk8 V c 1 t (ix2 k q) = w (ix2 k q) := by
  subst h1
  show V c (Pipeline.arrRef spec8 1) (((cfg8.win 1).blk t).view.emb (ix2 k q)) = _
  rw [emb8_1 t k q]

/-- The bias's block at point t, read at q. -/
theorem iblk8_2_apply (c : Dev nD) (b : S64.Idx → EReal) (h2 : V c (Pipeline.arrRef spec8 2) = b)
    (t : Fin cfg8.N) (q : Fin 64) : iblk8 V c 2 t (ix1 q) = b (ix1 q) := by
  subst h2
  show V c (Pipeline.arrRef spec8 2) (((cfg8.win 2).blk t).view.emb (ix1 q)) = _
  rw [emb8_2 t q]

/-- Row p of a block times column q of the weights plus the bias's entry q is entry (P, q) of the product plus bias,
    when row p of the block is row P of the array and the weights' and the bias's blocks are whole. -/
theorem blocks8_apply (a : S100000x64.Idx → EReal) (w : S64x64.Idx → EReal) (b : S64.Idx → EReal)
    (x0 : Vec Ideal S4000x64 .f32) (x1 : Vec Ideal S64x64 .f32) (x2 : Vec Ideal S64 .f32)
    (P : Fin 100000) (p : Fin 4000) (q : Fin 64)
    (hx0 : ∀ k : Fin 64, x0 (ix2 p k) = a (ix2 P k)) (hx1 : ∀ k : Fin 64, x1 (ix2 k q) = w (ix2 k q))
    (hx2 : x2 (ix1 q) = b (ix1 q)) :
    (∑ k : Fin 64, x0 (ix2 p k) * x1 (ix2 k q)) + x2 (ix1 q) = linear a w b (ix2 P q) := by
  rw [linear_apply, hx2]
  refine congrArg (fun z => z + b (ix1 q)) (Finset.sum_congr rfl fun k _ => ?_)
  rw [hx0 k, hx1 k]

/-- What point t writes back to the first output is block t of the product plus bias. -/
theorem flushed8_3_eq (c : Dev nD) (a : S100000x64.Idx → EReal) (w : S64x64.Idx → EReal) (b : S64.Idx → EReal)
    (h0 : V c (Pipeline.arrRef spec8 0) = a) (h1 : V c (Pipeline.arrRef spec8 1) = w)
    (h2 : V c (Pipeline.arrRef spec8 2) = b) (t : Fin cfg8.N) :
    (dat8 (F := Ideal) V c).flushed 3 t = ((cfg8.win 3).blk t).view.read (Elt Ideal) (linear a w b) := by
  show (cfg8.win 3).cut (grid8.coords t) ((dat8 (F := Ideal) V c).after 3 t) = _
  rw [after8_3]
  unfold out8_3
  rw [View.canon_unit_zero hz2]
  simp only [View.ld_unit_zero (S := S4000x64) hz2, View.ld_unit_zero (S := S64x64) hz2, View.ld_unit_zero (S := S64) hz1]
  funext j
  obtain ⟨p, q, rfl⟩ : ∃ (p : Fin 4000) (q : Fin 64), j = ix2 p q := ⟨j 0, j 1, eq_ix2 j⟩
  have hN : cfg8.N = 25 := N_8
  have ht : t.val < 25 := hN ▸ t.isLt
  have hb : t.val * 4000 + p.val < 100000 := by omega
  show k8_pay1 (iblk8 V c 0 t) (iblk8 V c 1 t) (iblk8 V c 2 t) (ix2 p q)
    = linear a w b (((cfg8.win 3).blk t).view.emb (ix2 p q))
  refine (pay8_apply (iblk8 V c 0 t) (iblk8 V c 1 t) (iblk8 V c 2 t) p q).trans ?_
  rw [emb8_3 t p q hb]
  exact blocks8_apply a w b (iblk8 V c 0 t) (iblk8 V c 1 t) (iblk8 V c 2 t) ⟨t.val * 4000 + p.val, hb⟩ p q
    (fun k => iblk8_0_apply V c a h0 t p k hb) (fun k => iblk8_1_apply V c w h1 t k q) (iblk8_2_apply V c b h2 t q)

/-- What point t writes back to the second output is block t of the product plus bias. -/
theorem flushed8_4_eq (c : Dev nD) (a : S100000x64.Idx → EReal) (w : S64x64.Idx → EReal) (b : S64.Idx → EReal)
    (h0 : V c (Pipeline.arrRef spec8 0) = a) (h1 : V c (Pipeline.arrRef spec8 1) = w)
    (h2 : V c (Pipeline.arrRef spec8 2) = b) (t : Fin cfg8.N) :
    (dat8 (F := Ideal) V c).flushed 4 t = ((cfg8.win 4).blk t).view.read (Elt Ideal) (linear a w b) := by
  show (cfg8.win 4).cut (grid8.coords t) ((dat8 (F := Ideal) V c).after 4 t) = _
  rw [after8_4]
  unfold out8_4
  rw [View.canon_unit_zero hz2]
  simp only [View.ld_unit_zero (S := S4000x64) hz2, View.ld_unit_zero (S := S64x64) hz2, View.ld_unit_zero (S := S64) hz1]
  funext j
  obtain ⟨p, q, rfl⟩ : ∃ (p : Fin 4000) (q : Fin 64), j = ix2 p q := ⟨j 0, j 1, eq_ix2 j⟩
  have hN : cfg8.N = 25 := N_8
  have ht : t.val < 25 := hN ▸ t.isLt
  have hb : t.val * 4000 + p.val < 100000 := by omega
  show k8_pay2 (iblk8 V c 0 t) (iblk8 V c 1 t) (iblk8 V c 2 t) (ix2 p q)
    = linear a w b (((cfg8.win 4).blk t).view.emb (ix2 p q))
  refine (pay8r_apply (iblk8 V c 0 t) (iblk8 V c 1 t) (iblk8 V c 2 t) p q).trans ?_
  rw [emb8_4 t p q hb]
  exact blocks8_apply a w b (iblk8 V c 0 t) (iblk8 V c 1 t) (iblk8 V c 2 t) ⟨t.val * 4000 + p.val, hb⟩ p q
    (fun k => iblk8_0_apply V c a h0 t p k hb) (fun k => iblk8_1_apply V c w h1 t k q) (iblk8_2_apply V c b h2 t q)

/-- An index of the first output is in point t's block iff each coordinate is in the block's range on its axis. -/
theorem mem_blk8_3 (t : Fin cfg8.N) (i : S100000x64.Idx) :
    i ∈ ((cfg8.win 3).blk t).view.set ↔ ∀ a : Fin 2, win8_3.index t a * S4000x64.size a ≤ (i a).val ∧ (i a).val < win8_3.index t a * S4000x64.size a + S4000x64.size a := by
  show i ∈ ((View.whole main_v136_0).slice (win8_3.rect t)).set ↔ _
  rw [View.set_slice_whole, Rect.mem_set_unit]
  exact Iff.rfl

/-- An index of the second output is in point t's block iff each coordinate is in the block's range on its axis. -/
theorem mem_blk8_4 (t : Fin cfg8.N) (i : S100000x64.Idx) :
    i ∈ ((cfg8.win 4).blk t).view.set ↔ ∀ a : Fin 2, win8_4.index t a * S4000x64.size a ≤ (i a).val ∧ (i a).val < win8_4.index t a * S4000x64.size a + S4000x64.size a := by
  show i ∈ ((View.whole main_v136_1).slice (win8_4.rect t)).set ↔ _
  rw [View.set_slice_whole, Rect.mem_set_unit]
  exact Iff.rfl

/-- Every entry of the first output is in some point's block: row p is in the block of point p / 4000. -/
theorem cover8_3 (i : S100000x64.Idx) :
    ∃ t : Fin cfg8.N, (cfg8.win 3).flush t = true ∧ i ∈ ((cfg8.win 3).blk t).view.set := by
  have hN : cfg8.N = 25 := N_8
  have hi0 : (i 0).val < 100000 := (i 0).isLt
  have hi1 : (i 1).val < 64 := (i 1).isLt
  refine ⟨⟨(i 0).val / 4000, by rw [hN]; omega⟩, flush8_3 _, ?_⟩
  rw [mem_blk8_3]
  obtain ⟨e0, e1, e2, e3, e4, e5, e6, e7, e8⟩ := idx_facts8 ⟨(i 0).val / 4000, by rw [hN]; omega⟩
  intro a
  match a with
  | ⟨0, _⟩ =>
    show win8_3.index _ (0 : Fin 2) * 4000 ≤ (i 0).val ∧ (i 0).val < win8_3.index _ (0 : Fin 2) * 4000 + 4000
    rw [e5]; show (i 0).val / 4000 * 4000 ≤ (i 0).val ∧ (i 0).val < (i 0).val / 4000 * 4000 + 4000; omega
  | ⟨1, _⟩ =>
    show win8_3.index _ (1 : Fin 2) * 64 ≤ (i 1).val ∧ (i 1).val < win8_3.index _ (1 : Fin 2) * 64 + 64
    rw [e6]; omega

/-- Every entry of the second output is in some point's block: row p is in the block of point p / 4000. -/
theorem cover8_4 (i : S100000x64.Idx) :
    ∃ t : Fin cfg8.N, (cfg8.win 4).flush t = true ∧ i ∈ ((cfg8.win 4).blk t).view.set := by
  have hN : cfg8.N = 25 := N_8
  have hi0 : (i 0).val < 100000 := (i 0).isLt
  have hi1 : (i 1).val < 64 := (i 1).isLt
  refine ⟨⟨(i 0).val / 4000, by rw [hN]; omega⟩, flush8_4 _, ?_⟩
  rw [mem_blk8_4]
  obtain ⟨e0, e1, e2, e3, e4, e5, e6, e7, e8⟩ := idx_facts8 ⟨(i 0).val / 4000, by rw [hN]; omega⟩
  intro a
  match a with
  | ⟨0, _⟩ =>
    show win8_4.index _ (0 : Fin 2) * 4000 ≤ (i 0).val ∧ (i 0).val < win8_4.index _ (0 : Fin 2) * 4000 + 4000
    rw [e7]; show (i 0).val / 4000 * 4000 ≤ (i 0).val ∧ (i 0).val < (i 0).val / 4000 * 4000 + 4000; omega
  | ⟨1, _⟩ =>
    show win8_4.index _ (1 : Fin 2) * 64 ≤ (i 1).val ∧ (i 1).val < win8_4.index _ (1 : Fin 2) * 64 + 64
    rw [e8]; omega

/-- The first output array after the region: the product of the input array and the weights, plus the bias. -/
theorem lin8_f32_fun (c : Dev nD) (a : S100000x64.Idx → EReal) (w : S64x64.Idx → EReal) (b : S64.Idx → EReal)
    (h0 : V c (Pipeline.arrRef spec8 0) = a) (h1 : V c (Pipeline.arrRef spec8 1) = w)
    (h2 : V c (Pipeline.arrRef spec8 2) = b) :
    (dat8 (F := Ideal) V c).arrAt 3 cfg8.N = linear a w b :=
  (dat8 (F := Ideal) V c).arrAt_eq_of_cover 3 (linear a w b)
    (fun t _ => flushed8_3_eq V c a w b h0 h1 h2 t) cover8_3

/-- The second output array after the region: the same function. -/
theorem lin8_bf16_fun (c : Dev nD) (a : S100000x64.Idx → EReal) (w : S64x64.Idx → EReal) (b : S64.Idx → EReal)
    (h0 : V c (Pipeline.arrRef spec8 0) = a) (h1 : V c (Pipeline.arrRef spec8 1) = w)
    (h2 : V c (Pipeline.arrRef spec8 2) = b) :
    (dat8 (F := Ideal) V c).arrAt 4 cfg8.N = linear a w b :=
  (dat8 (F := Ideal) V c).arrAt_eq_of_cover 4 (linear a w b)
    (fun t _ => flushed8_4_eq V c a w b h0 h1 h2 t) cover8_4

/-- The first output at an entry (p, q). -/
theorem lin8_f32 (c : Dev nD) (a : S100000x64.Idx → EReal) (w : S64x64.Idx → EReal) (b : S64.Idx → EReal)
    (out : S100000x64.Idx → EReal)
    (h0 : V c (Pipeline.arrRef spec8 0) = a) (h1 : V c (Pipeline.arrRef spec8 1) = w)
    (h2 : V c (Pipeline.arrRef spec8 2) = b) (hout : (dat8 (F := Ideal) V c).arrAt 3 cfg8.N = out)
    (p : Fin 100000) (q : Fin 64) :
    out (ix2 p q) = (∑ k : Fin 64, a (ix2 p k) * w (ix2 k q)) + b (ix1 q) := by
  rw [← hout, lin8_f32_fun V c a w b h0 h1 h2]
  rfl

/-- The second output at an entry (p, q). -/
theorem lin8_bf16 (c : Dev nD) (a : S100000x64.Idx → EReal) (w : S64x64.Idx → EReal) (b : S64.Idx → EReal)
    (out : S100000x64.Idx → EReal)
    (h0 : V c (Pipeline.arrRef spec8 0) = a) (h1 : V c (Pipeline.arrRef spec8 1) = w)
    (h2 : V c (Pipeline.arrRef spec8 2) = b) (hout : (dat8 (F := Ideal) V c).arrAt 4 cfg8.N = out)
    (p : Fin 100000) (q : Fin 64) :
    out (ix2 p q) = (∑ k : Fin 64, a (ix2 p k) * w (ix2 k q)) + b (ix1 q) := by
  rw [← hout, lin8_bf16_fun V c a w b h0 h1 h2]
  rfl

end Cert.KernelIdeal.Val
end
-- ==== Proof.ValSum9.lean ====
import proofs.«133142_j1864015807124_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic
import proofs.«133142_j1864015807124_2_alg».proof.Proof.LibAccum

/-
  REGION 9, read as a value: the [1,128] result array, at lane `q`, ends at the sum of the operand's 50000 rows at that
  lane. The region visits ten blocks of 5000 rows; one [1,128] buffer is cleared at the first point and at every point
  the block's lane sums are added to it; it is written back once, after the last point. Over the extended reals the
  running total after point `n` is the sum of the blocks `0, …, n`, and the ten block sums add up to the sum over all
  rows (a sum over 10 · 5000 positions taken block by block).
-/

noncomputable section

open Idealize.ShloMosaic Idealize.ShloMosaic.TcCoe Idealize.SL.Sem
open Idealize.ShloMosaic.Pipeline (Dat)
open Idealize.ShloMosaic.ValueIdx
open scoped BigOperators

namespace Cert.KernelIdeal.Val

open Cert.KernelIdeal Cert.KernelIdeal.Gen

section Pieces
variable {F : FTy → Type} [FloatOps F]

/-- The zero offsets of a whole-buffer access. -/
theorem hz9 : (![0, 0] : Fin 2 → Nat) = fun _ => 0 := funext fun a => by fin_cases a <;> rfl

/-- Case B (every later point): the one store's payload, over the block and what the buffer held. -/
theorem out9_B (c : Dev nD) (i : grid9.Coords) (a1 : Memref sig .tc .vmem S5000x128 .f32) (h1 : a1.IsWhole)
    (a2 : Memref sig .tc .vmem S1x128 .f32) (h2 : a2.IsWhole) (hc : ¬cond9_0 i)
    (x : Vec F S5000x128 .f32) (xo : Vec F S1x128 .f32) :
    out9_B_1 c i a1 h1 a2 h2 hc x xo = k9_pay2 x xo := by
  unfold out9_B_1
  rw [View.read_writes_eq_canon _ _ _ (cover9_B_1 c i a1 h1 a2 h2 hc x xo)]
  unfold kernelRun9_B
  dsimp only
  rw [View.canon_unit_zero hz9]
  simp only [View.readAt_eq_ld, h1.read_unread, h2.read_unread, View.ld_unit_zero (S := S5000x128) hz9,
    View.ld_unit_zero (S := S1x128) hz9]

/-- Case A (the first point): the buffer is cleared, read back, and the payload stored over it. -/
theorem out9_A (c : Dev nD) (i : grid9.Coords) (a1 : Memref sig .tc .vmem S5000x128 .f32) (h1 : a1.IsWhole)
    (a2 : Memref sig .tc .vmem S1x128 .f32) (h2 : a2.IsWhole) (hc : cond9_0 i)
    (x : Vec F S5000x128 .f32) :
    out9_A_1 c i a1 h1 a2 h2 hc x = k9_pay2 x (k9_pay1 (F := F)) := by
  unfold out9_A_1
  rw [View.read_writes_eq_canon _ _ _ (cover9_A_1 c i a1 h1 a2 h2 hc x)]
  unfold kernelRun9_A
  dsimp only
  sl_unfold_words
  rw [View.canon_cons_unit_zero (S := S1x128) hz9, View.readCov_unit_zero (S := S1x128) _ hz9]
  simp only [View.readAt_eq_ld, h1.read_unread, View.ld_unit_zero (S := S5000x128) hz9]

end Pieces

/-! ## The accumulation step at an index, over the extended reals -/

/-- The cleared accumulator reads `0` at every lane. -/
theorem k9_pay1_apply (j : S1x128.Idx) : k9_pay1 (F := Ideal) j = Ideal.ofBits .f32 0x00000000#32 := rfl

/-- One step at lane `q`: the accumulator's lane plus the sum of the block's 5000 rows at that lane. -/
theorem k9_pay2_apply (x : Vec Ideal S5000x128 .f32) (xo : Vec Ideal S1x128 .f32) (q : Fin 128) :
    k9_pay2 (F := Ideal) x xo (ix2 0 q) = xo (ix2 0 q) + ∑ r : Fin 5000, x (ix2 r q) := by
  unfold k9_pay2
  dsimp only
  refine (addf_apply _ _ _).trans ?_
  refine congrArg₂ (· + ·) (congrFun (shapeCast_self xo _) _) ?_
  refine (shapeCast_apply _ shapeCasts_S128_S1x128 (ix2 0 q) (ix1 q) ?_).trans ?_
  · rw [Shape.rowMajor_val_one, Shape.rowMajor_val_two]; show q.val = 0 * 128 + q.val; omega
  refine (Ideal.multiReduction_add_single _ 0x00000000#32 reduces_S5000x128_S128 (.inl rfl) rfl (ix1 q)).trans ?_
  refine Finset.sum_congr rfl fun r _ => ?_
  refine (congrFun (shapeCast_self x _) _).trans (congrArg x ?_)
  funext a; match a with | ⟨0, _⟩ => rfl | ⟨1, _⟩ => rfl

section Value
variable (V : (c : Dev nD) → (b : Ref sig .tc) → Buf (Elt Ideal) ((c : Thread nD τ).loc b))

/-- Case A at lane `q` (the first point): the accumulator is cleared, then the block's rows are added. -/
theorem stepA9 (c : Dev nD) (i : grid9.Coords) (a1 : Memref sig .tc .vmem S5000x128 .f32) (h1 : a1.IsWhole)
    (a2 : Memref sig .tc .vmem S1x128 .f32) (h2 : a2.IsWhole) (hc : cond9_0 i)
    (x : Vec Ideal S5000x128 .f32) (q : Fin 128) :
    out9_A_1 (F := Ideal) c i a1 h1 a2 h2 hc x (ix2 0 q) = ∑ r : Fin 5000, x (ix2 r q) := by
  refine (congrFun (out9_A (F := Ideal) c i a1 h1 a2 h2 hc x) (ix2 0 q)).trans ?_
  refine (k9_pay2_apply x (k9_pay1 (F := Ideal)) q).trans ?_
  rw [k9_pay1_apply, Ideal.ofBits_zero_f32, zero_add]

/-- Case B at lane `q` (every later point): the block's rows are added to what the point before left. -/
theorem stepB9 (c : Dev nD) (i : grid9.Coords) (a1 : Memref sig .tc .vmem S5000x128 .f32) (h1 : a1.IsWhole)
    (a2 : Memref sig .tc .vmem S1x128 .f32) (h2 : a2.IsWhole) (hc : ¬cond9_0 i)
    (x : Vec Ideal S5000x128 .f32) (xo : Vec Ideal S1x128 .f32) (q : Fin 128) :
    out9_B_1 (F := Ideal) c i a1 h1 a2 h2 hc x xo (ix2 0 q) = xo (ix2 0 q) + ∑ r : Fin 5000, x (ix2 r q) :=
  (congrFun (out9_B (F := Ideal) c i a1 h1 a2 h2 hc x xo) (ix2 0 q)).trans (k9_pay2_apply x xo q)

/-- The sum of block `t`'s 5000 rows at lane `q` (`0` past the grid). -/
def blockSum9 (c : Dev nD) (q : Fin 128) (t : ℕ) : EReal :=
  if h : t < cfg9.N then ∑ r : Fin 5000, (iblk9 V c 0 ⟨t, h⟩ : Vec Ideal S5000x128 .f32) (ix2 r q) else 0

/-- After point `n` the accumulator's lane `q` holds the sum of the blocks `0, …, n` at that lane. -/
theorem outsAt9_sum (c : Dev nD) (q : Fin 128) : ∀ (n : ℕ) (h : n < cfg9.N),
    outsAt9 (F := Ideal) V c n h (ix2 0 q) = ∑ t ∈ Finset.range (n + 1), blockSum9 V c q t
  | 0, h => by
    rw [outsAt9_A V c ⟨0, h⟩ rfl, Finset.sum_range_one]
    refine (stepA9 c (grid9.coords ⟨0, h⟩) (ms9_0 ⟨0, h⟩) (hs9_0 ⟨0, h⟩) (ms9_1 ⟨0, h⟩) (hs9_1 ⟨0, h⟩)
      ((hcond9_0 ⟨0, h⟩).mpr rfl) (iblk9 V c 0 ⟨0, h⟩) q).trans ?_
    unfold blockSum9; rw [dif_pos h]
  | n + 1, h => by
    have hN : cfg9.N = 10 := N_9
    have hB : ¬(⟨n + 1, h⟩ : Fin cfg9.N).val % 10 = 0 := by dsimp only; omega
    rw [outsAt9_B V c ⟨n + 1, h⟩ hB, Finset.sum_range_succ _ (n + 1)]
    refine (stepB9 c (grid9.coords ⟨n + 1, h⟩) (ms9_0 ⟨n + 1, h⟩) (hs9_0 ⟨n + 1, h⟩) (ms9_1 ⟨n + 1, h⟩) (hs9_1 ⟨n + 1, h⟩)
      (fun hh => hB ((hcond9_0 ⟨n + 1, h⟩).mp hh)) (iblk9 V c 0 ⟨n + 1, h⟩)
      (outsAt9 V c n (Nat.lt_of_succ_lt h)) q).trans ?_
    rw [outsAt9_sum c q n (Nat.lt_of_succ_lt h)]
    unfold blockSum9; rw [dif_pos h]

/-- The operand array as the region finds it: 50000 rows of 128 lanes. -/
abbrev arr9 (c : Dev nD) : Vec Ideal S50000x128 .f32 := V c (Pipeline.arrRef spec9 0)

/-- The input window's block index at point `t`: block `t` along the rows, block `0` along the lanes. -/
theorem idx9_0 : ∀ t : Fin cfg9.N, win9_0.index t (0 : Fin 2) = t.val ∧ win9_0.index t (1 : Fin 2) = 0 :=
  (by decide +kernel : ∀ t : Fin grid9.N, win9_0.index t (0 : Fin 2) = t.val ∧ win9_0.index t (1 : Fin 2) = 0)

/-- Row `r` of block `t` is row `5000 t + r` of the array. -/
theorem iblk9_apply (c : Dev nD) (t : Fin cfg9.N) (r : Fin 5000) (q : Fin 128) (hr : t.val * 5000 + r.val < 50000) :
    (iblk9 V c 0 t : Vec Ideal S5000x128 .f32) (ix2 r q)
      = arr9 V c (ix2 (⟨t.val * 5000 + r.val, hr⟩ : Fin 50000) q) := by
  unfold iblk9
  rw [View.read_apply]
  show V c (Pipeline.arrRef spec9 0) _ = V c (Pipeline.arrRef spec9 0) _
  refine congrArg (V c (Pipeline.arrRef spec9 0)) (funext fun a => Fin.ext ?_)
  match a with
  | ⟨0, _⟩ => show win9_0.index t 0 * 5000 + 1 * r.val = t.val * 5000 + r.val; rw [(idx9_0 t).1]; omega
  | ⟨1, _⟩ => show win9_0.index t 1 * 128 + 1 * q.val = q.val; rw [(idx9_0 t).2]; omega

/-- What the accumulator holds after the last point, as contents of the result array (its one block is the array). -/
abbrev result9 (c : Dev nD) : Buf (Elt Ideal) ((c : Thread nD τ).loc main_v161) :=
  outsAt9 (F := Ideal) V c 9 (by rw [show cfg9.N = 10 from N_9]; decide)

/-- The one write-back, at the last point, writes it. -/
theorem flushed9_eq (c : Dev nD) (t : Fin cfg9.N) (hf : (cfg9.win 1).flush t = true) :
    (dat9 (F := Ideal) V c).flushed 1 t = ((cfg9.win 1).blk t).view.read (Elt Ideal) (result9 V c) := by
  have hN : cfg9.N = 10 := N_9
  have h9 : t.val = 9 := by have := (flush9_1 t).mp hf; have := t.isLt; omega
  obtain rfl : t = t9_9 := Fin.ext h9
  show (cfg9.win 1).cut (grid9.coords t9_9) ((dat9 (F := Ideal) V c).after 1 t9_9) = _
  rw [after9_1]
  have hz' : (fun a => win9_1.index t9_9 a * main_v161.ty.shape.size a) = fun _ => 0 := funext fun a => by fin_cases a <;> decide
  exact (Memref.read_access_unit_zero (Elt Ideal) main_v161 hz' (fun a => by rw [congrFun hz' a]; simp) (result9 V c)).symm

/-- So the result array ends holding what the accumulator holds after the last point. -/
theorem final9 (c : Dev nD) : (dat9 (F := Ideal) V c).arrAt 1 cfg9.N = result9 V c :=
  (dat9 (F := Ideal) V c).arrAt_eq_of_cover 1 (result9 V c) (flushed9_eq V c) fun i =>
    ⟨t9_9, (flush9_1 t9_9).mpr rfl, by
      show i ∈ ((View.whole main_v161).slice (win9_1.rect t9_9)).set
      rw [View.set_slice_whole, Rect.mem_set_unit]
      intro a
      have h0 : (i 0 : Nat) < 1 := (i 0).isLt
      have h1 : (i 1 : Nat) < 128 := (i 1).isLt
      match a with
      | ⟨0, _⟩ => show win9_1.index t9_9 0 * win9_1.size 0 ≤ (i 0 : Nat) ∧ (i 0 : Nat) < win9_1.index t9_9 0 * win9_1.size 0 + win9_1.xsize (grid9.coords t9_9) 0
                  rw [show win9_1.index t9_9 0 * win9_1.size 0 = 0 from by decide +kernel, show win9_1.xsize (grid9.coords t9_9) 0 = 1 from by decide +kernel]; omega
      | ⟨1, _⟩ => show win9_1.index t9_9 1 * win9_1.size 1 ≤ (i 1 : Nat) ∧ (i 1 : Nat) < win9_1.index t9_9 1 * win9_1.size 1 + win9_1.xsize (grid9.coords t9_9) 1
                  rw [show win9_1.index t9_9 1 * win9_1.size 1 = 0 from by decide +kernel, show win9_1.xsize (grid9.coords t9_9) 1 = 128 from by decide +kernel]; omega⟩

/-- The ten blocks' sums at lane `q` add up to the sum over all 50000 rows. -/
theorem sum_blockSum9 (c : Dev nD) (q : Fin 128) :
    ∑ t ∈ Finset.range 10, blockSum9 V c q t = ∑ r : Fin 50000, arr9 V c (ix2 r q) := by
  have hN : cfg9.N = 10 := N_9
  rw [Finset.sum_range]
  refine Eq.trans ?_ (QLin.sum_blocks 10 5000 (fun i : Fin (10 * 5000) => arr9 V c (ix2 (i : Fin 50000) q))).symm
  refine Finset.sum_congr rfl fun t _ => ?_
  unfold blockSum9
  rw [dif_pos (by omega : t.val < cfg9.N)]
  refine Finset.sum_congr rfl fun r _ => ?_
  exact iblk9_apply V c ⟨t.val, by omega⟩ r q (QLin.block_lt (n := 10) (b := 5000) t r)

/-- REGION 9: the result array at lane `q` is the sum of the operand's 50000 rows at that lane. -/
theorem sum9 (c : Dev nD) (q : Fin 128) :
    (dat9 (F := Ideal) V c).arrAt 1 cfg9.N (ix2 0 q) = ∑ r : Fin 50000, arr9 V c (ix2 r q) := by
  refine (congrFun (final9 V c) (ix2 0 q)).trans ?_
  refine (outsAt9_sum V c q 9 (by rw [show cfg9.N = 10 from N_9]; decide)).trans ?_
  exact sum_blockSum9 V c q

end Value

end Cert.KernelIdeal.Val

end
-- ==== Proof.ValSq10.lean ====
import proofs.«133142_j1864015807124_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic
import proofs.«133142_j1864015807124_2_alg».proof.Proof.LibAccum

/-
  REGION 10, read as a value: the [1,128] result array, at lane `q`, ends at the sum over the operand's 50000 rows of the
  squared deviation from the [128] operand at that lane. The region visits ten blocks of 5000 rows; one [1,128] buffer is
  cleared at the first point and at every point the block's lane sums of squared deviations are added to it; it is
  written back once, after the last point. Over the extended reals the running total after point `n` is the sum of the
  blocks `0, …, n`, and the ten block sums add up to the sum over all rows.
-/

noncomputable section

open Idealize.ShloMosaic Idealize.ShloMosaic.TcCoe Idealize.SL.Sem
open Idealize.ShloMosaic.Pipeline (Dat)
open Idealize.ShloMosaic.ValueIdx
open scoped BigOperators

namespace Cert.KernelIdeal.Val

open Cert.KernelIdeal Cert.KernelIdeal.Gen

section Pieces
variable {F : FTy → Type} [FloatOps F]

theorem hz10 : (![0, 0] : Fin 2 → Nat) = fun _ => 0 := funext fun a => by fin_cases a <;> rfl
theorem hz10v : (![0] : Fin 1 → Nat) = fun _ => 0 := funext fun a => by fin_cases a; rfl

/-- Case B (every later point): the one store's payload, over the blocks and what the buffer held. -/
theorem out10_B (c : Dev nD) (i : grid10.Coords) (a1 : Memref sig .tc .vmem S5000x128 .f32) (h1 : a1.IsWhole)
    (a2 : Memref sig .tc .vmem S128 .f32) (h2 : a2.IsWhole) (a3 : Memref sig .tc .vmem S1x128 .f32) (h3 : a3.IsWhole)
    (hc : ¬cond10_0 i) (x : Vec F S5000x128 .f32) (m : Vec F S128 .f32) (xo : Vec F S1x128 .f32) :
    out10_B_2 c i a1 h1 a2 h2 a3 h3 hc x m xo = k10_pay2 x m xo := by
  unfold out10_B_2
  rw [View.read_writes_eq_canon _ _ _ (cover10_B_2 c i a1 h1 a2 h2 a3 h3 hc x m xo)]
  unfold kernelRun10_B
  dsimp only
  rw [View.canon_unit_zero hz10]
  simp only [View.readAt_eq_ld, h1.read_unread, h2.read_unread, h3.read_unread, View.ld_unit_zero (S := S5000x128) hz10,
    View.ld_unit_zero (S := S1x128) hz10, View.ld_unit_zero (S := S128) hz10v]

/-- Case A (the first point): the buffer is cleared, read back, and the payload stored over it. -/
theorem out10_A (c : Dev nD) (i : grid10.Coords) (a1 : Memref sig .tc .vmem S5000x128 .f32) (h1 : a1.IsWhole)
    (a2 : Memref sig .tc .vmem S128 .f32) (h2 : a2.IsWhole) (a3 : Memref sig .tc .vmem S1x128 .f32) (h3 : a3.IsWhole)
    (hc : cond10_0 i) (x : Vec F S5000x128 .f32) (m : Vec F S128 .f32) :
    out10_A_2 c i a1 h1 a2 h2 a3 h3 hc x m = k10_pay2 x m (k10_pay1 (F := F)) := by
  unfold out10_A_2
  rw [View.read_writes_eq_canon _ _ _ (cover10_A_2 c i a1 h1 a2 h2 a3 h3 hc x m)]
  unfold kernelRun10_A
  dsimp only
  sl_unfold_words
  rw [View.canon_cons_unit_zero (S := S1x128) hz10, View.readCov_unit_zero (S := S1x128) _ hz10]
  simp only [View.readAt_eq_ld, h1.read_unread, h2.read_unread, View.ld_unit_zero (S := S5000x128) hz10,
    View.ld_unit_zero (S := S128) hz10v]

end Pieces

/-! ## The accumulation step at an index, over the extended reals -/

/-- The cleared accumulator reads `0` at every lane. -/
theorem k10_pay1_apply (j : S1x128.Idx) : k10_pay1 (F := Ideal) j = Ideal.ofBits .f32 0x00000000#32 := rfl

/-- The deviation of the block from the [128] operand broadcast along the rows, at row `r`, lane `q`. -/
theorem sqdev10_apply (x : FVec Ideal S5000x128 .f32) (m : FVec Ideal S128 .f32) (r : Fin 5000) (q : Fin 128) :
    (subf (F := Ideal) (shapeCast S5000x128 x shapeCasts_S5000x128_S5000x128)
        (broadcastTo S5000x128 (shapeCast S1x128 (shapeCast S128 m shapeCasts_S128_S128) shapeCasts_S128_S1x128)
          broadcasts_S1x128_S5000x128) : FVec Ideal S5000x128 .f32) (ix2 r q)
      = x (ix2 r q) - m (ix1 q) := by
  refine (subf_apply _ _ _).trans ?_
  refine congrArg₂ (· - ·) (congrFun (shapeCast_self x _) _) ?_
  refine (broadcastTo_apply _ broadcasts_S1x128_S5000x128 (ix2 r q) (ix2 0 q) ?_).trans ?_
  · intro a; match a with | ⟨0, _⟩ => rfl | ⟨1, _⟩ => rfl
  refine (shapeCast_apply _ shapeCasts_S128_S1x128 (ix2 0 q) (ix1 q) ?_).trans ?_
  · rw [Shape.rowMajor_val_one, Shape.rowMajor_val_two]; show q.val = 0 * 128 + q.val; omega
  exact congrFun (shapeCast_self m _) _

/-- The lane sum of a block's squares: at lane `q`, the sum over the 5000 rows. -/
theorem lane_sum_sq10 (d : FVec Ideal S5000x128 .f32) (q : Fin 128) :
    multiReduction (F := Ideal) .add [0] S128 (mulf d d) 0x00000000#32 reduces_S5000x128_S128 (.inl rfl) rfl (ix1 q)
      = ∑ r : Fin 5000, d (ix2 r q) * d (ix2 r q) := by
  refine (Ideal.multiReduction_add_single _ 0x00000000#32 reduces_S5000x128_S128 (.inl rfl) rfl (ix1 q)).trans ?_
  refine Finset.sum_congr rfl fun r _ => ?_
  refine (mulf_apply _ _ _).trans ?_
  have hi : reduces_S5000x128_S128.lift (ix1 q) r = ix2 (r : Fin 5000) q := by
    funext a; match a with | ⟨0, _⟩ => rfl | ⟨1, _⟩ => rfl
  exact congrArg₂ (· * ·) (congrArg d hi) (congrArg d hi)

/-- One step at lane `q`: the accumulator's lane plus the sum over the block's 5000 rows of the squared deviation. -/
theorem k10_pay2_apply (x : Vec Ideal S5000x128 .f32) (m : Vec Ideal S128 .f32) (xo : Vec Ideal S1x128 .f32) (q : Fin 128) :
    k10_pay2 (F := Ideal) x m xo (ix2 0 q)
      = xo (ix2 0 q) + ∑ r : Fin 5000, (x (ix2 r q) - m (ix1 q)) * (x (ix2 r q) - m (ix1 q)) := by
  unfold k10_pay2
  dsimp only
  refine (addf_apply _ _ _).trans ?_
  refine congrArg₂ (· + ·) (congrFun (shapeCast_self xo _) _) ?_
  refine (shapeCast_apply _ shapeCasts_S128_S1x128 (ix2 0 q) (ix1 q) ?_).trans ?_
  · rw [Shape.rowMajor_val_one, Shape.rowMajor_val_two]; show q.val = 0 * 128 + q.val; omega
  refine (lane_sum_sq10 _ q).trans ?_
  refine Finset.sum_congr rfl fun r _ => ?_
  exact congrArg₂ (· * ·) (sqdev10_apply x m r q) (sqdev10_apply x m r q)

section Value
variable (V : (c : Dev nD) → (b : Ref sig .tc) → Buf (Elt Ideal) ((c : Thread nD τ).loc b))

/-- Case A at lane `q`: the accumulator is cleared, then the block's squared deviations are added. -/
theorem stepA10 (c : Dev nD) (i : grid10.Coords) (a1 : Memref sig .tc .vmem S5000x128 .f32) (h1 : a1.IsWhole)
    (a2 : Memref sig .tc .vmem S128 .f32) (h2 : a2.IsWhole) (a3 : Memref sig .tc .vmem S1x128 .f32) (h3 : a3.IsWhole)
    (hc : cond10_0 i) (x : Vec Ideal S5000x128 .f32) (m : Vec Ideal S128 .f32) (q : Fin 128) :
    out10_A_2 (F := Ideal) c i a1 h1 a2 h2 a3 h3 hc x m (ix2 0 q)
      = ∑ r : Fin 5000, (x (ix2 r q) - m (ix1 q)) * (x (ix2 r q) - m (ix1 q)) := by
  refine (congrFun (out10_A (F := Ideal) c i a1 h1 a2 h2 a3 h3 hc x m) (ix2 0 q)).trans ?_
  refine (k10_pay2_apply x m (k10_pay1 (F := Ideal)) q).trans ?_
  rw [k10_pay1_apply, Ideal.ofBits_zero_f32, zero_add]

/-- Case B at lane `q`: the block's squared deviations are added to what the point before left. -/
theorem stepB10 (c : Dev nD) (i : grid10.Coords) (a1 : Memref sig .tc .vmem S5000x128 .f32) (h1 : a1.IsWhole)
    (a2 : Memref sig .tc .vmem S128 .f32) (h2 : a2.IsWhole) (a3 : Memref sig .tc .vmem S1x128 .f32) (h3 : a3.IsWhole)
    (hc : ¬cond10_0 i) (x : Vec Ideal S5000x128 .f32) (m : Vec Ideal S128 .f32) (xo : Vec Ideal S1x128 .f32) (q : Fin 128) :
    out10_B_2 (F := Ideal) c i a1 h1 a2 h2 a3 h3 hc x m xo (ix2 0 q)
      = xo (ix2 0 q) + ∑ r : Fin 5000, (x (ix2 r q) - m (ix1 q)) * (x (ix2 r q) - m (ix1 q)) :=
  (congrFun (out10_B (F := Ideal) c i a1 h1 a2 h2 a3 h3 hc x m xo) (ix2 0 q)).trans (k10_pay2_apply x m xo q)

/-- The operand array as the region finds it: 50000 rows of 128 lanes. -/
abbrev arr10 (c : Dev nD) : Vec Ideal S50000x128 .f32 := V c (Pipeline.arrRef spec10 0)
/-- The [128] operand as the region finds it. -/
abbrev mean10 (c : Dev nD) : Vec Ideal S128 .f32 := V c (Pipeline.arrRef spec10 1)

/-- The row window's block at point `t`: 5000 rows of 128 lanes. -/
abbrev rows10 (c : Dev nD) (t : Fin cfg10.N) : Vec Ideal S5000x128 .f32 := iblk10 V c 0 t
/-- The [128] operand's block at point `t`. -/
abbrev lanes10 (c : Dev nD) (t : Fin cfg10.N) : Vec Ideal S128 .f32 := iblk10 V c 1 t

/-- The sum over block `t`'s 5000 rows, at lane `q`, of the squared deviation from the [128] operand's block
    (`0` past the grid). -/
def blockSq10 (c : Dev nD) (q : Fin 128) (t : ℕ) : EReal :=
  if h : t < cfg10.N then
    ∑ r : Fin 5000, (rows10 V c ⟨t, h⟩ (ix2 r q) - lanes10 V c ⟨t, h⟩ (ix1 q)) * (rows10 V c ⟨t, h⟩ (ix2 r q) - lanes10 V c ⟨t, h⟩ (ix1 q))
  else 0

/-- After point `n` the accumulator's lane `q` holds the sum of the blocks `0, …, n` at that lane. -/
theorem outsAt10_sq (c : Dev nD) (q : Fin 128) : ∀ (n : ℕ) (h : n < cfg10.N),
    outsAt10 (F := Ideal) V c n h (ix2 0 q) = ∑ t ∈ Finset.range (n + 1), blockSq10 V c q t
  | 0, h => by
    rw [outsAt10_A V c ⟨0, h⟩ rfl, Finset.sum_range_one]
    refine (stepA10 c (grid10.coords ⟨0, h⟩) (ms10_0 ⟨0, h⟩) (hs10_0 ⟨0, h⟩) (ms10_1 ⟨0, h⟩) (hs10_1 ⟨0, h⟩) (ms10_2 ⟨0, h⟩) (hs10_2 ⟨0, h⟩)
      ((hcond10_0 ⟨0, h⟩).mpr rfl) (rows10 V c ⟨0, h⟩) (lanes10 V c ⟨0, h⟩) q).trans ?_
    unfold blockSq10; rw [dif_pos h]
  | n + 1, h => by
    have hN : cfg10.N = 10 := N_10
    have hB : ¬(⟨n + 1, h⟩ : Fin cfg10.N).val % 10 = 0 := by dsimp only; omega
    rw [outsAt10_B V c ⟨n + 1, h⟩ hB, Finset.sum_range_succ _ (n + 1)]
    refine (stepB10 c (grid10.coords ⟨n + 1, h⟩) (ms10_0 ⟨n + 1, h⟩) (hs10_0 ⟨n + 1, h⟩) (ms10_1 ⟨n + 1, h⟩) (hs10_1 ⟨n + 1, h⟩)
      (ms10_2 ⟨n + 1, h⟩) (hs10_2 ⟨n + 1, h⟩)
      (fun hh => hB ((hcond10_0 ⟨n + 1, h⟩).mp hh)) (rows10 V c ⟨n + 1, h⟩) (lanes10 V c ⟨n + 1, h⟩)
      (outsAt10 V c n (Nat.lt_of_succ_lt h)) q).trans ?_
    rw [outsAt10_sq c q n (Nat.lt_of_succ_lt h)]
    unfold blockSq10; rw [dif_pos h]

/-- The row window's block index at point `t`: block `t` along the rows, block `0` along the lanes. -/
theorem idx10_0 : ∀ t : Fin cfg10.N, win10_0.index t (0 : Fin 2) = t.val ∧ win10_0.index t (1 : Fin 2) = 0 :=
  (by decide +kernel : ∀ t : Fin grid10.N, win10_0.index t (0 : Fin 2) = t.val ∧ win10_0.index t (1 : Fin 2) = 0)
/-- The [128] operand's window stays at block `0`. -/
theorem idx10_1 : ∀ t : Fin cfg10.N, win10_1.index t (0 : Fin 1) = 0 :=
  (by decide +kernel : ∀ t : Fin grid10.N, win10_1.index t (0 : Fin 1) = 0)

/-- Row `r` of block `t` is row `5000 t + r` of the array. -/
theorem iblk10_apply (c : Dev nD) (t : Fin cfg10.N) (r : Fin 5000) (q : Fin 128) (hr : t.val * 5000 + r.val < 50000) :
    rows10 V c t (ix2 r q) = arr10 V c (ix2 (⟨t.val * 5000 + r.val, hr⟩ : Fin 50000) q) := by
  unfold rows10 iblk10
  rw [View.read_apply]
  show V c (Pipeline.arrRef spec10 0) _ = V c (Pipeline.arrRef spec10 0) _
  refine congrArg (V c (Pipeline.arrRef spec10 0)) (funext fun a => Fin.ext ?_)
  match a with
  | ⟨0, _⟩ => show win10_0.index t 0 * 5000 + 1 * r.val = t.val * 5000 + r.val; rw [(idx10_0 t).1]; omega
  | ⟨1, _⟩ => show win10_0.index t 1 * 128 + 1 * q.val = q.val; rw [(idx10_0 t).2]; omega

/-- The [128] operand's block at every point is the operand itself. -/
theorem iblk10_mean (c : Dev nD) (t : Fin cfg10.N) (q : Fin 128) :
    lanes10 V c t (ix1 q) = mean10 V c (ix1 q) := by
  unfold lanes10 iblk10
  rw [View.read_apply]
  show V c (Pipeline.arrRef spec10 1) _ = V c (Pipeline.arrRef spec10 1) _
  refine congrArg (V c (Pipeline.arrRef spec10 1)) (funext fun a => Fin.ext ?_)
  match a with
  | ⟨0, _⟩ => show win10_1.index t 0 * 128 + 1 * q.val = q.val; rw [idx10_1 t]; omega

/-- What the accumulator holds after the last point, as contents of the result array (its one block is the array). -/
abbrev result10 (c : Dev nD) : Buf (Elt Ideal) ((c : Thread nD τ).loc main_v169) :=
  outsAt10 (F := Ideal) V c 9 (by rw [show cfg10.N = 10 from N_10]; decide)

/-- The one write-back, at the last point, writes it. -/
theorem flushed10_eq (c : Dev nD) (t : Fin cfg10.N) (hf : (cfg10.win 2).flush t = true) :
    (dat10 (F := Ideal) V c).flushed 2 t = ((cfg10.win 2).blk t).view.read (Elt Ideal) (result10 V c) := by
  have hN : cfg10.N = 10 := N_10
  have h9 : t.val = 9 := by have := (flush10_2 t).mp hf; have := t.isLt; omega
  obtain rfl : t = t10_9 := Fin.ext h9
  show (cfg10.win 2).cut (grid10.coords t10_9) ((dat10 (F := Ideal) V c).after 2 t10_9) = _
  rw [after10_2]
  have hz' : (fun a => win10_2.index t10_9 a * main_v169.ty.shape.size a) = fun _ => 0 := funext fun a => by fin_cases a <;> decide
  exact (Memref.read_access_unit_zero (Elt Ideal) main_v169 hz' (fun a => by rw [congrFun hz' a]; simp) (result10 V c)).symm

/-- So the result array ends holding what the accumulator holds after the last point. -/
theorem final10 (c : Dev nD) : (dat10 (F := Ideal) V c).arrAt 2 cfg10.N = result10 V c :=
  (dat10 (F := Ideal) V c).arrAt_eq_of_cover 2 (result10 V c) (flushed10_eq V c) fun i =>
    ⟨t10_9, (flush10_2 t10_9).mpr rfl, by
      show i ∈ ((View.whole main_v169).slice (win10_2.rect t10_9)).set
      rw [View.set_slice_whole, Rect.mem_set_unit]
      intro a
      have h0 : (i 0 : Nat) < 1 := (i 0).isLt
      have h1 : (i 1 : Nat) < 128 := (i 1).isLt
      match a with
      | ⟨0, _⟩ => show win10_2.index t10_9 0 * win10_2.size 0 ≤ (i 0 : Nat) ∧ (i 0 : Nat) < win10_2.index t10_9 0 * win10_2.size 0 + win10_2.xsize (grid10.coords t10_9) 0
                  rw [show win10_2.index t10_9 0 * win10_2.size 0 = 0 from by decide +kernel, show win10_2.xsize (grid10.coords t10_9) 0 = 1 from by decide +kernel]; omega
      | ⟨1, _⟩ => show win10_2.index t10_9 1 * win10_2.size 1 ≤ (i 1 : Nat) ∧ (i 1 : Nat) < win10_2.index t10_9 1 * win10_2.size 1 + win10_2.xsize (grid10.coords t10_9) 1
                  rw [show win10_2.index t10_9 1 * win10_2.size 1 = 0 from by decide +kernel, show win10_2.xsize (grid10.coords t10_9) 1 = 128 from by decide +kernel]; omega⟩

/-- The ten blocks' sums at lane `q` add up to the sum over all 50000 rows. -/
theorem sum_blockSq10 (c : Dev nD) (q : Fin 128) :
    ∑ t ∈ Finset.range 10, blockSq10 V c q t
      = ∑ r : Fin 50000, (arr10 V c (ix2 r q) - mean10 V c (ix1 q)) * (arr10 V c (ix2 r q) - mean10 V c (ix1 q)) := by
  have hN : cfg10.N = 10 := N_10
  rw [Finset.sum_range]
  refine Eq.trans ?_ (QLin.sum_blocks 10 5000 (fun i : Fin (10 * 5000) =>
    (arr10 V c (ix2 (i : Fin 50000) q) - mean10 V c (ix1 q)) * (arr10 V c (ix2 (i : Fin 50000) q) - mean10 V c (ix1 q)))).symm
  refine Finset.sum_congr rfl fun t _ => ?_
  unfold blockSq10
  rw [dif_pos (by omega : t.val < cfg10.N)]
  refine Finset.sum_congr rfl fun r _ => ?_
  have e0 := iblk10_apply V c ⟨t.val, by omega⟩ r q (QLin.block_lt (n := 10) (b := 5000) t r)
  have e1 := iblk10_mean V c ⟨t.val, by omega⟩ q
  rw [e0, e1]

/-- REGION 10: the result array at lane `q` is the sum over the operand's 50000 rows of the squared deviation from the
    [128] operand at that lane. -/
theorem sq10 (c : Dev nD) (q : Fin 128) :
    (dat10 (F := Ideal) V c).arrAt 2 cfg10.N (ix2 0 q)
      = ∑ r : Fin 50000, (arr10 V c (ix2 r q) - mean10 V c (ix1 q)) * (arr10 V c (ix2 r q) - mean10 V c (ix1 q)) := by
  refine (congrFun (final10 V c) (ix2 0 q)).trans ?_
  refine (outsAt10_sq V c q 9 (by rw [show cfg10.N = 10 from N_10]; decide)).trans ?_
  exact sum_blockSq10 V c q

end Value

end Cert.KernelIdeal.Val

end
-- ==== Proof.ValNorm11.lean ====
/-
  Region 11 (scale, shift, clamp at zero), read as an array: after the region, entry (r, q) of its output array is
  max (a (r, q) * scale q + shift q, 0) of its three input arrays as the region finds them.  The body's stored value is
  read at an entry of a block; each block of the grid is a row block of the arrays; the row blocks cover the output.
-/
import proofs.«133142_j1864015807124_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«133142_j1864015807124_2_alg».proof.Proof.ValSpecA

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The body's stored value at entry (r, q) of a block: the block's entry times the scale's entry q plus the shift's
    entry q, clamped below at zero (the two row vectors are broadcast over the rows; the casts between equal shapes
    and to a leading unit axis move no entry). -/
theorem pay11_apply (x0 : Vec Ideal S5000x128 .f32) (x1 x2 : Vec Ideal S128 .f32) (r : Fin 5000) (q : Fin 128) :
    k11_pay1 x0 x1 x2 (ix2 r q) = max (x0 (ix2 r q) * x1 (ix1 q) + x2 (ix1 q)) 0 := by
  unfold k11_pay1
  rw [maximumf_apply, addf_apply, mulf_apply, broadcast_apply, shapeCast_self, shapeCast_self, shapeCast_self,
    broadcastTo_1b_ab_apply, broadcastTo_1b_ab_apply, shapeCast_a_1a_apply, shapeCast_a_1a_apply]
  show max _ (Ideal.ofBits .f32 0x00000000#32) = _
  rw [Ideal.ofBits_zero_f32]

/-- The index maps over the grid: point t reads and writes row block t, column block 0; the two row vectors are
    whole at every point. -/
theorem idx_facts11 : ∀ t : Fin cfg11.N, win11_0.index t (0 : Fin 2) = t.val ∧ win11_0.index t (1 : Fin 2) = 0
    ∧ win11_1.index t (0 : Fin 1) = 0 ∧ win11_2.index t (0 : Fin 1) = 0
    ∧ win11_3.index t (0 : Fin 2) = t.val ∧ win11_3.index t (1 : Fin 2) = 0 :=
  (by decide +kernel : ∀ t : Fin grid11.N, _)

/-- Entry (r, q) of the input's block at point t is entry (5000 t + r, q) of the input array. -/
theorem emb11_0 (t : Fin cfg11.N) (r : Fin 5000) (q : Fin 128) (hb : t.val * 5000 + r.val < 50000) :
    ((cfg11.win 0).blk t).view.emb (ix2 r q) = ix2 (⟨t.val * 5000 + r.val, hb⟩ : Fin 50000) q := by
  obtain ⟨e0, e1, e2, e3, e4, e5⟩ := idx_facts11 t
  funext a; apply Fin.ext
  match a with
  | ⟨0, _⟩ => show win11_0.index t (0 : Fin 2) * 5000 + 1 * r.val = t.val * 5000 + r.val; omega
  | ⟨1, _⟩ => show win11_0.index t (1 : Fin 2) * 128 + 1 * q.val = q.val; omega

/-- The scale's block at every point is the whole vector. -/
theorem emb11_1 (t : Fin cfg11.N) (q : Fin 128) : ((cfg11.win 1).blk t).view.emb (ix1 q) = ix1 q := by
  obtain ⟨e0, e1, e2, e3, e4, e5⟩ := idx_facts11 t
  funext a; apply Fin.ext
  match a with
  | ⟨0, _⟩ => show win11_1.index t (0 : Fin 1) * 128 + 1 * q.val = q.val; omega

/-- The shift's block at every point is the whole vector. -/
theorem emb11_2 (t : Fin cfg11.N) (q : Fin 128) : ((cfg11.win 2).blk t).view.emb (ix1 q) = ix1 q := by
  obtain ⟨e0, e1, e2, e3, e4, e5⟩ := idx_facts11 t
  funext a; apply Fin.ext
  match a with
  | ⟨0, _⟩ => show win11_2.index t (0 : Fin 1) * 128 + 1 * q.val = q.val; omega

/-- Entry (r, q) of the output's block at point t is entry (5000 t + r, q) of the output array. -/
theorem emb11_3 (t : Fin cfg11.N) (r : Fin 5000) (q : Fin 128) (hb : t.val * 5000 + r.val < 50000) :
    ((cfg11.win 3).blk t).view.emb (ix2 r q) = ix2 (⟨t.val * 5000 + r.val, hb⟩ : Fin 50000) q := by
  obtain ⟨e0, e1, e2, e3, e4, e5⟩ := idx_facts11 t
  funext a; apply Fin.ext
  match a with
  | ⟨0, _⟩ => show win11_3.index t (0 : Fin 2) * 5000 + 1 * r.val = t.val * 5000 + r.val; omega
  | ⟨1, _⟩ => show win11_3.index t (1 : Fin 2) * 128 + 1 * q.val = q.val; omega

/-- The input's block at point t, read at (r, q). -/
theorem iblk11_0_apply (c : Dev nD) (a : S50000x128.Idx → EReal) (h0 : V c (Pipeline.arrRef spec11 0) = a)
    (t : Fin cfg11.N) (r : Fin 5000) (q : Fin 128) (hb : t.val * 5000 + r.val < 50000) :
    iblk11 V c 0 t (ix2 r q) = a (ix2 (⟨t.val * 5000 + r.val, hb⟩ : Fin 50000) q) := by
  subst h0
  show V c (Pipeline.arrRef spec11 0) (((cfg11.win 0).blk t).view.emb (ix2 r q)) = _
  rw [emb11_0 t r q hb]

/-- The scale's block at point t, read at q. -/
theorem iblk11_1_apply (c : Dev nD) (scale : S128.Idx → EReal) (h1 : V c (Pipeline.arrRef spec11 1) = scale)
    (t : Fin cfg11.N) (q : Fin 128) : iblk11 V c 1 t (ix1 q) = scale (ix1 q) := by
  subst h1
  show V c (Pipeline.arrRef spec11 1) (((cfg11.win 1).blk t).view.emb (ix1 q)) = _
  rw [emb11_1 t q]

/-- The shift's block at point t, read at q. -/
theorem iblk11_2_apply (c : Dev nD) (shift : S128.Idx → EReal) (h2 : V c (Pipeline.arrRef spec11 2) = shift)
    (t : Fin cfg11.N) (q : Fin 128) : iblk11 V c 2 t (ix1 q) = shift (ix1 q) := by
  subst h2
  show V c (Pipeline.arrRef spec11 2) (((cfg11.win 2).blk t).view.emb (ix1 q)) = _
  rw [emb11_2 t q]

/-- What point t writes back is block t of the scaled, shifted and clamped array. -/
theorem flushed11_eq (c : Dev nD) (a : S50000x128.Idx → EReal) (scale shift : S128.Idx → EReal)
    (h0 : V c (Pipeline.arrRef spec11 0) = a) (h1 : V c (Pipeline.arrRef spec11 1) = scale)
    (h2 : V c (Pipeline.arrRef spec11 2) = shift) (t : Fin cfg11.N) :
    (dat11 (F := Ideal) V c).flushed 3 t = ((cfg11.win 3).blk t).view.read (Elt Ideal) (normRelu a scale shift) := by
  show (cfg11.win 3).cut (grid11.coords t) ((dat11 (F := Ideal) V c).after 3 t) = _
  rw [after11_3]
  unfold out11_3
  rw [View.canon_unit_zero hz2]
  simp only [View.ld_unit_zero (S := S5000x128) hz2, View.ld_unit_zero (S := S128) hz1]
  funext j
  obtain ⟨r, q, rfl⟩ : ∃ (r : Fin 5000) (q : Fin 128), j = ix2 r q := ⟨j 0, j 1, eq_ix2 j⟩
  have hN : cfg11.N = 10 := N_11
  have ht : t.val < 10 := hN ▸ t.isLt
  have hb : t.val * 5000 + r.val < 50000 := by omega
  show k11_pay1 (iblk11 V c 0 t) (iblk11 V c 1 t) (iblk11 V c 2 t) (ix2 r q)
    = normRelu a scale shift (((cfg11.win 3).blk t).view.emb (ix2 r q))
  refine (pay11_apply (iblk11 V c 0 t) (iblk11 V c 1 t) (iblk11 V c 2 t) r q).trans ?_
  rw [emb11_3 t r q hb, iblk11_0_apply V c a h0 t r q hb, iblk11_1_apply V c scale h1 t q, iblk11_2_apply V c shift h2 t q]
  rfl

/-- An index of the array is in point t's block iff each coordinate is in the block's range on its axis. -/
theorem mem_blk11 (t : Fin cfg11.N) (i : S50000x128.Idx) :
    i ∈ ((cfg11.win 3).blk t).view.set ↔ ∀ a : Fin 2, win11_3.index t a * S5000x128.size a ≤ (i a).val ∧ (i a).val < win11_3.index t a * S5000x128.size a + S5000x128.size a := by
  show i ∈ ((View.whole main_v186).slice (win11_3.rect t)).set ↔ _
  rw [View.set_slice_whole, Rect.mem_set_unit]
  exact Iff.rfl

/-- Every entry of the array is in some point's block: row r is in the block of point r / 5000. -/
theorem cover11 (i : S50000x128.Idx) :
    ∃ t : Fin cfg11.N, (cfg11.win 3).flush t = true ∧ i ∈ ((cfg11.win 3).blk t).view.set := by
  have hN : cfg11.N = 10 := N_11
  have hi0 : (i 0).val < 50000 := (i 0).isLt
  have hi1 : (i 1).val < 128 := (i 1).isLt
  refine ⟨⟨(i 0).val / 5000, by rw [hN]; omega⟩, flush11_3 _, ?_⟩
  rw [mem_blk11]
  obtain ⟨e0, e1, e2, e3, e4, e5⟩ := idx_facts11 ⟨(i 0).val / 5000, by rw [hN]; omega⟩
  intro a
  match a with
  | ⟨0, _⟩ =>
    show win11_3.index _ (0 : Fin 2) * 5000 ≤ (i 0).val ∧ (i 0).val < win11_3.index _ (0 : Fin 2) * 5000 + 5000
    rw [e4]; show (i 0).val / 5000 * 5000 ≤ (i 0).val ∧ (i 0).val < (i 0).val / 5000 * 5000 + 5000; omega
  | ⟨1, _⟩ =>
    show win11_3.index _ (1 : Fin 2) * 128 ≤ (i 1).val ∧ (i 1).val < win11_3.index _ (1 : Fin 2) * 128 + 128
    rw [e5]; omega

/-- The array after the region: the input array scaled, shifted and clamped at zero, entry by entry. -/
theorem nrm11_fun (c : Dev nD) (a : S50000x128.Idx → EReal) (scale shift : S128.Idx → EReal)
    (h0 : V c (Pipeline.arrRef spec11 0) = a) (h1 : V c (Pipeline.arrRef spec11 1) = scale)
    (h2 : V c (Pipeline.arrRef spec11 2) = shift) :
    (dat11 (F := Ideal) V c).arrAt 3 cfg11.N = normRelu a scale shift :=
  (dat11 (F := Ideal) V c).arrAt_eq_of_cover 3 (normRelu a scale shift)
    (fun t _ => flushed11_eq V c a scale shift h0 h1 h2 t) cover11

/-- The same at an entry (r, q). -/
theorem nrm11 (c : Dev nD) (a out : S50000x128.Idx → EReal) (scale shift : S128.Idx → EReal)
    (h0 : V c (Pipeline.arrRef spec11 0) = a) (h1 : V c (Pipeline.arrRef spec11 1) = scale)
    (h2 : V c (Pipeline.arrRef spec11 2) = shift) (hout : (dat11 (F := Ideal) V c).arrAt 3 cfg11.N = out)
    (r : Fin 50000) (q : Fin 128) :
    out (ix2 r q) = max (a (ix2 r q) * scale (ix1 q) + shift (ix1 q)) 0 := by
  rw [← hout, nrm11_fun V c a scale shift h0 h1 h2]
  rfl

end Cert.KernelIdeal.Val
end
-- ==== Proof.KLayer2.lean ====
import proofs.«133142_j1864015807124_2_alg».proof.Proof.Gen.KernelIdeal.Frame
import proofs.«133142_j1864015807124_2_alg».proof.Proof.Stages
import proofs.«133142_j1864015807124_2_alg».proof.Proof.BnSpec
import proofs.«133142_j1864015807124_2_alg».proof.Proof.LinSpec
import proofs.«133142_j1864015807124_2_alg».proof.Proof.LibEReal
import proofs.«133142_j1864015807124_2_alg».proof.Proof.KGlueDefs
import proofs.«133142_j1864015807124_2_alg».proof.Proof.KGlueBn
import proofs.«133142_j1864015807124_2_alg».proof.Proof.KRead0
import proofs.«133142_j1864015807124_2_alg».proof.Proof.KReadL2
import proofs.«133142_j1864015807124_2_alg».proof.Proof.KCarry
import proofs.«133142_j1864015807124_2_alg».proof.Proof.ValLinear8
import proofs.«133142_j1864015807124_2_alg».proof.Proof.ValSum9
import proofs.«133142_j1864015807124_2_alg».proof.Proof.ValSq10
import proofs.«133142_j1864015807124_2_alg».proof.Proof.ValNorm11

/-!
# Layer 2 of the kernel's run, as a function of its input

Through the layer's four regions and the host stretches between them: the linear region leaves `h · w + b` in both
of its copies; the aggregate of that is what the three normalisation regions read; the lane sums give the column
means, the lane sums of squared deviations the column variances, and the last region applies scale and shift and
clamps. Entry by entry the layer's output is the batch normalisation of the aggregate (the two-pass arrangement folded
into scale and shift equals the direct one for real scale and shift rows).
-/

set_option maxRecDepth 16384

noncomputable section

namespace Cert.KernelIdeal.Layer

open Idealize.ShloMosaic Idealize.ShloMosaic.TcCoe Idealize.ShloMosaic.Tactic Idealize.ShloMosaic.ValueIdx
open Cert.KernelIdeal Cert.KernelIdeal.Gen Cert.Stages Cert.KernelIdeal.Glue Cert.KernelIdeal.Read Cert.KernelIdeal.Keep Cert.KernelIdeal.Val

variable (m : (ℓ : Loc nD τ sig) → Buf (Elt Ideal) ℓ) (ρ : Dev nD → PrngReg) (c : Dev nD)

/-- The linear region leaves `h · w + b` in its wide copy. -/
theorem lin2_wide (X : FVec Ideal S100000x64 .f32) (hX : W17 m ρ c (Proc.devRef .tc main_v135) = X) : W18 m ρ c (Proc.devRef .tc main_v136_0) = (linOf X (W0 m ρ c (Proc.devRef .tc main_arg12)) (W0 m ρ c (Proc.devRef .tc main_arg13))) :=
  (W18_arr m ρ c 3).trans ((lin8_f32_fun (V17 m ρ) c _ _ _ hX (keep_arg12_0_17 m ρ c) (keep_arg13_0_17 m ρ c)).trans (linear_eq_linOf _ _ _))

/-- … and the same values in its narrow copy (a change of format is the identity on the extended reals). -/
theorem lin2_narrow (X : FVec Ideal S100000x64 .f32) (hX : W17 m ρ c (Proc.devRef .tc main_v135) = X) : W18 m ρ c (Proc.devRef .tc main_v136_1) = (linOf X (W0 m ρ c (Proc.devRef .tc main_arg12)) (W0 m ρ c (Proc.devRef .tc main_arg13))) :=
  (W18_arr m ρ c 4).trans ((lin8_bf16_fun (V17 m ρ) c _ _ _ hX (keep_arg12_0_17 m ρ c) (keep_arg13_0_17 m ρ c)).trans (linear_eq_linOf _ _ _))

/-- The layer's aggregate as the normalisation regions find it. -/
abbrev AGG2 : FVec Ideal S100000x64 .f32 :=
  aggFrom (gatheredK2 (W18 m ρ c (Proc.devRef .tc main_v136_1)) (W18 m ρ c (Proc.devRef .tc main_v1))) (W18 m ρ c (Proc.devRef .tc main_v136_0))
    (W18 m ρ c (Proc.devRef .tc main_v30)) (W18 m ρ c (Proc.devRef .tc main_v31)) (W18 m ρ c (Proc.devRef .tc main_v3))

theorem agg2_2 : W19 m ρ c (Proc.devRef .tc main_v160) = view2 (AGG2 m ρ c) := h2_agg (W18 m ρ c)

/-- The aggregate is the shared chain of the layer's linear output, the edge coefficients and the endpoints. -/
theorem AGG2_eq (X : FVec Ideal S100000x64 .f32) (hX : W17 m ρ c (Proc.devRef .tc main_v135) = X) : AGG2 m ρ c = aggOf (linOf X (W0 m ρ c (Proc.devRef .tc main_arg12)) (W0 m ρ c (Proc.devRef .tc main_arg13))) (normOf (srcOf (W0 m ρ c (Proc.devRef .tc main_arg1))) (dstOf (W0 m ρ c (Proc.devRef .tc main_arg1))) (W0 m ρ c (Proc.devRef .tc main_arg2))) (selfOf (dstOf (W0 m ρ c (Proc.devRef .tc main_arg1))) (W0 m ρ c (Proc.devRef .tc main_arg2))) (srcOf (W0 m ρ c (Proc.devRef .tc main_arg1))) (dstOf (W0 m ρ c (Proc.devRef .tc main_arg1))) := by
  unfold AGG2 gatheredK2
  rw [lin2_wide m ρ c X hX , lin2_narrow m ρ c X hX , keep_v1_1_18 m ρ c, keep_v3_1_18 m ρ c, keep_v30_1_18 m ρ c, keep_v31_1_18 m ρ c,
    (show W1 m ρ c (Proc.devRef .tc main_v1) = (srcOf (W0 m ρ c (Proc.devRef .tc main_arg1))) from h0_src (W0 m ρ c)),
    (show W1 m ρ c (Proc.devRef .tc main_v3) = (dstOf (W0 m ρ c (Proc.devRef .tc main_arg1))) from h0_dst (W0 m ρ c)),
    (show W1 m ρ c (Proc.devRef .tc main_v30) = (normOf (srcOf (W0 m ρ c (Proc.devRef .tc main_arg1))) (dstOf (W0 m ρ c (Proc.devRef .tc main_arg1))) (W0 m ρ c (Proc.devRef .tc main_arg2))) from h0_norm (W0 m ρ c)),
    (show W1 m ρ c (Proc.devRef .tc main_v31) = (selfOf (dstOf (W0 m ρ c (Proc.devRef .tc main_arg1))) (W0 m ρ c (Proc.devRef .tc main_arg2))) from h0_self (W0 m ρ c))]
  exact aggFrom_gathered _ _ _ _ _ _

theorem hs2 (q : Fin 128) : (W20 m ρ c (Proc.devRef .tc main_v161) : FVec Ideal S1x128 .f32) (ix2 (0 : Fin 1) q)
    = ∑ r : Fin 50000, view2 (AGG2 m ρ c) (ix2 r q) := by
  have h := sum9 (V19 m ρ) c q
  rw [← agg2_2 m ρ c]
  exact ((congrFun (W20_arr m ρ c 1) (ix2 0 q)).trans h)

theorem hsq2 (q : Fin 128) : (W22 m ρ c (Proc.devRef .tc main_v169) : FVec Ideal S1x128 .f32) (ix2 (0 : Fin 1) q)
    = ∑ r : Fin 50000, (view2 (AGG2 m ρ c) (ix2 r q) - tile2 (meanK (W20 m ρ c (Proc.devRef .tc main_v161))) (ix1 q))
        * (view2 (AGG2 m ρ c) (ix2 r q) - tile2 (meanK (W20 m ρ c (Proc.devRef .tc main_v161))) (ix1 q)) := by
  have h := sq10 (V21 m ρ) c q
  have e1 : (V21 m ρ c (Pipeline.arrRef spec10 0) : Vec Ideal S50000x128 .f32) = view2 (AGG2 m ρ c) :=
    (keep_v160_19_21 m ρ c).trans (agg2_2 m ρ c)
  have e2 : (V21 m ρ c (Pipeline.arrRef spec10 1) : Vec Ideal S128 .f32) = tile2 (meanK (W20 m ρ c (Proc.devRef .tc main_v161))) :=
    h2_meanT (W20 m ρ c)
  rw [← e1, ← e2]
  exact ((congrFun (W22_arr m ρ c 2) (ix2 0 q)).trans h)

theorem ho2 (r : Fin 50000) (q : Fin 128) : (W24 m ρ c (Proc.devRef .tc main_v186) : FVec Ideal S50000x128 .f32) (ix2 r q)
    = max (view2 (AGG2 m ρ c) (ix2 r q) * tile2 (scaleK (W22 m ρ c (Proc.devRef .tc main_v169)) (W0 m ρ c (Proc.devRef .tc main_arg14))) (ix1 q)
        + tile2 (shiftK (W20 m ρ c (Proc.devRef .tc main_v161)) (W22 m ρ c (Proc.devRef .tc main_v169)) (W0 m ρ c (Proc.devRef .tc main_arg14)) (W0 m ρ c (Proc.devRef .tc main_arg15))) (ix1 q)) 0 := by
  have e0 : (V23 m ρ c (Pipeline.arrRef spec11 0) : S50000x128.Idx → EReal) = view2 (AGG2 m ρ c) :=
    (keep_v160_19_23 m ρ c).trans (agg2_2 m ρ c)
  have e1 : (V23 m ρ c (Pipeline.arrRef spec11 1) : S128.Idx → EReal)
      = tile2 (scaleK (W22 m ρ c (Proc.devRef .tc main_v169)) (W0 m ρ c (Proc.devRef .tc main_arg14))) := by
    refine (h2_scaleT (W22 m ρ c)).trans ?_
    rw [keep_arg14_0_22 m ρ c]
  have e2 : (V23 m ρ c (Pipeline.arrRef spec11 2) : S128.Idx → EReal)
      = tile2 (shiftK (W20 m ρ c (Proc.devRef .tc main_v161)) (W22 m ρ c (Proc.devRef .tc main_v169)) (W0 m ρ c (Proc.devRef .tc main_arg14)) (W0 m ρ c (Proc.devRef .tc main_arg15))) := by
    refine (h2_shiftT (W22 m ρ c)).trans ?_
    rw [keep_arg14_0_22 m ρ c, keep_arg15_0_22 m ρ c, keep_v167_21_22 m ρ c,
      (show W21 m ρ c (Proc.devRef .tc main_v167) = meanK (W20 m ρ c (Proc.devRef .tc main_v161)) from h2_mean (W20 m ρ c))]
    rfl
  exact nrm11 (V23 m ρ) c _ _ _ _ e0 e1 e2 (W24_arr m ρ c 3).symm r q

/-- The layer: its output rows are the batch normalisation (and clamp) of the aggregate of `h · w + b`. -/
theorem layer2 (X : FVec Ideal S100000x64 .f32) (hX : W17 m ρ c (Proc.devRef .tc main_v135) = X) (hg : ∀ j : Fin 64, Cert.Spec.IsReal ((W0 m ρ c (Proc.devRef .tc main_arg14) : FVec Ideal S64 .f32) (ix1 j)))
    (hbe : ∀ j : Fin 64, Cert.Spec.IsReal ((W0 m ρ c (Proc.devRef .tc main_arg15) : FVec Ideal S64 .f32) (ix1 j))) :
    unview2 (W24 m ρ c (Proc.devRef .tc main_v186))
      = bnSpec (aggOf (linOf X (W0 m ρ c (Proc.devRef .tc main_arg12)) (W0 m ρ c (Proc.devRef .tc main_arg13))) (normOf (srcOf (W0 m ρ c (Proc.devRef .tc main_arg1))) (dstOf (W0 m ρ c (Proc.devRef .tc main_arg1))) (W0 m ρ c (Proc.devRef .tc main_arg2))) (selfOf (dstOf (W0 m ρ c (Proc.devRef .tc main_arg1))) (W0 m ρ c (Proc.devRef .tc main_arg2))) (srcOf (W0 m ρ c (Proc.devRef .tc main_arg1))) (dstOf (W0 m ρ c (Proc.devRef .tc main_arg1)))) (W0 m ρ c (Proc.devRef .tc main_arg14)) (W0 m ρ c (Proc.devRef .tc main_arg15)) := by
  rw [← AGG2_eq m ρ c X hX ]
  funext idx
  obtain ⟨i, j, rfl⟩ : ∃ (i : Fin 100000) (j : Fin 64), idx = ix2 i j := ⟨idx 0, idx 1, eq_ix2 idx⟩
  exact bnK_apply (AGG2 m ρ c) _ _ _ _ hg hbe _ (hs2 m ρ c) (hsq2 m ρ c) (ho2 m ρ c) i j

end Cert.KernelIdeal.Layer

end
-- ==== Proof.OutSpec.lean ====
import proofs.«133142_j1864015807124_2_alg».proof.Proof.Stages
import proofs.«133142_j1864015807124_2_alg».proof.Proof.BnSpec

/-!
# The whole network as one function of the arguments

Three layers — linear map, aggregation over the edges with the symmetric normalisation, batch normalisation and
clamp — then mean pooling per graph and the output projection.
-/

noncomputable section

namespace Cert.Stages

open Idealize.ShloMosaic Cert.ReferenceIdeal

/-- The result as a function of the eighteen argument arrays. -/
def gcnOut (x : FVec Ideal S100000x100 .f32) (ei : IVec S2x1600000 32) (ew : FVec Ideal S1600000 .f32) (batch : IVec S100000 32)
    (w0 : FVec Ideal S100x64 .f32) (b0 g0 be0 : FVec Ideal S64 .f32)
    (w1 : FVec Ideal S64x64 .f32) (b1 g1 be1 : FVec Ideal S64 .f32)
    (w2 : FVec Ideal S64x64 .f32) (b2 g2 be2 : FVec Ideal S64 .f32)
    (ow : FVec Ideal S64x1 .f32) (ob : FVec Ideal S1 .f32) : FVec Ideal S512x1 .f32 :=
  poolOf
    (bnSpec (aggOf (linOf
      (bnSpec (aggOf (linOf
        (bnSpec (aggOf (lin0Of x w0 b0) (normOf (srcOf ei) (dstOf ei) ew) (selfOf (dstOf ei) ew) (srcOf ei) (dstOf ei)) g0 be0)
        w1 b1) (normOf (srcOf ei) (dstOf ei) ew) (selfOf (dstOf ei) ew) (srcOf ei) (dstOf ei)) g1 be1)
      w2 b2) (normOf (srcOf ei) (dstOf ei) ew) (selfOf (dstOf ei) ew) (srcOf ei) (dstOf ei)) g2 be2)
    batch ow ob

end Cert.Stages

end
-- ==== Proof.PreReal.lean ====
import proofs.«133142_j1864015807124_2_alg».proof.Pre_finite_inputs
import proofs.«133142_j1864015807124_2_alg».proof.Proof.LibEReal
import Idealize.ShloMosaic.Lib.ReduceAll
import Idealize.ShloMosaic.Lib.ValueIdx
import Idealize.ShloMosaic.PureOps.Ideal.Laws

/-
  From the precondition to real numbers. The precondition says, of each float argument array, that every entry's
  absolute value is below `+∞`, the sixteen statements joined by `and`. Over the extended reals `|x| < +∞` holds
  exactly when `x` is a real number (`|−∞| = |+∞| = +∞`). Read here for the six rows of 64 entries that scale and shift
  the three normalizations: every entry of each is a real.
-/

noncomputable section

namespace Cert.PreReal

open Idealize.ShloMosaic Idealize.ShloMosaic.ValueIdx
open Cert.Pre_finite_inputs Cert.Pre_finite_inputs.Facts
open Cert.Spec (IsReal)

/-- The scalar shape has one index. -/
instance : Subsingleton S_.Idx := ⟨fun a b => funext fun d => d.elim0⟩

/-- The word `0x7F800000` is `+∞`. -/
theorem inf_f32 : Ideal.ofBits .f32 0x7F800000#32 = (⊤ : EReal) := by simp [Ideal.ofBits, Ideal.ieee]

/-- An extended real whose absolute value `max x (−x)` compares below `+∞` is a real. -/
theorem isReal_of_abs_lt (x : EReal)
    (h : Ideal.cmp .olt (max x (-x)) (Ideal.ofBits .f32 0x7F800000#32) = 1#1) : IsReal x := by
  rw [inf_f32] at h
  have h2 : BitVec.ofBool (decide (max x (-x) < (⊤ : EReal))) = 1#1 := h
  have h' : max x (-x) < (⊤ : EReal) := by
    by_contra hn
    rw [decide_eq_false hn] at h2
    exact absurd h2 (by decide)
  induction x using EReal.rec with
  | bot => exact absurd h' (by simp)
  | coe a => exact ⟨a, rfl⟩
  | top => exact absurd h' (by simp)

/-- One conjunct of the precondition: if the `and` over all entries of "`|a| < +∞`" is `1`, every entry of `a` is a real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ix0 = 1#1) (i : s.Idx) : IsReal (a i) :=
  isReal_of_abs_lt (a i) (Host.reduce_andi_all _ _ hr hu ix0 e i)

/-- An `and` of two one-bit arrays that reads `1` at an index reads `1` in both. -/
theorem andi_one {s : Shape} (x y : IVec s 1) (i : s.Idx) (h : andi x y i = 1#1) : x i = 1#1 ∧ y i = 1#1 :=
  IntOp.andi_eq_one.1 h

variable [Facts]

/-- The precondition gives: every entry of the arguments 6, 7, 10, 11, 14, 15 (rows of 64) is a real. -/
theorem rows_real
    (a0 : FVec Ideal S100000x100 .f32) (a1 : IVec S2x1600000 32) (a2 : FVec Ideal S1600000 .f32) (a3 : IVec S100000 32)
    (a4 : FVec Ideal S100x64 .f32) (a5 : FVec Ideal S64 .f32) (a6 : FVec Ideal S64 .f32) (a7 : FVec Ideal S64 .f32)
    (a8 : FVec Ideal S64x64 .f32) (a9 : FVec Ideal S64 .f32) (a10 : FVec Ideal S64 .f32) (a11 : FVec Ideal S64 .f32)
    (a12 : FVec Ideal S64x64 .f32) (a13 : FVec Ideal S64 .f32) (a14 : FVec Ideal S64 .f32) (a15 : FVec Ideal S64 .f32)
    (a16 : FVec Ideal S64x1 .f32) (a17 : FVec Ideal S1 .f32)
    (h : fn (F := Ideal) a0 a1 a2 a3 a4 a5 a6 a7 a8 a9 a10 a11 a12 a13 a14 a15 a16 a17 = (fun _ => 1#1)) :
    (∀ j : Fin 64, IsReal (a6 (ix1 j))) ∧ (∀ j : Fin 64, IsReal (a7 (ix1 j)))
      ∧ (∀ j : Fin 64, IsReal (a10 (ix1 j))) ∧ (∀ j : Fin 64, IsReal (a11 (ix1 j)))
      ∧ (∀ j : Fin 64, IsReal (a14 (ix1 j))) ∧ (∀ j : Fin 64, IsReal (a15 (ix1 j))) := by
  have h0 := congrFun h ix0
  dsimp only [fn, fn_part1, fn_part2, fn_part3, fn_part4] at h0
  obtain ⟨h73, h77⟩ := andi_one _ _ _ h0
  obtain ⟨h68, h72⟩ := andi_one _ _ _ h73
  obtain ⟨h63, h67⟩ := andi_one _ _ _ h68
  obtain ⟨h58, h62⟩ := andi_one _ _ _ h63
  obtain ⟨h53, h57⟩ := andi_one _ _ _ h58
  obtain ⟨h48, h52⟩ := andi_one _ _ _ h53
  obtain ⟨h43, h47⟩ := andi_one _ _ _ h48
  obtain ⟨h38, h42⟩ := andi_one _ _ _ h43
  obtain ⟨h33, h37⟩ := andi_one _ _ _ h38
  obtain ⟨h28, h32⟩ := andi_one _ _ _ h33
  obtain ⟨h23, h27⟩ := andi_one _ _ _ h28
  obtain ⟨h18, h22⟩ := andi_one _ _ _ h23
  exact ⟨fun j => all_real a6 bcast_S_S64 reducesTo_S64_S_d0 h_S_ h22 (ix1 j),
    fun j => all_real a7 bcast_S_S64 reducesTo_S64_S_d0 h_S_ h27 (ix1 j),
    fun j => all_real a10 bcast_S_S64 reducesTo_S64_S_d0 h_S_ h42 (ix1 j),
    fun j => all_real a11 bcast_S_S64 reducesTo_S64_S_d0 h_S_ h47 (ix1 j),
    fun j => all_real a14 bcast_S_S64 reducesTo_S64_S_d0 h_S_ h62 (ix1 j),
    fun j => all_real a15 bcast_S_S64 reducesTo_S64_S_d0 h_S_ h67 (ix1 j)⟩

end Cert.PreReal

end
-- ==== Proof.KFinal.lean ====
import proofs.«133142_j1864015807124_2_alg».proof.Defs
import proofs.«133142_j1864015807124_2_alg».proof.Proof.Gen.Pre_finite_inputs
import proofs.«133142_j1864015807124_2_alg».proof.Proof.KernelRun
import proofs.«133142_j1864015807124_2_alg».proof.Proof.KLayer0
import proofs.«133142_j1864015807124_2_alg».proof.Proof.KLayer1
import proofs.«133142_j1864015807124_2_alg».proof.Proof.KLayer2
import proofs.«133142_j1864015807124_2_alg».proof.Proof.OutSpec
import proofs.«133142_j1864015807124_2_alg».proof.Proof.PreReal

/-!
# The idealized kernel's result

The three layers composed: each layer's output is the next layer's input, and the pooling tail reads the last layer's
rows; the result buffer ends at the network function of the argument arrays. The batch-norm scale and shift rows are
real because every float input is finite, which is what lets the folded scale-and-shift arrangement equal the direct
one.
-/

set_option maxRecDepth 16384

noncomputable section

namespace Cert.KernelIdeal.Final

open Idealize.ShloMosaic Idealize.ShloMosaic.TcCoe Idealize.ShloMosaic.Tactic Idealize.ShloMosaic.ValueIdx Idealize.SL.Sem
open Cert.KernelIdeal Cert.KernelIdeal.Gen Cert.Stages Cert.KernelIdeal.Glue Cert.KernelIdeal.Read Cert.KernelIdeal.Keep Cert.KernelIdeal.Layer

variable (m : (ℓ : Loc nD τ sig) → Buf (Elt Ideal) ℓ) (ρ : Dev nD → PrngReg) (c : Dev nD)

/-- The last boundary's contents at the result buffer: the network function of the arguments as launched. -/
theorem result_eq
    (hg0 : ∀ j : Fin 64, Cert.Spec.IsReal (((W0 m ρ c (Proc.devRef .tc main_arg6)) : FVec Ideal S64 .f32) (ix1 j)))
    (hbe0 : ∀ j : Fin 64, Cert.Spec.IsReal (((W0 m ρ c (Proc.devRef .tc main_arg7)) : FVec Ideal S64 .f32) (ix1 j)))
    (hg1 : ∀ j : Fin 64, Cert.Spec.IsReal (((W0 m ρ c (Proc.devRef .tc main_arg10)) : FVec Ideal S64 .f32) (ix1 j)))
    (hbe1 : ∀ j : Fin 64, Cert.Spec.IsReal (((W0 m ρ c (Proc.devRef .tc main_arg11)) : FVec Ideal S64 .f32) (ix1 j)))
    (hg2 : ∀ j : Fin 64, Cert.Spec.IsReal (((W0 m ρ c (Proc.devRef .tc main_arg14)) : FVec Ideal S64 .f32) (ix1 j)))
    (hbe2 : ∀ j : Fin 64, Cert.Spec.IsReal (((W0 m ρ c (Proc.devRef .tc main_arg15)) : FVec Ideal S64 .f32) (ix1 j))) :
    W25 m ρ c (Proc.devRef .tc main_v202)
      = gcnOut (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) := by
  have h0 := layer0 m ρ c hg0 hbe0
  have h1 := layer1 m ρ c _ h0 hg1 hbe1
  have h2 := layer2 m ρ c _ h1 hg2 hbe2
  refine (h2_out (W24 m ρ c)).trans ?_
  rw [h2, keep_arg3_0_24 m ρ c, keep_arg16_0_24 m ρ c, keep_arg17_0_24 m ρ c]
  rfl

/-- The idealized kernel's run: it ends with the result buffer at the network function of the arguments, the
    arguments as launched. -/
theorem run_spec [hPre_finite_inputs : Cert.Pre_finite_inputs.Facts] (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v202) = gcnOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine (θ_run defs _ _).mono (fun r h c => ⟨(h c).1.trans ?_, (h c).2⟩) (Cert.KernelIdeal.ValRun.run (F := Ideal) m ρ)
  obtain ⟨hg0, hbe0, hg1, hbe1, hg2, hbe2⟩ := Cert.PreReal.rows_real _ _ _ _ _ _ _ _ _ _ _ _ _ _ _ _ _ _ (hpre c)
  exact result_eq m ρ c hg0 hbe0 hg1 hbe1 hg2 hbe2

end Cert.KernelIdeal.Final

end
-- ==== Proof.RefOps.lean ====
import proofs.«133142_j1864015807124_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 40 of the inlined program (of its printed window 0): they end with the value main_v31. -/
abbrev o00 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x00000000#32),
    StableHlo.unary main_cst main_v4 (broadcastInDim S100000 ![] bcast_S_S100000 : (⟨S_, .f32⟩ : BufTy).Contents (Elt F) → (⟨S100000, .f32⟩ : BufTy).Contents (Elt F)),
    StableHlo.nullary main_c (constantI S_ 32 0#32),
    StableHlo.unary main_c main_v5 (broadcastInDim S1600000 ![] bcast_S_S1600000 : (⟨S_, .i32⟩ : BufTy).Contents (Elt F) → (⟨S1600000, .i32⟩ : BufTy).Contents (Elt F)),
    StableHlo.binary main_v3 main_v5 main_v6 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v7 (broadcastInDim S1600000 ![] bcast_S_S1600000 : (⟨S_, .i32⟩ : BufTy).Contents (Elt F) → (⟨S1600000, .i32⟩ : BufTy).Contents (Elt F)),
    StableHlo.binary main_v3 main_v7 main_v8 (addi : (⟨S1600000, .i32⟩ : BufTy).Contents (Elt F) → (⟨S1600000, .i32⟩ : BufTy).Contents (Elt F) → (⟨S1600000, .i32⟩ : BufTy).Contents (Elt F)),
    StableHlo.ternary main_v6 main_v8 main_v3 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v9 main_v10 (broadcastInDim S1600000x1 ![0] bcast_S1600000_S1600000x1_0 : (⟨S1600000, .i32⟩ : BufTy).Contents (Elt F) → (⟨S1600000x1, .i32⟩ : BufTy).Contents (Elt F)),
    StableHlo.ternary main_v4 main_v10 main_arg2 main_v11 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (addf : (⟨S100000, .f32⟩ : BufTy).Contents (Elt F) → (⟨S100000, .f32⟩ : BufTy).Contents (Elt F) → (⟨S100000, .f32⟩ : BufTy).Contents (Elt F)),
    StableHlo.unary main_v13 main_v14 (Host.rsqrt : (⟨S100000, .f32⟩ : BufTy).Contents (Elt F) → (⟨S100000, .f32⟩ : BufTy).Contents (Elt F)),
    StableHlo.nullary main_c_2 (constantI S_ 32 0#32),
    StableHlo.unary main_c_2 main_v15 (broadcastInDim S1600000 ![] bcast_S_S1600000 : (⟨S_, .i32⟩ : BufTy).Contents (Elt F) → (⟨S1600000, .i32⟩ : BufTy).Contents (Elt F)),
    StableHlo.binary main_v1 main_v15 main_v16 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v17 (broadcastInDim S1600000 ![] bcast_S_S1600000 : (⟨S_, .i32⟩ : BufTy).Contents (Elt F) → (⟨S1600000, .i32⟩ : BufTy).Contents (Elt F)),
    StableHlo.binary main_v1 main_v17 main_v18 (addi : (⟨S1600000, .i32⟩ : BufTy).Contents (Elt F) → (⟨S1600000, .i32⟩ : BufTy).Contents (Elt F) → (⟨S1600000, .i32⟩ : BufTy).Contents (Elt F)),
    StableHlo.ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v19 main_v20 (broadcastInDim S1600000x1 ![0] bcast_S1600000_S1600000x1_0 : (⟨S1600000, .i32⟩ : BufTy).Contents (Elt F) → (⟨S1600000x1, .i32⟩ : BufTy).Contents (Elt F)),
    StableHlo.binary main_v14 main_v20 main_v21 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_arg2 main_v21 main_v22 (mulf : (⟨S1600000, .f32⟩ : BufTy).Contents (Elt F) → (⟨S1600000, .f32⟩ : BufTy).Contents (Elt F) → (⟨S1600000, .f32⟩ : BufTy).Contents (Elt F)),
    StableHlo.nullary main_c_4 (constantI S_ 32 0#32),
    StableHlo.unary main_c_4 main_v23 (broadcastInDim S1600000 ![] bcast_S_S1600000 : (⟨S_, .i32⟩ : BufTy).Contents (Elt F) → (⟨S1600000, .i32⟩ : BufTy).Contents (Elt F)),
    StableHlo.binary main_v3 main_v23 main_v24 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v25 (broadcastInDim S1600000 ![] bcast_S_S1600000 : (⟨S_, .i32⟩ : BufTy).Contents (Elt F) → (⟨S1600000, .i32⟩ : BufTy).Contents (Elt F)),
    StableHlo.binary main_v3 main_v25 main_v26 (addi : (⟨S1600000, .i32⟩ : BufTy).Contents (Elt F) → (⟨S1600000, .i32⟩ : BufTy).Contents (Elt F) → (⟨S1600000, .i32⟩ : BufTy).Contents (Elt F)),
    StableHlo.ternary main_v24 main_v26 main_v3 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v27 main_v28 (broadcastInDim S1600000x1 ![0] bcast_S1600000_S1600000x1_0 : (⟨S1600000, .i32⟩ : BufTy).Contents (Elt F) → (⟨S1600000x1, .i32⟩ : BufTy).Contents (Elt F)),
    StableHlo.binary main_v14 main_v28 main_v29 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v22 main_v29 main_v30 (mulf : (⟨S1600000, .f32⟩ : BufTy).Contents (Elt F) → (⟨S1600000, .f32⟩ : BufTy).Contents (Elt F) → (⟨S1600000, .f32⟩ : BufTy).Contents (Elt F)),
    StableHlo.binary main_v14 main_v14 main_v31 (mulf : (⟨S100000, .f32⟩ : BufTy).Contents (Elt F) → (⟨S100000, .f32⟩ : BufTy).Contents (Elt F) → (⟨S100000, .f32⟩ : BufTy).Contents (Elt F)) ]
/-- The buffers those statements write. -/
abbrev o00_W : List (Ref sig .tc) := [main_v0, main_v1, main_v2, main_v3, main_cst, main_v4, main_c, main_v5, main_v6, main_c_0, main_v7, main_v8, main_v9, main_v10, main_v11, main_cst_1, main_v12, main_v13, main_v14, main_c_2, main_v15, main_v16, main_c_3, main_v17, main_v18, main_v19, main_v20, main_v21, main_v22, main_c_4, main_v23, main_v24, main_c_5, main_v25, main_v26, main_v27, main_v28, main_v29, main_v30, main_v31]
theorem o00_sub : (o00 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩
theorem o00_fresh : (o00 : List (HloOp τ sig (Elt F))).Forall fun op => op.fresh = ∅ := by
  simp only [List.Forall]; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem o00_writes : (o00 : List (HloOp τ sig (Elt F))).Forall fun op => op.writes ⊆ (o00_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Statements 41 … 44 of the inlined program (of its printed window 0): they end with the value main_v35. -/
abbrev o01 : List (HloOp τ sig (Elt F)) :=
  [ StableHlo.binary main_arg0 main_arg4 main_v32 ((fun l r => Host.dotGeneral dot_S100000x100_S100x64_S100000x64_1_0_0_1_n_n none l r) : (⟨S100000x100, .f32⟩ : BufTy).Contents (Elt F) → (⟨S100x64, .f32⟩ : BufTy).Contents (Elt F) → (⟨S100000x64, .f32⟩ : BufTy).Contents (Elt F)),
    StableHlo.unary main_arg5 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S100000x64 ![0, 1] bcast_S1x64_S100000x64_0_1 : (⟨S1x64, .f32⟩ : BufTy).Contents (Elt F) → (⟨S100000x64, .f32⟩ : BufTy).Contents (Elt F)),
    StableHlo.binary main_v32 main_v34 main_v35 (addf : (⟨S100000x64, .f32⟩ : BufTy).Contents (Elt F) → (⟨S100000x64, .f32⟩ : BufTy).Contents (Elt F) → (⟨S100000x64, .f32⟩ : BufTy).Contents (Elt F)) ]
/-- The buffers those statements write. -/
abbrev o01_W : List (Ref sig .tc) := [main_v32, main_v33, main_v34, main_v35]
theorem o01_sub : (o01 : List (HloOp τ sig (Elt F))).Forall fun op => op.bufs ⊆ tcRefs τ sig :=
  ⟨binary_bufs_sub .., unary_bufs_sub .., unary_bufs_sub .., binary_bufs_sub ..⟩
theorem o01_fresh : (o01 : List (HloOp τ sig (Elt F))).Forall fun op => op.fresh = ∅ := by
  simp only [List.Forall]; exact ⟨rfl, rfl, rfl, rfl⟩
theorem o01_writes : (o01 : List (HloOp τ sig (Elt F))).Forall fun op => op.writes ⊆ (o01_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Statements 45 … 60 of the inlined program (of its printed window 0): they end with the value main_v47. -/
abbrev o02 : List (HloOp τ sig (Elt F)) :=
  [ StableHlo.unary main_v30 main_v36 (broadcastInDim S1600000x1 ![0] bcast_S1600000_S1600000x1_0 : (⟨S1600000, .f32⟩ : BufTy).Contents (Elt F) → (⟨S1600000x1, .f32⟩ : BufTy).Contents (Elt F)),
    StableHlo.nullary main_c_6 (constantI S_ 32 0#32),
    StableHlo.unary main_c_6 main_v37 (broadcastInDim S1600000 ![] bcast_S_S1600000 : (⟨S_, .i32⟩ : BufTy).Contents (Elt F) → (⟨S1600000, .i32⟩ : BufTy).Contents (Elt F)),
    StableHlo.binary main_v1 main_v37 main_v38 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v39 (broadcastInDim S1600000 ![] bcast_S_S1600000 : (⟨S_, .i32⟩ : BufTy).Contents (Elt F) → (⟨S1600000, .i32⟩ : BufTy).Contents (Elt F)),
    StableHlo.binary main_v1 main_v39 main_v40 (addi : (⟨S1600000, .i32⟩ : BufTy).Contents (Elt F) → (⟨S1600000, .i32⟩ : BufTy).Contents (Elt F) → (⟨S1600000, .i32⟩ : BufTy).Contents (Elt F)),
    StableHlo.ternary main_v38 main_v40 main_v1 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v41 main_v42 (broadcastInDim S1600000x1 ![0] bcast_S1600000_S1600000x1_0 : (⟨S1600000, .i32⟩ : BufTy).Contents (Elt F) → (⟨S1600000x1, .i32⟩ : BufTy).Contents (Elt F)),
    StableHlo.binary main_v35 main_v42 main_v43 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v36 main_v44 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v44 main_v43 main_v45 (mulf : (⟨S1600000x64, .f32⟩ : BufTy).Contents (Elt F) → (⟨S1600000x64, .f32⟩ : BufTy).Contents (Elt F) → (⟨S1600000x64, .f32⟩ : BufTy).Contents (Elt F)),
    StableHlo.nullary main_cst_8 (constant S_ .f32 0x00000000#32),
    StableHlo.unary main_cst_8 main_v46 (broadcastInDim S100000x64 ![] bcast_S_S100000x64 : (⟨S_, .f32⟩ : BufTy).Contents (Elt F) → (⟨S100000x64, .f32⟩ : BufTy).Contents (Elt F)),
    StableHlo.nullary main_c_9 (constantI S_ 32 0#32),
    StableHlo.unary main_c_9 main_v47 (broadcastInDim S1600000 ![] bcast_S_S1600000 : (⟨S_, .i32⟩ : BufTy).Contents (Elt F) → (⟨S1600000, .i32⟩ : BufTy).Contents (Elt F)) ]
/-- The buffers those statements write. -/
abbrev o02_W : List (Ref sig .tc) := [main_v36, main_c_6, main_v37, main_v38, main_c_7, main_v39, main_v40, main_v41, main_v42, main_v43, main_v44, main_v45, main_cst_8, main_v46, main_c_9, main_v47]
theorem o02_sub : (o02 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., nullary_bufs_sub .., unary_bufs_sub ..⟩
theorem o02_fresh : (o02 : List (HloOp τ sig (Elt F))).Forall fun op => op.fresh = ∅ := by
  simp only [List.Forall]; exact ⟨rfl, rfl, rfl, rfl, rfl, rfl, rfl, rfl, rfl, rfl, rfl, rfl, rfl, rfl, rfl, rfl⟩
theorem o02_writes : (o02 : List (HloOp τ sig (Elt F))).Forall fun op => op.writes ⊆ (o02_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Statements 61 … 71 of the inlined program (of its printed window 1): they end with the value main_v57. -/
abbrev o03 : List (HloOp τ sig (Elt F)) :=
  [ StableHlo.binary main_v3 main_v47 main_v48 (cmpi .slt : (⟨S1600000, .i32⟩ : BufTy).Contents (Elt F) → (⟨S1600000, .i32⟩ : BufTy).Contents (Elt F) → (⟨S1600000, .i1⟩ : BufTy).Contents (Elt F)),
    StableHlo.nullary main_c_10 (constantI S_ 32 100000#32),
    StableHlo.unary main_c_10 main_v49 (broadcastInDim S1600000 ![] bcast_S_S1600000 : (⟨S_, .i32⟩ : BufTy).Contents (Elt F) → (⟨S1600000, .i32⟩ : BufTy).Contents (Elt F)),
    StableHlo.binary main_v3 main_v49 main_v50 (addi : (⟨S1600000, .i32⟩ : BufTy).Contents (Elt F) → (⟨S1600000, .i32⟩ : BufTy).Contents (Elt F) → (⟨S1600000, .i32⟩ : BufTy).Contents (Elt F)),
    StableHlo.ternary main_v48 main_v50 main_v3 main_v51 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v51 main_v52 (broadcastInDim S1600000x1 ![0] bcast_S1600000_S1600000x1_0 : (⟨S1600000, .i32⟩ : BufTy).Contents (Elt F) → (⟨S1600000x1, .i32⟩ : BufTy).Contents (Elt F)),
    StableHlo.ternary main_v46 main_v52 main_v45 main_v53 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v31 main_v54 (broadcastInDim S100000x1 ![0] bcast_S100000_S100000x1_0 : (⟨S100000, .f32⟩ : BufTy).Contents (Elt F) → (⟨S100000x1, .f32⟩ : BufTy).Contents (Elt F)),
    StableHlo.unary main_v54 main_v55 (broadcastInDim S100000x64 ![0, 1] bcast_S100000x1_S100000x64_0_1 : (⟨S100000x1, .f32⟩ : BufTy).Contents (Elt F) → (⟨S100000x64, .f32⟩ : BufTy).Contents (Elt F)),
    StableHlo.binary main_v35 main_v55 main_v56 (mulf : (⟨S100000x64, .f32⟩ : BufTy).Contents (Elt F) → (⟨S100000x64, .f32⟩ : BufTy).Contents (Elt F) → (⟨S100000x64, .f32⟩ : BufTy).Contents (Elt F)),
    StableHlo.binary main_v53 main_v56 main_v57 (addf : (⟨S100000x64, .f32⟩ : BufTy).Contents (Elt F) → (⟨S100000x64, .f32⟩ : BufTy).Contents (Elt F) → (⟨S100000x64, .f32⟩ : BufTy).Contents (Elt F)) ]
/-- The buffers those statements write. -/
abbrev o03_W : List (Ref sig .tc) := [main_v48, main_c_10, main_v49, main_v50, main_v51, main_v52, main_v53, main_v54, main_v55, main_v56, main_v57]
theorem o03_sub : (o03 : List (HloOp τ sig (Elt F))).Forall fun op => op.bufs ⊆ tcRefs τ sig :=
  ⟨binary_bufs_sub .., nullary_bufs_sub .., unary_bufs_sub .., binary_bufs_sub .., ternary_bufs_sub .., unary_bufs_sub .., ternary_bufs_sub .., unary_bufs_sub .., unary_bufs_sub .., binary_bufs_sub .., binary_bufs_sub ..⟩
theorem o03_fresh : (o03 : List (HloOp τ sig (Elt F))).Forall fun op => op.fresh = ∅ := by
  simp only [List.Forall]; exact ⟨rfl, rfl, rfl, rfl, rfl, rfl, rfl, rfl, rfl, rfl, rfl⟩
theorem o03_writes : (o03 : List (HloOp τ sig (Elt F))).Forall fun op => op.writes ⊆ (o03_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Statements 72 … 118 of the inlined program (of its printed window 1): they end with the value main_v77. -/
abbrev o04 : List (HloOp τ sig (Elt F)) :=
  [ StableHlo.nullary main_cst_11 (constant S_ .f32 0x00000000#32),
    StableHlo.binary main_v57 main_cst_11 main_v58 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_12 (constant S_ .f32 0x47C35000#32),
    StableHlo.unary main_cst_12 main_v59 (broadcastInDim S64 ![] bcast_S_S64 : (⟨S_, .f32⟩ : BufTy).Contents (Elt F) → (⟨S64, .f32⟩ : BufTy).Contents (Elt F)),
    StableHlo.binary main_v58 main_v59 main_v60 (Host.divf : (⟨S64, .f32⟩ : BufTy).Contents (Elt F) → (⟨S64, .f32⟩ : BufTy).Contents (Elt F) → (⟨S64, .f32⟩ : BufTy).Contents (Elt F)),
    StableHlo.nullary main_c_13 (constantI S_ 32 0#32),
    StableHlo.TRef.nullary main_call0.cst (constant S_ .f32 0x00000000#32),
    StableHlo.TRef.binary (.of main_v57 : StableHlo.TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v57 : StableHlo.TRef sig ⟨S100000x64, .f32⟩) main_call0.v4 main_call0.v5 subf,
    StableHlo.TRef.binary main_call0.v5 main_call0.v5 main_call0.v6 mulf,
    StableHlo.TRef.unary (.of main_c_13 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v60 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v63 main_v64 (subf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x3727C5AC#32),
    StableHlo.unary main_cst_14 main_v65 (broadcastInDim S64 ![] bcast_S_S64 : (⟨S_, .f32⟩ : BufTy).Contents (Elt F) → (⟨S64, .f32⟩ : BufTy).Contents (Elt F)),
    StableHlo.binary main_v61 main_v65 main_v66 (addf : (⟨S64, .f32⟩ : BufTy).Contents (Elt F) → (⟨S64, .f32⟩ : BufTy).Contents (Elt F) → (⟨S64, .f32⟩ : BufTy).Contents (Elt F)),
    StableHlo.unary main_v66 main_v67 (Host.rsqrt : (⟨S64, .f32⟩ : BufTy).Contents (Elt F) → (⟨S64, .f32⟩ : BufTy).Contents (Elt F)),
    StableHlo.unary main_v67 main_v68 (broadcastInDim S1x64 ![1] bcast_S64_S1x64_1 : (⟨S64, .f32⟩ : BufTy).Contents (Elt F) → (⟨S1x64, .f32⟩ : BufTy).Contents (Elt F)),
    StableHlo.unary main_v68 main_v69 (broadcastInDim S100000x64 ![0, 1] bcast_S1x64_S100000x64_0_1 : (⟨S1x64, .f32⟩ : BufTy).Contents (Elt F) → (⟨S100000x64, .f32⟩ : BufTy).Contents (Elt F)),
    StableHlo.binary main_v64 main_v69 main_v70 (mulf : (⟨S100000x64, .f32⟩ : BufTy).Contents (Elt F) → (⟨S100000x64, .f32⟩ : BufTy).Contents (Elt F) → (⟨S100000x64, .f32⟩ : BufTy).Contents (Elt F)),
    StableHlo.unary main_arg6 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S100000x64 ![0, 1] bcast_S1x64_S100000x64_0_1 : (⟨S1x64, .f32⟩ : BufTy).Contents (Elt F) → (⟨S100000x64, .f32⟩ : BufTy).Contents (Elt F)),
    StableHlo.binary main_v70 main_v72 main_v73 (mulf : (⟨S100000x64, .f32⟩ : BufTy).Contents (Elt F) → (⟨S100000x64, .f32⟩ : BufTy).Contents (Elt F) → (⟨S100000x64, .f32⟩ : BufTy).Contents (Elt F)),
    StableHlo.unary main_arg7 main_v74 (broadcastInDim S1x64 ![1] bcast_S64_S1x64_1 : (⟨S64, .f32⟩ : BufTy).Contents (Elt F) → (⟨S1x64, .f32⟩ : BufTy).Contents (Elt F)),
    StableHlo.unary main_v74 main_v75 (broadcastInDim S100000x64 ![0, 1] bcast_S1x64_S100000x64_0_1 : (⟨S1x64, .f32⟩ : BufTy).Contents (Elt F) → (⟨S100000x64, .f32⟩ : BufTy).Contents (Elt F)),
    StableHlo.binary main_v73 main_v75 main_v76 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v76 : StableHlo.TRef sig ⟨S100000x64, .f32⟩) main_call1.v0 main_call1.v1 maximumf ]
/-- The buffers those statements write. -/
abbrev o04_W : List (Ref sig .tc) := [main_cst_11, main_v58, main_cst_12, main_v59, main_v60, main_c_13, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v61, main_v62, main_v63, main_v64, main_cst_14, main_v65, main_v66, main_v67, main_v68, main_v69, main_v70, main_v71, main_v72, main_v73, main_v74, main_v75, main_v76, main_call1_cst, main_call1_v0, main_v77]
theorem o04_sub : (o04 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem o04_fresh : (o04 : List (HloOp τ sig (Elt F))).Forall fun op => op.fresh = ∅ := by
  simp only [List.Forall]; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem o04_writes : (o04 : List (HloOp τ sig (Elt F))).Forall fun op => op.writes ⊆ (o04_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Statements 119 … 122 of the inlined program (of its printed window 1): they end with the value main_v81. -/
abbrev o05 : List (HloOp τ sig (Elt F)) :=
  [ StableHlo.binary main_v77 main_arg8 main_v78 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S100000x64 ![0, 1] bcast_S1x64_S100000x64_0_1 : (⟨S1x64, .f32⟩ : BufTy).Contents (Elt F) → (⟨S100000x64, .f32⟩ : BufTy).Contents (Elt F)),
    StableHlo.binary main_v78 main_v80 main_v81 (addf : (⟨S100000x64, .f32⟩ : BufTy).Contents (Elt F) → (⟨S100000x64, .f32⟩ : BufTy).Contents (Elt F) → (⟨S100000x64, .f32⟩ : BufTy).Contents (Elt F)) ]
/-- The buffers those statements write. -/
abbrev o05_W : List (Ref sig .tc) := [main_v78, main_v79, main_v80, main_v81]
theorem o05_sub : (o05 : List (HloOp τ sig (Elt F))).Forall fun op => op.bufs ⊆ tcRefs τ sig :=
  ⟨binary_bufs_sub .., unary_bufs_sub .., unary_bufs_sub .., binary_bufs_sub ..⟩
theorem o05_fresh : (o05 : List (HloOp τ sig (Elt F))).Forall fun op => op.fresh = ∅ := by
  simp only [List.Forall]; exact ⟨rfl, rfl, rfl, rfl⟩
theorem o05_writes : (o05 : List (HloOp τ sig (Elt F))).Forall fun op => op.writes ⊆ (o05_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Statements 123 … 143 of the inlined program (of its printed window 1): they end with the value main_v97. -/
abbrev o06 : List (HloOp τ sig (Elt F)) :=
  [ StableHlo.unary main_v30 main_v82 (broadcastInDim S1600000x1 ![0] bcast_S1600000_S1600000x1_0 : (⟨S1600000, .f32⟩ : BufTy).Contents (Elt F) → (⟨S1600000x1, .f32⟩ : BufTy).Contents (Elt F)),
    StableHlo.nullary main_c_15 (constantI S_ 32 0#32),
    StableHlo.unary main_c_15 main_v83 (broadcastInDim S1600000 ![] bcast_S_S1600000 : (⟨S_, .i32⟩ : BufTy).Contents (Elt F) → (⟨S1600000, .i32⟩ : BufTy).Contents (Elt F)),
    StableHlo.binary main_v1 main_v83 main_v84 (cmpi .slt : (⟨S1600000, .i32⟩ : BufTy).Contents (Elt F) → (⟨S1600000, .i32⟩ : BufTy).Contents (Elt F) → (⟨S1600000, .i1⟩ : BufTy).Contents (Elt F)),
    StableHlo.nullary main_c_16 (constantI S_ 32 100000#32),
    StableHlo.unary main_c_16 main_v85 (broadcastInDim S1600000 ![] bcast_S_S1600000 : (⟨S_, .i32⟩ : BufTy).Contents (Elt F) → (⟨S1600000, .i32⟩ : BufTy).Contents (Elt F)),
    StableHlo.binary main_v1 main_v85 main_v86 (addi : (⟨S1600000, .i32⟩ : BufTy).Contents (Elt F) → (⟨S1600000, .i32⟩ : BufTy).Contents (Elt F) → (⟨S1600000, .i32⟩ : BufTy).Contents (Elt F)),
    StableHlo.ternary main_v84 main_v86 main_v1 main_v87 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v87 main_v88 (broadcastInDim S1600000x1 ![0] bcast_S1600000_S1600000x1_0 : (⟨S1600000, .i32⟩ : BufTy).Contents (Elt F) → (⟨S1600000x1, .i32⟩ : BufTy).Contents (Elt F)),
    StableHlo.binary main_v81 main_v88 main_v89 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v82 main_v90 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v90 main_v89 main_v91 (mulf : (⟨S1600000x64, .f32⟩ : BufTy).Contents (Elt F) → (⟨S1600000x64, .f32⟩ : BufTy).Contents (Elt F) → (⟨S1600000x64, .f32⟩ : BufTy).Contents (Elt F)),
    StableHlo.nullary main_cst_17 (constant S_ .f32 0x00000000#32),
    StableHlo.unary main_cst_17 main_v92 (broadcastInDim S100000x64 ![] bcast_S_S100000x64 : (⟨S_, .f32⟩ : BufTy).Contents (Elt F) → (⟨S100000x64, .f32⟩ : BufTy).Contents (Elt F)),
    StableHlo.nullary main_c_18 (constantI S_ 32 0#32),
    StableHlo.unary main_c_18 main_v93 (broadcastInDim S1600000 ![] bcast_S_S1600000 : (⟨S_, .i32⟩ : BufTy).Contents (Elt F) → (⟨S1600000, .i32⟩ : BufTy).Contents (Elt F)),
    StableHlo.binary main_v3 main_v93 main_v94 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v95 (broadcastInDim S1600000 ![] bcast_S_S1600000 : (⟨S_, .i32⟩ : BufTy).Contents (Elt F) → (⟨S1600000, .i32⟩ : BufTy).Contents (Elt F)),
    StableHlo.binary main_v3 main_v95 main_v96 (addi : (⟨S1600000, .i32⟩ : BufTy).Contents (Elt F) → (⟨S1600000, .i32⟩ : BufTy).Contents (Elt F) → (⟨S1600000, .i32⟩ : BufTy).Contents (Elt F)),
    StableHlo.ternary main_v94 main_v96 main_v3 main_v97 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ]
/-- The buffers those statements write. -/
abbrev o06_W : List (Ref sig .tc) := [main_v82, main_c_15, main_v83, main_v84, main_c_16, main_v85, main_v86, main_v87, main_v88, main_v89, main_v90, main_v91, main_cst_17, main_v92, main_c_18, main_v93, main_v94, main_c_19, main_v95, main_v96, main_v97]
theorem o06_sub : (o06 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub ..⟩
theorem o06_fresh : (o06 : List (HloOp τ sig (Elt F))).Forall fun op => op.fresh = ∅ := by
  simp only [List.Forall]; exact ⟨rfl, rfl, rfl, rfl, rfl, rfl, rfl, rfl, rfl, rfl, rfl, rfl, rfl, rfl, rfl, rfl, rfl, rfl, rfl, rfl, rfl⟩
theorem o06_writes : (o06 : List (HloOp τ sig (Elt F))).Forall fun op => op.writes ⊆ (o06_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Statements 144 … 149 of the inlined program (of its printed window 2): they end with the value main_v103. -/
abbrev o07 : List (HloOp τ sig (Elt F)) :=
  [ StableHlo.unary main_v97 main_v98 (broadcastInDim S1600000x1 ![0] bcast_S1600000_S1600000x1_0 : (⟨S1600000, .i32⟩ : BufTy).Contents (Elt F) → (⟨S1600000x1, .i32⟩ : BufTy).Contents (Elt F)),
    StableHlo.ternary main_v92 main_v98 main_v91 main_v99 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v31 main_v100 (broadcastInDim S100000x1 ![0] bcast_S100000_S100000x1_0 : (⟨S100000, .f32⟩ : BufTy).Contents (Elt F) → (⟨S100000x1, .f32⟩ : BufTy).Contents (Elt F)),
    StableHlo.unary main_v100 main_v101 (broadcastInDim S100000x64 ![0, 1] bcast_S100000x1_S100000x64_0_1 : (⟨S100000x1, .f32⟩ : BufTy).Contents (Elt F) → (⟨S100000x64, .f32⟩ : BufTy).Contents (Elt F)),
    StableHlo.binary main_v81 main_v101 main_v102 (mulf : (⟨S100000x64, .f32⟩ : BufTy).Contents (Elt F) → (⟨S100000x64, .f32⟩ : BufTy).Contents (Elt F) → (⟨S100000x64, .f32⟩ : BufTy).Contents (Elt F)),
    StableHlo.binary main_v99 main_v102 main_v103 (addf : (⟨S100000x64, .f32⟩ : BufTy).Contents (Elt F) → (⟨S100000x64, .f32⟩ : BufTy).Contents (Elt F) → (⟨S100000x64, .f32⟩ : BufTy).Contents (Elt F)) ]
/-- The buffers those statements write. -/
abbrev o07_W : List (Ref sig .tc) := [main_v98, main_v99, main_v100, main_v101, main_v102, main_v103]
theorem o07_sub : (o07 : List (HloOp τ sig (Elt F))).Forall fun op => op.bufs ⊆ tcRefs τ sig :=
  ⟨unary_bufs_sub .., ternary_bufs_sub .., unary_bufs_sub .., unary_bufs_sub .., binary_bufs_sub .., binary_bufs_sub ..⟩
theorem o07_fresh : (o07 : List (HloOp τ sig (Elt F))).Forall fun op => op.fresh = ∅ := by
  simp only [List.Forall]; exact ⟨rfl, rfl, rfl, rfl, rfl, rfl⟩
theorem o07_writes : (o07 : List (HloOp τ sig (Elt F))).Forall fun op => op.writes ⊆ (o07_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Statements 150 … 196 of the inlined program (of its printed window 2): they end with the value main_v123. -/
abbrev o08 : List (HloOp τ sig (Elt F)) :=
  [ StableHlo.nullary main_cst_20 (constant S_ .f32 0x00000000#32),
    StableHlo.binary main_v103 main_cst_20 main_v104 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_21 (constant S_ .f32 0x47C35000#32),
    StableHlo.unary main_cst_21 main_v105 (broadcastInDim S64 ![] bcast_S_S64 : (⟨S_, .f32⟩ : BufTy).Contents (Elt F) → (⟨S64, .f32⟩ : BufTy).Contents (Elt F)),
    StableHlo.binary main_v104 main_v105 main_v106 (Host.divf : (⟨S64, .f32⟩ : BufTy).Contents (Elt F) → (⟨S64, .f32⟩ : BufTy).Contents (Elt F) → (⟨S64, .f32⟩ : BufTy).Contents (Elt F)),
    StableHlo.nullary main_c_22 (constantI S_ 32 0#32),
    StableHlo.TRef.nullary main_call2.cst (constant S_ .f32 0x00000000#32),
    StableHlo.TRef.binary (.of main_v103 : StableHlo.TRef sig ⟨S100000x64, .f32⟩) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v103 : StableHlo.TRef sig ⟨S100000x64, .f32⟩) main_call2.v4 main_call2.v5 subf,
    StableHlo.TRef.binary main_call2.v5 main_call2.v5 main_call2.v6 mulf,
    StableHlo.TRef.unary (.of main_c_22 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v106 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S100000x64 ![0, 1] bcast_S1x64_S100000x64_0_1 : (⟨S1x64, .f32⟩ : BufTy).Contents (Elt F) → (⟨S100000x64, .f32⟩ : BufTy).Contents (Elt F)),
    StableHlo.binary main_v103 main_v109 main_v110 (subf : (⟨S100000x64, .f32⟩ : BufTy).Contents (Elt F) → (⟨S100000x64, .f32⟩ : BufTy).Contents (Elt F) → (⟨S100000x64, .f32⟩ : BufTy).Contents (Elt F)),
    StableHlo.nullary main_cst_23 (constant S_ .f32 0x3727C5AC#32),
    StableHlo.unary main_cst_23 main_v111 (broadcastInDim S64 ![] bcast_S_S64 : (⟨S_, .f32⟩ : BufTy).Contents (Elt F) → (⟨S64, .f32⟩ : BufTy).Contents (Elt F)),
    StableHlo.binary main_v107 main_v111 main_v112 (addf : (⟨S64, .f32⟩ : BufTy).Contents (Elt F) → (⟨S64, .f32⟩ : BufTy).Contents (Elt F) → (⟨S64, .f32⟩ : BufTy).Contents (Elt F)),
    StableHlo.unary main_v112 main_v113 (Host.rsqrt : (⟨S64, .f32⟩ : BufTy).Contents (Elt F) → (⟨S64, .f32⟩ : BufTy).Contents (Elt F)),
    StableHlo.unary main_v113 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S100000x64 ![0, 1] bcast_S1x64_S100000x64_0_1 : (⟨S1x64, .f32⟩ : BufTy).Contents (Elt F) → (⟨S100000x64, .f32⟩ : BufTy).Contents (Elt F)),
    StableHlo.binary main_v110 main_v115 main_v116 (mulf : (⟨S100000x64, .f32⟩ : BufTy).Contents (Elt F) → (⟨S100000x64, .f32⟩ : BufTy).Contents (Elt F) → (⟨S100000x64, .f32⟩ : BufTy).Contents (Elt F)),
    StableHlo.unary main_arg10 main_v117 (broadcastInDim S1x64 ![1] bcast_S64_S1x64_1 : (⟨S64, .f32⟩ : BufTy).Contents (Elt F) → (⟨S1x64, .f32⟩ : BufTy).Contents (Elt F)),
    StableHlo.unary main_v117 main_v118 (broadcastInDim S100000x64 ![0, 1] bcast_S1x64_S100000x64_0_1 : (⟨S1x64, .f32⟩ : BufTy).Contents (Elt F) → (⟨S100000x64, .f32⟩ : BufTy).Contents (Elt F)),
    StableHlo.binary main_v116 main_v118 main_v119 (mulf : (⟨S100000x64, .f32⟩ : BufTy).Contents (Elt F) → (⟨S100000x64, .f32⟩ : BufTy).Contents (Elt F) → (⟨S100000x64, .f32⟩ : BufTy).Contents (Elt F)),
    StableHlo.unary main_arg11 main_v120 (broadcastInDim S1x64 ![1] bcast_S64_S1x64_1 : (⟨S64, .f32⟩ : BufTy).Contents (Elt F) → (⟨S1x64, .f32⟩ : BufTy).Contents (Elt F)),
    StableHlo.unary main_v120 main_v121 (broadcastInDim S100000x64 ![0, 1] bcast_S1x64_S100000x64_0_1 : (⟨S1x64, .f32⟩ : BufTy).Contents (Elt F) → (⟨S100000x64, .f32⟩ : BufTy).Contents (Elt F)),
    StableHlo.binary main_v119 main_v121 main_v122 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v122 : StableHlo.TRef sig ⟨S100000x64, .f32⟩) main_call3.v0 main_call3.v1 maximumf ]
/-- The buffers those statements write. -/
abbrev o08_W : List (Ref sig .tc) := [main_cst_20, main_v104, main_cst_21, main_v105, main_v106, main_c_22, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v107, main_v108, main_v109, main_v110, main_cst_23, main_v111, main_v112, main_v113, main_v114, main_v115, main_v116, main_v117, main_v118, main_v119, main_v120, main_v121, main_v122, main_call3_cst, main_call3_v0, main_v123]
theorem o08_sub : (o08 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem o08_fresh : (o08 : List (HloOp τ sig (Elt F))).Forall fun op => op.fresh = ∅ := by
  simp only [List.Forall]; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem o08_writes : (o08 : List (HloOp τ sig (Elt F))).Forall fun op => op.writes ⊆ (o08_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Statements 197 … 200 of the inlined program (of its printed window 2): they end with the value main_v127. -/
abbrev o09 : List (HloOp τ sig (Elt F)) :=
  [ StableHlo.binary main_v123 main_arg12 main_v124 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg13 main_v125 (broadcastInDim S1x64 ![1] bcast_S64_S1x64_1 : (⟨S64, .f32⟩ : BufTy).Contents (Elt F) → (⟨S1x64, .f32⟩ : BufTy).Contents (Elt F)),
    StableHlo.unary main_v125 main_v126 (broadcastInDim S100000x64 ![0, 1] bcast_S1x64_S100000x64_0_1 : (⟨S1x64, .f32⟩ : BufTy).Contents (Elt F) → (⟨S100000x64, .f32⟩ : BufTy).Contents (Elt F)),
    StableHlo.binary main_v124 main_v126 main_v127 (addf : (⟨S100000x64, .f32⟩ : BufTy).Contents (Elt F) → (⟨S100000x64, .f32⟩ : BufTy).Contents (Elt F) → (⟨S100000x64, .f32⟩ : BufTy).Contents (Elt F)) ]
/-- The buffers those statements write. -/
abbrev o09_W : List (Ref sig .tc) := [main_v124, main_v125, main_v126, main_v127]
theorem o09_sub : (o09 : List (HloOp τ sig (Elt F))).Forall fun op => op.bufs ⊆ tcRefs τ sig :=
  ⟨binary_bufs_sub .., unary_bufs_sub .., unary_bufs_sub .., binary_bufs_sub ..⟩
theorem o09_fresh : (o09 : List (HloOp τ sig (Elt F))).Forall fun op => op.fresh = ∅ := by
  simp only [List.Forall]; exact ⟨rfl, rfl, rfl, rfl⟩
theorem o09_writes : (o09 : List (HloOp τ sig (Elt F))).Forall fun op => op.writes ⊆ (o09_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Statements 201 … 226 of the inlined program (of its printed window 2): they end with the value main_v148. -/
abbrev o10 : List (HloOp τ sig (Elt F)) :=
  [ StableHlo.unary main_v30 main_v128 (broadcastInDim S1600000x1 ![0] bcast_S1600000_S1600000x1_0 : (⟨S1600000, .f32⟩ : BufTy).Contents (Elt F) → (⟨S1600000x1, .f32⟩ : BufTy).Contents (Elt F)),
    StableHlo.nullary main_c_24 (constantI S_ 32 0#32),
    StableHlo.unary main_c_24 main_v129 (broadcastInDim S1600000 ![] bcast_S_S1600000 : (⟨S_, .i32⟩ : BufTy).Contents (Elt F) → (⟨S1600000, .i32⟩ : BufTy).Contents (Elt F)),
    StableHlo.binary main_v1 main_v129 main_v130 (cmpi .slt : (⟨S1600000, .i32⟩ : BufTy).Contents (Elt F) → (⟨S1600000, .i32⟩ : BufTy).Contents (Elt F) → (⟨S1600000, .i1⟩ : BufTy).Contents (Elt F)),
    StableHlo.nullary main_c_25 (constantI S_ 32 100000#32),
    StableHlo.unary main_c_25 main_v131 (broadcastInDim S1600000 ![] bcast_S_S1600000 : (⟨S_, .i32⟩ : BufTy).Contents (Elt F) → (⟨S1600000, .i32⟩ : BufTy).Contents (Elt F)),
    StableHlo.binary main_v1 main_v131 main_v132 (addi : (⟨S1600000, .i32⟩ : BufTy).Contents (Elt F) → (⟨S1600000, .i32⟩ : BufTy).Contents (Elt F) → (⟨S1600000, .i32⟩ : BufTy).Contents (Elt F)),
    StableHlo.ternary main_v130 main_v132 main_v1 main_v133 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v133 main_v134 (broadcastInDim S1600000x1 ![0] bcast_S1600000_S1600000x1_0 : (⟨S1600000, .i32⟩ : BufTy).Contents (Elt F) → (⟨S1600000x1, .i32⟩ : BufTy).Contents (Elt F)),
    StableHlo.binary main_v127 main_v134 main_v135 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v128 main_v136 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v136 main_v135 main_v137 (mulf : (⟨S1600000x64, .f32⟩ : BufTy).Contents (Elt F) → (⟨S1600000x64, .f32⟩ : BufTy).Contents (Elt F) → (⟨S1600000x64, .f32⟩ : BufTy).Contents (Elt F)),
    StableHlo.nullary main_cst_26 (constant S_ .f32 0x00000000#32),
    StableHlo.unary main_cst_26 main_v138 (broadcastInDim S100000x64 ![] bcast_S_S100000x64 : (⟨S_, .f32⟩ : BufTy).Contents (Elt F) → (⟨S100000x64, .f32⟩ : BufTy).Contents (Elt F)),
    StableHlo.nullary main_c_27 (constantI S_ 32 0#32),
    StableHlo.unary main_c_27 main_v139 (broadcastInDim S1600000 ![] bcast_S_S1600000 : (⟨S_, .i32⟩ : BufTy).Contents (Elt F) → (⟨S1600000, .i32⟩ : BufTy).Contents (Elt F)),
    StableHlo.binary main_v3 main_v139 main_v140 (cmpi .slt : (⟨S1600000, .i32⟩ : BufTy).Contents (Elt F) → (⟨S1600000, .i32⟩ : BufTy).Contents (Elt F) → (⟨S1600000, .i1⟩ : BufTy).Contents (Elt F)),
    StableHlo.nullary main_c_28 (constantI S_ 32 100000#32),
    StableHlo.unary main_c_28 main_v141 (broadcastInDim S1600000 ![] bcast_S_S1600000 : (⟨S_, .i32⟩ : BufTy).Contents (Elt F) → (⟨S1600000, .i32⟩ : BufTy).Contents (Elt F)),
    StableHlo.binary main_v3 main_v141 main_v142 (addi : (⟨S1600000, .i32⟩ : BufTy).Contents (Elt F) → (⟨S1600000, .i32⟩ : BufTy).Contents (Elt F) → (⟨S1600000, .i32⟩ : BufTy).Contents (Elt F)),
    StableHlo.ternary main_v140 main_v142 main_v3 main_v143 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v143 main_v144 (broadcastInDim S1600000x1 ![0] bcast_S1600000_S1600000x1_0 : (⟨S1600000, .i32⟩ : BufTy).Contents (Elt F) → (⟨S1600000x1, .i32⟩ : BufTy).Contents (Elt F)),
    StableHlo.ternary main_v138 main_v144 main_v137 main_v145 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v31 main_v146 (broadcastInDim S100000x1 ![0] bcast_S100000_S100000x1_0 : (⟨S100000, .f32⟩ : BufTy).Contents (Elt F) → (⟨S100000x1, .f32⟩ : BufTy).Contents (Elt F)),
    StableHlo.unary main_v146 main_v147 (broadcastInDim S100000x64 ![0, 1] bcast_S100000x1_S100000x64_0_1 : (⟨S100000x1, .f32⟩ : BufTy).Contents (Elt F) → (⟨S100000x64, .f32⟩ : BufTy).Contents (Elt F)),
    StableHlo.binary main_v127 main_v147 main_v148 (mulf : (⟨S100000x64, .f32⟩ : BufTy).Contents (Elt F) → (⟨S100000x64, .f32⟩ : BufTy).Contents (Elt F) → (⟨S100000x64, .f32⟩ : BufTy).Contents (Elt F)) ]
/-- The buffers those statements write. -/
abbrev o10_W : List (Ref sig .tc) := [main_v128, main_c_24, main_v129, main_v130, main_c_25, main_v131, main_v132, main_v133, main_v134, main_v135, main_v136, main_v137, main_cst_26, main_v138, main_c_27, main_v139, main_v140, main_c_28, main_v141, main_v142, main_v143, main_v144, main_v145, main_v146, main_v147, main_v148]
theorem o10_sub : (o10 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub ..⟩
theorem o10_fresh : (o10 : List (HloOp τ sig (Elt F))).Forall fun op => op.fresh = ∅ := by
  simp only [List.Forall]; exact ⟨rfl, rfl, rfl, rfl, rfl, rfl, rfl, rfl, rfl, rfl, rfl, rfl, rfl, rfl, rfl, rfl, rfl, rfl, rfl, rfl, rfl, rfl, rfl, rfl, rfl, rfl⟩
theorem o10_writes : (o10 : List (HloOp τ sig (Elt F))).Forall fun op => op.writes ⊆ (o10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Statements 227 … 227 of the inlined program (of its printed window 3): they end with the value main_v149. -/
abbrev o11 : List (HloOp τ sig (Elt F)) :=
  [ StableHlo.binary main_v145 main_v148 main_v149 (addf : (⟨S100000x64, .f32⟩ : BufTy).Contents (Elt F) → (⟨S100000x64, .f32⟩ : BufTy).Contents (Elt F) → (⟨S100000x64, .f32⟩ : BufTy).Contents (Elt F)) ]
/-- The buffers those statements write. -/
abbrev o11_W : List (Ref sig .tc) := [main_v149]
theorem o11_sub : (o11 : List (HloOp τ sig (Elt F))).Forall fun op => op.bufs ⊆ tcRefs τ sig :=
  (binary_bufs_sub ..)
theorem o11_fresh : (o11 : List (HloOp τ sig (Elt F))).Forall fun op => op.fresh = ∅ := by
  simp only [List.Forall]; exact (rfl)
theorem o11_writes : (o11 : List (HloOp τ sig (Elt F))).Forall fun op => op.writes ⊆ (o11_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))

/-- Statements 228 … 274 of the inlined program (of its printed window 3): they end with the value main_v169. -/
abbrev o12 : List (HloOp τ sig (Elt F)) :=
  [ StableHlo.nullary main_cst_29 (constant S_ .f32 0x00000000#32),
    StableHlo.binary main_v149 main_cst_29 main_v150 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_30 (constant S_ .f32 0x47C35000#32),
    StableHlo.unary main_cst_30 main_v151 (broadcastInDim S64 ![] bcast_S_S64 : (⟨S_, .f32⟩ : BufTy).Contents (Elt F) → (⟨S64, .f32⟩ : BufTy).Contents (Elt F)),
    StableHlo.binary main_v150 main_v151 main_v152 (Host.divf : (⟨S64, .f32⟩ : BufTy).Contents (Elt F) → (⟨S64, .f32⟩ : BufTy).Contents (Elt F) → (⟨S64, .f32⟩ : BufTy).Contents (Elt F)),
    StableHlo.nullary main_c_31 (constantI S_ 32 0#32),
    StableHlo.TRef.nullary main_call4.cst (constant S_ .f32 0x00000000#32),
    StableHlo.TRef.binary (.of main_v149 : StableHlo.TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v149 : StableHlo.TRef sig ⟨S100000x64, .f32⟩) main_call4.v4 main_call4.v5 subf,
    StableHlo.TRef.binary main_call4.v5 main_call4.v5 main_call4.v6 mulf,
    StableHlo.TRef.unary (.of main_c_31 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v152 main_v154 (broadcastInDim S1x64 ![1] bcast_S64_S1x64_1 : (⟨S64, .f32⟩ : BufTy).Contents (Elt F) → (⟨S1x64, .f32⟩ : BufTy).Contents (Elt F)),
    StableHlo.unary main_v154 main_v155 (broadcastInDim S100000x64 ![0, 1] bcast_S1x64_S100000x64_0_1 : (⟨S1x64, .f32⟩ : BufTy).Contents (Elt F) → (⟨S100000x64, .f32⟩ : BufTy).Contents (Elt F)),
    StableHlo.binary main_v149 main_v155 main_v156 (subf : (⟨S100000x64, .f32⟩ : BufTy).Contents (Elt F) → (⟨S100000x64, .f32⟩ : BufTy).Contents (Elt F) → (⟨S100000x64, .f32⟩ : BufTy).Contents (Elt F)),
    StableHlo.nullary main_cst_32 (constant S_ .f32 0x3727C5AC#32),
    StableHlo.unary main_cst_32 main_v157 (broadcastInDim S64 ![] bcast_S_S64 : (⟨S_, .f32⟩ : BufTy).Contents (Elt F) → (⟨S64, .f32⟩ : BufTy).Contents (Elt F)),
    StableHlo.binary main_v153 main_v157 main_v158 (addf : (⟨S64, .f32⟩ : BufTy).Contents (Elt F) → (⟨S64, .f32⟩ : BufTy).Contents (Elt F) → (⟨S64, .f32⟩ : BufTy).Contents (Elt F)),
    StableHlo.unary main_v158 main_v159 (Host.rsqrt : (⟨S64, .f32⟩ : BufTy).Contents (Elt F) → (⟨S64, .f32⟩ : BufTy).Contents (Elt F)),
    StableHlo.unary main_v159 main_v160 (broadcastInDim S1x64 ![1] bcast_S64_S1x64_1 : (⟨S64, .f32⟩ : BufTy).Contents (Elt F) → (⟨S1x64, .f32⟩ : BufTy).Contents (Elt F)),
    StableHlo.unary main_v160 main_v161 (broadcastInDim S100000x64 ![0, 1] bcast_S1x64_S100000x64_0_1 : (⟨S1x64, .f32⟩ : BufTy).Contents (Elt F) → (⟨S100000x64, .f32⟩ : BufTy).Contents (Elt F)),
    StableHlo.binary main_v156 main_v161 main_v162 (mulf : (⟨S100000x64, .f32⟩ : BufTy).Contents (Elt F) → (⟨S100000x64, .f32⟩ : BufTy).Contents (Elt F) → (⟨S100000x64, .f32⟩ : BufTy).Contents (Elt F)),
    StableHlo.unary main_arg14 main_v163 (broadcastInDim S1x64 ![1] bcast_S64_S1x64_1 : (⟨S64, .f32⟩ : BufTy).Contents (Elt F) → (⟨S1x64, .f32⟩ : BufTy).Contents (Elt F)),
    StableHlo.unary main_v163 main_v164 (broadcastInDim S100000x64 ![0, 1] bcast_S1x64_S100000x64_0_1 : (⟨S1x64, .f32⟩ : BufTy).Contents (Elt F) → (⟨S100000x64, .f32⟩ : BufTy).Contents (Elt F)),
    StableHlo.binary main_v162 main_v164 main_v165 (mulf : (⟨S100000x64, .f32⟩ : BufTy).Contents (Elt F) → (⟨S100000x64, .f32⟩ : BufTy).Contents (Elt F) → (⟨S100000x64, .f32⟩ : BufTy).Contents (Elt F)),
    StableHlo.unary main_arg15 main_v166 (broadcastInDim S1x64 ![1] bcast_S64_S1x64_1 : (⟨S64, .f32⟩ : BufTy).Contents (Elt F) → (⟨S1x64, .f32⟩ : BufTy).Contents (Elt F)),
    StableHlo.unary main_v166 main_v167 (broadcastInDim S100000x64 ![0, 1] bcast_S1x64_S100000x64_0_1 : (⟨S1x64, .f32⟩ : BufTy).Contents (Elt F) → (⟨S100000x64, .f32⟩ : BufTy).Contents (Elt F)),
    StableHlo.binary main_v165 main_v167 main_v168 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v168 : StableHlo.TRef sig ⟨S100000x64, .f32⟩) main_call5.v0 main_call5.v1 maximumf ]
/-- The buffers those statements write. -/
abbrev o12_W : List (Ref sig .tc) := [main_cst_29, main_v150, main_cst_30, main_v151, main_v152, main_c_31, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v153, main_v154, main_v155, main_v156, main_cst_32, main_v157, main_v158, main_v159, main_v160, main_v161, main_v162, main_v163, main_v164, main_v165, main_v166, main_v167, main_v168, main_call5_cst, main_call5_v0, main_v169]
theorem o12_sub : (o12 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem o12_fresh : (o12 : List (HloOp τ sig (Elt F))).Forall fun op => op.fresh = ∅ := by
  simp only [List.Forall]; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem o12_writes : (o12 : List (HloOp τ sig (Elt F))).Forall fun op => op.writes ⊆ (o12_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Statements 275 … 293 of the inlined program (of its printed window 3): they end with the value main_v184. -/
abbrev o13 : List (HloOp τ sig (Elt F)) :=
  [ StableHlo.nullary main_cst_33 (constant S_ .f32 0x00000000#32),
    StableHlo.unary main_cst_33 main_v170 (broadcastInDim S512x64 ![] bcast_S_S512x64 : (⟨S_, .f32⟩ : BufTy).Contents (Elt F) → (⟨S512x64, .f32⟩ : BufTy).Contents (Elt F)),
    StableHlo.unary main_arg3 main_v171 (broadcastInDim S100000x1 ![0] bcast_S100000_S100000x1_0 : (⟨S100000, .i32⟩ : BufTy).Contents (Elt F) → (⟨S100000x1, .i32⟩ : BufTy).Contents (Elt F)),
    StableHlo.ternary main_v170 main_v171 main_v169 main_v172 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    StableHlo.nullary main_cst_34 (constant S_ .f32 0x3F800000#32),
    StableHlo.unary main_cst_34 main_v173 (broadcastInDim S100000x1 ![] bcast_S_S100000x1 : (⟨S_, .f32⟩ : BufTy).Contents (Elt F) → (⟨S100000x1, .f32⟩ : BufTy).Contents (Elt F)),
    StableHlo.nullary main_cst_35 (constant S_ .f32 0x00000000#32),
    StableHlo.unary main_cst_35 main_v174 (broadcastInDim S512x1 ![] bcast_S_S512x1 : (⟨S_, .f32⟩ : BufTy).Contents (Elt F) → (⟨S512x1, .f32⟩ : BufTy).Contents (Elt F)),
    StableHlo.unary main_arg3 main_v175 (broadcastInDim S100000x1 ![0] bcast_S100000_S100000x1_0 : (⟨S100000, .i32⟩ : BufTy).Contents (Elt F) → (⟨S100000x1, .i32⟩ : BufTy).Contents (Elt F)),
    StableHlo.ternary main_v174 main_v175 main_v173 main_v176 ((fun x i u => Host.scatterAdd scatter_S512x1_S100000x1_S100000x1_1_0_0_1 x i u) : (⟨S512x1, .f32⟩ : BufTy).Contents (Elt F) → (⟨S100000x1, .i32⟩ : BufTy).Contents (Elt F) → (⟨S100000x1, .f32⟩ : BufTy).Contents (Elt F) → (⟨S512x1, .f32⟩ : BufTy).Contents (Elt F)),
    StableHlo.nullary main_cst_36 (constant S_ .f32 0x3F800000#32),
    StableHlo.unary main_cst_36 main_v177 (broadcastInDim S512x1 ![] bcast_S_S512x1 : (⟨S_, .f32⟩ : BufTy).Contents (Elt F) → (⟨S512x1, .f32⟩ : BufTy).Contents (Elt F)),
    StableHlo.binary main_v176 main_v177 main_v178 (maximumf : (⟨S512x1, .f32⟩ : BufTy).Contents (Elt F) → (⟨S512x1, .f32⟩ : BufTy).Contents (Elt F) → (⟨S512x1, .f32⟩ : BufTy).Contents (Elt F)),
    StableHlo.unary main_v178 main_v179 (broadcastInDim S512x64 ![0, 1] bcast_S512x1_S512x64_0_1 : (⟨S512x1, .f32⟩ : BufTy).Contents (Elt F) → (⟨S512x64, .f32⟩ : BufTy).Contents (Elt F)),
    StableHlo.binary main_v172 main_v179 main_v180 (Host.divf : (⟨S512x64, .f32⟩ : BufTy).Contents (Elt F) → (⟨S512x64, .f32⟩ : BufTy).Contents (Elt F) → (⟨S512x64, .f32⟩ : BufTy).Contents (Elt F)),
    StableHlo.binary main_v180 main_arg16 main_v181 ((fun l r => Host.dotGeneral dot_S512x64_S64x1_S512x1_1_0_0_1_n_n none l r) : (⟨S512x64, .f32⟩ : BufTy).Contents (Elt F) → (⟨S64x1, .f32⟩ : BufTy).Contents (Elt F) → (⟨S512x1, .f32⟩ : BufTy).Contents (Elt F)),
    StableHlo.unary main_arg17 main_v182 (broadcastInDim S1x1 ![1] bcast_S1_S1x1_1 : (⟨S1, .f32⟩ : BufTy).Contents (Elt F) → (⟨S1x1, .f32⟩ : BufTy).Contents (Elt F)),
    StableHlo.unary main_v182 main_v183 (broadcastInDim S512x1 ![0, 1] bcast_S1x1_S512x1_0_1 : (⟨S1x1, .f32⟩ : BufTy).Contents (Elt F) → (⟨S512x1, .f32⟩ : BufTy).Contents (Elt F)),
    StableHlo.binary main_v181 main_v183 main_v184 (addf : (⟨S512x1, .f32⟩ : BufTy).Contents (Elt F) → (⟨S512x1, .f32⟩ : BufTy).Contents (Elt F) → (⟨S512x1, .f32⟩ : BufTy).Contents (Elt F)) ]
/-- The buffers those statements write. -/
abbrev o13_W : List (Ref sig .tc) := [main_cst_33, main_v170, main_v171, main_v172, main_cst_34, main_v173, main_cst_35, main_v174, main_v175, main_v176, main_cst_36, main_v177, main_v178, main_v179, main_v180, main_v181, main_v182, main_v183, main_v184]
theorem o13_sub : (o13 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub ..⟩
theorem o13_fresh : (o13 : List (HloOp τ sig (Elt F))).Forall fun op => op.fresh = ∅ := by
  simp only [List.Forall]; exact ⟨rfl, rfl, rfl, rfl, rfl, rfl, rfl, rfl, rfl, rfl, rfl, rfl, rfl, rfl, rfl, rfl, rfl, rfl, rfl⟩
theorem o13_writes : (o13 : List (HloOp τ sig (Elt F))).Forall fun op => op.writes ⊆ (o13_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

end Cert.ReferenceIdeal.HandRun

end
-- ==== Proof.RefRun.lean ====
import proofs.«133142_j1864015807124_2_alg».proof.Proof.RefOps

/-!
The reference program is a straight line of host operations: it runs as the fold of its operations' results over
the launch contents of the device's buffers.

* `ops`: the operations, in order, as the concatenation of the fourteen lists of `RefOps`.
* `main_eq`: the printed program is that line. Each printed window is the line of its own lists, once its calls are
  unfolded (a call is the callee's statements over the call's buffer record) and sequencing is re-associated; the
  program is its four windows in a row.
* `ops_keep`: a buffer that no operation writes keeps its contents through the fold; the eighteen argument buffers
  are such buffers.
* `run`: every weakly fair execution terminates with the result buffer at the fold's value there and the arguments
  unchanged.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
abbrev ops : List (HloOp τ sig (Elt F)) :=
  o00 ++ (o01 ++ (o02 ++ (o03 ++ (o04 ++ (o05 ++ (o06 ++ (o07 ++ (o08 ++ (o09 ++ (o10 ++ (o11 ++ (o12 ++ (o13)))))))))))))

/-- The buffers the operations write. -/
abbrev ops_W : List (Ref sig .tc) :=
  o00_W ++ (o01_W ++ (o02_W ++ (o03_W ++ (o04_W ++ (o05_W ++ (o06_W ++ (o07_W ++ (o08_W ++ (o09_W ++ (o10_W ++ (o11_W ++ (o12_W ++ (o13_W)))))))))))))

/-! ## The program is the line -/

set_option maxRecDepth 16384 in
set_option maxHeartbeats 4000000 in
theorem part0_eq (c : Dev nD) : main_part0 (F := F) c = seq (o00 ++ (o01 ++ o02)) := by
  simp only [main_part0, seq_append, o00, o01, o02, seq, bind_assoc, pure_bind]
  rfl

set_option maxRecDepth 16384 in
set_option maxHeartbeats 4000000 in
theorem part1_eq (c : Dev nD) : main_part1 (F := F) c = seq (o03 ++ (o04 ++ (o05 ++ o06))) := by
  simp only [main_part1, fn_var.body, fn_where.body, fn_relu.body, seq_append, o03, o04, o05, o06, seq, bind_assoc, pure_bind]
  rfl

set_option maxRecDepth 16384 in
set_option maxHeartbeats 4000000 in
theorem part2_eq (c : Dev nD) : main_part2 (F := F) c = seq (o07 ++ (o08 ++ (o09 ++ o10))) := by
  simp only [main_part2, fn_var.body, fn_where.body, fn_relu.body, seq_append, o07, o08, o09, o10, seq, bind_assoc, pure_bind]
  rfl

set_option maxRecDepth 16384 in
set_option maxHeartbeats 4000000 in
theorem part3_eq (c : Dev nD) : main_part3 (F := F) c = seq (o11 ++ (o12 ++ o13)) := by
  simp only [main_part3, fn_var.body, fn_where.body, fn_relu.body, seq_append, o11, o12, o13, seq, bind_assoc, pure_bind]

/-- The program is its four windows in a row, each the line of its lists: the line of all of them. -/
theorem main_eq (c : Dev nD) : main (F := F) c = seq ops := by
  have h : main (F := F) c
      = (main_part0 c >>= fun _ => main_part1 c >>= fun _ => main_part2 c >>= fun _ => main_part3 c) := rfl
  rw [h, part0_eq, part1_eq, part2_eq, part3_eq, ← seq_append, ← seq_append, ← seq_append]
  simp only [ops, List.append_assoc]

theorem scopedRefs_eq : (Finset.univ.filter fun b : Ref sig .tc => b.isScoped) = ∅ := by decide
theorem scopedSems_eq : (Finset.univ.filter fun sm : SemLoc sig => sm.isScoped .tc) = ∅ := by decide

/-- Every operation's buffers are TensorCore buffers of the signature. -/
theorem ops_sub : (ops : List (HloOp τ sig (Elt F))).Forall fun op => op.bufs ⊆ tcRefs τ sig := by
  simp only [ops, List.forall_append]
  exact ⟨o00_sub, o01_sub, o02_sub, o03_sub, o04_sub, o05_sub, o06_sub, o07_sub, o08_sub, o09_sub, o10_sub, o11_sub, o12_sub, o13_sub⟩

/-- Every operation determines the contents of what it writes. -/
theorem ops_fresh : ∀ op ∈ (ops : List (HloOp τ sig (Elt F))), op.fresh = ∅ := by
  have h : (ops : List (HloOp τ sig (Elt F))).Forall fun op => op.fresh = ∅ := by
    simp only [ops, List.forall_append]
    exact ⟨o00_fresh, o01_fresh, o02_fresh, o03_fresh, o04_fresh, o05_fresh, o06_fresh, o07_fresh, o08_fresh, o09_fresh, o10_fresh, o11_fresh, o12_fresh, o13_fresh⟩
  exact List.forall_iff_forall_mem.mp h

/-! ## Buffers the line does not write -/

/-- The fold over two lines in a row is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- If each of two lines keeps the buffers outside its own list of written ones, the two in a row keep the buffers
    outside both lists. -/
theorem keep_append {l₁ l₂ : List (HloOp τ sig (Elt F))} {W₁ W₂ : List (Ref sig .tc)}
    (h₁ : ∀ (V : Valuation τ sig (Elt F)) (r : Ref sig .tc), r ∉ W₁ → after l₁ V (Proc.devRef .tc r) = V (Proc.devRef .tc r))
    (h₂ : ∀ (V : Valuation τ sig (Elt F)) (r : Ref sig .tc), r ∉ W₂ → after l₂ V (Proc.devRef .tc r) = V (Proc.devRef .tc r)) :
    ∀ (V : Valuation τ sig (Elt F)) (r : Ref sig .tc), r ∉ W₁ ++ W₂ →
      after (l₁ ++ l₂) V (Proc.devRef .tc r) = V (Proc.devRef .tc r) := by
  intro V r h
  rw [after_app, h₂ _ r (fun hm => h (List.mem_append_right _ hm)), h₁ V r (fun hm => h (List.mem_append_left _ hm))]

/-- A buffer outside the written ones keeps its contents through the whole line. -/
theorem ops_keep : ∀ (V : Valuation τ sig (Elt F)) (r : Ref sig .tc), r ∉ ops_W →
    after ops V (Proc.devRef .tc r) = V (Proc.devRef .tc r) :=
  (keep_append (fun V r h => after_of_writes_sub o00 V o00_writes h) (keep_append (fun V r h => after_of_writes_sub o01 V o01_writes h) (keep_append (fun V r h => after_of_writes_sub o02 V o02_writes h) (keep_append (fun V r h => after_of_writes_sub o03 V o03_writes h) (keep_append (fun V r h => after_of_writes_sub o04 V o04_writes h) (keep_append (fun V r h => after_of_writes_sub o05 V o05_writes h) (keep_append (fun V r h => after_of_writes_sub o06 V o06_writes h) (keep_append (fun V r h => after_of_writes_sub o07 V o07_writes h) (keep_append (fun V r h => after_of_writes_sub o08 V o08_writes h) (keep_append (fun V r h => after_of_writes_sub o09 V o09_writes h) (keep_append (fun V r h => after_of_writes_sub o10 V o10_writes h) (keep_append (fun V r h => after_of_writes_sub o11 V o11_writes h) (keep_append (fun V r h => after_of_writes_sub o12 V o12_writes h) (fun V r h => after_of_writes_sub o13 V o13_writes h))))))))))))))

/-! ## The run -/

/-- On every device, for any float values, from any memory with zero counters: every weakly fair execution of the
    program terminates with the result buffer at the fold of the operations over the launch contents, and each of
    the eighteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v184) = after ops (launchContents m c) (Proc.devRef .tc main_v184)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨h c main_v184,
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide)),
      (h c main_arg12).trans (ops_keep _ main_arg12 (by decide)),
      (h c main_arg13).trans (ops_keep _ main_arg13 (by decide)),
      (h c main_arg14).trans (ops_keep _ main_arg14 (by decide)),
      (h c main_arg15).trans (ops_keep _ main_arg15 (by decide)),
      (h c main_arg16).trans (ops_keep _ main_arg16 (by decide)),
      (h c main_arg17).trans (ops_keep _ main_arg17 (by decide))⟩)
    (run_seq scopedRefs_eq scopedSems_eq defs main (fun _ => ops) main_eq (fun _ => ops_sub) m ρ (fun _ => ops_fresh))

end Cert.ReferenceIdeal.HandRun

end
-- ==== Proof.RefBnDef.lean ====
import proofs.«133142_j1864015807124_2_alg».proof.Proof.Stages

/-!
# The reference's batch normalisation, as a function

One layer's tail in the reference: the column means and variances of the aggregate over its 100000 rows (the
variance by the two-pass formula, guarded by the sign of its divisor), the normalisation with the learnt scale and
shift, and the rectifier. Each definition is the composition of the reference's own host operations.
-/

noncomputable section

namespace Cert.ReferenceIdeal.Stages

open Cert.ReferenceIdeal Cert.ReferenceIdeal.Gen Idealize.ShloMosaic Cert.Stages

/-! ## The batch normalisation with its rectifier -/

/-- The column sums of a `[100000, 64]` matrix. -/
def sumRows (a : FVec Ideal S100000x64 .f32) : FVec Ideal S64 .f32 :=
  Host.reduceAdd a (constant S_ .f32 0x00000000#32) reducesTo_S100000x64_S64_d0 h_S_

/-- The column means: the column sums over the number of rows. -/
def meanOf (a : FVec Ideal S100000x64 .f32) : FVec Ideal S64 .f32 :=
  Host.divf (sumRows a) (broadcastInDim S64 ![] bcast_S_S64 (constant S_ .f32 0x47C35000#32))

/-- The variance's divisor: the number of rows minus the correction `0`. -/
def cntOf : FVec Ideal S_ .f32 :=
  subf (constant S_ .f32 0x47C35000#32) (sitofp .f32 (constantI S_ 32 0#32))

/-- The deviations from the column means, the means taken as the variance does (broadcast, then divided). -/
def devOf (a : FVec Ideal S100000x64 .f32) : FVec Ideal S100000x64 .f32 :=
  subf a (broadcastInDim S100000x64 ![0, 1] bcast_S1x64_S100000x64_0_1
    (Host.divf (broadcastInDim S1x64 ![1] bcast_S64_S1x64_1 (sumRows a))
      (broadcastInDim S1x64 ![] bcast_S_S1x64 (constant S_ .f32 0x47C35000#32))))

/-- The column variances: the column sums of the squared deviations over the divisor, where the divisor is
    positive, and the quiet not-a-number elsewhere. -/
def varOf (a : FVec Ideal S100000x64 .f32) : FVec Ideal S64 .f32 :=
  select (broadcastInDim S64 ![] bcast_S_S64 (cmpf .ogt cntOf (constant S_ .f32 0x00000000#32)))
    (Host.divf (sumRows (mulf (devOf a) (devOf a))) (broadcastInDim S64 ![] bcast_S_S64 cntOf))
    (broadcastInDim S64 ![] bcast_S_S64 (constant S_ .f32 0x7FC00000#32))

/-- One layer's tail: `max (((a − mean) · rsqrt (var + ε)) · γ + β) 0`, column statistics over the rows. -/
def bnOf (a : FVec Ideal S100000x64 .f32) (g be : FVec Ideal S64 .f32) : FVec Ideal S100000x64 .f32 :=
  maximumf
    (addf
      (mulf
        (mulf (subf a (biasRows (meanOf a)))
          (biasRows (Host.rsqrt (addf (varOf a) (broadcastInDim S64 ![] bcast_S_S64 (constant S_ .f32 0x3727C5AC#32))))))
        (biasRows g))
      (biasRows be))
    (broadcastInDim S100000x64 ![] bcast_S_S100000x64 (constant S_ .f32 0x00000000#32))

end Cert.ReferenceIdeal.Stages

end
-- ==== Proof.RefStages.lean ====
import proofs.«133142_j1864015807124_2_alg».proof.Proof.RefRun
import proofs.«133142_j1864015807124_2_alg».proof.Proof.Stages
import proofs.«133142_j1864015807124_2_alg».proof.Proof.RefBnDef

/-!
# The reference's result as a composition of stages

The reference is three graph-convolution layers (a linear map, the normalised aggregation over the edges, a batch
normalisation over the nodes with a rectifier) and a mean pooling per graph with a projection. Each stretch of its
operations computes one such stage from a few earlier values. Over an UNKNOWN valuation `W` of the buffers, the
fold of a stretch at its last buffer is the stage's function of `W` at the buffers the stretch reads: the fold
rewrites each operation's result at its own buffer and leaves the others, and what is left is the stage's definition.
The whole fold is the stretches' folds in a row, so the result is the composition of the stages at the arguments.
-/

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.HandRun Cert.Stages

/-- The reference's result as a function of its eighteen arguments. -/
def refOut (x : FVec Ideal S100000x100 .f32) (ei : IVec S2x1600000 32) (ew : FVec Ideal S1600000 .f32) (batch : IVec S100000 32)
    (w0 : FVec Ideal S100x64 .f32) (b0 g0 be0 : FVec Ideal S64 .f32)
    (w1 : FVec Ideal S64x64 .f32) (b1 g1 be1 : FVec Ideal S64 .f32)
    (w2 : FVec Ideal S64x64 .f32) (b2 g2 be2 : FVec Ideal S64 .f32)
    (ow : FVec Ideal S64x1 .f32) (ob : FVec Ideal S1 .f32) : FVec Ideal S512x1 .f32 :=
  poolOf
    (bnOf (aggOf (linOf
      (bnOf (aggOf (linOf
        (bnOf (aggOf (lin0Of x w0 b0) (normOf (srcOf ei) (dstOf ei) ew) (selfOf (dstOf ei) ew) (srcOf ei) (dstOf ei)) g0 be0)
        w1 b1) (normOf (srcOf ei) (dstOf ei) ew) (selfOf (dstOf ei) ew) (srcOf ei) (dstOf ei)) g1 be1)
      w2 b2) (normOf (srcOf ei) (dstOf ei) ew) (selfOf (dstOf ei) ew) (srcOf ei) (dstOf ei)) g2 be2)
    batch ow ob

/-! ## Each stretch over an unknown valuation -/

/-- The buffers' contents on the extended reals. -/
abbrev VI : Type := Valuation τ sig (Elt Ideal)

-- the reductions, gathers, scatters and products stay folded while the two sides are compared: the comparison
-- never looks inside them
attribute [local irreducible] Host.gather Host.scatterAdd Host.reduceAdd

set_option maxRecDepth 8192

theorem edge_src (W : VI) :
    after (o00 (F := Ideal)) W (Proc.devRef .tc main_v1)
      = srcOf (W (Proc.devRef .tc main_arg1)) := by
  simp only [o00]
  after_results_simp
  rfl

theorem edge_dst (W : VI) :
    after (o00 (F := Ideal)) W (Proc.devRef .tc main_v3)
      = dstOf (W (Proc.devRef .tc main_arg1)) := by
  simp only [o00]
  after_results_simp
  rfl

set_option maxHeartbeats 1000000 in
theorem edge_norm (W : VI) :
    after (o00 (F := Ideal)) W (Proc.devRef .tc main_v30)
      = normOf (srcOf (W (Proc.devRef .tc main_arg1))) (dstOf (W (Proc.devRef .tc main_arg1))) (W (Proc.devRef .tc main_arg2)) := by
  simp only [o00]
  after_results_simp
  rfl

set_option maxHeartbeats 1000000 in
theorem edge_self (W : VI) :
    after (o00 (F := Ideal)) W (Proc.devRef .tc main_v31)
      = selfOf (dstOf (W (Proc.devRef .tc main_arg1))) (W (Proc.devRef .tc main_arg2)) := by
  simp only [o00]
  after_results_simp
  rfl

theorem lin0_eq (W : VI) :
    after (o01 (F := Ideal)) W (Proc.devRef .tc main_v35)
      = lin0Of (W (Proc.devRef .tc main_arg0)) (W (Proc.devRef .tc main_arg4)) (W (Proc.devRef .tc main_arg5)) := by
  simp only [o01]
  after_results_simp
  rfl

set_option maxHeartbeats 1000000 in
theorem agg0_eq (W : VI) :
    after (o03 (F := Ideal)) (after o02 W) (Proc.devRef .tc main_v57)
      = aggOf (W (Proc.devRef .tc main_v35)) (W (Proc.devRef .tc main_v30)) (W (Proc.devRef .tc main_v31)) (W (Proc.devRef .tc main_v1)) (W (Proc.devRef .tc main_v3)) := by
  simp only [o02, o03]
  after_results_simp
  rfl

set_option maxHeartbeats 2000000 in
theorem bn0_eq (W : VI) :
    after (o04 (F := Ideal)) W (Proc.devRef .tc main_v77)
      = bnOf (W (Proc.devRef .tc main_v57)) (W (Proc.devRef .tc main_arg6)) (W (Proc.devRef .tc main_arg7)) := by
  simp only [o04]
  after_results_simp
  rfl

theorem lin1_eq (W : VI) :
    after (o05 (F := Ideal)) W (Proc.devRef .tc main_v81)
      = linOf (W (Proc.devRef .tc main_v77)) (W (Proc.devRef .tc main_arg8)) (W (Proc.devRef .tc main_arg9)) := by
  simp only [o05]
  after_results_simp
  rfl

set_option maxHeartbeats 1000000 in
theorem agg1_eq (W : VI) :
    after (o07 (F := Ideal)) (after o06 W) (Proc.devRef .tc main_v103)
      = aggOf (W (Proc.devRef .tc main_v81)) (W (Proc.devRef .tc main_v30)) (W (Proc.devRef .tc main_v31)) (W (Proc.devRef .tc main_v1)) (W (Proc.devRef .tc main_v3)) := by
  simp only [o06, o07]
  after_results_simp
  rfl

set_option maxHeartbeats 2000000 in
theorem bn1_eq (W : VI) :
    after (o08 (F := Ideal)) W (Proc.devRef .tc main_v123)
      = bnOf (W (Proc.devRef .tc main_v103)) (W (Proc.devRef .tc main_arg10)) (W (Proc.devRef .tc main_arg11)) := by
  simp only [o08]
  after_results_simp
  rfl

theorem lin2_eq (W : VI) :
    after (o09 (F := Ideal)) W (Proc.devRef .tc main_v127)
      = linOf (W (Proc.devRef .tc main_v123)) (W (Proc.devRef .tc main_arg12)) (W (Proc.devRef .tc main_arg13)) := by
  simp only [o09]
  after_results_simp
  rfl

set_option maxHeartbeats 1000000 in
theorem agg2_eq (W : VI) :
    after (o11 (F := Ideal)) (after o10 W) (Proc.devRef .tc main_v149)
      = aggOf (W (Proc.devRef .tc main_v127)) (W (Proc.devRef .tc main_v30)) (W (Proc.devRef .tc main_v31)) (W (Proc.devRef .tc main_v1)) (W (Proc.devRef .tc main_v3)) := by
  simp only [o10, o11]
  after_results_simp
  rfl

set_option maxHeartbeats 2000000 in
theorem bn2_eq (W : VI) :
    after (o12 (F := Ideal)) W (Proc.devRef .tc main_v169)
      = bnOf (W (Proc.devRef .tc main_v149)) (W (Proc.devRef .tc main_arg14)) (W (Proc.devRef .tc main_arg15)) := by
  simp only [o12]
  after_results_simp
  rfl

theorem pool_eq (W : VI) :
    after (o13 (F := Ideal)) W (Proc.devRef .tc main_v184)
      = poolOf (W (Proc.devRef .tc main_v169)) (W (Proc.devRef .tc main_arg3)) (W (Proc.devRef .tc main_arg16)) (W (Proc.devRef .tc main_arg17)) := by
  simp only [o13]
  after_results_simp
  rfl

/-! ## The stretches in a row -/

/-- The buffers' contents after the edge preparation, the first layer's linear map, its aggregation, its
    normalisation, …, the pooling: eleven stretches. -/
def val1 (V : VI) : VI := after o00 V
def val2 (V : VI) : VI := after o01 (val1 V)
def val3 (V : VI) : VI := after o03 (after o02 (val2 V))
def val4 (V : VI) : VI := after o04 (val3 V)
def val5 (V : VI) : VI := after o05 (val4 V)
def val6 (V : VI) : VI := after o07 (after o06 (val5 V))
def val7 (V : VI) : VI := after o08 (val6 V)
def val8 (V : VI) : VI := after o09 (val7 V)
def val9 (V : VI) : VI := after o11 (after o10 (val8 V))
def val10 (V : VI) : VI := after o12 (val9 V)
def val11 (V : VI) : VI := after o13 (val10 V)

/-- The fold over the whole line is the eleven stretches' folds in a row. -/
theorem after_ops (V : VI) : after (ops (F := Ideal)) V = val11 V := by
  simp only [ops, after_app, val11, val10, val9, val8, val7, val6, val5, val4, val3, val2, val1]

/-! A buffer a stretch does not write keeps its contents through it. -/

theorem val1_keep (V : VI) (r : Ref sig .tc) (h : r ∉ o00_W) : val1 V (no_index (Proc.devRef .tc r)) = V (Proc.devRef .tc r) :=
  after_of_writes_sub o00 V o00_writes h
theorem val2_keep (V : VI) (r : Ref sig .tc) (h : r ∉ o01_W) : val2 V (no_index (Proc.devRef .tc r)) = val1 V (Proc.devRef .tc r) :=
  after_of_writes_sub o01 _ o01_writes h
theorem val3_keep (V : VI) (r : Ref sig .tc) (h : r ∉ o02_W ++ o03_W) : val3 V (no_index (Proc.devRef .tc r)) = val2 V (Proc.devRef .tc r) :=
  (after_of_writes_sub o03 _ o03_writes (fun hm => h (List.mem_append_right _ hm))).trans
    (after_of_writes_sub o02 _ o02_writes (fun hm => h (List.mem_append_left _ hm)))
theorem val4_keep (V : VI) (r : Ref sig .tc) (h : r ∉ o04_W) : val4 V (no_index (Proc.devRef .tc r)) = val3 V (Proc.devRef .tc r) :=
  after_of_writes_sub o04 _ o04_writes h
theorem val5_keep (V : VI) (r : Ref sig .tc) (h : r ∉ o05_W) : val5 V (no_index (Proc.devRef .tc r)) = val4 V (Proc.devRef .tc r) :=
  after_of_writes_sub o05 _ o05_writes h
theorem val6_keep (V : VI) (r : Ref sig .tc) (h : r ∉ o06_W ++ o07_W) : val6 V (no_index (Proc.devRef .tc r)) = val5 V (Proc.devRef .tc r) :=
  (after_of_writes_sub o07 _ o07_writes (fun hm => h (List.mem_append_right _ hm))).trans
    (after_of_writes_sub o06 _ o06_writes (fun hm => h (List.mem_append_left _ hm)))
theorem val7_keep (V : VI) (r : Ref sig .tc) (h : r ∉ o08_W) : val7 V (no_index (Proc.devRef .tc r)) = val6 V (Proc.devRef .tc r) :=
  after_of_writes_sub o08 _ o08_writes h
theorem val8_keep (V : VI) (r : Ref sig .tc) (h : r ∉ o09_W) : val8 V (no_index (Proc.devRef .tc r)) = val7 V (Proc.devRef .tc r) :=
  after_of_writes_sub o09 _ o09_writes h
theorem val9_keep (V : VI) (r : Ref sig .tc) (h : r ∉ o10_W ++ o11_W) : val9 V (no_index (Proc.devRef .tc r)) = val8 V (Proc.devRef .tc r) :=
  (after_of_writes_sub o11 _ o11_writes (fun hm => h (List.mem_append_right _ hm))).trans
    (after_of_writes_sub o10 _ o10_writes (fun hm => h (List.mem_append_left _ hm)))
theorem val10_keep (V : VI) (r : Ref sig .tc) (h : r ∉ o12_W) : val10 V (no_index (Proc.devRef .tc r)) = val9 V (Proc.devRef .tc r) :=
  after_of_writes_sub o12 _ o12_writes h

/-! What each stretch computes, from the contents before it. -/

theorem val1_src (V : VI) : val1 V (no_index (Proc.devRef .tc main_v1)) = srcOf (V (Proc.devRef .tc main_arg1)) := edge_src V
theorem val1_dst (V : VI) : val1 V (no_index (Proc.devRef .tc main_v3)) = dstOf (V (Proc.devRef .tc main_arg1)) := edge_dst V
theorem val1_norm (V : VI) : val1 V (no_index (Proc.devRef .tc main_v30)) = normOf (srcOf (V (Proc.devRef .tc main_arg1))) (dstOf (V (Proc.devRef .tc main_arg1))) (V (Proc.devRef .tc main_arg2)) :=
  edge_norm V
theorem val1_self (V : VI) : val1 V (no_index (Proc.devRef .tc main_v31)) = selfOf (dstOf (V (Proc.devRef .tc main_arg1))) (V (Proc.devRef .tc main_arg2)) := edge_self V
theorem val2_out (V : VI) : val2 V (Proc.devRef .tc main_v35) = lin0Of (val1 V (Proc.devRef .tc main_arg0)) (val1 V (Proc.devRef .tc main_arg4)) (val1 V (Proc.devRef .tc main_arg5)) := lin0_eq (val1 V)
theorem val3_out (V : VI) : val3 V (Proc.devRef .tc main_v57) = aggOf (val2 V (Proc.devRef .tc main_v35)) (val2 V (Proc.devRef .tc main_v30)) (val2 V (Proc.devRef .tc main_v31)) (val2 V (Proc.devRef .tc main_v1)) (val2 V (Proc.devRef .tc main_v3)) := agg0_eq (val2 V)
theorem val4_out (V : VI) : val4 V (Proc.devRef .tc main_v77) = bnOf (val3 V (Proc.devRef .tc main_v57)) (val3 V (Proc.devRef .tc main_arg6)) (val3 V (Proc.devRef .tc main_arg7)) := bn0_eq (val3 V)
theorem val5_out (V : VI) : val5 V (Proc.devRef .tc main_v81) = linOf (val4 V (Proc.devRef .tc main_v77)) (val4 V (Proc.devRef .tc main_arg8)) (val4 V (Proc.devRef .tc main_arg9)) := lin1_eq (val4 V)
theorem val6_out (V : VI) : val6 V (Proc.devRef .tc main_v103) = aggOf (val5 V (Proc.devRef .tc main_v81)) (val5 V (Proc.devRef .tc main_v30)) (val5 V (Proc.devRef .tc main_v31)) (val5 V (Proc.devRef .tc main_v1)) (val5 V (Proc.devRef .tc main_v3)) := agg1_eq (val5 V)
theorem val7_out (V : VI) : val7 V (Proc.devRef .tc main_v123) = bnOf (val6 V (Proc.devRef .tc main_v103)) (val6 V (Proc.devRef .tc main_arg10)) (val6 V (Proc.devRef .tc main_arg11)) := bn1_eq (val6 V)
theorem val8_out (V : VI) : val8 V (Proc.devRef .tc main_v127) = linOf (val7 V (Proc.devRef .tc main_v123)) (val7 V (Proc.devRef .tc main_arg12)) (val7 V (Proc.devRef .tc main_arg13)) := lin2_eq (val7 V)
theorem val9_out (V : VI) : val9 V (Proc.devRef .tc main_v149) = aggOf (val8 V (Proc.devRef .tc main_v127)) (val8 V (Proc.devRef .tc main_v30)) (val8 V (Proc.devRef .tc main_v31)) (val8 V (Proc.devRef .tc main_v1)) (val8 V (Proc.devRef .tc main_v3)) := agg2_eq (val8 V)
theorem val10_out (V : VI) : val10 V (Proc.devRef .tc main_v169) = bnOf (val9 V (Proc.devRef .tc main_v149)) (val9 V (Proc.devRef .tc main_arg14)) (val9 V (Proc.devRef .tc main_arg15)) := bn2_eq (val9 V)
theorem val11_out (V : VI) : val11 V (Proc.devRef .tc main_v184) = poolOf (val10 V (Proc.devRef .tc main_v169)) (val10 V (Proc.devRef .tc main_arg3)) (val10 V (Proc.devRef .tc main_arg16)) (val10 V (Proc.devRef .tc main_arg17)) :=
  pool_eq (val10 V)

/-! ## The result -/

set_option maxHeartbeats 2000000 in
/-- The fold of the whole line at the result buffer is the composition of the stages at the eighteen arguments. -/
theorem result_eq (V : VI) :
    after (ops (F := Ideal)) V (Proc.devRef .tc main_v184)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [after_ops, val11_out, val10_out, val9_out, val8_out, val7_out, val6_out, val5_out, val4_out, val3_out, val2_out]
  simp (disch := decide) only [val10_keep, val9_keep, val8_keep, val7_keep, val6_keep, val5_keep, val4_keep, val3_keep,
    val2_keep, val1_keep, val1_src, val1_dst, val1_norm, val1_self]
  rfl

/-- Every weakly fair execution of the reference terminates with the result buffer at the composition of the stages
    at the launch contents of the arguments, and the arguments unchanged. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v184)
          = refOut (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))
              (m ((c.tc : Thread nD τ).loc main_arg14))
              (m ((c.tc : Thread nD τ).loc main_arg15))
              (m ((c.tc : Thread nD τ).loc main_arg16))
              (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c).1.trans (result_eq (launchContents m c)), (h c).2⟩) (run m ρ)

end Cert.ReferenceIdeal.Stages

end
-- ==== Proof.RefBn.lean ====
import proofs.«133142_j1864015807124_2_alg».proof.Proof.RefBnDef
import proofs.«133142_j1864015807124_2_alg».proof.Proof.LibBnTwoPass
import proofs.«133142_j1864015807124_2_alg».proof.Proof.LibConsts
import proofs.«133142_j1864015807124_2_alg».proof.Proof.BnSpec
import Idealize.ShloMosaic.Lib.KernelVsHost
import Idealize.ShloMosaic.Lib.IdealHost

/-!
# The reference's batch normalisation at an index

On the extended reals every host operation is exact, so each definition of `RefBnDef` reads, at an index, as the
scalar formula it computes:

* a row vector laid along every row reads its own entry of that column (`biasRows_apply`);
* the column sum is the sum down the 100000 rows, from the initial value `0` (`sumRows_apply`);
* the mean is that sum over `100000` (`meanOf_apply`); a deviation is the entry minus its column's mean
  (`devOf_apply`);
* the variance's divisor is `100000 − 0 = 100000`, which is positive, so the guard chooses the quotient and the
  variance is the sum of the squared deviations over `100000` (`varOf_apply`);
* the layer's tail is `max (((x − mean) · rsqrt (var + ε)) · γ + β) 0` (`bnOf_apply`).
-/

noncomputable section

namespace Cert.ReferenceIdeal.Stages

open Cert.ReferenceIdeal Cert.ReferenceIdeal.Gen Idealize.ShloMosaic Idealize.ShloMosaic.ValueIdx Cert.Stages
open Cert.LibBnTwoPass Cert.LibConsts
open scoped BigOperators

/-- The host quotient at an index. -/
theorem hostDivf_apply {s : Shape} {φ : FTy} (x y : FVec Ideal s φ) (i : s.Idx) :
    Host.divf x y i = Ideal.div (x i) (y i) := rfl

/-- The host reciprocal square root at an index. -/
theorem hostRsqrt_apply {s : Shape} {φ : FTy} (x : FVec Ideal s φ) (i : s.Idx) :
    Host.rsqrt x i = Ideal.rsqrt (x i) := rfl

/-- A vector of 64 entries as a one-row matrix, read at `(0, j)`: its entry `j`. -/
theorem oneRow_apply (v : FVec Ideal S64 .f32) (j : Fin 64) :
    broadcastInDim S1x64 ![1] bcast_S64_S1x64_1 v (ix2 (0 : Fin 1) j) = v (ix1 j) := by
  refine broadcastInDim_apply ![1] _ v (ix2 (0 : Fin 1) j) (ix1 j) ?_
  intro b
  match b with
  | ⟨0, _⟩ => rfl

/-- A row vector laid along every row, read at `(i, j)`: its entry `j`. -/
theorem biasRows_apply (v : FVec Ideal S64 .f32) (i : Fin 100000) (j : Fin 64) : biasRows v (ix2 i j) = v (ix1 j) := by
  unfold biasRows
  exact (broadcastInDim_oneRow_apply _ _ i j).trans (oneRow_apply v j)

/-- The column sums at column `j`: the sum down the rows. -/
theorem sumRows_apply (a : FVec Ideal S100000x64 .f32) (j : Fin 64) :
    sumRows a (ix1 j) = ∑ k : Fin 100000, a (ix2 k j) := by
  have hR : S100000x64.Reduces [0] S64 := by decide
  have h1 : sumRows a (ix1 j)
      = Ideal.hostReduceAdd reducesTo_S100000x64_S64_d0 a (Ideal.ofBits .f32 0x00000000#32) (ix1 j) := rfl
  rw [h1, Ideal.hostReduceAdd_single reducesTo_S100000x64_S64_d0 hR, Ideal.ofBits_zero_f32, zero_add]
  exact Finset.sum_congr rfl fun k _ => congrArg a (funext fun b => by
    match b with
    | ⟨0, _⟩ => exact Fin.ext rfl
    | ⟨1, _⟩ => exact Fin.ext rfl)

/-- The column means at column `j`. -/
theorem meanOf_apply (a : FVec Ideal S100000x64 .f32) (j : Fin 64) :
    meanOf a (ix1 j) = colMean (fun i j => a (ix2 i j)) 100000 j := by
  unfold meanOf
  rw [hostDivf_apply, sumRows_apply, broadcastInDim_scalar_apply, constant_apply, n_eq]
  rfl

/-- A deviation: the entry minus its column's mean. -/
theorem devOf_apply (a : FVec Ideal S100000x64 .f32) (i : Fin 100000) (j : Fin 64) :
    devOf a (ix2 i j) = a (ix2 i j) - colMean (fun i j => a (ix2 i j)) 100000 j := by
  unfold devOf
  rw [subf_apply, broadcastInDim_oneRow_apply _ _ i j, hostDivf_apply, oneRow_apply, sumRows_apply,
    broadcastInDim_scalar_apply, constant_apply, n_eq]
  rfl

/-- The variance's divisor: `100000 − 0`. -/
theorem cntOf_apply : cntOf ix0 = ((100000 : ℝ) : EReal) := by
  unfold cntOf
  rw [subf_apply, constant_apply, n_eq, sitofp_apply]
  show ((100000 : ℝ) : EReal) - ((((constantI S_ 32 0#32 : IVec S_ 32) ix0).toInt : ℝ) : EReal) = _
  have h0 : ((constantI S_ 32 0#32 : IVec S_ 32) ix0).toInt = 0 := by decide
  rw [h0]
  simp

/-- The divisor is positive: the guard of the variance is true in every column. -/
theorem guard_apply (j : Fin 64) :
    broadcastInDim S64 ![] bcast_S_S64 (cmpf .ogt cntOf (constant (F := Ideal) S_ .f32 0x00000000#32)) (ix1 j) = 1#1 := by
  rw [broadcastInDim_scalar_apply, cmpf_apply, Ideal.cmpf_def, cntOf_apply, constant_apply, Ideal.ofBits_zero_f32]
  have h : (0 : EReal) < ((100000 : ℝ) : EReal) := by exact_mod_cast (by norm_num : (0 : ℝ) < 100000)
  show BitVec.ofBool (decide ((0 : EReal) < ((100000 : ℝ) : EReal))) = 1#1
  rw [decide_eq_true h]
  rfl

/-- The column variances at column `j`: the mean of the squared deviations. -/
theorem varOf_apply (a : FVec Ideal S100000x64 .f32) (j : Fin 64) :
    varOf a (ix1 j) = colVar (fun i j => a (ix2 i j)) 100000 j := by
  unfold varOf
  rw [select_apply, guard_apply, select_one, hostDivf_apply, sumRows_apply, broadcastInDim_scalar_apply, cntOf_apply]
  unfold colVar
  refine congrArg (fun s => Ideal.div s ((100000 : ℝ) : EReal)) ?_
  exact Finset.sum_congr rfl fun k _ => by rw [mulf_apply, devOf_apply]

/-- One layer's tail at `(i, j)`: the entry normalised by its column's mean and variance, scaled, shifted and
    rectified. -/
theorem bnOf_apply (a : FVec Ideal S100000x64 .f32) (g be : FVec Ideal S64 .f32) (i : Fin 100000) (j : Fin 64) :
    bnOf a g be (ix2 i j)
      = max (((a (ix2 i j) - colMean (fun i j => a (ix2 i j)) 100000 j)
              * Ideal.rsqrt (colVar (fun i j => a (ix2 i j)) 100000 j + ((eps : ℝ) : EReal))) * g (ix1 j) + be (ix1 j)) 0 := by
  unfold bnOf
  simp only [maximumf_apply, addf_apply, mulf_apply, subf_apply, biasRows_apply, meanOf_apply, hostRsqrt_apply, varOf_apply]
  rw [broadcastInDim_scalar_apply, broadcastInDim_scalar_apply, constant_apply, constant_apply, eps_eq, Ideal.ofBits_zero_f32]

/-- The layer's tail is the normalised layer of `BnSpec`, entry by entry. -/
theorem bnOf_eq_spec (a : FVec Ideal S100000x64 .f32) (g be : FVec Ideal S64 .f32) : bnOf a g be = bnSpec a g be := by
  funext idx
  rw [eq_ix2 idx]
  exact bnOf_apply a g be (idx 0) (idx 1)

end Cert.ReferenceIdeal.Stages

end
-- ==== Proof.RefFinal.lean ====
import proofs.«133142_j1864015807124_2_alg».proof.Defs
import proofs.«133142_j1864015807124_2_alg».proof.Proof.RefStages
import proofs.«133142_j1864015807124_2_alg».proof.Proof.RefBn
import proofs.«133142_j1864015807124_2_alg».proof.Proof.OutSpec
import proofs.«133142_j1864015807124_2_alg».proof.Proof.Gen.Pre_finite_inputs

/-!
# The reference computes the network function, and leaves its arguments as they were

The reference's result is the composition of its stages (`RefStages`), and each layer's batch normalisation with its
rectifier is the normalised layer of `BnSpec` (`RefBn`): so the result is the network function `gcnOut` of the
eighteen arguments. Dropping the result from the run leaves the frame claim: the run terminates and every argument
buffer ends as it started.
-/

noncomputable section

namespace Cert.ReferenceIdeal.Final

open Cert.ReferenceIdeal Cert.ReferenceIdeal.Gen Idealize.ShloMosaic Idealize.ShloMosaic.TcCoe Idealize.SL.Sem Idealize.ShloMosaic.StableHlo
open Cert.ReferenceIdeal.HandRun Cert.ReferenceIdeal.Stages Cert.Stages

/-- The composition of the reference's stages is the network function: the three batch normalisations are the
    normalised layers. -/
theorem refOut_eq_gcnOut (x : FVec Ideal S100000x100 .f32) (ei : IVec S2x1600000 32) (ew : FVec Ideal S1600000 .f32) (batch : IVec S100000 32)
    (w0 : FVec Ideal S100x64 .f32) (b0 g0 be0 : FVec Ideal S64 .f32)
    (w1 : FVec Ideal S64x64 .f32) (b1 g1 be1 : FVec Ideal S64 .f32)
    (w2 : FVec Ideal S64x64 .f32) (b2 g2 be2 : FVec Ideal S64 .f32)
    (ow : FVec Ideal S64x1 .f32) (ob : FVec Ideal S1 .f32) :
    refOut x ei ew batch w0 b0 g0 be0 w1 b1 g1 be1 w2 b2 g2 be2 ow ob = gcnOut x ei ew batch w0 b0 g0 be0 w1 b1 g1 be1 w2 b2 g2 be2 ow ob := by
  unfold refOut gcnOut
  rw [bnOf_eq_spec, bnOf_eq_spec, bnOf_eq_spec]

/-- Every weakly fair execution of the reference terminates with the result buffer at the network function of the
    launch contents of the arguments, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v184)
          = gcnOut (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))
              (m ((c.tc : Thread nD τ).loc main_arg14))
              (m ((c.tc : Thread nD τ).loc main_arg15))
              (m ((c.tc : Thread nD τ).loc main_arg16))
              (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono
    (fun _ h c => ⟨(h c).1.trans (refOut_eq_gcnOut _ _ _ _ _ _ _ _ _ _ _ _ _ _ _ _ _ _), (h c).2⟩)
    (run_stages m ρ)

/-- The reference runs and its argument buffers end unchanged: the run, its result dropped. -/
theorem frame_ri : Cert.frame_ReferenceIdeal := fun m ρ _ =>
  (θ_run Cert.ReferenceIdeal.defs _ _).mono (fun _ h c => (h c).2) (Cert.ReferenceIdeal.HandRun.run (F := Ideal) m ρ)

end Cert.ReferenceIdeal.Final

end
-- ==== Proof.lean ====
import proofs.«133142_j1864015807124_2_alg».proof.Defs
import proofs.«133142_j1864015807124_2_alg».proof.Proof.Gen.Kernel
import proofs.«133142_j1864015807124_2_alg».proof.Proof.Gen.Kernel.Skeleton
import proofs.«133142_j1864015807124_2_alg».proof.Proof.Gen.Kernel.Launch
import proofs.«133142_j1864015807124_2_alg».proof.Proof.Gen.Kernel.Points
import proofs.«133142_j1864015807124_2_alg».proof.Proof.Gen.Kernel.Frame
import proofs.«133142_j1864015807124_2_alg».proof.Proof.Gen.KernelIdeal
import proofs.«133142_j1864015807124_2_alg».proof.Proof.Gen.KernelIdeal.Skeleton
import proofs.«133142_j1864015807124_2_alg».proof.Proof.Gen.KernelIdeal.Launch
import proofs.«133142_j1864015807124_2_alg».proof.Proof.Gen.KernelIdeal.Points
import proofs.«133142_j1864015807124_2_alg».proof.Proof.Gen.KernelIdeal.Frame
import proofs.«133142_j1864015807124_2_alg».proof.Proof.Gen.ReferenceIdeal
import proofs.«133142_j1864015807124_2_alg».proof.Proof.Gen.Pre_finite_inputs
import proofs.«133142_j1864015807124_2_alg».proof.Proof.KFinal
import proofs.«133142_j1864015807124_2_alg».proof.Proof.RefFinal
import Idealize.ShloMosaic.Adequacy
import Idealize.ShloMosaic.Init

/-!
# A three-layer graph convolution network with batch normalisation, against its reference

Both programs compute, on the extended reals, the same function of the eighteen argument arrays: per layer a linear
map `h · w + b`, the aggregation of its rows over the edges with the symmetric degree normalisation (gather at the
sources, scatter-add at the targets, plus the self loop), a training-mode batch normalisation over the rows with scale
and shift, and a clamp at zero; then mean pooling per graph and a projection to one output per graph.

The kernel's program runs the linear map, the two column reductions and the scale-shift-clamp pass of each layer as
pipelined regions over row blocks, on a `[50000, 128]` view of the `[100000, 64]` aggregate (two rows per 128-lane
row), and folds mean and variance into one scale and one shift row; the reference normalises directly. On the
extended reals the two arrangements agree for every aggregate, finite or not, once the scale and shift rows are real,
which the finiteness of the inputs gives: if every entry of a column is real this is the distributive law over the
reals; if some entry is infinite, the column's mean squared deviation is `⊤`, its reciprocal square root `0`, and
both arrangements return the clamped shift. The lane-dense view only regroups the column sums (sums over even and
odd rows), a change of float format is the identity, and the block-by-block accumulations are the whole sums.

The frames of the two kernel programs are the generated ones; the reference's frame is its run with the result
dropped; the ideal pass rewrote nothing, so `preserves` is trivial.
-/

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := Cert.ReferenceIdeal.Final.frame_ri

/-- The ideal pass's ledger is empty. -/
theorem preserves : Cert.preserves_Kernel_KernelIdeal := trivial

/-- Both idealized programs end with their result buffers at the network function of the (agreeing) arguments. -/
theorem algebraic : Cert.algebraic_KernelIdeal_ReferenceIdeal := by
  intro m ρ m' ρ' hpre hagree
  refine ⟨fun c => Cert.Stages.gcnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    Cert.KernelIdeal.Final.run_spec m ρ hpre, ?_⟩
  refine (θ_run Cert.ReferenceIdeal.defs _ _).mono (fun r h c => ⟨(h c).1.trans ?_, (h c).2⟩)
    (Cert.ReferenceIdeal.Final.run_spec m' ρ')
  obtain ⟨e0, e1, e2, e3, e4, e5, e6, e7, e8, e9, e10, e11, e12, e13, e14, e15, e16, e17⟩ := hagree c
  rw [e0, e1, e2, e3, e4, e5, e6, e7, e8, e9, e10, e11, e12, e13, e14, e15, e16, e17]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
